-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x10 : Shape := ⟨2, ![100000, 10]⟩
abbrev S2x3200000 : Shape := ⟨2, ![2, 3200000]⟩
abbrev S100000 : Shape := ⟨1, ![100000]⟩
abbrev S10x20 : Shape := ⟨2, ![10, 20]⟩
abbrev S20 : Shape := ⟨1, ![20]⟩
abbrev S20x20 : Shape := ⟨2, ![20, 20]⟩
abbrev S20x2 : Shape := ⟨2, ![20, 2]⟩
abbrev S2 : Shape := ⟨1, ![2]⟩
abbrev S_ : Shape := ⟨0, ![]⟩

class Facts : Prop where
  bcast_S_S100000x10 : S_.BroadcastsInDim S100000x10 (![] : Fin 0 → Fin S100000x10.rank)
  reducesTo_S100000x10_S_d0_1 : S100000x10.ReducesTo [0, 1] S_
  h_S_ : 0 < S_.numel
  bcast_S_S10x20 : S_.BroadcastsInDim S10x20 (![] : Fin 0 → Fin S10x20.rank)
  reducesTo_S10x20_S_d0_1 : S10x20.ReducesTo [0, 1] S_
  bcast_S_S20 : S_.BroadcastsInDim S20 (![] : Fin 0 → Fin S20.rank)
  reducesTo_S20_S_d0 : S20.ReducesTo [0] S_
  bcast_S_S20x20 : S_.BroadcastsInDim S20x20 (![] : Fin 0 → Fin S20x20.rank)
  reducesTo_S20x20_S_d0_1 : S20x20.ReducesTo [0, 1] S_
  bcast_S_S20x2 : S_.BroadcastsInDim S20x2 (![] : Fin 0 → Fin S20x2.rank)
  reducesTo_S20x2_S_d0_1 : S20x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg16 : FVec F S2 .f32) (main_v63 : IVec S_ 1) (main_v67 : IVec S_ 1) : IVec S_ 1 :=
  let main_v68 : IVec S_ 1 := andi main_v63 main_v67
  let main_v69 : FVec F S2 .f32 := Host.absf main_arg16
  let main_cst_26 : FVec F S_ .f32 := constant S_ .f32 0x7F800000#32
  let main_v70 : FVec F S2 .f32 := broadcastInDim S2 ![] bcast_S_S2 main_cst_26
  let main_v71 : IVec S2 1 := cmpf .olt main_v69 main_v70
  let main_c_27 : IVec S_ 1 := constantI S_ 1 1#1
  let main_v72 : IVec S_ 1 := (fun x v => Host.reduce IntOp.andi x v reducesTo_S2_S_d0 h_S_) main_v71 main_c_27
  let main_v73 : IVec S_ 1 := andi main_v68 main_v72
  main_v73

def fn_part3 {F : FTy → Type} [FloatOps F] (main_arg13 : FVec F S20 .f32) (main_arg14 : FVec F S20 .f32) (main_arg15 : FVec F S20x2 .f32) (main_arg16 : FVec F S2 .f32) (main_v48 : IVec S_ 1) (main_v49 : FVec F S20 .f32) (main_v50 : FVec F S20 .f32) : IVec S_ 1 :=
  let main_v51 : IVec S20 1 := cmpf .olt main_v49 main_v50
  let main_c_19 : IVec S_ 1 := constantI S_ 1 1#1
  let main_v52 : IVec S_ 1 := (fun x v => Host.reduce IntOp.andi x v reducesTo_S20_S_d0 h_S_) main_v51 main_c_19
  let main_v53 : IVec S_ 1 := andi main_v48 main_v52
  let main_v54 : FVec F S20 .f32 := Host.absf main_arg13
  let main_cst_20 : FVec F S_ .f32 := constant S_ .f32 0x7F800000#32
  let main_v55 : FVec F S20 .f32 := broadcastInDim S20 ![] bcast_S_S20 main_cst_20
  let main_v56 : IVec S20 1 := cmpf .olt main_v54 main_v55
  let main_c_21 : IVec S_ 1 := constantI S_ 1 1#1
  let main_v57 : IVec S_ 1 := (fun x v => Host.reduce IntOp.andi x v reducesTo_S20_S_d0 h_S_) main_v56 main_c_21
  let main_v58 : IVec S_ 1 := andi main_v53 main_v57
  let main_v59 : FVec F S20 .f32 := Host.absf main_arg14
  let main_cst_22 : FVec F S_ .f32 := constant S_ .f32 0x7F800000#32
  let main_v60 : FVec F S20 .f32 := broadcastInDim S20 ![] bcast_S_S20 main_cst_22
  let main_v61 : IVec S20 1 := cmpf .olt main_v59 main_v60
  let main_c_23 : IVec S_ 1 := constantI S_ 1 1#1
  let main_v62 : IVec S_ 1 := (fun x v => Host.reduce IntOp.andi x v reducesTo_S20_S_d0 h_S_) main_v61 main_c_23
  let main_v63 : IVec S_ 1 := andi main_v58 main_v62
  let main_v64 : FVec F S20x2 .f32 := Host.absf main_arg15
  let main_cst_24 : FVec F S_ .f32 := constant S_ .f32 0x7F800000#32
  let main_v65 : FVec F S20x2 .f32 := broadcastInDim S20x2 ![] bcast_S_S20x2 main_cst_24
  let main_v66 : IVec S20x2 1 := cmpf .olt main_v64 main_v65
  let main_c_25 : IVec S_ 1 := constantI S_ 1 1#1
  let main_v67 : IVec S_ 1 := (fun x v => Host.reduce IntOp.andi x v reducesTo_S20x2_S_d0_1 h_S_) main_v66 main_c_25
  fn_part4 (F := F) main_arg16 main_v63 main_v67

def fn_part2 {F : FTy → Type} [FloatOps F] (main_arg9 : FVec F S20 .f32) (main_arg10 : FVec F S20 .f32) (main_arg11 : FVec F S20x20 .f32) (main_arg12 : FVec F S20 .f32) (main_arg13 : FVec F S20 .f32) (main_arg14 : FVec F S20 .f32) (main_arg15 : FVec F S20x2 .f32) (main_arg16 : FVec F S2 .f32) (main_v33 : IVec S_ 1) : IVec S_ 1 :=
  let main_v34 : FVec F S20 .f32 := Host.absf main_arg9
  let main_cst_12 : FVec F S_ .f32 := constant S_ .f32 0x7F800000#32
  let main_v35 : FVec F S20 .f32 := broadcastInDim S20 ![] bcast_S_S20 main_cst_12
  let main_v36 : IVec S20 1 := cmpf .olt main_v34 main_v35
  let main_c_13 : IVec S_ 1 := constantI S_ 1 1#1
  let main_v37 : IVec S_ 1 := (fun x v => Host.reduce IntOp.andi x v reducesTo_S20_S_d0 h_S_) main_v36 main_c_13
  let main_v38 : IVec S_ 1 := andi main_v33 main_v37
  let main_v39 : FVec F S20 .f32 := Host.absf main_arg10
  let main_cst_14 : FVec F S_ .f32 := constant S_ .f32 0x7F800000#32
  let main_v40 : FVec F S20 .f32 := broadcastInDim S20 ![] bcast_S_S20 main_cst_14
  let main_v41 : IVec S20 1 := cmpf .olt main_v39 main_v40
  let main_c_15 : IVec S_ 1 := constantI S_ 1 1#1
  let main_v42 : IVec S_ 1 := (fun x v => Host.reduce IntOp.andi x v reducesTo_S20_S_d0 h_S_) main_v41 main_c_15
  let main_v43 : IVec S_ 1 := andi main_v38 main_v42
  let main_v44 : FVec F S20x20 .f32 := Host.absf main_arg11
  let main_cst_16 : FVec F S_ .f32 := constant S_ .f32 0x7F800000#32
  let main_v45 : FVec F S20x20 .f32 := broadcastInDim S20x20 ![] bcast_S_S20x20 main_cst_16
  let main_v46 : IVec S20x20 1 := cmpf .olt main_v44 main_v45
  let main_c_17 : IVec S_ 1 := constantI S_ 1 1#1
  let main_v47 : IVec S_ 1 := (fun x v => Host.reduce IntOp.andi x v reducesTo_S20x20_S_d0_1 h_S_) main_v46 main_c_17
  let main_v48 : IVec S_ 1 := andi main_v43 main_v47
  let main_v49 : FVec F S20 .f32 := Host.absf main_arg12
  let main_cst_18 : FVec F S_ .f32 := constant S_ .f32 0x7F800000#32
  let main_v50 : FVec F S20 .f32 := broadcastInDim S20 ![] bcast_S_S20 main_cst_18
  fn_part3 (F := F) main_arg13 main_arg14 main_arg15 main_arg16 main_v48 main_v49 main_v50

def fn_part1 {F : FTy → Type} [FloatOps F] (main_arg6 : FVec F S20 .f32) (main_arg7 : FVec F S20x20 .f32) (main_arg8 : FVec F S20 .f32) (main_arg9 : FVec F S20 .f32) (main_arg10 : FVec F S20 .f32) (main_arg11 : FVec F S20x20 .f32) (main_arg12 : FVec F S20 .f32) (main_arg13 : FVec F S20 .f32) (main_arg14 : FVec F S20 .f32) (main_arg15 : FVec F S20x2 .f32) (main_arg16 : FVec F S2 .f32) (main_v13 : IVec S_ 1) (main_v16 : IVec S20 1) : IVec S_ 1 :=
  let main_c_5 : IVec S_ 1 := constantI S_ 1 1#1
  let main_v17 : IVec S_ 1 := (fun x v => Host.reduce IntOp.andi x v reducesTo_S20_S_d0 h_S_) main_v16 main_c_5
  let main_v18 : IVec S_ 1 := andi main_v13 main_v17
  let main_v19 : FVec F S20 .f32 := Host.absf main_arg6
  let main_cst_6 : FVec F S_ .f32 := constant S_ .f32 0x7F800000#32
  let main_v20 : FVec F S20 .f32 := broadcastInDim S20 ![] bcast_S_S20 main_cst_6
  let main_v21 : IVec S20 1 := cmpf .olt main_v19 main_v20
  let main_c_7 : IVec S_ 1 := constantI S_ 1 1#1
  let main_v22 : IVec S_ 1 := (fun x v => Host.reduce IntOp.andi x v reducesTo_S20_S_d0 h_S_) main_v21 main_c_7
  let main_v23 : IVec S_ 1 := andi main_v18 main_v22
  let main_v24 : FVec F S20x20 .f32 := Host.absf main_arg7
  let main_cst_8 : FVec F S_ .f32 := constant S_ .f32 0x7F800000#32
  let main_v25 : FVec F S20x20 .f32 := broadcastInDim S20x20 ![] bcast_S_S20x20 main_cst_8
  let main_v26 : IVec S20x20 1 := cmpf .olt main_v24 main_v25
  let main_c_9 : IVec S_ 1 := constantI S_ 1 1#1
  let main_v27 : IVec S_ 1 := (fun x v => Host.reduce IntOp.andi x v reducesTo_S20x20_S_d0_1 h_S_) main_v26 main_c_9
  let main_v28 : IVec S_ 1 := andi main_v23 main_v27
  let main_v29 : FVec F S20 .f32 := Host.absf main_arg8
  let main_cst_10 : FVec F S_ .f32 := constant S_ .f32 0x7F800000#32
  let main_v30 : FVec F S20 .f32 := broadcastInDim S20 ![] bcast_S_S20 main_cst_10
  let main_v31 : IVec S20 1 := cmpf .olt main_v29 main_v30
  let main_c_11 : IVec S_ 1 := constantI S_ 1 1#1
  let main_v32 : IVec S_ 1 := (fun x v => Host.reduce IntOp.andi x v reducesTo_S20_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x10 .f32) (main_arg1 : IVec S2x3200000 32) (main_arg2 : IVec S100000 32) (main_arg3 : FVec F S10x20 .f32) (main_arg4 : FVec F S20 .f32) (main_arg5 : FVec F S20 .f32) (main_arg6 : FVec F S20 .f32) (main_arg7 : FVec F S20x20 .f32) (main_arg8 : FVec F S20 .f32) (main_arg9 : FVec F S20 .f32) (main_arg10 : FVec F S20 .f32) (main_arg11 : FVec F S20x20 .f32) (main_arg12 : FVec F S20 .f32) (main_arg13 : FVec F S20 .f32) (main_arg14 : FVec F S20 .f32) (main_arg15 : FVec F S20x2 .f32) (main_arg16 : FVec F S2 .f32) : IVec S_ 1 :=
  let main_v0 : FVec F S100000x10 .f32 := Host.absf main_arg0
  let main_cst : FVec F S_ .f32 := constant S_ .f32 0x7F800000#32
  let main_v1 : FVec F S100000x10 .f32 := broadcastInDim S100000x10 ![] bcast_S_S100000x10 main_cst
  let main_v2 : IVec S100000x10 1 := cmpf .olt main_v0 main_v1
  let main_c : IVec S_ 1 := constantI S_ 1 1#1
  let main_v3 : IVec S_ 1 := (fun x v => Host.reduce IntOp.andi x v reducesTo_S100000x10_S_d0_1 h_S_) main_v2 main_c
  let main_v4 : FVec F S10x20 .f32 := Host.absf main_arg3
  let main_cst_0 : FVec F S_ .f32 := constant S_ .f32 0x7F800000#32
  let main_v5 : FVec F S10x20 .f32 := broadcastInDim S10x20 ![] bcast_S_S10x20 main_cst_0
  let main_v6 : IVec S10x20 1 := cmpf .olt main_v4 main_v5
  let main_c_1 : IVec S_ 1 := constantI S_ 1 1#1
  let main_v7 : IVec S_ 1 := (fun x v => Host.reduce IntOp.andi x v reducesTo_S10x20_S_d0_1 h_S_) main_v6 main_c_1
  let main_v8 : IVec S_ 1 := andi main_v3 main_v7
  let main_v9 : FVec F S20 .f32 := Host.absf main_arg4
  let main_cst_2 : FVec F S_ .f32 := constant S_ .f32 0x7F800000#32
  let main_v10 : FVec F S20 .f32 := broadcastInDim S20 ![] bcast_S_S20 main_cst_2
  let main_v11 : IVec S20 1 := cmpf .olt main_v9 main_v10
  let main_c_3 : IVec S_ 1 := constantI S_ 1 1#1
  let main_v12 : IVec S_ 1 := (fun x v => Host.reduce IntOp.andi x v reducesTo_S20_S_d0 h_S_) main_v11 main_c_3
  let main_v13 : IVec S_ 1 := andi main_v8 main_v12
  let main_v14 : FVec F S20 .f32 := Host.absf main_arg5
  let main_cst_4 : FVec F S_ .f32 := constant S_ .f32 0x7F800000#32
  let main_v15 : FVec F S20 .f32 := broadcastInDim S20 ![] bcast_S_S20 main_cst_4
  let main_v16 : IVec S20 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x10 : Shape := ⟨2, ![100000, 10]⟩
abbrev S2x3200000 : Shape := ⟨2, ![2, 3200000]⟩
abbrev S100000 : Shape := ⟨1, ![100000]⟩
abbrev S10x20 : Shape := ⟨2, ![10, 20]⟩
abbrev S20 : Shape := ⟨1, ![20]⟩
abbrev S20x20 : Shape := ⟨2, ![20, 20]⟩
abbrev S20x2 : Shape := ⟨2, ![20, 2]⟩
abbrev S2 : Shape := ⟨1, ![2]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x10 : Shape := ⟨2, ![3200000, 10]⟩
abbrev S1x20 : Shape := ⟨2, ![1, 20]⟩
abbrev S100000x20 : Shape := ⟨2, ![100000, 20]⟩
abbrev S2000x10 : Shape := ⟨2, ![2000, 10]⟩
abbrev S2000x20 : Shape := ⟨2, ![2000, 20]⟩
abbrev S3200000x20 : Shape := ⟨2, ![3200000, 20]⟩
abbrev S1000x20 : Shape := ⟨2, ![1000, 20]⟩
abbrev S100000x1 : Shape := ⟨2, ![100000, 1]⟩
abbrev S1x2 : Shape := ⟨2, ![1, 2]⟩
abbrev S1000x2 : Shape := ⟨2, ![1000, 2]⟩

abbrev nBuf : Space → Nat
  | .hbm => 111
  | .vmem => 58
  | .smem => 0
  | _ => 0

abbrev bufTy : (tb : Table) → Fin (tcTables nBuf tb) → BufTy
  | .hbm, ⟨0, _⟩ => ⟨S100000x10, .f32⟩
  | .hbm, ⟨1, _⟩ => ⟨S2x3200000, .i32⟩
  | .hbm, ⟨2, _⟩ => ⟨S100000, .i32⟩
  | .hbm, ⟨3, _⟩ => ⟨S10x20, .f32⟩
  | .hbm, ⟨4, _⟩ => ⟨S20, .f32⟩
  | .hbm, ⟨5, _⟩ => ⟨S20, .f32⟩
  | .hbm, ⟨6, _⟩ => ⟨S20, .f32⟩
  | .hbm, ⟨7, _⟩ => ⟨S20x20, .f32⟩
  | .hbm, ⟨8, _⟩ => ⟨S20, .f32⟩
  | .hbm, ⟨9, _⟩ => ⟨S20, .f32⟩
  | .hbm, ⟨10, _⟩ => ⟨S20, .f32⟩
  | .hbm, ⟨11, _⟩ => ⟨S20x20, .f32⟩
  | .hbm, ⟨12, _⟩ => ⟨S20, .f32⟩
  | .hbm, ⟨13, _⟩ => ⟨S20, .f32⟩
  | .hbm, ⟨14, _⟩ => ⟨S20, .f32⟩
  | .hbm, ⟨15, _⟩ => ⟨S20x2, .f32⟩
  | .hbm, ⟨16, _⟩ => ⟨S2, .f32⟩
  | .hbm, ⟨17, _⟩ => ⟨S1x3200000, .i32⟩
  | .hbm, ⟨18, _⟩ => ⟨S3200000, .i32⟩
  | .hbm, ⟨19, _⟩ => ⟨S1x3200000, .i32⟩
  | .hbm, ⟨20, _⟩ => ⟨S3200000, .i32⟩
  | .hbm, ⟨21, _⟩ => ⟨S_, .i32⟩
  | .hbm, ⟨22, _⟩ => ⟨S3200000, .i32⟩
  | .hbm, ⟨23, _⟩ => ⟨S3200000, .i1⟩
  | .hbm, ⟨24, _⟩ => ⟨S_, .i32⟩
  | .hbm, ⟨25, _⟩ => ⟨S3200000, .i32⟩
  | .hbm, ⟨26, _⟩ => ⟨S3200000, .i32⟩
  | .hbm, ⟨27, _⟩ => ⟨S3200000, .i32⟩
  | .hbm, ⟨28, _⟩ => ⟨S3200000x1, .i32⟩
  | .hbm, ⟨29, _⟩ => ⟨S3200000x10, .f32⟩
  | .hbm, ⟨30, _⟩ => ⟨S_, .f32⟩
  | .hbm, ⟨31, _⟩ => ⟨S100000x10, .f32⟩
  | .hbm, ⟨32, _⟩ => ⟨S3200000x1, .i32⟩
  | .hbm, ⟨33, _⟩ => ⟨S100000x10, .f32⟩
  | .hbm, ⟨34, _⟩ => ⟨S1x20, .f32⟩
  | .hbm, ⟨35, _⟩ => ⟨S100000x20, .f32⟩
  | .hbm, ⟨36, _⟩ => ⟨S1x20, .f32⟩
  | .hbm, ⟨37, _⟩ => ⟨S1x20, .f32⟩
  | .hbm, ⟨38, _⟩ => ⟨S_, .f32⟩
  | .hbm, ⟨39, _⟩ => ⟨S1x20, .f32⟩
  | .hbm, ⟨40, _⟩ => ⟨S1x20, .f32⟩
  | .hbm, ⟨41, _⟩ => ⟨S_, .f32⟩
  | .hbm, ⟨42, _⟩ => ⟨S1x20, .f32⟩
  | .hbm, ⟨43, _⟩ => ⟨S1x20, .f32⟩
  | .hbm, ⟨44, _⟩ => ⟨S1x20, .f32⟩
  | .hbm, ⟨45, _⟩ => ⟨S1x20, .f32⟩
  | .hbm, ⟨46, _⟩ => ⟨S1x20, .f32⟩
  | .hbm, ⟨47, _⟩ => ⟨S1x20, .f32⟩
  | .hbm, ⟨48, _⟩ => ⟨S100000x20, .f32⟩
  | .hbm, ⟨49, _⟩ => ⟨S_, .i32⟩
  | .hbm, ⟨50, _⟩ => ⟨S3200000, .i32⟩
  | .hbm, ⟨51, _⟩ => ⟨S3200000, .i1⟩
  | .hbm, ⟨52, _⟩ => ⟨S_, .i32⟩
  | .hbm, ⟨53, _⟩ => ⟨S3200000, .i32⟩
  | .hbm, ⟨54, _⟩ => ⟨S3200000, .i32⟩
  | .hbm, ⟨55, _⟩ => ⟨S3200000, .i32⟩
  | .hbm, ⟨56, _⟩ => ⟨S3200000x1, .i32⟩
  | .hbm, ⟨57, _⟩ => ⟨S3200000x20, .f32⟩
  | .hbm, ⟨58, _⟩ => ⟨S_, .f32⟩
  | .hbm, ⟨59, _⟩ => ⟨S100000x20, .f32⟩
  | .hbm, ⟨60, _⟩ => ⟨S3200000x1, .i32⟩
  | .hbm, ⟨61, _⟩ => ⟨S100000x20, .f32⟩
  | .hbm, ⟨62, _⟩ => ⟨S1x20, .f32⟩
  | .hbm, ⟨63, _⟩ => ⟨S100000x20, .f32⟩
  | .hbm, ⟨64, _⟩ => ⟨S1x20, .f32⟩
  | .hbm, ⟨65, _⟩ => ⟨S1x20, .f32⟩
  | .hbm, ⟨66, _⟩ => ⟨S_, .f32⟩
  | .hbm, ⟨67, _⟩ => ⟨S1x20, .f32⟩
  | .hbm, ⟨68, _⟩ => ⟨S1x20, .f32⟩
  | .hbm, ⟨69, _⟩ => ⟨S_, .f32⟩
  | .hbm, ⟨70, _⟩ => ⟨S1x20, .f32⟩
  | .hbm, ⟨71, _⟩ => ⟨S1x20, .f32⟩
  | .hbm, ⟨72, _⟩ => ⟨S1x20, .f32⟩
  | .hbm, ⟨73, _⟩ => ⟨S1x20, .f32⟩
  | .hbm, ⟨74, _⟩ => ⟨S1x20, .f32⟩
  | .hbm, ⟨75, _⟩ => ⟨S1x20, .f32⟩
  | .hbm, ⟨76, _⟩ => ⟨S100000x20, .f32⟩
  | .hbm, ⟨77, _⟩ => ⟨S_, .i32⟩
  | .hbm, ⟨78, _⟩ => ⟨S3200000, .i32⟩
  | .hbm, ⟨79, _⟩ => ⟨S3200000, .i1⟩
  | .hbm, ⟨80, _⟩ => ⟨S_, .i32⟩
  | .hbm, ⟨81, _⟩ => ⟨S3200000, .i32⟩
  | .hbm, ⟨82, _⟩ => ⟨S3200000, .i32⟩
  | .hbm, ⟨83, _⟩ => ⟨S3200000, .i32⟩
  | .hbm, ⟨84, _⟩ => ⟨S3200000x1, .i32⟩
  | .hbm, ⟨85, _⟩ => ⟨S3200000x20, .f32⟩
  | .hbm, ⟨86, _⟩ => ⟨S_, .f32⟩
  | .hbm, ⟨87, _⟩ => ⟨S100000x20, .f32⟩
  | .hbm, ⟨88, _⟩ => ⟨S3200000x1, .i32⟩
  | .hbm, ⟨89, _⟩ => ⟨S100000x20, .f32⟩
  | .hbm, ⟨90, _⟩ => ⟨S1x20, .f32⟩
  | .hbm, ⟨91, _⟩ => ⟨S100000x20, .f32⟩
  | .hbm, ⟨92, _⟩ => ⟨S1x20, .f32⟩
  | .hbm, ⟨93, _⟩ => ⟨S1x20, .f32⟩
  | .hbm, ⟨94, _⟩ => ⟨S_, .f32⟩
  | .hbm, ⟨95, _⟩ => ⟨S1x20, .f32⟩
  | .hbm, ⟨96, _⟩ => ⟨S1x20, .f32⟩
  | .hbm, ⟨97, _⟩ => ⟨S_, .f32⟩
  | .hbm, ⟨98, _⟩ => ⟨S1x20, .f32⟩
  | .hbm, ⟨99, _⟩ => ⟨S1x20, .f32⟩
  | .hbm, ⟨100, _⟩ => ⟨S1x20, .f32⟩
  | .hbm, ⟨101, _⟩ => ⟨S1x20, .f32⟩
  | .hbm, ⟨102, _⟩ => ⟨S1x20, .f32⟩
  | .hbm, ⟨103, _⟩ => ⟨S1x20, .f32⟩
  | .hbm, ⟨104, _⟩ => ⟨S100000x20, .f32⟩
  | .hbm, ⟨105, _⟩ => ⟨S_, .f32⟩
  | .hbm, ⟨106, _⟩ => ⟨S1000x20, .f32⟩
  | .hbm, ⟨107, _⟩ => ⟨S100000x1, .i32⟩
  | .hbm, ⟨108, _⟩ => ⟨S1000x20, .f32⟩
  | .hbm, ⟨109, _⟩ => ⟨S1x2, .f32⟩
  | .hbm, ⟨110, _⟩ => ⟨S1000x2, .f32⟩
  | .local _ .vmem, ⟨0, _⟩ => ⟨S2000x10, .f32⟩
  | .local _ .vmem, ⟨1, _⟩ => ⟨S2000x10, .f32⟩
  | .local _ .vmem, ⟨2, _⟩ => ⟨S2000x10, .f32⟩
  | .local _ .vmem, ⟨3, _⟩ => ⟨S2000x10, .f32⟩
  | .local _ .vmem, ⟨4, _⟩ => ⟨S10x20, .f32⟩
  | .local _ .vmem, ⟨5, _⟩ => ⟨S1x20, .f32⟩
  | .local _ .vmem, ⟨6, _⟩ => ⟨S2000x20, .f32⟩
  | .local _ .vmem, ⟨7, _⟩ => ⟨S2000x20, .f32⟩
  | .local _ .vmem, ⟨8, _⟩ => ⟨S1x20, .f32⟩
  | .local _ .vmem, ⟨9, _⟩ => ⟨S1x20, .f32⟩
  | .local _ .vmem, ⟨10, _⟩ => ⟨S2000x20, .f32⟩
  | .local _ .vmem, ⟨11, _⟩ => ⟨S2000x20, .f32⟩
  | .local _ .vmem, ⟨12, _⟩ => ⟨S1x20, .f32⟩
  | .local _ .vmem, ⟨13, _⟩ => ⟨S1x20, .f32⟩
  | .local _ .vmem, ⟨14, _⟩ => ⟨S1x20, .f32⟩
  | .local _ .vmem, ⟨15, _⟩ => ⟨S1x20, .f32⟩
  | .local _ .vmem, ⟨16, _⟩ => ⟨S2000x20, .f32⟩
  | .local _ .vmem, ⟨17, _⟩ => ⟨S2000x20, .f32⟩
  | .local _ .vmem, ⟨18, _⟩ => ⟨S2000x20, .f32⟩
  | .local _ .vmem, ⟨19, _⟩ => ⟨S2000x20, .f32⟩
  | .local _ .vmem, ⟨20, _⟩ => ⟨S2000x20, .f32⟩
  | .local _ .vmem, ⟨21, _⟩ => ⟨S2000x20, .f32⟩
  | .local _ .vmem, ⟨22, _⟩ => ⟨S20x20, .f32⟩
  | .local _ .vmem, ⟨23, _⟩ => ⟨S1x20, .f32⟩
  | .local _ .vmem, ⟨24, _⟩ => ⟨S2000x20, .f32⟩
  | .local _ .vmem, ⟨25, _⟩ => ⟨S2000x20, .f32⟩
  | .local _ .vmem, ⟨26, _⟩ => ⟨S1x20, .f32⟩
  | .local _ .vmem, ⟨27, _⟩ => ⟨S1x20, .f32⟩
  | .local _ .vmem, ⟨28, _⟩ => ⟨S2000x20, .f32⟩
  | .local _ .vmem, ⟨29, _⟩ => ⟨S2000x20, .f32⟩
  | .local _ .vmem, ⟨30, _⟩ => ⟨S1x20, .f32⟩
  | .local _ .vmem, ⟨31, _⟩ => ⟨S1x20, .f32⟩
  | .local _ .vmem, ⟨32, _⟩ => ⟨S1x20, .f32⟩
  | .local _ .vmem, ⟨33, _⟩ => ⟨S1x20, .f32⟩
  | .local _ .vmem, ⟨34, _⟩ => ⟨S2000x20, .f32⟩
  | .local _ .vmem, ⟨35, _⟩ => ⟨S2000x20, .f32⟩
  | .local _ .vmem, ⟨36, _⟩ => ⟨S2000x20, .f32⟩
  | .local _ .vmem, ⟨37, _⟩ => ⟨S2000x20, .f32⟩
  | .local _ .vmem, ⟨38, _⟩ => ⟨S2000x20, .f32⟩
  | .local _ .vmem, ⟨39, _⟩ => ⟨S2000x20, .f32⟩
  | .local _ .vmem, ⟨40, _⟩ => ⟨S20x20, .f32⟩
  | .local _ .vmem, ⟨41, _⟩ => ⟨S1x20, .f32⟩
  | .local _ .vmem, ⟨42, _⟩ => ⟨S2000x20, .f32⟩
  | .local _ .vmem, ⟨43, _⟩ => ⟨S2000x20, .f32⟩
  | .local _ .vmem, ⟨44, _⟩ => ⟨S1x20, .f32⟩
  | .local _ .vmem, ⟨45, _⟩ => ⟨S1x20, .f32⟩
  | .local _ .vmem, ⟨46, _⟩ => ⟨S2000x20, .f32⟩
  | .local _ .vmem, ⟨47, _⟩ => ⟨S2000x20, .f32⟩
  | .local _ .vmem, ⟨48, _⟩ => ⟨S1x20, .f32⟩
  | .local _ .vmem, ⟨49, _⟩ => ⟨S1x20, .f32⟩
  | .local _ .vmem, ⟨50, _⟩ => ⟨S1x20, .f32⟩
  | .local _ .vmem, ⟨51, _⟩ => ⟨S1x20, .f32⟩
  | .local _ .vmem, ⟨52, _⟩ => ⟨S2000x20, .f32⟩
  | .local _ .vmem, ⟨53, _⟩ => ⟨S2000x20, .f32⟩
  | .local _ .vmem, ⟨54, _⟩ => ⟨S1000x20, .f32⟩
  | .local _ .vmem, ⟨55, _⟩ => ⟨S20x2, .f32⟩
  | .local _ .vmem, ⟨56, _⟩ => ⟨S1x2, .f32⟩
  | .local _ .vmem, ⟨57, _⟩ => ⟨S1000x2, .f32⟩
  | _, _ => ⟨S100000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15_0 : Ref sig .tc := ⟨.hbm, 35, rfl⟩
abbrev main_v15_1 : Ref sig .tc := ⟨.hbm, 36, rfl⟩
abbrev main_v15_2 : Ref sig .tc := ⟨.hbm, 37, rfl⟩
abbrev main_cst_1 : Ref sig .tc := ⟨.hbm, 38, rfl⟩
abbrev main_v16 : Ref sig .tc := ⟨.hbm, 39, rfl⟩
abbrev main_v17 : Ref sig .tc := ⟨.hbm, 40, rfl⟩
abbrev main_cst_2 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_c_3 : Ref sig .tc := ⟨.hbm, 49, rfl⟩
abbrev main_v25 : Ref sig .tc := ⟨.hbm, 50, rfl⟩
abbrev main_v26 : Ref sig .tc := ⟨.hbm, 51, rfl⟩
abbrev main_c_4 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_5 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36_0 : Ref sig .tc := ⟨.hbm, 63, rfl⟩
abbrev main_v36_1 : Ref sig .tc := ⟨.hbm, 64, rfl⟩
abbrev main_v36_2 : Ref sig .tc := ⟨.hbm, 65, rfl⟩
abbrev main_cst_6 : Ref sig .tc := ⟨.hbm, 66, rfl⟩
abbrev main_v37 : Ref sig .tc := ⟨.hbm, 67, rfl⟩
abbrev main_v38 : Ref sig .tc := ⟨.hbm, 68, rfl⟩
abbrev main_cst_7 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_c_8 : Ref sig .tc := ⟨.hbm, 77, rfl⟩
abbrev main_v46 : Ref sig .tc := ⟨.hbm, 78, rfl⟩
abbrev main_v47 : Ref sig .tc := ⟨.hbm, 79, rfl⟩
abbrev main_c_9 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_10 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57_0 : Ref sig .tc := ⟨.hbm, 91, rfl⟩
abbrev main_v57_1 : Ref sig .tc := ⟨.hbm, 92, rfl⟩
abbrev main_v57_2 : Ref sig .tc := ⟨.hbm, 93, rfl⟩
abbrev main_cst_11 : Ref sig .tc := ⟨.hbm, 94, rfl⟩
abbrev main_v58 : Ref sig .tc := ⟨.hbm, 95, rfl⟩
abbrev main_v59 : Ref sig .tc := ⟨.hbm, 96, rfl⟩
abbrev main_cst_12 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_13 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg6_0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg4_1 : Ref sig .tc := ⟨.vmem, 43, rfl⟩
abbrev cc4_stg5_0 : Ref sig .tc := ⟨.vmem, 44, rfl⟩
abbrev cc4_stg6_0 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc6_stg0_0 : Ref sig .tc := ⟨.vmem, 54, rfl⟩
abbrev cc6_stg1_0 : Ref sig .tc := ⟨.vmem, 55, rfl⟩
abbrev cc6_stg2_0 : Ref sig .tc := ⟨.vmem, 56, rfl⟩
abbrev cc6_stg3_0 : Ref sig .tc := ⟨.vmem, 57, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc2_sem5_0 : DmaSem sig := 26
abbrev cc2_sem6_0 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem4_1 : DmaSem sig := 43
abbrev cc4_sem5_0 : DmaSem sig := 44
abbrev cc4_sem6_0 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem1_0 : DmaSem sig := 55
abbrev cc6_sem2_0 : DmaSem sig := 56
abbrev cc6_sem3_0 : DmaSem sig := 57

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x10 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x20 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x20 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x20 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x20 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x20 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x20 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x20 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x20 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x20 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x20 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x20 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x20 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S20x20 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x20 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x20 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x20 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x20 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x20 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x20 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x20 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x20 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x20 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x20 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x20 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x20 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S20x20 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x20 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x20 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x20 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x20 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x20 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x20 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x20 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x20 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x20 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x20 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S1000x20 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S20x2 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x2 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1000x2 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x10 : S_.BroadcastsInDim S100000x10 (![] : Fin 0 → Fin S100000x10.rank)
  shapeCasts_S20_S1x20 : S20.ShapeCasts S1x20
  inb_S1x20_S1x20_0_0 : ∀ a, (![0, 0] : Fin 2 → Nat) a + S1x20.size a ≤ S1x20.size a
  h_S1x20 : 0 < S1x20.numel
  inb_S2000x10_S2000x10_0_0 : ∀ a, (![0, 0] : Fin 2 → Nat) a + S2000x10.size a ≤ S2000x10.size a
  h_S2000x10 : 0 < S2000x10.numel
  shapeCasts_S2000x10_S2000x10 : S2000x10.ShapeCasts S2000x10
  bitsLt_bf16_f32 : FTy.bits .bf16 < FTy.bits .f32
  inb_S10x20_S10x20_0_0 : ∀ a, (![0, 0] : Fin 2 → Nat) a + S10x20.size a ≤ S10x20.size a
  h_S10x20 : 0 < S10x20.numel
  shapeCasts_S1x20_S1x20 : S1x20.ShapeCasts S1x20
  broadcasts_S1x20_S2000x20 : S1x20.Broadcasts S2000x20
  inb_S2000x20_S2000x20_0_0 : ∀ a, (![0, 0] : Fin 2 → Nat) a + S2000x20.size a ≤ S2000x20.size a
  h_S2000x20 : 0 < S2000x20.numel
  reduces_S2000x20_S20 : S2000x20.Reduces [0] S20
  bcast_S_S1x20 : S_.BroadcastsInDim S1x20 (![] : Fin 0 → Fin S1x20.rank)
  shapeCasts_S2000x20_S2000x20 : S2000x20.ShapeCasts S2000x20
  bcast_S_S100000x20 : S_.BroadcastsInDim S100000x20 (![] : Fin 0 → Fin S100000x20.rank)
  inb_S20x20_S20x20_0_0 : ∀ a, (![0, 0] : Fin 2 → Nat) a + S20x20.size a ≤ S20x20.size a
  h_S20x20 : 0 < S20x20.numel
  bcast_S_S1000x20 : S_.BroadcastsInDim S1000x20 (![] : Fin 0 → Fin S1000x20.rank)
  bcast_S100000_S100000x1_0 : S100000.BroadcastsInDim S100000x1 (![0] : Fin 1 → Fin S100000x1.rank)
  shapeCasts_S2_S1x2 : S2.ShapeCasts S1x2
  inb_S1000x20_S1000x20_0_0 : ∀ a, (![0, 0] : Fin 2 → Nat) a + S1000x20.size a ≤ S1000x20.size a
  h_S1000x20 : 0 < S1000x20.numel
  shapeCasts_S1000x20_S1000x20 : S1000x20.ShapeCasts S1000x20
  inb_S20x2_S20x2_0_0 : ∀ a, (![0, 0] : Fin 2 → Nat) a + S20x2.size a ≤ S20x2.size a
  h_S20x2 : 0 < S20x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1000x2 : S1x2.Broadcasts S1000x2
  inb_S1000x2_S1000x2_0_0 : ∀ a, (![0, 0] : Fin 2 → Nat) a + S1000x2.size a ≤ S1000x2.size a
  h_S1000x2 : 0 < S1000x2.numel
  gather_S100000x10_S3200000x1_S3200000x10_1_0_n_n_0_1_110_wf : GatherDims.WF S100000x10 S3200000x1 S3200000x10 [1] [0] [] [0] [] 1 ![1, 10]
  scatter_S100000x10_S3200000x1_S3200000x10_1_0_0_1_wf : ScatterDims.WF S100000x10 S3200000x1 S3200000x10 [1] [0] [0] 1
  dot_S2000x10_S10x20_S2000x20_1_0_0_1_n_n_wf : DotDims.WF S2000x10 S10x20 S2000x20 [1] [0] [0] [1] [] []
  gather_S100000x20_S3200000x1_S3200000x20_1_0_n_n_0_1_120_wf : GatherDims.WF S100000x20 S3200000x1 S3200000x20 [1] [0] [] [0] [] 1 ![1, 20]
  scatter_S100000x20_S3200000x1_S3200000x20_1_0_0_1_wf : ScatterDims.WF S100000x20 S3200000x1 S3200000x20 [1] [0] [0] 1
  dot_S2000x20_S20x20_S2000x20_1_0_0_1_n_n_wf : DotDims.WF S2000x20 S20x20 S2000x20 [1] [0] [0] [1] [] []
  scatter_S1000x20_S100000x1_S100000x20_1_0_0_1_wf : ScatterDims.WF S1000x20 S100000x1 S100000x20 [1] [0] [0] 1
  dot_S1000x20_S20x2_S1000x2_1_0_0_1_n_n_wf : DotDims.WF S1000x20 S20x2 S1000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x10.size a ≤ S100000x10.size a
  hwx0_0 : ∀ i : grid0.Coords, EltTy.bits .f32 = 32 ∨ (Rect.block (s := S100000x10) S2000x10.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x10.size a ≤ S100000x10.size a
  hwx0_1 : ∀ i : grid0.Coords, EltTy.bits .f32 = 32 ∨ (Rect.block (s := S100000x10) S2000x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x20.size a ≤ S10x20.size a
  hwx0_2 : ∀ i : grid0.Coords, EltTy.bits .f32 = 32 ∨ (Rect.block (s := S10x20) S10x20.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x20.size a ≤ S1x20.size a
  hwx0_3 : ∀ i : grid0.Coords, EltTy.bits .f32 = 32 ∨ (Rect.block (s := S1x20) S1x20.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x20.size a ≤ S100000x20.size a
  hwx0_4 : ∀ i : grid0.Coords, EltTy.bits .f32 = 32 ∨ (Rect.block (s := S100000x20) S2000x20.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x20.size a ≤ S1x20.size a
  hwx0_5 : ∀ i : grid0.Coords, EltTy.bits .f32 = 32 ∨ (Rect.block (s := S1x20) S1x20.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x20.size a ≤ S1x20.size a
  hwx0_6 : ∀ i : grid0.Coords, EltTy.bits .f32 = 32 ∨ (Rect.block (s := S1x20) S1x20.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x20.size a ≤ S100000x20.size a
  hwx1_0 : ∀ i : grid1.Coords, EltTy.bits .f32 = 32 ∨ (Rect.block (s := S100000x20) S2000x20.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x20.size a ≤ S1x20.size a
  hwx1_1 : ∀ i : grid1.Coords, EltTy.bits .f32 = 32 ∨ (Rect.block (s := S1x20) S1x20.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x20.size a ≤ S1x20.size a
  hwx1_2 : ∀ i : grid1.Coords, EltTy.bits .f32 = 32 ∨ (Rect.block (s := S1x20) S1x20.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x20.size a ≤ S1x20.size a
  hwx1_3 : ∀ i : grid1.Coords, EltTy.bits .f32 = 32 ∨ (Rect.block (s := S1x20) S1x20.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x20.size a ≤ S1x20.size a
  hwx1_4 : ∀ i : grid1.Coords, EltTy.bits .f32 = 32 ∨ (Rect.block (s := S1x20) S1x20.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x20.size a ≤ S100000x20.size a
  hwx1_5 : ∀ i : grid1.Coords, EltTy.bits .f32 = 32 ∨ (Rect.block (s := S100000x20) S2000x20.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x20.size a ≤ S100000x20.size a
  hwx2_0 : ∀ i : grid2.Coords, EltTy.bits .f32 = 32 ∨ (Rect.block (s := S100000x20) S2000x20.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x20.size a ≤ S100000x20.size a
  hwx2_1 : ∀ i : grid2.Coords, EltTy.bits .f32 = 32 ∨ (Rect.block (s := S100000x20) S2000x20.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S20x20.size a ≤ S20x20.size a
  hwx2_2 : ∀ i : grid2.Coords, EltTy.bits .f32 = 32 ∨ (Rect.block (s := S20x20) S20x20.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x20.size a ≤ S1x20.size a
  hwx2_3 : ∀ i : grid2.Coords, EltTy.bits .f32 = 32 ∨ (Rect.block (s := S1x20) S1x20.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x20.size a ≤ S100000x20.size a
  hwx2_4 : ∀ i : grid2.Coords, EltTy.bits .f32 = 32 ∨ (Rect.block (s := S100000x20) S2000x20.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x20.size a ≤ S1x20.size a
  hwx2_5 : ∀ i : grid2.Coords, EltTy.bits .f32 = 32 ∨ (Rect.block (s := S1x20) S1x20.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x20.size a ≤ S1x20.size a
  hwx2_6 : ∀ i : grid2.Coords, EltTy.bits .f32 = 32 ∨ (Rect.block (s := S1x20) S1x20.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x20.size a ≤ S100000x20.size a
  hwx3_0 : ∀ i : grid3.Coords, EltTy.bits .f32 = 32 ∨ (Rect.block (s := S100000x20) S2000x20.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x20.size a ≤ S1x20.size a
  hwx3_1 : ∀ i : grid3.Coords, EltTy.bits .f32 = 32 ∨ (Rect.block (s := S1x20) S1x20.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x20.size a ≤ S1x20.size a
  hwx3_2 : ∀ i : grid3.Coords, EltTy.bits .f32 = 32 ∨ (Rect.block (s := S1x20) S1x20.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x20.size a ≤ S1x20.size a
  hwx3_3 : ∀ i : grid3.Coords, EltTy.bits .f32 = 32 ∨ (Rect.block (s := S1x20) S1x20.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x20.size a ≤ S1x20.size a
  hwx3_4 : ∀ i : grid3.Coords, EltTy.bits .f32 = 32 ∨ (Rect.block (s := S1x20) S1x20.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x20.size a ≤ S100000x20.size a
  hwx3_5 : ∀ i : grid3.Coords, EltTy.bits .f32 = 32 ∨ (Rect.block (s := S100000x20) S2000x20.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x20.size a ≤ S100000x20.size a
  hwx4_0 : ∀ i : grid4.Coords, EltTy.bits .f32 = 32 ∨ (Rect.block (s := S100000x20) S2000x20.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x20.size a ≤ S100000x20.size a
  hwx4_1 : ∀ i : grid4.Coords, EltTy.bits .f32 = 32 ∨ (Rect.block (s := S100000x20) S2000x20.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S20x20.size a ≤ S20x20.size a
  hwx4_2 : ∀ i : grid4.Coords, EltTy.bits .f32 = 32 ∨ (Rect.block (s := S20x20) S20x20.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x20.size a ≤ S1x20.size a
  hwx4_3 : ∀ i : grid4.Coords, EltTy.bits .f32 = 32 ∨ (Rect.block (s := S1x20) S1x20.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x20.size a ≤ S100000x20.size a
  hwx4_4 : ∀ i : grid4.Coords, EltTy.bits .f32 = 32 ∨ (Rect.block (s := S100000x20) S2000x20.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x20.size a ≤ S1x20.size a
  hwx4_5 : ∀ i : grid4.Coords, EltTy.bits .f32 = 32 ∨ (Rect.block (s := S1x20) S1x20.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x20.size a ≤ S1x20.size a
  hwx4_6 : ∀ i : grid4.Coords, EltTy.bits .f32 = 32 ∨ (Rect.block (s := S1x20) S1x20.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x20.size a ≤ S100000x20.size a
  hwx5_0 : ∀ i : grid5.Coords, EltTy.bits .f32 = 32 ∨ (Rect.block (s := S100000x20) S2000x20.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x20.size a ≤ S1x20.size a
  hwx5_1 : ∀ i : grid5.Coords, EltTy.bits .f32 = 32 ∨ (Rect.block (s := S1x20) S1x20.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x20.size a ≤ S1x20.size a
  hwx5_2 : ∀ i : grid5.Coords, EltTy.bits .f32 = 32 ∨ (Rect.block (s := S1x20) S1x20.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x20.size a ≤ S1x20.size a
  hwx5_3 : ∀ i : grid5.Coords, EltTy.bits .f32 = 32 ∨ (Rect.block (s := S1x20) S1x20.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x20.size a ≤ S1x20.size a
  hwx5_4 : ∀ i : grid5.Coords, EltTy.bits .f32 = 32 ∨ (Rect.block (s := S1x20) S1x20.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x20.size a ≤ S100000x20.size a
  hwx5_5 : ∀ i : grid5.Coords, EltTy.bits .f32 = 32 ∨ (Rect.block (s := S100000x20) S2000x20.size (cc5_transform_5 i) (hinb5_5 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S1000x20.size a ≤ S1000x20.size a
  hwx6_0 : ∀ i : grid6.Coords, EltTy.bits .f32 = 32 ∨ (Rect.block (s := S1000x20) S1000x20.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S20x2.size a ≤ S20x2.size a
  hwx6_1 : ∀ i : grid6.Coords, EltTy.bits .f32 = 32 ∨ (Rect.block (s := S20x2) S20x2.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x2.size a ≤ S1x2.size a
  hwx6_2 : ∀ i : grid6.Coords, EltTy.bits .f32 = 32 ∨ (Rect.block (s := S1x2) S1x2.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1000x2.size a ≤ S1000x2.size a
  hwx6_3 : ∀ i : grid6.Coords, EltTy.bits .f32 = 32 ∨ (Rect.block (s := S1000x2) S1000x2.size (cc6_transform_3 i) (hinb6_3 i)).WholeWords (EltTy.packing .f32)

variable [Facts₀]

def gather_S100000x10_S3200000x1_S3200000x10_1_0_n_n_0_1_110 : GatherDims S100000x10 S3200000x1 S3200000x10 where
  offsetDims := [1]
  collapsedSliceDims := [0]
  operandBatchingDims := []
  startIndicesBatchingDims := []
  startIndexMap := [0]
  indexVectorDim := 1
  sliceSizes := ![1, 10]
  wf := gather_S100000x10_S3200000x1_S3200000x10_1_0_n_n_0_1_110_wf
def scatter_S100000x10_S3200000x1_S3200000x10_1_0_0_1 : ScatterDims S100000x10 S3200000x1 S3200000x10 where
  updateWindowDims := [1]
  insertedWindowDims := [0]
  scatterDimsToOperandDims := [0]
  indexVectorDim := 1
  wf := scatter_S100000x10_S3200000x1_S3200000x10_1_0_0_1_wf
def dot_S2000x10_S10x20_S2000x20_1_0_0_1_n_n : DotDims S2000x10 S10x20 S2000x20 where
  lhsContracting := [1]
  rhsContracting := [0]
  lhsNonContracting := [0]
  rhsNonContracting := [1]
  lhsBatch := []
  rhsBatch := []
  wf := dot_S2000x10_S10x20_S2000x20_1_0_0_1_n_n_wf
def gather_S100000x20_S3200000x1_S3200000x20_1_0_n_n_0_1_120 : GatherDims S100000x20 S3200000x1 S3200000x20 where
  offsetDims := [1]
  collapsedSliceDims := [0]
  operandBatchingDims := []
  startIndicesBatchingDims := []
  startIndexMap := [0]
  indexVectorDim := 1
  sliceSizes := ![1, 20]
  wf := gather_S100000x20_S3200000x1_S3200000x20_1_0_n_n_0_1_120_wf
def scatter_S100000x20_S3200000x1_S3200000x20_1_0_0_1 : ScatterDims S100000x20 S3200000x1 S3200000x20 where
  updateWindowDims := [1]
  insertedWindowDims := [0]
  scatterDimsToOperandDims := [0]
  indexVectorDim := 1
  wf := scatter_S100000x20_S3200000x1_S3200000x20_1_0_0_1_wf
def dot_S2000x20_S20x20_S2000x20_1_0_0_1_n_n : DotDims S2000x20 S20x20 S2000x20 where
  lhsContracting := [1]
  rhsContracting := [0]
  lhsNonContracting := [0]
  rhsNonContracting := [1]
  lhsBatch := []
  rhsBatch := []
  wf := dot_S2000x20_S20x20_S2000x20_1_0_0_1_n_n_wf
def scatter_S1000x20_S100000x1_S100000x20_1_0_0_1 : ScatterDims S1000x20 S100000x1 S100000x20 where
  updateWindowDims := [1]
  insertedWindowDims := [0]
  scatterDimsToOperandDims := [0]
  indexVectorDim := 1
  wf := scatter_S1000x20_S100000x1_S100000x20_1_0_0_1_wf
def dot_S1000x20_S20x2_S1000x2_1_0_0_1_n_n : DotDims S1000x20 S20x2 S1000x2 where
  lhsContracting := [1]
  rhsContracting := [0]
  lhsNonContracting := [0]
  rhsNonContracting := [1]
  lhsBatch := []
  rhsBatch := []
  wf := dot_S1000x20_S20x2_S1000x2_1_0_0_1_n_n_wf

abbrev win0_0 : Pipeline.Window sig grid0 :=
  Pipeline.Window.ofSpec (Memref.whole main_arg0) S2000x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x10.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S10x20.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x20.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15_0) S2000x20.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15_1) S1x20.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15_2) S1x20.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v15_0) S2000x20.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1x20.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x20.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x20.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x20.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S2000x20.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v24) S2000x20.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S2000x20.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S20x20.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S1x20.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36_0) S2000x20.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v36_1) S1x20.size cc2_transform_5 reads2_5 true true 1 stage2_5 sem2_5
    hrank2 hreads2_5 hinb2_5 nbuf2_5 (Memref.isWhole_whole _) hwx2_5 hstage2_5

abbrev win2_6 : Pipeline.Window sig grid2 :=
  Pipeline.Window.ofSpec (Memref.whole main_v36_2) S1x20.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v36_0) S2000x20.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S1x20.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v42) S1x20.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v43) S1x20.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v44) S1x20.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v45) S2000x20.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v45) S2000x20.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v55) S2000x20.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg11) S20x20.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v56) S1x20.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v57_0) S2000x20.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v57_1) S1x20.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v57_2) S1x20.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v57_0) S2000x20.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v59) S1x20.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v63) S1x20.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v64) S1x20.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v65) S1x20.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v66) S2000x20.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v69) S1000x20.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg15) S20x2.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v70) S1x2.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v71) S1000x2.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x10 : Shape := ⟨2, ![100000, 10]⟩
abbrev S2x3200000 : Shape := ⟨2, ![2, 3200000]⟩
abbrev S100000 : Shape := ⟨1, ![100000]⟩
abbrev S10x20 : Shape := ⟨2, ![10, 20]⟩
abbrev S20 : Shape := ⟨1, ![20]⟩
abbrev S20x20 : Shape := ⟨2, ![20, 20]⟩
abbrev S20x2 : Shape := ⟨2, ![20, 2]⟩
abbrev S2 : Shape := ⟨1, ![2]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x10 : Shape := ⟨2, ![3200000, 10]⟩
abbrev S100000x20 : Shape := ⟨2, ![100000, 20]⟩
abbrev S1x20 : Shape := ⟨2, ![1, 20]⟩
abbrev S3200000x20 : Shape := ⟨2, ![3200000, 20]⟩
abbrev S1000x20 : Shape := ⟨2, ![1000, 20]⟩
abbrev S100000x1 : Shape := ⟨2, ![100000, 1]⟩
abbrev S1000x2 : Shape := ⟨2, ![1000, 2]⟩
abbrev S1x2 : Shape := ⟨2, ![1, 2]⟩

abbrev nBuf : Space → Nat
  | .hbm => 182
  | .vmem => 0
  | .smem => 0
  | _ => 0

abbrev hbmTy0_0 (i : Nat) : BufTy := match i % 128 with
  | 0 => ⟨S100000x10, .f32⟩
  | 1 => ⟨S2x3200000, .i32⟩
  | 2 => ⟨S100000, .i32⟩
  | 3 => ⟨S10x20, .f32⟩
  | 4 => ⟨S20, .f32⟩
  | 5 => ⟨S20, .f32⟩
  | 6 => ⟨S20, .f32⟩
  | 7 => ⟨S20x20, .f32⟩
  | 8 => ⟨S20, .f32⟩
  | 9 => ⟨S20, .f32⟩
  | 10 => ⟨S20, .f32⟩
  | 11 => ⟨S20x20, .f32⟩
  | 12 => ⟨S20, .f32⟩
  | 13 => ⟨S20, .f32⟩
  | 14 => ⟨S20, .f32⟩
  | 15 => ⟨S20x2, .f32⟩
  | 16 => ⟨S2, .f32⟩
  | 17 => ⟨S1x3200000, .i32⟩
  | 18 => ⟨S3200000, .i32⟩
  | 19 => ⟨S1x3200000, .i32⟩
  | 20 => ⟨S3200000, .i32⟩
  | 21 => ⟨S_, .i32⟩
  | 22 => ⟨S3200000, .i32⟩
  | 23 => ⟨S3200000, .i1⟩
  | 24 => ⟨S_, .i32⟩
  | 25 => ⟨S3200000, .i32⟩
  | 26 => ⟨S3200000, .i32⟩
  | 27 => ⟨S3200000, .i32⟩
  | 28 => ⟨S3200000x1, .i32⟩
  | 29 => ⟨S3200000x10, .f32⟩
  | 30 => ⟨S_, .f32⟩
  | 31 => ⟨S100000x10, .f32⟩
  | 32 => ⟨S3200000x1, .i32⟩
  | 33 => ⟨S100000x10, .f32⟩
  | 34 => ⟨S100000x10, .f32⟩
  | 35 => ⟨S100000x20, .f32⟩
  | 36 => ⟨S1x20, .f32⟩
  | 37 => ⟨S100000x20, .f32⟩
  | 38 => ⟨S100000x20, .f32⟩
  | 39 => ⟨S_, .f32⟩
  | 40 => ⟨S20, .f32⟩
  | 41 => ⟨S_, .f32⟩
  | 42 => ⟨S20, .f32⟩
  | 43 => ⟨S20, .f32⟩
  | 44 => ⟨S1x20, .f32⟩
  | 45 => ⟨S100000x20, .f32⟩
  | 46 => ⟨S100000x20, .f32⟩
  | 47 => ⟨S100000x20, .f32⟩
  | 48 => ⟨S_, .f32⟩
  | 49 => ⟨S20, .f32⟩
  | 50 => ⟨S_, .f32⟩
  | 51 => ⟨S20, .f32⟩
  | 52 => ⟨S20, .f32⟩
  | 53 => ⟨S1x20, .f32⟩
  | 54 => ⟨S100000x20, .f32⟩
  | 55 => ⟨S100000x20, .f32⟩
  | 56 => ⟨S_, .f32⟩
  | 57 => ⟨S20, .f32⟩
  | 58 => ⟨S20, .f32⟩
  | 59 => ⟨S20, .f32⟩
  | 60 => ⟨S1x20, .f32⟩
  | 61 => ⟨S100000x20, .f32⟩
  | 62 => ⟨S100000x20, .f32⟩
  | 63 => ⟨S1x20, .f32⟩
  | 64 => ⟨S100000x20, .f32⟩
  | 65 => ⟨S100000x20, .f32⟩
  | 66 => ⟨S1x20, .f32⟩
  | 67 => ⟨S100000x20, .f32⟩
  | 68 => ⟨S100000x20, .f32⟩
  | 69 => ⟨S_, .f32⟩
  | 70 => ⟨S100000x20, .f32⟩
  | 71 => ⟨S100000x20, .f32⟩
  | 72 => ⟨S_, .i32⟩
  | 73 => ⟨S3200000, .i32⟩
  | 74 => ⟨S3200000, .i1⟩
  | 75 => ⟨S_, .i32⟩
  | 76 => ⟨S3200000, .i32⟩
  | 77 => ⟨S3200000, .i32⟩
  | 78 => ⟨S3200000, .i32⟩
  | 79 => ⟨S3200000x1, .i32⟩
  | 80 => ⟨S3200000x20, .f32⟩
  | 81 => ⟨S_, .f32⟩
  | 82 => ⟨S100000x20, .f32⟩
  | 83 => ⟨S3200000x1, .i32⟩
  | 84 => ⟨S100000x20, .f32⟩
  | 85 => ⟨S100000x20, .f32⟩
  | 86 => ⟨S100000x20, .f32⟩
  | 87 => ⟨S1x20, .f32⟩
  | 88 => ⟨S100000x20, .f32⟩
  | 89 => ⟨S100000x20, .f32⟩
  | 90 => ⟨S_, .f32⟩
  | 91 => ⟨S20, .f32⟩
  | 92 => ⟨S_, .f32⟩
  | 93 => ⟨S20, .f32⟩
  | 94 => ⟨S20, .f32⟩
  | 95 => ⟨S1x20, .f32⟩
  | 96 => ⟨S100000x20, .f32⟩
  | 97 => ⟨S100000x20, .f32⟩
  | 98 => ⟨S100000x20, .f32⟩
  | 99 => ⟨S_, .f32⟩
  | 100 => ⟨S20, .f32⟩
  | 101 => ⟨S_, .f32⟩
  | 102 => ⟨S20, .f32⟩
  | 103 => ⟨S20, .f32⟩
  | 104 => ⟨S1x20, .f32⟩
  | 105 => ⟨S100000x20, .f32⟩
  | 106 => ⟨S100000x20, .f32⟩
  | 107 => ⟨S_, .f32⟩
  | 108 => ⟨S20, .f32⟩
  | 109 => ⟨S20, .f32⟩
  | 110 => ⟨S20, .f32⟩
  | 111 => ⟨S1x20, .f32⟩
  | 112 => ⟨S100000x20, .f32⟩
  | 113 => ⟨S100000x20, .f32⟩
  | 114 => ⟨S1x20, .f32⟩
  | 115 => ⟨S100000x20, .f32⟩
  | 116 => ⟨S100000x20, .f32⟩
  | 117 => ⟨S1x20, .f32⟩
  | 118 => ⟨S100000x20, .f32⟩
  | 119 => ⟨S100000x20, .f32⟩
  | 120 => ⟨S_, .f32⟩
  | 121 => ⟨S100000x20, .f32⟩
  | 122 => ⟨S100000x20, .f32⟩
  | 123 => ⟨S_, .i32⟩
  | 124 => ⟨S3200000, .i32⟩
  | 125 => ⟨S3200000, .i1⟩
  | 126 => ⟨S_, .i32⟩
  | 127 => ⟨S3200000, .i32⟩
  | _ => ⟨S100000x10, .f32⟩

abbrev hbmTy0_1 (i : Nat) : BufTy := match i % 128 with
  | 0 => ⟨S3200000, .i32⟩
  | 1 => ⟨S3200000, .i32⟩
  | 2 => ⟨S3200000x1, .i32⟩
  | 3 => ⟨S3200000x20, .f32⟩
  | 4 => ⟨S_, .f32⟩
  | 5 => ⟨S100000x20, .f32⟩
  | 6 => ⟨S3200000x1, .i32⟩
  | 7 => ⟨S100000x20, .f32⟩
  | 8 => ⟨S100000x20, .f32⟩
  | 9 => ⟨S100000x20, .f32⟩
  | 10 => ⟨S1x20, .f32⟩
  | 11 => ⟨S100000x20, .f32⟩
  | 12 => ⟨S100000x20, .f32⟩
  | 13 => ⟨S_, .f32⟩
  | 14 => ⟨S20, .f32⟩
  | 15 => ⟨S_, .f32⟩
  | 16 => ⟨S20, .f32⟩
  | 17 => ⟨S20, .f32⟩
  | 18 => ⟨S1x20, .f32⟩
  | 19 => ⟨S100000x20, .f32⟩
  | 20 => ⟨S100000x20, .f32⟩
  | 21 => ⟨S100000x20, .f32⟩
  | 22 => ⟨S_, .f32⟩
  | 23 => ⟨S20, .f32⟩
  | 24 => ⟨S_, .f32⟩
  | 25 => ⟨S20, .f32⟩
  | 26 => ⟨S20, .f32⟩
  | 27 => ⟨S1x20, .f32⟩
  | 28 => ⟨S100000x20, .f32⟩
  | 29 => ⟨S100000x20, .f32⟩
  | 30 => ⟨S_, .f32⟩
  | 31 => ⟨S20, .f32⟩
  | 32 => ⟨S20, .f32⟩
  | 33 => ⟨S20, .f32⟩
  | 34 => ⟨S1x20, .f32⟩
  | 35 => ⟨S100000x20, .f32⟩
  | 36 => ⟨S100000x20, .f32⟩
  | 37 => ⟨S1x20, .f32⟩
  | 38 => ⟨S100000x20, .f32⟩
  | 39 => ⟨S100000x20, .f32⟩
  | 40 => ⟨S1x20, .f32⟩
  | 41 => ⟨S100000x20, .f32⟩
  | 42 => ⟨S100000x20, .f32⟩
  | 43 => ⟨S_, .f32⟩
  | 44 => ⟨S100000x20, .f32⟩
  | 45 => ⟨S100000x20, .f32⟩
  | 46 => ⟨S_, .f32⟩
  | 47 => ⟨S1000x20, .f32⟩
  | 48 => ⟨S100000x1, .i32⟩
  | 49 => ⟨S1000x20, .f32⟩
  | 50 => ⟨S1000x2, .f32⟩
  | 51 => ⟨S1x2, .f32⟩
  | 52 => ⟨S1000x2, .f32⟩
  | 53 => ⟨S1000x2, .f32⟩
  | _ => ⟨S100000x10, .f32⟩

abbrev hbmTy (i : Nat) : BufTy := match i / 128 with
  | 0 => hbmTy0_0 i
  | 1 => hbmTy0_1 i
  | _ => ⟨S100000x10, .f32⟩

abbrev bufTy : (tb : Table) → Fin (tcTables nBuf tb) → BufTy
  | .hbm, ⟨i, _⟩ => hbmTy i
  | _, _ => ⟨S100000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_1 : Ref sig .tc := ⟨.hbm, 39, rfl⟩
abbrev main_v19 : Ref sig .tc := ⟨.hbm, 40, rfl⟩
abbrev main_cst_2 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_3 : Ref sig .tc := ⟨.hbm, 48, rfl⟩
abbrev main_v26 : Ref sig .tc := ⟨.hbm, 49, rfl⟩
abbrev main_cst_4 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_5 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_call0_cst : Ref sig .tc := ⟨.hbm, 69, rfl⟩
abbrev main_call0_v0 : Ref sig .tc := ⟨.hbm, 70, rfl⟩
abbrev main_v44 : Ref sig .tc := ⟨.hbm, 71, rfl⟩
abbrev main_c_6 : Ref sig .tc := ⟨.hbm, 72, rfl⟩
abbrev main_v45 : Ref sig .tc := ⟨.hbm, 73, rfl⟩
abbrev main_v46 : Ref sig .tc := ⟨.hbm, 74, rfl⟩
abbrev main_c_7 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_8 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_9 : Ref sig .tc := ⟨.hbm, 90, rfl⟩
abbrev main_v60 : Ref sig .tc := ⟨.hbm, 91, rfl⟩
abbrev main_cst_10 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_11 : Ref sig .tc := ⟨.hbm, 99, rfl⟩
abbrev main_v67 : Ref sig .tc := ⟨.hbm, 100, rfl⟩
abbrev main_cst_12 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_13 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_call1_cst : Ref sig .tc := ⟨.hbm, 120, rfl⟩
abbrev main_call1_v0 : Ref sig .tc := ⟨.hbm, 121, rfl⟩
abbrev main_v85 : Ref sig .tc := ⟨.hbm, 122, rfl⟩
abbrev main_c_14 : Ref sig .tc := ⟨.hbm, 123, rfl⟩
abbrev main_v86 : Ref sig .tc := ⟨.hbm, 124, rfl⟩
abbrev main_v87 : Ref sig .tc := ⟨.hbm, 125, rfl⟩
abbrev main_c_15 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_16 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_cst_17 : Ref sig .tc := ⟨.hbm, 141, rfl⟩
abbrev main_v101 : Ref sig .tc := ⟨.hbm, 142, rfl⟩
abbrev main_cst_18 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_cst_19 : Ref sig .tc := ⟨.hbm, 150, rfl⟩
abbrev main_v108 : Ref sig .tc := ⟨.hbm, 151, rfl⟩
abbrev main_cst_20 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_cst_21 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_call2_cst : Ref sig .tc := ⟨.hbm, 171, rfl⟩
abbrev main_call2_v0 : Ref sig .tc := ⟨.hbm, 172, rfl⟩
abbrev main_v126 : Ref sig .tc := ⟨.hbm, 173, rfl⟩
abbrev main_cst_22 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x10 : S_.BroadcastsInDim S100000x10 (![] : Fin 0 → Fin S100000x10.rank)
  bcast_S20_S1x20_1 : S20.BroadcastsInDim S1x20 (![1] : Fin 1 → Fin S1x20.rank)
  bcast_S1x20_S100000x20_0_1 : S1x20.BroadcastsInDim S100000x20 (![0, 1] : Fin 2 → Fin S100000x20.rank)
  reducesTo_S100000x20_S20_d0 : S100000x20.ReducesTo [0] S20
  h_S_ : 0 < S_.numel
  bcast_S_S20 : S_.BroadcastsInDim S20 (![] : Fin 0 → Fin S20.rank)
  bcast_S_S100000x20 : S_.BroadcastsInDim S100000x20 (![] : Fin 0 → Fin S100000x20.rank)
  bcast_S_S1000x20 : S_.BroadcastsInDim S1000x20 (![] : Fin 0 → Fin S1000x20.rank)
  bcast_S100000_S100000x1_0 : S100000.BroadcastsInDim S100000x1 (![0] : Fin 1 → Fin S100000x1.rank)
  bcast_S2_S1x2_1 : S2.BroadcastsInDim S1x2 (![1] : Fin 1 → Fin S1x2.rank)
  bcast_S1x2_S1000x2_0_1 : S1x2.BroadcastsInDim S1000x2 (![0, 1] : Fin 2 → Fin S1000x2.rank)
  gather_S100000x10_S3200000x1_S3200000x10_1_0_n_n_0_1_110_wf : GatherDims.WF S100000x10 S3200000x1 S3200000x10 [1] [0] [] [0] [] 1 ![1, 10]
  scatter_S100000x10_S3200000x1_S3200000x10_1_0_0_1_wf : ScatterDims.WF S100000x10 S3200000x1 S3200000x10 [1] [0] [0] 1
  dot_S100000x10_S10x20_S100000x20_1_0_0_1_n_n_wf : DotDims.WF S100000x10 S10x20 S100000x20 [1] [0] [0] [1] [] []
  gather_S100000x20_S3200000x1_S3200000x20_1_0_n_n_0_1_120_wf : GatherDims.WF S100000x20 S3200000x1 S3200000x20 [1] [0] [] [0] [] 1 ![1, 20]
  scatter_S100000x20_S3200000x1_S3200000x20_1_0_0_1_wf : ScatterDims.WF S100000x20 S3200000x1 S3200000x20 [1] [0] [0] 1
  dot_S100000x20_S20x20_S100000x20_1_0_0_1_n_n_wf : DotDims.WF S100000x20 S20x20 S100000x20 [1] [0] [0] [1] [] []
  scatter_S1000x20_S100000x1_S100000x20_1_0_0_1_wf : ScatterDims.WF S1000x20 S100000x1 S100000x20 [1] [0] [0] 1
  dot_S1000x20_S20x2_S1000x2_1_0_0_1_n_n_wf : DotDims.WF S1000x20 S20x2 S1000x2 [1] [0] [0] [1] [] []

variable [Facts₀]

def gather_S100000x10_S3200000x1_S3200000x10_1_0_n_n_0_1_110 : GatherDims S100000x10 S3200000x1 S3200000x10 where
  offsetDims := [1]
  collapsedSliceDims := [0]
  operandBatchingDims := []
  startIndicesBatchingDims := []
  startIndexMap := [0]
  indexVectorDim := 1
  sliceSizes := ![1, 10]
  wf := gather_S100000x10_S3200000x1_S3200000x10_1_0_n_n_0_1_110_wf
def scatter_S100000x10_S3200000x1_S3200000x10_1_0_0_1 : ScatterDims S100000x10 S3200000x1 S3200000x10 where
  updateWindowDims := [1]
  insertedWindowDims := [0]
  scatterDimsToOperandDims := [0]
  indexVectorDim := 1
  wf := scatter_S100000x10_S3200000x1_S3200000x10_1_0_0_1_wf
def dot_S100000x10_S10x20_S100000x20_1_0_0_1_n_n : DotDims S100000x10 S10x20 S100000x20 where
  lhsContracting := [1]
  rhsContracting := [0]
  lhsNonContracting := [0]
  rhsNonContracting := [1]
  lhsBatch := []
  rhsBatch := []
  wf := dot_S100000x10_S10x20_S100000x20_1_0_0_1_n_n_wf
def gather_S100000x20_S3200000x1_S3200000x20_1_0_n_n_0_1_120 : GatherDims S100000x20 S3200000x1 S3200000x20 where
  offsetDims := [1]
  collapsedSliceDims := [0]
  operandBatchingDims := []
  startIndicesBatchingDims := []
  startIndexMap := [0]
  indexVectorDim := 1
  sliceSizes := ![1, 20]
  wf := gather_S100000x20_S3200000x1_S3200000x20_1_0_n_n_0_1_120_wf
def scatter_S100000x20_S3200000x1_S3200000x20_1_0_0_1 : ScatterDims S100000x20 S3200000x1 S3200000x20 where
  updateWindowDims := [1]
  insertedWindowDims := [0]
  scatterDimsToOperandDims := [0]
  indexVectorDim := 1
  wf := scatter_S100000x20_S3200000x1_S3200000x20_1_0_0_1_wf
def dot_S100000x20_S20x20_S100000x20_1_0_0_1_n_n : DotDims S100000x20 S20x20 S100000x20 where
  lhsContracting := [1]
  rhsContracting := [0]
  lhsNonContracting := [0]
  rhsNonContracting := [1]
  lhsBatch := []
  rhsBatch := []
  wf := dot_S100000x20_S20x20_S100000x20_1_0_0_1_n_n_wf
def scatter_S1000x20_S100000x1_S100000x20_1_0_0_1 : ScatterDims S1000x20 S100000x1 S100000x20 where
  updateWindowDims := [1]
  insertedWindowDims := [0]
  scatterDimsToOperandDims := [0]
  indexVectorDim := 1
  wf := scatter_S1000x20_S100000x1_S100000x20_1_0_0_1_wf
def dot_S1000x20_S20x2_S1000x2_1_0_0_1_n_n : DotDims S1000x20 S20x2 S1000x2 where
  lhsContracting := [1]
  rhsContracting := [0]
  lhsNonContracting := [0]
  rhsNonContracting := [1]
  lhsBatch := []
  rhsBatch := []
  wf := dot_S1000x20_S20x2_S1000x2_1_0_0_1_n_n_wf

class Facts : Prop extends Facts₀ where

variable [Facts]
-- ==== Proof.KernelRun.lean ====
/-
  The kernel program's run with its result named: every weakly fair execution of the seven-region program terminates
  without a fault, the argument arrays end as launched, and the result array ends at the contents the last region's
  write-backs leave — the fold of the buffer contents through the seven host stretches and seven regions, read at the
  result's buffer.
-/
import proofs.«113277_j59725815218466_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run, with the result array at the last boundary's contents and every argument array as launched. -/
theorem run_named : θ_run defs (onTc (τ := τ) (main (F := F))) ⟨m, fun _ => 0, ρ⟩ (fun r => ∀ c : Dev nD,
      r.2.mem ((c.tc : Thread nD τ).loc main_v71) = W14 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v71 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c),
       (h c _ (mem_uc main_arg16 (by decide))).trans (W14_main_arg16 m ρ c)⟩)

end Cert.KernelIdeal.RunValue

end
-- ==== Proof.RefFold.lean ====
/-
  The reference program's result buffer, read layer by layer. The program is one straight line of 165 host operations; the
  contents of every buffer after the line are a fold of the operations over the launch contents. The line is cut after
  each layer's output (operations 0–54, 55–105, 106–156, 157–164): the buffer contents after a prefix are the starting
  contents for the rest. Each layer's output is then that layer's operations applied to the previous layer's output,
  the two edge-index vectors and the layer's own arguments, and every intermediate is read exactly once per layer.
-/
import proofs.«113277_j59725815218466_1_alg».proof.Proof.RefRunP
import proofs.«113277_j59725815218466_1_alg».proof.Proof.RefReadP
import Idealize.ShloMosaic.Lib.Pipeline.Frame

set_option maxRecDepth 16384
-- reading one buffer through a layer's fifty operations rewrites once per operation and reference
set_option maxHeartbeats 40000000

noncomputable section

namespace Cert.ReferenceIdeal.Fold

open Cert.ReferenceIdeal Cert.ReferenceIdeal.Gen Idealize.ShloMosaic Idealize.ShloMosaic.TcCoe Idealize.SL.Sem Idealize.ShloMosaic.StableHlo

/-- The contents after a line are the contents after its tail, started from the contents after its head. -/
theorem after_take_drop (k : ℕ) (l : List (HloOp τ sig (Elt Ideal))) (V : Valuation τ sig (Elt Ideal)) :
    after l V = after (l.drop k) (after (l.take k) V) := by
  rw [← StableHlo.after_append, List.take_append_drop]

/-- The first layer's operations, and the rest. -/
abbrev L1 : List (HloOp τ sig (Elt Ideal)) := (ValueP.ops (F := Ideal)).take 55
abbrev R1 : List (HloOp τ sig (Elt Ideal)) := (ValueP.ops (F := Ideal)).drop 55
/-- The second layer's operations, and the rest. -/
abbrev L2 : List (HloOp τ sig (Elt Ideal)) := R1.take 51
abbrev R2 : List (HloOp τ sig (Elt Ideal)) := R1.drop 51
/-- The third layer's operations, and the rest: the per-graph sum and the classifier. -/
abbrev L3 : List (HloOp τ sig (Elt Ideal)) := R2.take 51
abbrev R3 : List (HloOp τ sig (Elt Ideal)) := R2.drop 51

variable (V : Valuation τ sig (Elt Ideal))

/-- The buffer contents after the first, the second and the third layer. -/
def U1 : Valuation τ sig (Elt Ideal) := after L1 V
def U2 : Valuation τ sig (Elt Ideal) := after L2 (U1 V)
def U3 : Valuation τ sig (Elt Ideal) := after L3 (U2 V)

theorem fold_eq : after (ValueP.ops (F := Ideal)) V = after R3 (U3 V) := by
  unfold U3 U2 U1
  rw [after_take_drop 55 ValueP.ops V, after_take_drop 51 R1, after_take_drop 51 R2]

/-! ## After the first layer -/

theorem U1_v1 : (U1 V (Proc.devRef .tc main_v1) : S3200000.Idx → BitVec 32) = ReadP.val_main_v1 (V (Proc.devRef .tc main_arg1)) := by
  show after L1 V (Proc.devRef .tc main_v1) = _
  simp only [L1, ValueP.ops, List.take_succ_cons, List.take_zero]
  after_results_simp <;> rfl
theorem U1_v3 : (U1 V (Proc.devRef .tc main_v3) : S3200000.Idx → BitVec 32) = ReadP.val_main_v3 (V (Proc.devRef .tc main_arg1)) := by
  show after L1 V (Proc.devRef .tc main_v3) = _
  simp only [L1, ValueP.ops, List.take_succ_cons, List.take_zero]
  after_results_simp <;> rfl
theorem U1_v44 : (U1 V (Proc.devRef .tc main_v44) : S100000x20.Idx → EReal) = ReadP.val_main_v44 (V (Proc.devRef .tc main_arg0)) (V (Proc.devRef .tc main_arg1)) (V (Proc.devRef .tc main_arg3)) (V (Proc.devRef .tc main_arg4)) (V (Proc.devRef .tc main_arg5)) (V (Proc.devRef .tc main_arg6)) := by
  show after L1 V (Proc.devRef .tc main_v44) = _
  simp only [L1, ValueP.ops, List.take_succ_cons, List.take_zero]
  after_results_simp <;> rfl
theorem U1_arg2 : U1 V (Proc.devRef .tc main_arg2) = V (Proc.devRef .tc main_arg2) := by
  show after L1 V (Proc.devRef .tc main_arg2) = _
  simp only [L1, R1, R2, R3, ValueP.ops, List.take_succ_cons, List.take_zero, List.drop_succ_cons, List.drop_zero]
  after_results_simp <;> rfl
theorem U1_arg7 : U1 V (Proc.devRef .tc main_arg7) = V (Proc.devRef .tc main_arg7) := by
  show after L1 V (Proc.devRef .tc main_arg7) = _
  simp only [L1, R1, R2, R3, ValueP.ops, List.take_succ_cons, List.take_zero, List.drop_succ_cons, List.drop_zero]
  after_results_simp <;> rfl
theorem U1_arg8 : U1 V (Proc.devRef .tc main_arg8) = V (Proc.devRef .tc main_arg8) := by
  show after L1 V (Proc.devRef .tc main_arg8) = _
  simp only [L1, R1, R2, R3, ValueP.ops, List.take_succ_cons, List.take_zero, List.drop_succ_cons, List.drop_zero]
  after_results_simp <;> rfl
theorem U1_arg9 : U1 V (Proc.devRef .tc main_arg9) = V (Proc.devRef .tc main_arg9) := by
  show after L1 V (Proc.devRef .tc main_arg9) = _
  simp only [L1, R1, R2, R3, ValueP.ops, List.take_succ_cons, List.take_zero, List.drop_succ_cons, List.drop_zero]
  after_results_simp <;> rfl
theorem U1_arg10 : U1 V (Proc.devRef .tc main_arg10) = V (Proc.devRef .tc main_arg10) := by
  show after L1 V (Proc.devRef .tc main_arg10) = _
  simp only [L1, R1, R2, R3, ValueP.ops, List.take_succ_cons, List.take_zero, List.drop_succ_cons, List.drop_zero]
  after_results_simp <;> rfl
theorem U1_arg11 : U1 V (Proc.devRef .tc main_arg11) = V (Proc.devRef .tc main_arg11) := by
  show after L1 V (Proc.devRef .tc main_arg11) = _
  simp only [L1, R1, R2, R3, ValueP.ops, List.take_succ_cons, List.take_zero, List.drop_succ_cons, List.drop_zero]
  after_results_simp <;> rfl
theorem U1_arg12 : U1 V (Proc.devRef .tc main_arg12) = V (Proc.devRef .tc main_arg12) := by
  show after L1 V (Proc.devRef .tc main_arg12) = _
  simp only [L1, R1, R2, R3, ValueP.ops, List.take_succ_cons, List.take_zero, List.drop_succ_cons, List.drop_zero]
  after_results_simp <;> rfl
theorem U1_arg13 : U1 V (Proc.devRef .tc main_arg13) = V (Proc.devRef .tc main_arg13) := by
  show after L1 V (Proc.devRef .tc main_arg13) = _
  simp only [L1, R1, R2, R3, ValueP.ops, List.take_succ_cons, List.take_zero, List.drop_succ_cons, List.drop_zero]
  after_results_simp <;> rfl
theorem U1_arg14 : U1 V (Proc.devRef .tc main_arg14) = V (Proc.devRef .tc main_arg14) := by
  show after L1 V (Proc.devRef .tc main_arg14) = _
  simp only [L1, R1, R2, R3, ValueP.ops, List.take_succ_cons, List.take_zero, List.drop_succ_cons, List.drop_zero]
  after_results_simp <;> rfl
theorem U1_arg15 : U1 V (Proc.devRef .tc main_arg15) = V (Proc.devRef .tc main_arg15) := by
  show after L1 V (Proc.devRef .tc main_arg15) = _
  simp only [L1, R1, R2, R3, ValueP.ops, List.take_succ_cons, List.take_zero, List.drop_succ_cons, List.drop_zero]
  after_results_simp <;> rfl
theorem U1_arg16 : U1 V (Proc.devRef .tc main_arg16) = V (Proc.devRef .tc main_arg16) := by
  show after L1 V (Proc.devRef .tc main_arg16) = _
  simp only [L1, R1, R2, R3, ValueP.ops, List.take_succ_cons, List.take_zero, List.drop_succ_cons, List.drop_zero]
  after_results_simp <;> rfl

/-! ## After the second layer -/

theorem U2_v1 : U2 V (Proc.devRef .tc main_v1) = U1 V (Proc.devRef .tc main_v1) := by
  show after L2 (U1 V) (Proc.devRef .tc main_v1) = _
  simp only [L2, R1, ValueP.ops, List.take_succ_cons, List.take_zero, List.drop_succ_cons, List.drop_zero]
  after_results_simp <;> rfl
theorem U2_v3 : U2 V (Proc.devRef .tc main_v3) = U1 V (Proc.devRef .tc main_v3) := by
  show after L2 (U1 V) (Proc.devRef .tc main_v3) = _
  simp only [L2, R1, ValueP.ops, List.take_succ_cons, List.take_zero, List.drop_succ_cons, List.drop_zero]
  after_results_simp <;> rfl
theorem U2_v85 : (U2 V (Proc.devRef .tc main_v85) : S100000x20.Idx → EReal) = ReadP.val_main_v85 (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  show after L2 (U1 V) (Proc.devRef .tc main_v85) = _
  simp only [L2, R1, ValueP.ops, List.take_succ_cons, List.take_zero, List.drop_succ_cons, List.drop_zero]
  after_results_simp
  rw [U1_v44, U1_v1, U1_v3, U1_arg7, U1_arg8, U1_arg9, U1_arg10]; rfl
theorem U2_arg11 : U2 V (Proc.devRef .tc main_arg11) = U1 V (Proc.devRef .tc main_arg11) := by
  show after L2 (U1 V) (Proc.devRef .tc main_arg11) = _
  simp only [L2, R1, R2, R3, ValueP.ops, List.take_succ_cons, List.take_zero, List.drop_succ_cons, List.drop_zero]
  after_results_simp <;> rfl
theorem U2_arg12 : U2 V (Proc.devRef .tc main_arg12) = U1 V (Proc.devRef .tc main_arg12) := by
  show after L2 (U1 V) (Proc.devRef .tc main_arg12) = _
  simp only [L2, R1, R2, R3, ValueP.ops, List.take_succ_cons, List.take_zero, List.drop_succ_cons, List.drop_zero]
  after_results_simp <;> rfl
theorem U2_arg13 : U2 V (Proc.devRef .tc main_arg13) = U1 V (Proc.devRef .tc main_arg13) := by
  show after L2 (U1 V) (Proc.devRef .tc main_arg13) = _
  simp only [L2, R1, R2, R3, ValueP.ops, List.take_succ_cons, List.take_zero, List.drop_succ_cons, List.drop_zero]
  after_results_simp <;> rfl
theorem U2_arg14 : U2 V (Proc.devRef .tc main_arg14) = U1 V (Proc.devRef .tc main_arg14) := by
  show after L2 (U1 V) (Proc.devRef .tc main_arg14) = _
  simp only [L2, R1, R2, R3, ValueP.ops, List.take_succ_cons, List.take_zero, List.drop_succ_cons, List.drop_zero]
  after_results_simp <;> rfl
theorem U2_arg2 : U2 V (Proc.devRef .tc main_arg2) = U1 V (Proc.devRef .tc main_arg2) := by
  show after L2 (U1 V) (Proc.devRef .tc main_arg2) = _
  simp only [L2, R1, R2, R3, ValueP.ops, List.take_succ_cons, List.take_zero, List.drop_succ_cons, List.drop_zero]
  after_results_simp <;> rfl
theorem U2_arg15 : U2 V (Proc.devRef .tc main_arg15) = U1 V (Proc.devRef .tc main_arg15) := by
  show after L2 (U1 V) (Proc.devRef .tc main_arg15) = _
  simp only [L2, R1, R2, R3, ValueP.ops, List.take_succ_cons, List.take_zero, List.drop_succ_cons, List.drop_zero]
  after_results_simp <;> rfl
theorem U2_arg16 : U2 V (Proc.devRef .tc main_arg16) = U1 V (Proc.devRef .tc main_arg16) := by
  show after L2 (U1 V) (Proc.devRef .tc main_arg16) = _
  simp only [L2, R1, R2, R3, ValueP.ops, List.take_succ_cons, List.take_zero, List.drop_succ_cons, List.drop_zero]
  after_results_simp <;> rfl

/-! ## After the third layer -/

theorem U3_v126 : (U3 V (Proc.devRef .tc main_v126) : S100000x20.Idx → EReal) = ReadP.val_main_v126 (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  show after L3 (U2 V) (Proc.devRef .tc main_v126) = _
  simp only [L3, R2, R1, ValueP.ops, List.take_succ_cons, List.take_zero, List.drop_succ_cons, List.drop_zero]
  after_results_simp
  rw [U2_v85, U2_v1, U2_v3, U1_v1, U1_v3, U2_arg11, U2_arg12, U2_arg13, U2_arg14, U1_arg11, U1_arg12, U1_arg13, U1_arg14]; rfl
theorem U3_arg2 : U3 V (Proc.devRef .tc main_arg2) = U2 V (Proc.devRef .tc main_arg2) := by
  show after L3 (U2 V) (Proc.devRef .tc main_arg2) = _
  simp only [L3, R1, R2, R3, ValueP.ops, List.take_succ_cons, List.take_zero, List.drop_succ_cons, List.drop_zero]
  after_results_simp <;> rfl
theorem U3_arg15 : U3 V (Proc.devRef .tc main_arg15) = U2 V (Proc.devRef .tc main_arg15) := by
  show after L3 (U2 V) (Proc.devRef .tc main_arg15) = _
  simp only [L3, R1, R2, R3, ValueP.ops, List.take_succ_cons, List.take_zero, List.drop_succ_cons, List.drop_zero]
  after_results_simp <;> rfl
theorem U3_arg16 : U3 V (Proc.devRef .tc main_arg16) = U2 V (Proc.devRef .tc main_arg16) := by
  show after L3 (U2 V) (Proc.devRef .tc main_arg16) = _
  simp only [L3, R1, R2, R3, ValueP.ops, List.take_succ_cons, List.take_zero, List.drop_succ_cons, List.drop_zero]
  after_results_simp <;> rfl

/-! ## The result -/

/-- The result buffer after the whole line is the last stage of the reference, as a function of the arguments. -/
theorem result_eq : (after (ValueP.ops (F := Ideal)) V (Proc.devRef .tc main_v133) : S1000x2.Idx → EReal)
    = ReadP.val_main_v133 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  rw [fold_eq]
  show after R3 (U3 V) (Proc.devRef .tc main_v133) = _
  simp only [R3, R2, R1, ValueP.ops, List.drop_succ_cons, List.drop_zero]
  after_results_simp
  rw [U3_v126, U3_arg2, U3_arg15, U3_arg16, U2_arg2, U2_arg15, U2_arg16, U1_arg2, U1_arg15, U1_arg16]; rfl

end Cert.ReferenceIdeal.Fold

end
-- ==== Proof.GlueHost.lean ====
/-
  The host side of the kernel program, one stretch of host operations at a time: what each buffer a region reads holds
  when the region is entered, in terms of the buffers the stretch itself starts from. A stretch before a linear-layer
  region gathers the node features along the edges' sources and adds them up at the edges' targets; a stretch before a
  normalisation region divides the column sums by the row count and forms the variance as the mean of squares minus the
  squared mean; the last stretch adds the node features up per graph. A buffer no operation of a stretch writes and no
  region owns keeps its contents across both, which walks every argument and the two edge-index vectors back to the
  launch memory.
-/
import proofs.«113277_j59725815218466_1_alg».proof.Proof.Gen.KernelIdeal.Frame
import Idealize.ShloMosaic.Lib.StableHlo.Run
import Idealize.ShloMosaic.PureOps.Ideal

set_option maxRecDepth 16384
-- reading one buffer through a stretch of eighteen operations rewrites once per operation and reference
set_option maxHeartbeats 4000000

noncomputable section

namespace Cert.KernelIdeal.Glue

open Cert.KernelIdeal Cert.KernelIdeal.Gen
open Idealize.ShloMosaic Idealize.ShloMosaic.TcCoe Idealize.SL.Sem Idealize.ShloMosaic.StableHlo

/-! ## The host operations as functions -/

/-- Row `0` of the edge list, flat: the edges' sources. -/
def srcRow (x1 : IVec S2x3200000 32) : IVec S3200000 32 :=
  shapeCast S3200000 (extractStridedSlice S1x3200000 ![0, 0] x1 slices_S2x3200000_S1x3200000_0_0) shapeCasts_S1x3200000_S3200000
/-- Row `1` of the edge list, flat: the edges' targets. -/
def dstRow (x1 : IVec S2x3200000 32) : IVec S3200000 32 :=
  shapeCast S3200000 (extractStridedSlice S1x3200000 ![1, 0] x1 slices_S2x3200000_S1x3200000_1_0) shapeCasts_S1x3200000_S3200000
/-- The gather's start indices: a negative source wraps around by the row count; laid as a column. -/
def srcCol (r : IVec S3200000 32) : IVec S3200000x1 32 :=
  broadcastInDim S3200000x1 ![0] bcast_S3200000_S3200000x1_0
    (select (cmpi .slt r (broadcastInDim S3200000 ![] bcast_S_S3200000 (constantI S_ 32 0#32)))
      (addi r (broadcastInDim S3200000 ![] bcast_S_S3200000 (constantI S_ 32 100000#32))) r)
/-- The scatter's indices: the targets laid as a column. -/
def dstCol (r : IVec S3200000 32) : IVec S3200000x1 32 := broadcastInDim S3200000x1 ![0] bcast_S3200000_S3200000x1_0 r

/-- The neighbours' sum over ten features: gather the rows at the sources, add them up at the targets, from zero. -/
def agg10 (src dst : IVec S3200000 32) (h : FVec Ideal S100000x10 .f32) : FVec Ideal S100000x10 .f32 :=
  Host.scatterAdd (F := Ideal) scatter_S100000x10_S3200000x1_S3200000x10_1_0_0_1
    (broadcastInDim S100000x10 ![] bcast_S_S100000x10 (constant (F := Ideal) S_ .f32 0x00000000#32)) (dstCol dst)
    (Host.gather gather_S100000x10_S3200000x1_S3200000x10_1_0_n_n_0_1_110 h (srcCol src))
/-- The neighbours' sum over twenty features. -/
def agg20 (src dst : IVec S3200000 32) (h : FVec Ideal S100000x20 .f32) : FVec Ideal S100000x20 .f32 :=
  Host.scatterAdd (F := Ideal) scatter_S100000x20_S3200000x1_S3200000x20_1_0_0_1
    (broadcastInDim S100000x20 ![] bcast_S_S100000x20 (constant (F := Ideal) S_ .f32 0x00000000#32)) (dstCol dst)
    (Host.gather gather_S100000x20_S3200000x1_S3200000x20_1_0_n_n_0_1_120 h (srcCol src))
/-- The per-graph sum of the node features, from zero. -/
def pool (x2 : IVec S100000 32) (h : FVec Ideal S100000x20 .f32) : FVec Ideal S1000x20 .f32 :=
  Host.scatterAdd (F := Ideal) scatter_S1000x20_S100000x1_S100000x20_1_0_0_1
    (broadcastInDim S1000x20 ![] bcast_S_S1000x20 (constant (F := Ideal) S_ .f32 0x00000000#32))
    (broadcastInDim S100000x1 ![0] bcast_S100000_S100000x1_0 x2) h

/-- A length-20 vector as a one-row matrix. -/
def row20 (v : FVec Ideal S20 .f32) : FVec Ideal S1x20 .f32 := shapeCast S1x20 v shapeCasts_S20_S1x20
/-- A length-2 vector as a one-row matrix. -/
def row2 (v : FVec Ideal S2 .f32) : FVec Ideal S1x2 .f32 := shapeCast S1x2 v shapeCasts_S2_S1x2
/-- The row count in every column of a one-row matrix. -/
def cNrow : FVec Ideal S1x20 .f32 := broadcastInDim S1x20 ![] bcast_S_S1x20 (constant (F := Ideal) S_ .f32 0x47C35000#32)
/-- The column means from the column sums. -/
def meanRow (s : FVec Ideal S1x20 .f32) : FVec Ideal S1x20 .f32 := Host.divf (F := Ideal) s cNrow
/-- The column variances from the column sums and sums of squares: the mean of squares minus the squared mean. -/
def varRow (s ss : FVec Ideal S1x20 .f32) : FVec Ideal S1x20 .f32 :=
  subf (Host.divf (F := Ideal) ss cNrow) (mulf (meanRow s) (meanRow s))

variable (m : (ℓ : Loc nD τ sig) → Buf (Elt Ideal) ℓ) (ρ : Dev nD → PrngReg) (c : Dev nD)

/-- A buffer none of a stretch's operations writes keeps its contents across the stretch. -/
macro "host_skip " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ## Stretch 0: from the launch memory to the first linear layer's entry -/

theorem W1_v1 : (W1 m ρ c (Proc.devRef .tc main_v1) : S3200000.Idx → BitVec 32) = srcRow (m ((c : Thread nD τ).loc main_arg1)) := by
  show StableHlo.after hostOps0 (W0 m ρ c) (Proc.devRef .tc main_v1) = _
  after_results; rfl
theorem W1_v3 : (W1 m ρ c (Proc.devRef .tc main_v3) : S3200000.Idx → BitVec 32) = dstRow (m ((c : Thread nD τ).loc main_arg1)) := by
  show StableHlo.after hostOps0 (W0 m ρ c) (Proc.devRef .tc main_v3) = _
  after_results; rfl
theorem W1_v13 : (W1 m ρ c (Proc.devRef .tc main_v13) : S100000x10.Idx → EReal)
    = agg10 (srcRow (m ((c : Thread nD τ).loc main_arg1))) (dstRow (m ((c : Thread nD τ).loc main_arg1))) (m ((c : Thread nD τ).loc main_arg0)) := by
  show StableHlo.after hostOps0 (W0 m ρ c) (Proc.devRef .tc main_v13) = _
  after_results; rfl
theorem W1_v14 : (W1 m ρ c (Proc.devRef .tc main_v14) : S1x20.Idx → EReal) = row20 (m ((c : Thread nD τ).loc main_arg4)) := by
  show StableHlo.after hostOps0 (W0 m ρ c) (Proc.devRef .tc main_v14) = _
  after_results; rfl
theorem W1_arg0 : W1 m ρ c (Proc.devRef .tc main_arg0) = m ((c : Thread nD τ).loc main_arg0) :=
  calc W1 m ρ c (Proc.devRef .tc main_arg0)
    _ = W0 m ρ c (Proc.devRef .tc main_arg0) := by host_skip hostOps0
    _ = m ((c : Thread nD τ).loc main_arg0) := rfl
theorem W1_arg3 : W1 m ρ c (Proc.devRef .tc main_arg3) = m ((c : Thread nD τ).loc main_arg3) :=
  calc W1 m ρ c (Proc.devRef .tc main_arg3)
    _ = W0 m ρ c (Proc.devRef .tc main_arg3) := by host_skip hostOps0
    _ = m ((c : Thread nD τ).loc main_arg3) := rfl

/-! ## Stretch 1: column means and variances from the sums, the scale and shift as rows -/

theorem W3_v17 : ((W3 m ρ c (Proc.devRef .tc main_v17)) : S1x20.Idx → EReal) = meanRow (W2 m ρ c (Proc.devRef .tc main_v15_1)) := by
  show StableHlo.after hostOps1 (W2 m ρ c) (Proc.devRef .tc main_v17) = _
  after_results; rfl
theorem W3_v21 : ((W3 m ρ c (Proc.devRef .tc main_v21)) : S1x20.Idx → EReal) = varRow (W2 m ρ c (Proc.devRef .tc main_v15_1)) (W2 m ρ c (Proc.devRef .tc main_v15_2)) := by
  show StableHlo.after hostOps1 (W2 m ρ c) (Proc.devRef .tc main_v21) = _
  after_results; rfl
theorem W2_arg5 : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := by host_skip hostOps0
    _ = m ((c : Thread nD τ).loc main_arg5) := rfl
theorem W2_arg6 : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := by host_skip hostOps0
    _ = m ((c : Thread nD τ).loc main_arg6) := rfl
theorem W3_v22 : ((W3 m ρ c (Proc.devRef .tc main_v22)) : S1x20.Idx → EReal) = row20 (m ((c : Thread nD τ).loc main_arg5)) := by
  show StableHlo.after hostOps1 (W2 m ρ c) (Proc.devRef .tc main_v22) = _
  after_results; rw [W2_arg5]; rfl
theorem W3_v23 : ((W3 m ρ c (Proc.devRef .tc main_v23)) : S1x20.Idx → EReal) = row20 (m ((c : Thread nD τ).loc main_arg6)) := by
  show StableHlo.after hostOps1 (W2 m ρ c) (Proc.devRef .tc main_v23) = _
  after_results; rw [W2_arg6]; rfl
theorem W3_v15_0_keep : W3 m ρ c (Proc.devRef .tc main_v15_0) = W2 m ρ c (Proc.devRef .tc main_v15_0) := by host_skip hostOps1

/-! ## Stretch 2: the neighbours' sum of the layer's input, the bias as a row -/

theorem W4_v1_eq_W1 : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := by host_skip hostOps1
    _ = W1 m ρ c (Proc.devRef .tc main_v1) := W2_of_ne m ρ c main_v1 (by decide)
theorem W4_v3_eq_W1 : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := by host_skip hostOps1
    _ = W1 m ρ c (Proc.devRef .tc main_v3) := W2_of_ne m ρ c main_v3 (by decide)
theorem W5_v34 : ((W5 m ρ c (Proc.devRef .tc main_v34)) : S100000x20.Idx → EReal)
    = agg20 (srcRow (m ((c : Thread nD τ).loc main_arg1))) (dstRow (m ((c : Thread nD τ).loc main_arg1))) (W4 m ρ c (Proc.devRef .tc main_v24)) := by
  show StableHlo.after hostOps2 (W4 m ρ c) (Proc.devRef .tc main_v34) = _
  after_results; rw [W4_v1_eq_W1, W4_v3_eq_W1, W1_v1, W1_v3]; rfl
theorem W4_arg8 : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := by host_skip hostOps1
    _ = W1 m ρ c (Proc.devRef .tc main_arg8) := W2_of_ne m ρ c main_arg8 (by decide)
    _ = W0 m ρ c (Proc.devRef .tc main_arg8) := by host_skip hostOps0
    _ = m ((c : Thread nD τ).loc main_arg8) := rfl
theorem W5_v35 : ((W5 m ρ c (Proc.devRef .tc main_v35)) : S1x20.Idx → EReal) = row20 (m ((c : Thread nD τ).loc main_arg8)) := by
  show StableHlo.after hostOps2 (W4 m ρ c) (Proc.devRef .tc main_v35) = _
  after_results; rw [W4_arg8]; rfl
theorem W5_v24_keep : W5 m ρ c (Proc.devRef .tc main_v24) = W4 m ρ c (Proc.devRef .tc main_v24) := by host_skip hostOps2
theorem W5_arg7 : W5 m ρ c (Proc.devRef .tc main_arg7) = m ((c : Thread nD τ).loc main_arg7) :=
  calc W5 m ρ c (Proc.devRef .tc main_arg7)
    _ = W4 m ρ c (Proc.devRef .tc main_arg7) := by host_skip hostOps2
    _ = W3 m ρ c (Proc.devRef .tc main_arg7) := W4_of_ne m ρ c main_arg7 (by decide)
    _ = W2 m ρ c (Proc.devRef .tc main_arg7) := by host_skip hostOps1
    _ = W1 m ρ c (Proc.devRef .tc main_arg7) := W2_of_ne m ρ c main_arg7 (by decide)
    _ = W0 m ρ c (Proc.devRef .tc main_arg7) := by host_skip hostOps0
    _ = m ((c : Thread nD τ).loc main_arg7) := rfl

/-! ## Stretch 3: column means and variances from the sums, the scale and shift as rows -/

theorem W7_v38 : ((W7 m ρ c (Proc.devRef .tc main_v38)) : S1x20.Idx → EReal) = meanRow (W6 m ρ c (Proc.devRef .tc main_v36_1)) := by
  show StableHlo.after hostOps3 (W6 m ρ c) (Proc.devRef .tc main_v38) = _
  after_results; rfl
theorem W7_v42 : ((W7 m ρ c (Proc.devRef .tc main_v42)) : S1x20.Idx → EReal) = varRow (W6 m ρ c (Proc.devRef .tc main_v36_1)) (W6 m ρ c (Proc.devRef .tc main_v36_2)) := by
  show StableHlo.after hostOps3 (W6 m ρ c) (Proc.devRef .tc main_v42) = _
  after_results; rfl
theorem W6_arg9 : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := by host_skip hostOps2
    _ = W3 m ρ c (Proc.devRef .tc main_arg9) := W4_of_ne m ρ c main_arg9 (by decide)
    _ = W2 m ρ c (Proc.devRef .tc main_arg9) := by host_skip hostOps1
    _ = W1 m ρ c (Proc.devRef .tc main_arg9) := W2_of_ne m ρ c main_arg9 (by decide)
    _ = W0 m ρ c (Proc.devRef .tc main_arg9) := by host_skip hostOps0
    _ = m ((c : Thread nD τ).loc main_arg9) := rfl
theorem W6_arg10 : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := by host_skip hostOps2
    _ = W3 m ρ c (Proc.devRef .tc main_arg10) := W4_of_ne m ρ c main_arg10 (by decide)
    _ = W2 m ρ c (Proc.devRef .tc main_arg10) := by host_skip hostOps1
    _ = W1 m ρ c (Proc.devRef .tc main_arg10) := W2_of_ne m ρ c main_arg10 (by decide)
    _ = W0 m ρ c (Proc.devRef .tc main_arg10) := by host_skip hostOps0
    _ = m ((c : Thread nD τ).loc main_arg10) := rfl
theorem W7_v43 : ((W7 m ρ c (Proc.devRef .tc main_v43)) : S1x20.Idx → EReal) = row20 (m ((c : Thread nD τ).loc main_arg9)) := by
  show StableHlo.after hostOps3 (W6 m ρ c) (Proc.devRef .tc main_v43) = _
  after_results; rw [W6_arg9]; rfl
theorem W7_v44 : ((W7 m ρ c (Proc.devRef .tc main_v44)) : S1x20.Idx → EReal) = row20 (m ((c : Thread nD τ).loc main_arg10)) := by
  show StableHlo.after hostOps3 (W6 m ρ c) (Proc.devRef .tc main_v44) = _
  after_results; rw [W6_arg10]; rfl
theorem W7_v36_0_keep : W7 m ρ c (Proc.devRef .tc main_v36_0) = W6 m ρ c (Proc.devRef .tc main_v36_0) := by host_skip hostOps3

/-! ## Stretch 4: the neighbours' sum of the layer's input, the bias as a row -/

theorem W8_v1_eq_W1 : W8 m ρ c (Proc.devRef .tc main_v1) = W1 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := by host_skip hostOps3
    _ = W5 m ρ c (Proc.devRef .tc main_v1) := W6_of_ne m ρ c main_v1 (by decide)
    _ = W4 m ρ c (Proc.devRef .tc main_v1) := by host_skip hostOps2
    _ = W3 m ρ c (Proc.devRef .tc main_v1) := W4_of_ne m ρ c main_v1 (by decide)
    _ = W2 m ρ c (Proc.devRef .tc main_v1) := by host_skip hostOps1
    _ = W1 m ρ c (Proc.devRef .tc main_v1) := W2_of_ne m ρ c main_v1 (by decide)
theorem W8_v3_eq_W1 : W8 m ρ c (Proc.devRef .tc main_v3) = W1 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := by host_skip hostOps3
    _ = W5 m ρ c (Proc.devRef .tc main_v3) := W6_of_ne m ρ c main_v3 (by decide)
    _ = W4 m ρ c (Proc.devRef .tc main_v3) := by host_skip hostOps2
    _ = W3 m ρ c (Proc.devRef .tc main_v3) := W4_of_ne m ρ c main_v3 (by decide)
    _ = W2 m ρ c (Proc.devRef .tc main_v3) := by host_skip hostOps1
    _ = W1 m ρ c (Proc.devRef .tc main_v3) := W2_of_ne m ρ c main_v3 (by decide)
theorem W9_v55 : ((W9 m ρ c (Proc.devRef .tc main_v55)) : S100000x20.Idx → EReal)
    = agg20 (srcRow (m ((c : Thread nD τ).loc main_arg1))) (dstRow (m ((c : Thread nD τ).loc main_arg1))) (W8 m ρ c (Proc.devRef .tc main_v45)) := by
  show StableHlo.after hostOps4 (W8 m ρ c) (Proc.devRef .tc main_v55) = _
  after_results; rw [W8_v1_eq_W1, W8_v3_eq_W1, W1_v1, W1_v3]; rfl
theorem W8_arg12 : W8 m ρ c (Proc.devRef .tc main_arg12) = m ((c : Thread nD τ).loc main_arg12) :=
  calc W8 m ρ c (Proc.devRef .tc main_arg12)
    _ = W7 m ρ c (Proc.devRef .tc main_arg12) := W8_of_ne m ρ c main_arg12 (by decide)
    _ = W6 m ρ c (Proc.devRef .tc main_arg12) := by host_skip hostOps3
    _ = W5 m ρ c (Proc.devRef .tc main_arg12) := W6_of_ne m ρ c main_arg12 (by decide)
    _ = W4 m ρ c (Proc.devRef .tc main_arg12) := by host_skip hostOps2
    _ = W3 m ρ c (Proc.devRef .tc main_arg12) := W4_of_ne m ρ c main_arg12 (by decide)
    _ = W2 m ρ c (Proc.devRef .tc main_arg12) := by host_skip hostOps1
    _ = W1 m ρ c (Proc.devRef .tc main_arg12) := W2_of_ne m ρ c main_arg12 (by decide)
    _ = W0 m ρ c (Proc.devRef .tc main_arg12) := by host_skip hostOps0
    _ = m ((c : Thread nD τ).loc main_arg12) := rfl
theorem W9_v56 : ((W9 m ρ c (Proc.devRef .tc main_v56)) : S1x20.Idx → EReal) = row20 (m ((c : Thread nD τ).loc main_arg12)) := by
  show StableHlo.after hostOps4 (W8 m ρ c) (Proc.devRef .tc main_v56) = _
  after_results; rw [W8_arg12]; rfl
theorem W9_v45_keep : W9 m ρ c (Proc.devRef .tc main_v45) = W8 m ρ c (Proc.devRef .tc main_v45) := by host_skip hostOps4
theorem W9_arg11 : W9 m ρ c (Proc.devRef .tc main_arg11) = m ((c : Thread nD τ).loc main_arg11) :=
  calc W9 m ρ c (Proc.devRef .tc main_arg11)
    _ = W8 m ρ c (Proc.devRef .tc main_arg11) := by host_skip hostOps4
    _ = W7 m ρ c (Proc.devRef .tc main_arg11) := W8_of_ne m ρ c main_arg11 (by decide)
    _ = W6 m ρ c (Proc.devRef .tc main_arg11) := by host_skip hostOps3
    _ = W5 m ρ c (Proc.devRef .tc main_arg11) := W6_of_ne m ρ c main_arg11 (by decide)
    _ = W4 m ρ c (Proc.devRef .tc main_arg11) := by host_skip hostOps2
    _ = W3 m ρ c (Proc.devRef .tc main_arg11) := W4_of_ne m ρ c main_arg11 (by decide)
    _ = W2 m ρ c (Proc.devRef .tc main_arg11) := by host_skip hostOps1
    _ = W1 m ρ c (Proc.devRef .tc main_arg11) := W2_of_ne m ρ c main_arg11 (by decide)
    _ = W0 m ρ c (Proc.devRef .tc main_arg11) := by host_skip hostOps0
    _ = m ((c : Thread nD τ).loc main_arg11) := rfl

/-! ## Stretch 5: column means and variances from the sums, the scale and shift as rows -/

theorem W11_v59 : ((W11 m ρ c (Proc.devRef .tc main_v59)) : S1x20.Idx → EReal) = meanRow (W10 m ρ c (Proc.devRef .tc main_v57_1)) := by
  show StableHlo.after hostOps5 (W10 m ρ c) (Proc.devRef .tc main_v59) = _
  after_results; rfl
theorem W11_v63 : ((W11 m ρ c (Proc.devRef .tc main_v63)) : S1x20.Idx → EReal) = varRow (W10 m ρ c (Proc.devRef .tc main_v57_1)) (W10 m ρ c (Proc.devRef .tc main_v57_2)) := by
  show StableHlo.after hostOps5 (W10 m ρ c) (Proc.devRef .tc main_v63) = _
  after_results; rfl
theorem W10_arg13 : W10 m ρ c (Proc.devRef .tc main_arg13) = m ((c : Thread nD τ).loc main_arg13) :=
  calc W10 m ρ c (Proc.devRef .tc main_arg13)
    _ = W9 m ρ c (Proc.devRef .tc main_arg13) := W10_of_ne m ρ c main_arg13 (by decide)
    _ = W8 m ρ c (Proc.devRef .tc main_arg13) := by host_skip hostOps4
    _ = W7 m ρ c (Proc.devRef .tc main_arg13) := W8_of_ne m ρ c main_arg13 (by decide)
    _ = W6 m ρ c (Proc.devRef .tc main_arg13) := by host_skip hostOps3
    _ = W5 m ρ c (Proc.devRef .tc main_arg13) := W6_of_ne m ρ c main_arg13 (by decide)
    _ = W4 m ρ c (Proc.devRef .tc main_arg13) := by host_skip hostOps2
    _ = W3 m ρ c (Proc.devRef .tc main_arg13) := W4_of_ne m ρ c main_arg13 (by decide)
    _ = W2 m ρ c (Proc.devRef .tc main_arg13) := by host_skip hostOps1
    _ = W1 m ρ c (Proc.devRef .tc main_arg13) := W2_of_ne m ρ c main_arg13 (by decide)
    _ = W0 m ρ c (Proc.devRef .tc main_arg13) := by host_skip hostOps0
    _ = m ((c : Thread nD τ).loc main_arg13) := rfl
theorem W10_arg14 : W10 m ρ c (Proc.devRef .tc main_arg14) = m ((c : Thread nD τ).loc main_arg14) :=
  calc W10 m ρ c (Proc.devRef .tc main_arg14)
    _ = W9 m ρ c (Proc.devRef .tc main_arg14) := W10_of_ne m ρ c main_arg14 (by decide)
    _ = W8 m ρ c (Proc.devRef .tc main_arg14) := by host_skip hostOps4
    _ = W7 m ρ c (Proc.devRef .tc main_arg14) := W8_of_ne m ρ c main_arg14 (by decide)
    _ = W6 m ρ c (Proc.devRef .tc main_arg14) := by host_skip hostOps3
    _ = W5 m ρ c (Proc.devRef .tc main_arg14) := W6_of_ne m ρ c main_arg14 (by decide)
    _ = W4 m ρ c (Proc.devRef .tc main_arg14) := by host_skip hostOps2
    _ = W3 m ρ c (Proc.devRef .tc main_arg14) := W4_of_ne m ρ c main_arg14 (by decide)
    _ = W2 m ρ c (Proc.devRef .tc main_arg14) := by host_skip hostOps1
    _ = W1 m ρ c (Proc.devRef .tc main_arg14) := W2_of_ne m ρ c main_arg14 (by decide)
    _ = W0 m ρ c (Proc.devRef .tc main_arg14) := by host_skip hostOps0
    _ = m ((c : Thread nD τ).loc main_arg14) := rfl
theorem W11_v64 : ((W11 m ρ c (Proc.devRef .tc main_v64)) : S1x20.Idx → EReal) = row20 (m ((c : Thread nD τ).loc main_arg13)) := by
  show StableHlo.after hostOps5 (W10 m ρ c) (Proc.devRef .tc main_v64) = _
  after_results; rw [W10_arg13]; rfl
theorem W11_v65 : ((W11 m ρ c (Proc.devRef .tc main_v65)) : S1x20.Idx → EReal) = row20 (m ((c : Thread nD τ).loc main_arg14)) := by
  show StableHlo.after hostOps5 (W10 m ρ c) (Proc.devRef .tc main_v65) = _
  after_results; rw [W10_arg14]; rfl
theorem W11_v57_0_keep : W11 m ρ c (Proc.devRef .tc main_v57_0) = W10 m ρ c (Proc.devRef .tc main_v57_0) := by host_skip hostOps5

/-! ## Stretch 6: the per-graph sum of the last layer's output, the classifier's bias as a row -/

theorem W12_arg2 : W12 m ρ c (Proc.devRef .tc main_arg2) = m ((c : Thread nD τ).loc main_arg2) :=
  calc W12 m ρ c (Proc.devRef .tc main_arg2)
    _ = W11 m ρ c (Proc.devRef .tc main_arg2) := W12_of_ne m ρ c main_arg2 (by decide)
    _ = W10 m ρ c (Proc.devRef .tc main_arg2) := by host_skip hostOps5
    _ = W9 m ρ c (Proc.devRef .tc main_arg2) := W10_of_ne m ρ c main_arg2 (by decide)
    _ = W8 m ρ c (Proc.devRef .tc main_arg2) := by host_skip hostOps4
    _ = W7 m ρ c (Proc.devRef .tc main_arg2) := W8_of_ne m ρ c main_arg2 (by decide)
    _ = W6 m ρ c (Proc.devRef .tc main_arg2) := by host_skip hostOps3
    _ = W5 m ρ c (Proc.devRef .tc main_arg2) := W6_of_ne m ρ c main_arg2 (by decide)
    _ = W4 m ρ c (Proc.devRef .tc main_arg2) := by host_skip hostOps2
    _ = W3 m ρ c (Proc.devRef .tc main_arg2) := W4_of_ne m ρ c main_arg2 (by decide)
    _ = W2 m ρ c (Proc.devRef .tc main_arg2) := by host_skip hostOps1
    _ = W1 m ρ c (Proc.devRef .tc main_arg2) := W2_of_ne m ρ c main_arg2 (by decide)
    _ = W0 m ρ c (Proc.devRef .tc main_arg2) := by host_skip hostOps0
    _ = m ((c : Thread nD τ).loc main_arg2) := rfl
theorem W12_arg16 : W12 m ρ c (Proc.devRef .tc main_arg16) = m ((c : Thread nD τ).loc main_arg16) :=
  calc W12 m ρ c (Proc.devRef .tc main_arg16)
    _ = W11 m ρ c (Proc.devRef .tc main_arg16) := W12_of_ne m ρ c main_arg16 (by decide)
    _ = W10 m ρ c (Proc.devRef .tc main_arg16) := by host_skip hostOps5
    _ = W9 m ρ c (Proc.devRef .tc main_arg16) := W10_of_ne m ρ c main_arg16 (by decide)
    _ = W8 m ρ c (Proc.devRef .tc main_arg16) := by host_skip hostOps4
    _ = W7 m ρ c (Proc.devRef .tc main_arg16) := W8_of_ne m ρ c main_arg16 (by decide)
    _ = W6 m ρ c (Proc.devRef .tc main_arg16) := by host_skip hostOps3
    _ = W5 m ρ c (Proc.devRef .tc main_arg16) := W6_of_ne m ρ c main_arg16 (by decide)
    _ = W4 m ρ c (Proc.devRef .tc main_arg16) := by host_skip hostOps2
    _ = W3 m ρ c (Proc.devRef .tc main_arg16) := W4_of_ne m ρ c main_arg16 (by decide)
    _ = W2 m ρ c (Proc.devRef .tc main_arg16) := by host_skip hostOps1
    _ = W1 m ρ c (Proc.devRef .tc main_arg16) := W2_of_ne m ρ c main_arg16 (by decide)
    _ = W0 m ρ c (Proc.devRef .tc main_arg16) := by host_skip hostOps0
    _ = m ((c : Thread nD τ).loc main_arg16) := rfl
theorem W13_v69 : ((W13 m ρ c (Proc.devRef .tc main_v69)) : S1000x20.Idx → EReal) = pool (m ((c : Thread nD τ).loc main_arg2)) (W12 m ρ c (Proc.devRef .tc main_v66)) := by
  show StableHlo.after hostOps6 (W12 m ρ c) (Proc.devRef .tc main_v69) = _
  after_results; rw [W12_arg2]; rfl
theorem W13_v70 : ((W13 m ρ c (Proc.devRef .tc main_v70)) : S1x2.Idx → EReal) = row2 (m ((c : Thread nD τ).loc main_arg16)) := by
  show StableHlo.after hostOps6 (W12 m ρ c) (Proc.devRef .tc main_v70) = _
  after_results; rw [W12_arg16]; rfl
theorem W13_arg15 : W13 m ρ c (Proc.devRef .tc main_arg15) = m ((c : Thread nD τ).loc main_arg15) :=
  calc W13 m ρ c (Proc.devRef .tc main_arg15)
    _ = W12 m ρ c (Proc.devRef .tc main_arg15) := by host_skip hostOps6
    _ = W11 m ρ c (Proc.devRef .tc main_arg15) := W12_of_ne m ρ c main_arg15 (by decide)
    _ = W10 m ρ c (Proc.devRef .tc main_arg15) := by host_skip hostOps5
    _ = W9 m ρ c (Proc.devRef .tc main_arg15) := W10_of_ne m ρ c main_arg15 (by decide)
    _ = W8 m ρ c (Proc.devRef .tc main_arg15) := by host_skip hostOps4
    _ = W7 m ρ c (Proc.devRef .tc main_arg15) := W8_of_ne m ρ c main_arg15 (by decide)
    _ = W6 m ρ c (Proc.devRef .tc main_arg15) := by host_skip hostOps3
    _ = W5 m ρ c (Proc.devRef .tc main_arg15) := W6_of_ne m ρ c main_arg15 (by decide)
    _ = W4 m ρ c (Proc.devRef .tc main_arg15) := by host_skip hostOps2
    _ = W3 m ρ c (Proc.devRef .tc main_arg15) := W4_of_ne m ρ c main_arg15 (by decide)
    _ = W2 m ρ c (Proc.devRef .tc main_arg15) := by host_skip hostOps1
    _ = W1 m ρ c (Proc.devRef .tc main_arg15) := W2_of_ne m ρ c main_arg15 (by decide)
    _ = W0 m ρ c (Proc.devRef .tc main_arg15) := by host_skip hostOps0
    _ = m ((c : Thread nD τ).loc main_arg15) := rfl

end Cert.KernelIdeal.Glue

end
-- ==== Proof.Spec.lean ====
/-
  The network as plain functions on the extended reals, index by index.

  A node-feature matrix has one row per node. One layer adds to every node its neighbours' sum (an aggregation map `A`,
  kept abstract here), applies an affine map, centres and scales every column by its mean and variance over all rows,
  scales by `g`, shifts by `beta` and clamps at zero. The variance of a column is written in two ways: the mean of the
  squares minus the square of the mean, and the mean of the squared deviations from the mean. After three layers the rows
  are summed per graph (a pooling map `P`, abstract here) and mapped affinely to the classes.
-/
import Idealize.ShloMosaic.PureOps.Ideal
import Idealize.ShloMosaic.Lib.ValueIdx

noncomputable section

namespace Cert.Spec

open Idealize.ShloMosaic Idealize.ShloMosaic.ValueIdx

/-- An `a × b` matrix of extended reals. -/
abbrev Mat (a b : ℕ) : Type := (⟨2, ![a, b]⟩ : Shape).Idx → EReal

/-- The number of rows, 100000, as the float literal both programs divide by. -/
def cN : EReal := Ideal.ofBits .f32 0x47C35000#32
/-- The small constant both programs add to a variance before the inverse square root. -/
def cEps : EReal := Ideal.ofBits .f32 0x3727C5AC#32

/-- The affine map at one entry: `Σ_c (h[p,c] + a[p,c]) · W[c,q] + b[q]`. -/
def linAt {n k d : ℕ} (h a : Mat n k) (W : Mat k d) (b : Fin d → EReal) (p : Fin n) (q : Fin d) : EReal :=
  (∑ c : Fin k, (h (ix2 p c) + a (ix2 p c)) * W (ix2 c q)) + b q

/-- The affine map as a matrix. -/
def lin {n k d : ℕ} (h a : Mat n k) (W : Mat k d) (b : Fin d → EReal) : Mat n d :=
  fun i => linAt h a W b (i 0) (i 1)

theorem lin_ix2 {n k d : ℕ} (h a : Mat n k) (W : Mat k d) (b : Fin d → EReal) (p : Fin n) (q : Fin d) :
    lin h a W b (ix2 p q) = linAt h a W b p q := rfl

/-- The sum of column `q`. -/
def colSum {n d : ℕ} (z : Mat n d) (q : Fin d) : EReal := ∑ p : Fin n, z (ix2 p q)
/-- The sum of the squares of column `q`. -/
def colSumSq {n d : ℕ} (z : Mat n d) (q : Fin d) : EReal := ∑ p : Fin n, z (ix2 p q) * z (ix2 p q)

/-- The mean of column `q`: its sum divided by the row count. -/
def mean {n d : ℕ} (z : Mat n d) (q : Fin d) : EReal := Ideal.div (colSum z q) cN
/-- The variance as the mean of the squares minus the square of the mean. -/
def varMoments {n d : ℕ} (z : Mat n d) (q : Fin d) : EReal := Ideal.div (colSumSq z q) cN - mean z q * mean z q
/-- The variance as the mean of the squared deviations. -/
def varDeviations {n d : ℕ} (z : Mat n d) (q : Fin d) : EReal :=
  Ideal.div (∑ p : Fin n, (z (ix2 p q) - mean z q) * (z (ix2 p q) - mean z q)) cN

/-- Centre, scale by the inverse root of the variance plus the small constant, scale by `g`, shift by `beta`, clamp at zero. -/
def normAt {n d : ℕ} (z : Mat n d) (mu var g beta : Fin d → EReal) (p : Fin n) (q : Fin d) : EReal :=
  max ((z (ix2 p q) - mu q) * Ideal.rsqrt (var q + cEps) * g q + beta q) 0

def norm {n d : ℕ} (z : Mat n d) (mu var g beta : Fin d → EReal) : Mat n d :=
  fun i => normAt z mu var g beta (i 0) (i 1)

theorem norm_ix2 {n d : ℕ} (z : Mat n d) (mu var g beta : Fin d → EReal) (p : Fin n) (q : Fin d) :
    norm z mu var g beta (ix2 p q) = normAt z mu var g beta p q := rfl

/-- One layer, the variance by moments. -/
def layerMoments {n k d : ℕ} (A : Mat n k → Mat n k) (h : Mat n k) (W : Mat k d) (b g beta : Fin d → EReal) : Mat n d :=
  norm (lin h (A h) W b) (mean (lin h (A h) W b)) (varMoments (lin h (A h) W b)) g beta

/-- One layer, the variance by deviations. -/
def layerDeviations {n k d : ℕ} (A : Mat n k → Mat n k) (h : Mat n k) (W : Mat k d) (b g beta : Fin d → EReal) : Mat n d :=
  norm (lin h (A h) W b) (mean (lin h (A h) W b)) (varDeviations (lin h (A h) W b)) g beta

/-- The classifier at one entry: `Σ_c e[p,c] · W[c,q] + b[q]`. -/
def headAt {m k d : ℕ} (e : Mat m k) (W : Mat k d) (b : Fin d → EReal) (p : Fin m) (q : Fin d) : EReal :=
  (∑ c : Fin k, e (ix2 p c) * W (ix2 c q)) + b q

def head {m k d : ℕ} (e : Mat m k) (W : Mat k d) (b : Fin d → EReal) : Mat m d :=
  fun i => headAt e W b (i 0) (i 1)

theorem head_ix2 {m k d : ℕ} (e : Mat m k) (W : Mat k d) (b : Fin d → EReal) (p : Fin m) (q : Fin d) :
    head e W b (ix2 p q) = headAt e W b p q := rfl

/-- Every entry of a matrix is a real number (neither infinity). -/
def Fin2 {a b : ℕ} (x : Mat a b) : Prop := ∀ i, x i ≠ ⊤ ∧ x i ≠ ⊥
/-- Every entry of a vector is a real number. -/
def Fin1 {b : ℕ} (x : Fin b → EReal) : Prop := ∀ q, x q ≠ ⊤ ∧ x q ≠ ⊥

end Cert.Spec

end
-- ==== Proof.LibPlainDot.lean ====
/-
  A matrix product of an m × k block by a k × n block, read at one entry, on the extended reals.

  A kernel's product into a zero accumulator is the host's product over the same dimension record, and for the plain
  record (rows by the contracted axis, times the contracted axis by columns) that is the sum over the contracted
  coordinate of the products of the entries. With a one-row bias laid along every row this is the affine map of a
  linear layer.
-/
import Idealize.ShloMosaic.Lib.StackMember
import Idealize.ShloMosaic.Lib.ValueLayout

noncomputable section

namespace Cert.Lib

open Idealize.ShloMosaic Idealize.ShloMosaic.ValueIdx Idealize.ShloMosaic.StackMember

/-- A kernel's product over a plain dimension record into the zero accumulator, at `(a, b)`, is `Σ_c A[a, c] · B[c, b]`. -/
theorem matmul_plain {m k n : ℕ} {φ₁ φ₂ : FTy} (d : DotDims ⟨2, ![m, k]⟩ ⟨2, ![k, n]⟩ ⟨2, ![m, n]⟩) (hd : d = DotDims.plain m k n)
    (A : FVec Ideal ⟨2, ![m, k]⟩ φ₁) (B : FVec Ideal ⟨2, ![k, n]⟩ φ₂) (a : Fin m) (b : Fin n) :
    matmul d none A B (constant ⟨2, ![m, n]⟩ .f32 0x00000000#32) (ix2 a b) = ∑ c : Fin k, A (ix2 a c) * B (ix2 c b) := by
  subst hd
  rw [matmul_zero_eq_dotGeneral]
  exact dotGeneral_plain_apply none A B a b

/-- The host's product over a plain dimension record, at `(a, b)`. -/
theorem dotGeneral_plain {m k n : ℕ} {φ₁ φ₂ : FTy} (d : DotDims ⟨2, ![m, k]⟩ ⟨2, ![k, n]⟩ ⟨2, ![m, n]⟩) (hd : d = DotDims.plain m k n)
    (A : FVec Ideal ⟨2, ![m, k]⟩ φ₁) (B : FVec Ideal ⟨2, ![k, n]⟩ φ₂) (a : Fin m) (b : Fin n) :
    Host.dotGeneral d none A B (ix2 a b) = ∑ c : Fin k, A (ix2 a c) * B (ix2 c b) := by
  subst hd
  exact dotGeneral_plain_apply none A B a b

/-- The affine map of a linear layer inside a kernel: the product plus a one-row bias laid along every row. -/
theorem lin_apply {m k n : ℕ} {φ₁ φ₂ : FTy} (d : DotDims ⟨2, ![m, k]⟩ ⟨2, ![k, n]⟩ ⟨2, ![m, n]⟩) (hd : d = DotDims.plain m k n)
    (A : FVec Ideal ⟨2, ![m, k]⟩ φ₁) (B : FVec Ideal ⟨2, ![k, n]⟩ φ₂) (bias : FVec Ideal ⟨2, ![1, n]⟩ .f32)
    (hb : (⟨2, ![1, n]⟩ : Shape).Broadcasts ⟨2, ![m, n]⟩) (a : Fin m) (b : Fin n) :
    addf (matmul d none A B (constant ⟨2, ![m, n]⟩ .f32 0x00000000#32)) (broadcastTo ⟨2, ![m, n]⟩ bias hb) (ix2 a b)
      = (∑ c : Fin k, A (ix2 a c) * B (ix2 c b)) + bias (ix2 0 b) := by
  rw [addf_apply, matmul_plain d hd, broadcastTo_1b_ab_apply]

end Cert.Lib

end
-- ==== Proof.LibTileSum.lean ====
/-
  Sums over the rows of a matrix cut into consecutive tiles of equal height.

  A running total that starts at zero and adds, tile after tile, the sum over that tile's rows ends at the sum over all
  rows: in a commutative monoid the order and grouping of the summands do not matter. The rows are numbered by
  `Fin N`; the summand is continued by zero past `N` so that the partial totals are sums over initial segments of the
  natural numbers.
-/
import Mathlib.Algebra.BigOperators.Fin
import Mathlib.Algebra.BigOperators.Intervals

namespace Cert.Lib

open Finset

variable {M : Type*} [AddCommMonoid M]

/-- A function on the first `N` naturals, continued by zero. -/
def extendZero {N : ℕ} (z : Fin N → M) : ℕ → M := fun i => if h : i < N then z ⟨i, h⟩ else 0

theorem extendZero_of_lt {N : ℕ} (z : Fin N → M) {i : ℕ} (h : i < N) : extendZero z i = z ⟨i, h⟩ := dif_pos h

/-- The total over all of `Fin N` is the total of the continuation over the first `N` naturals. -/
theorem sum_univ_eq_sum_range_extendZero {N : ℕ} (z : Fin N → M) :
    ∑ p : Fin N, z p = ∑ i ∈ range N, extendZero z i := by
  rw [← Fin.sum_univ_eq_sum_range (extendZero z) N]
  exact Finset.sum_congr rfl fun p _ => (extendZero_of_lt z p.isLt).symm

/-- The sum over the rows of tile `k` (rows `R k, …, R k + R - 1`), as a sum of the continuation. -/
theorem sum_tile_eq_sum_range {N : ℕ} (z : Fin N → M) (R k : ℕ) (hk : R * k + R ≤ N) :
    ∑ r : Fin R, z ⟨R * k + r.val, lt_of_lt_of_le (Nat.add_lt_add_left r.isLt _) hk⟩
      = ∑ r ∈ range R, extendZero z (R * k + r) := by
  rw [← Fin.sum_univ_eq_sum_range (fun r => extendZero z (R * k + r)) R]
  exact Finset.sum_congr rfl fun r _ =>
    (extendZero_of_lt z (lt_of_lt_of_le (Nat.add_lt_add_left r.isLt _) hk)).symm

/-- One step of the running total: the total over the rows of tiles `0, …, k - 1` plus the sum over tile `k` is the
    total over the rows of tiles `0, …, k`. -/
theorem running_total_step {N : ℕ} (z : Fin N → M) (R k : ℕ) (hk : R * k + R ≤ N) (acc : M)
    (hacc : acc = ∑ i ∈ range (R * k), extendZero z i) :
    acc + ∑ r : Fin R, z ⟨R * k + r.val, lt_of_lt_of_le (Nat.add_lt_add_left r.isLt _) hk⟩
      = ∑ i ∈ range (R * (k + 1)), extendZero z i := by
  rw [hacc, sum_tile_eq_sum_range z R k hk, Nat.mul_succ, Finset.sum_range_add]

/-- The running total before the first tile is zero. -/
theorem running_total_zero {N : ℕ} (z : Fin N → M) (R : ℕ) :
    (0 : M) = ∑ i ∈ range (R * 0), extendZero z i := by
  rw [Nat.mul_zero, Finset.sum_range_zero]

/-- After the last of `T` tiles of height `R`, with `R T = N`, the running total is the total over all rows. -/
theorem running_total_last {N : ℕ} (z : Fin N → M) (R T : ℕ) (h : R * T = N) :
    ∑ i ∈ range (R * T), extendZero z i = ∑ p : Fin N, z p := by
  rw [h, sum_univ_eq_sum_range_extendZero]

end Cert.Lib
-- ==== Proof.LinStats0Pay.lean ====
/-
  The linear layer with column statistics, first layer (10 input columns): what one tile of 2000 rows computes, read
  entry by entry on the extended reals.

  The tile's affine map at row `p`, column `q` is `Σ_c (h[p,c] + a[p,c]) · W[c,q] + b[q]` (a change of float format is
  the identity on extended reals). The two statistics outputs add to what they held the column sums, over the tile's
  rows, of the affine map's entries and of their squares. Reading the tile's inputs as rows `2000 t, …, 2000 t + 1999` of
  the whole matrices, the affine map's tile is the same rows of the whole affine map, and the statistics after tile `t`
  are the sums over rows `0, …, 2000 (t + 1) - 1`.
-/
import proofs.«113277_j59725815218466_1_alg».proof.Proof.Gen.KernelIdeal.Skeleton
import proofs.«113277_j59725815218466_1_alg».proof.Proof.Spec
import proofs.«113277_j59725815218466_1_alg».proof.Proof.LibPlainDot
import proofs.«113277_j59725815218466_1_alg».proof.Proof.LibTileSum
import Idealize.ShloMosaic.Lib.Pipeline.Value
import Idealize.ShloMosaic.PureOps.Ideal.Laws

noncomputable section

namespace Cert.LinStats0

open Idealize.ShloMosaic Idealize.ShloMosaic.ValueIdx
open Cert.KernelIdeal Cert.KernelIdeal.Gen
open Finset (range)

/-- The affine map's tile at `(p, q)`. -/
theorem pay3_apply (v3 v4 : Vec Ideal S2000x10 .f32) (v8 : Vec Ideal S10x20 .f32) (v11 : Vec Ideal S1x20 .f32)
    (p : Fin 2000) (q : Fin 20) :
    k0_pay3 (F := Ideal) v3 v4 v8 v11 (ix2 p q)
      = (∑ c : Fin 10, (v3 (ix2 p c) + v4 (ix2 p c)) * v8 (ix2 c q)) + v11 (ix2 0 q) := by
  unfold k0_pay3
  refine (Cert.Lib.lin_apply dot_S2000x10_S10x20_S2000x20_1_0_0_1_n_n rfl
    (truncf .bf16 (addf v3 (shapeCast S2000x10 v4 shapeCasts_S2000x10_S2000x10)) bitsLt_bf16_f32)
    (truncf .bf16 v8 bitsLt_bf16_f32) (shapeCast S1x20 v11 shapeCasts_S1x20_S1x20) broadcasts_S1x20_S2000x20 p q).trans ?_
  rw [shapeCast_self, shapeCast_self]
  rfl

/-- Inserting row `p` above column `q`. -/
theorem lift_row (p : Fin 2000) (q : Fin 20) :
    reduces_S2000x20_S20.lift (ix1 q) p = ix2 p q := by
  funext a
  apply Fin.ext
  match a with
  | ⟨0, _⟩ => rfl
  | ⟨1, _⟩ => rfl

/-- The sum down a tile's column. -/
theorem colsum_apply (src : FVec Ideal S2000x20 .f32) (q : Fin 20) :
    multiReduction (F := Ideal) .add [0] S20 src 0x00000000#32 reduces_S2000x20_S20 (.inl rfl) rfl (ix1 q)
      = ∑ p : Fin 2000, src (ix2 p q) := by
  refine (Ideal.multiReduction_add_single src 0x00000000#32 reduces_S2000x20_S20 (.inl rfl) rfl (ix1 q)).trans ?_
  exact Finset.sum_congr rfl fun p _ => congrArg src (lift_row p q)

/-- A vector of 20 laid as one row, at column `q`. -/
theorem row_apply (v : FVec Ideal S20 .f32) (q : Fin 20) :
    shapeCast S1x20 v shapeCasts_S20_S1x20 (ix2 (0 : Fin 1) q) = v (ix1 q) := by
  refine (shapeCast_addUnit_apply ![20] v shapeCasts_S20_S1x20 (ix2 (0 : Fin 1) q)).trans ?_
  refine congrArg v (funext fun a => ?_)
  match a with
  | ⟨0, _⟩ => rfl

/-- The running column sum after a tile: what was held plus the tile's column sum. -/
theorem pay4_apply (v3 v4 : Vec Ideal S2000x10 .f32) (v8 : Vec Ideal S10x20 .f32) (v11 v16 : Vec Ideal S1x20 .f32)
    (q : Fin 20) :
    k0_pay4 (F := Ideal) v3 v4 v8 v11 v16 (ix2 (0 : Fin 1) q)
      = v16 (ix2 0 q) + ∑ p : Fin 2000, k0_pay3 (F := Ideal) v3 v4 v8 v11 (ix2 p q) := by
  unfold k0_pay4
  show shapeCast S1x20 v16 shapeCasts_S1x20_S1x20 (ix2 (0 : Fin 1) q) + shapeCast S1x20 _ shapeCasts_S20_S1x20 (ix2 (0 : Fin 1) q) = _
  rw [shapeCast_self]
  refine congrArg (v16 (ix2 0 q) + ·) ?_
  exact (row_apply _ q).trans (colsum_apply _ q)

/-- The running column sum of squares after a tile. -/
theorem pay5_apply (v3 v4 : Vec Ideal S2000x10 .f32) (v8 : Vec Ideal S10x20 .f32) (v11 v22 : Vec Ideal S1x20 .f32)
    (q : Fin 20) :
    k0_pay5 (F := Ideal) v3 v4 v8 v11 v22 (ix2 (0 : Fin 1) q)
      = v22 (ix2 0 q) + ∑ p : Fin 2000,
          k0_pay3 (F := Ideal) v3 v4 v8 v11 (ix2 p q) * k0_pay3 (F := Ideal) v3 v4 v8 v11 (ix2 p q) := by
  unfold k0_pay5
  show shapeCast S1x20 v22 shapeCasts_S1x20_S1x20 (ix2 (0 : Fin 1) q) + shapeCast S1x20 _ shapeCasts_S20_S1x20 (ix2 (0 : Fin 1) q) = _
  rw [shapeCast_self]
  refine congrArg (v22 (ix2 0 q) + ·) ?_
  exact (row_apply _ q).trans (colsum_apply _ q)

/-- The zero row the first tile stores into the column sums. -/
theorem pay1_apply (q : Fin 20) : k0_pay1 (F := Ideal) (ix2 (0 : Fin 1) q) = 0 := by
  unfold k0_pay1
  show Ideal.ofBits .f32 0x00000000#32 = 0
  exact Ideal.ofBits_zero_f32

/-- The zero row the first tile stores into the column sums of squares. -/
theorem pay2_apply (q : Fin 20) : k0_pay2 (F := Ideal) (ix2 (0 : Fin 1) q) = 0 := by
  unfold k0_pay2
  show Ideal.ofBits .f32 0x00000000#32 = 0
  exact Ideal.ofBits_zero_f32

/-! ## The tile as rows of the whole matrices -/

/-- Row `2000 t + r` of a matrix of 100000 rows, for a tile `t` inside it. -/
abbrev rowOf (t : ℕ) (ht : 2000 * t + 2000 ≤ 100000) (r : Fin 2000) : Fin 100000 :=
  ⟨2000 * t + r.val, lt_of_lt_of_le (Nat.add_lt_add_left r.isLt _) ht⟩

/-- When the tile's inputs are rows `2000 t + r` of `H` and `A`, the whole `W` and the row `b`, the affine map's tile is
    the same rows of the whole affine map. -/
theorem pay3_tile (H A : Spec.Mat 100000 10) (W : Spec.Mat 10 20) (b : Fin 20 → EReal) (t : ℕ)
    (ht : 2000 * t + 2000 ≤ 100000)
    (x0 x1 : Vec Ideal S2000x10 .f32) (x2 : Vec Ideal S10x20 .f32) (x3 : Vec Ideal S1x20 .f32)
    (h0 : ∀ (r : Fin 2000) (c : Fin 10), x0 (ix2 r c) = H (ix2 (rowOf t ht r) c))
    (h1 : ∀ (r : Fin 2000) (c : Fin 10), x1 (ix2 r c) = A (ix2 (rowOf t ht r) c))
    (h2 : ∀ (c : Fin 10) (q : Fin 20), x2 (ix2 c q) = W (ix2 c q))
    (h3 : ∀ q : Fin 20, x3 (ix2 (0 : Fin 1) q) = b q) (r : Fin 2000) (q : Fin 20) :
    k0_pay3 (F := Ideal) x0 x1 x2 x3 (ix2 r q) = Spec.lin H A W b (ix2 (rowOf t ht r) q) := by
  rw [pay3_apply x0 x1 x2 x3 r q, Spec.lin_ix2]
  unfold Spec.linAt
  rw [h3 q]
  refine congrArg (· + b q) (Finset.sum_congr rfl fun c _ => ?_)
  rw [h0 r c, h1 r c, h2 c q]

/-- One tile's step of the running column sum of a matrix `Z`, whose tile `t` the affine map's tile is. -/
theorem pay4_step (Z : Spec.Mat 100000 20) (t : ℕ) (ht : 2000 * t + 2000 ≤ 100000)
    (x0 x1 : Vec Ideal S2000x10 .f32) (x2 : Vec Ideal S10x20 .f32) (x3 acc : Vec Ideal S1x20 .f32)
    (hz : ∀ (r : Fin 2000) (q : Fin 20), k0_pay3 (F := Ideal) x0 x1 x2 x3 (ix2 r q) = Z (ix2 (rowOf t ht r) q))
    (q : Fin 20)
    (hacc : acc (ix2 (0 : Fin 1) q) = ∑ i ∈ range (2000 * t), Cert.Lib.extendZero (fun p : Fin 100000 => Z (ix2 p q)) i) :
    k0_pay4 (F := Ideal) x0 x1 x2 x3 acc (ix2 (0 : Fin 1) q)
      = ∑ i ∈ range (2000 * (t + 1)), Cert.Lib.extendZero (fun p : Fin 100000 => Z (ix2 p q)) i := by
  rw [pay4_apply x0 x1 x2 x3 acc q]
  rw [← Cert.Lib.running_total_step (fun p : Fin 100000 => Z (ix2 p q)) 2000 t ht (acc (ix2 0 q)) hacc]
  exact congrArg (acc (ix2 0 q) + ·) (Finset.sum_congr rfl fun r _ => hz r q)

/-- One tile's step of the running column sum of squares. -/
theorem pay5_step (Z : Spec.Mat 100000 20) (t : ℕ) (ht : 2000 * t + 2000 ≤ 100000)
    (x0 x1 : Vec Ideal S2000x10 .f32) (x2 : Vec Ideal S10x20 .f32) (x3 acc : Vec Ideal S1x20 .f32)
    (hz : ∀ (r : Fin 2000) (q : Fin 20), k0_pay3 (F := Ideal) x0 x1 x2 x3 (ix2 r q) = Z (ix2 (rowOf t ht r) q))
    (q : Fin 20)
    (hacc : acc (ix2 (0 : Fin 1) q)
      = ∑ i ∈ range (2000 * t), Cert.Lib.extendZero (fun p : Fin 100000 => Z (ix2 p q) * Z (ix2 p q)) i) :
    k0_pay5 (F := Ideal) x0 x1 x2 x3 acc (ix2 (0 : Fin 1) q)
      = ∑ i ∈ range (2000 * (t + 1)), Cert.Lib.extendZero (fun p : Fin 100000 => Z (ix2 p q) * Z (ix2 p q)) i := by
  rw [pay5_apply x0 x1 x2 x3 acc q]
  rw [← Cert.Lib.running_total_step (fun p : Fin 100000 => Z (ix2 p q) * Z (ix2 p q)) 2000 t ht (acc (ix2 0 q)) hacc]
  exact congrArg (acc (ix2 0 q) + ·) (Finset.sum_congr rfl fun r _ => by rw [hz r q])

end Cert.LinStats0

end
-- ==== Proof.LinStats0Run.lean ====
/-
  The linear layer with column statistics, first layer, over its 50 tiles of 2000 rows: what the three output arrays
  hold after the last tile.

  In the first tile's case the statistics rows are set to zero before the tile's sums are added; in every later tile's
  case they are added to what the tile before left. So after tile `t` the statistics rows hold the column sums, and the
  column sums of squares, of the affine map over rows `0, …, 2000 (t + 1) - 1`, and after the last tile over all 100000
  rows. The affine map's own output is written tile by tile: tile `t` is rows `2000 t, …, 2000 t + 1999`, and the tiles
  cover the array. The statistics rows are written back once, after the last tile.
-/
import proofs.«113277_j59725815218466_1_alg».proof.Proof.Gen.KernelIdeal.Frame
import proofs.«113277_j59725815218466_1_alg».proof.Proof.LinStats0Pay
import Idealize.ShloMosaic.Lib.Pipeline.Value
import Idealize.ShloMosaic.Lib.Tactic

noncomputable section

namespace Cert.LinStats0

open Idealize.ShloMosaic Idealize.ShloMosaic.TcCoe Idealize.ShloMosaic.ValueIdx Idealize.SL.Sem
open Idealize.ShloMosaic.Pipeline (Dat)
open Cert.KernelIdeal Cert.KernelIdeal.Gen
open Finset (range)

theorem hz : (![0, 0] : Fin 2 → Nat) = fun _ => 0 := funext fun a => by fin_cases a <;> rfl

/-! ## What each case leaves in the three outputs, as the tile's payloads -/

section Pieces

variable {F : FTy → Type} [FloatOps F]

/-- First tile: the affine map's tile. -/
theorem out_A_4 (c : Dev nD) (i : grid0.Coords) (a1 : Memref sig .tc .vmem S2000x10 .f32) (h1 : a1.IsWhole) (a2 : Memref sig .tc .vmem S2000x10 .f32) (h2 : a2.IsWhole) (a3 : Memref sig .tc .vmem S10x20 .f32) (h3 : a3.IsWhole) (a4 : Memref sig .tc .vmem S1x20 .f32) (h4 : a4.IsWhole) (a5 : Memref sig .tc .vmem S2000x20 .f32) (h5 : a5.IsWhole) (a6 : Memref sig .tc .vmem S1x20 .f32) (h6 : a6.IsWhole) (a7 : Memref sig .tc .vmem S1x20 .f32) (h7 : a7.IsWhole) (hc : cond0_0 i)
    (x0 x1 : Vec F S2000x10 .f32) (x2 : Vec F S10x20 .f32) (x3 : Vec F S1x20 .f32) :
    out0_A_4 c i a1 h1 a2 h2 a3 h3 a4 h4 a5 h5 a6 h6 a7 h7 hc x0 x1 x2 x3 = k0_pay3 x0 x1 x2 x3 := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  try sl_unfold_words
  rw [View.canon_unit_zero hz]
  simp only [View.readAt_eq_ld, h1.read_unread, h2.read_unread, h3.read_unread, h4.read_unread,
    View.ld_unit_zero (S := S2000x10) hz, View.ld_unit_zero (S := S10x20) hz, View.ld_unit_zero (S := S1x20) hz,
    View.ld_unit_zero (S := S2000x20) hz]

/-- First tile: the tile's column sums added to the zero row. -/
theorem out_A_5 (c : Dev nD) (i : grid0.Coords) (a1 : Memref sig .tc .vmem S2000x10 .f32) (h1 : a1.IsWhole) (a2 : Memref sig .tc .vmem S2000x10 .f32) (h2 : a2.IsWhole) (a3 : Memref sig .tc .vmem S10x20 .f32) (h3 : a3.IsWhole) (a4 : Memref sig .tc .vmem S1x20 .f32) (h4 : a4.IsWhole) (a5 : Memref sig .tc .vmem S2000x20 .f32) (h5 : a5.IsWhole) (a6 : Memref sig .tc .vmem S1x20 .f32) (h6 : a6.IsWhole) (a7 : Memref sig .tc .vmem S1x20 .f32) (h7 : a7.IsWhole) (hc : cond0_0 i)
    (x0 x1 : Vec F S2000x10 .f32) (x2 : Vec F S10x20 .f32) (x3 : Vec F S1x20 .f32) :
    out0_A_5 c i a1 h1 a2 h2 a3 h3 a4 h4 a5 h5 a6 h6 a7 h7 hc x0 x1 x2 x3 = k0_pay4 x0 x1 x2 x3 k0_pay1 := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  try sl_unfold_words
  rw [View.canon_cons_unit_zero (S := S1x20) hz, View.readCov_unit_zero (S := S1x20) _ hz]
  simp only [View.readAt_eq_ld, h1.read_unread, h2.read_unread, h3.read_unread, h4.read_unread,
    View.ld_unit_zero (S := S2000x10) hz, View.ld_unit_zero (S := S10x20) hz, View.ld_unit_zero (S := S1x20) hz,
    View.ld_unit_zero (S := S2000x20) hz]

/-- First tile: the tile's column sums of squares added to the zero row. -/
theorem out_A_6 (c : Dev nD) (i : grid0.Coords) (a1 : Memref sig .tc .vmem S2000x10 .f32) (h1 : a1.IsWhole) (a2 : Memref sig .tc .vmem S2000x10 .f32) (h2 : a2.IsWhole) (a3 : Memref sig .tc .vmem S10x20 .f32) (h3 : a3.IsWhole) (a4 : Memref sig .tc .vmem S1x20 .f32) (h4 : a4.IsWhole) (a5 : Memref sig .tc .vmem S2000x20 .f32) (h5 : a5.IsWhole) (a6 : Memref sig .tc .vmem S1x20 .f32) (h6 : a6.IsWhole) (a7 : Memref sig .tc .vmem S1x20 .f32) (h7 : a7.IsWhole) (hc : cond0_0 i)
    (x0 x1 : Vec F S2000x10 .f32) (x2 : Vec F S10x20 .f32) (x3 : Vec F S1x20 .f32) :
    out0_A_6 c i a1 h1 a2 h2 a3 h3 a4 h4 a5 h5 a6 h6 a7 h7 hc x0 x1 x2 x3 = k0_pay5 x0 x1 x2 x3 k0_pay2 := by
  unfold out0_A_6
  rw [View.read_writes_eq_canon _ _ _ (cover0_A_6 c i a1 h1 a2 h2 a3 h3 a4 h4 a5 h5 a6 h6 a7 h7 hc x0 x1 x2 x3)]
  unfold kernelRun0_A
  dsimp only
  try sl_unfold_words
  rw [View.canon_cons_unit_zero (S := S1x20) hz, View.readCov_unit_zero (S := S1x20) _ hz]
  simp only [View.readAt_eq_ld, h1.read_unread, h2.read_unread, h3.read_unread, h4.read_unread,
    View.ld_unit_zero (S := S2000x10) hz, View.ld_unit_zero (S := S10x20) hz, View.ld_unit_zero (S := S1x20) hz,
    View.ld_unit_zero (S := S2000x20) hz]

/-- A later tile: the affine map's tile. -/
theorem out_B_4 (c : Dev nD) (i : grid0.Coords) (a1 : Memref sig .tc .vmem S2000x10 .f32) (h1 : a1.IsWhole) (a2 : Memref sig .tc .vmem S2000x10 .f32) (h2 : a2.IsWhole) (a3 : Memref sig .tc .vmem S10x20 .f32) (h3 : a3.IsWhole) (a4 : Memref sig .tc .vmem S1x20 .f32) (h4 : a4.IsWhole) (a5 : Memref sig .tc .vmem S2000x20 .f32) (h5 : a5.IsWhole) (a6 : Memref sig .tc .vmem S1x20 .f32) (h6 : a6.IsWhole) (a7 : Memref sig .tc .vmem S1x20 .f32) (h7 : a7.IsWhole) (hc : ¬cond0_0 i)
    (x0 x1 : Vec F S2000x10 .f32) (x2 : Vec F S10x20 .f32) (x3 : Vec F S1x20 .f32) (xo5 xo6 : Vec F S1x20 .f32) :
    out0_B_4 c i a1 h1 a2 h2 a3 h3 a4 h4 a5 h5 a6 h6 a7 h7 hc x0 x1 x2 x3 xo5 xo6 = k0_pay3 x0 x1 x2 x3 := by
  unfold out0_B_4
  rw [View.read_writes_eq_canon _ _ _ (cover0_B_4 c i a1 h1 a2 h2 a3 h3 a4 h4 a5 h5 a6 h6 a7 h7 hc x0 x1 x2 x3 xo5 xo6)]
  unfold kernelRun0_B
  dsimp only
  try sl_unfold_words
  rw [View.canon_unit_zero hz]
  simp only [View.readAt_eq_ld, h1.read_unread, h2.read_unread, h3.read_unread, h4.read_unread, h6.read_unread, h7.read_unread,
    View.ld_unit_zero (S := S2000x10) hz, View.ld_unit_zero (S := S10x20) hz, View.ld_unit_zero (S := S1x20) hz,
    View.ld_unit_zero (S := S2000x20) hz]

/-- A later tile: the tile's column sums added to what the row held. -/
theorem out_B_5 (c : Dev nD) (i : grid0.Coords) (a1 : Memref sig .tc .vmem S2000x10 .f32) (h1 : a1.IsWhole) (a2 : Memref sig .tc .vmem S2000x10 .f32) (h2 : a2.IsWhole) (a3 : Memref sig .tc .vmem S10x20 .f32) (h3 : a3.IsWhole) (a4 : Memref sig .tc .vmem S1x20 .f32) (h4 : a4.IsWhole) (a5 : Memref sig .tc .vmem S2000x20 .f32) (h5 : a5.IsWhole) (a6 : Memref sig .tc .vmem S1x20 .f32) (h6 : a6.IsWhole) (a7 : Memref sig .tc .vmem S1x20 .f32) (h7 : a7.IsWhole) (hc : ¬cond0_0 i)
    (x0 x1 : Vec F S2000x10 .f32) (x2 : Vec F S10x20 .f32) (x3 : Vec F S1x20 .f32) (xo5 xo6 : Vec F S1x20 .f32) :
    out0_B_5 c i a1 h1 a2 h2 a3 h3 a4 h4 a5 h5 a6 h6 a7 h7 hc x0 x1 x2 x3 xo5 xo6 = k0_pay4 x0 x1 x2 x3 xo5 := by
  unfold out0_B_5
  rw [View.read_writes_eq_canon _ _ _ (cover0_B_5 c i a1 h1 a2 h2 a3 h3 a4 h4 a5 h5 a6 h6 a7 h7 hc x0 x1 x2 x3 xo5 xo6)]
  unfold kernelRun0_B
  dsimp only
  try sl_unfold_words
  rw [View.canon_unit_zero hz]
  simp only [View.readAt_eq_ld, h1.read_unread, h2.read_unread, h3.read_unread, h4.read_unread, h6.read_unread, h7.read_unread,
    View.ld_unit_zero (S := S2000x10) hz, View.ld_unit_zero (S := S10x20) hz, View.ld_unit_zero (S := S1x20) hz,
    View.ld_unit_zero (S := S2000x20) hz]

/-- A later tile: the tile's column sums of squares added to what the row held. -/
theorem out_B_6 (c : Dev nD) (i : grid0.Coords) (a1 : Memref sig .tc .vmem S2000x10 .f32) (h1 : a1.IsWhole) (a2 : Memref sig .tc .vmem S2000x10 .f32) (h2 : a2.IsWhole) (a3 : Memref sig .tc .vmem S10x20 .f32) (h3 : a3.IsWhole) (a4 : Memref sig .tc .vmem S1x20 .f32) (h4 : a4.IsWhole) (a5 : Memref sig .tc .vmem S2000x20 .f32) (h5 : a5.IsWhole) (a6 : Memref sig .tc .vmem S1x20 .f32) (h6 : a6.IsWhole) (a7 : Memref sig .tc .vmem S1x20 .f32) (h7 : a7.IsWhole) (hc : ¬cond0_0 i)
    (x0 x1 : Vec F S2000x10 .f32) (x2 : Vec F S10x20 .f32) (x3 : Vec F S1x20 .f32) (xo5 xo6 : Vec F S1x20 .f32) :
    out0_B_6 c i a1 h1 a2 h2 a3 h3 a4 h4 a5 h5 a6 h6 a7 h7 hc x0 x1 x2 x3 xo5 xo6 = k0_pay5 x0 x1 x2 x3 xo6 := by
  unfold out0_B_6
  rw [View.read_writes_eq_canon _ _ _ (cover0_B_6 c i a1 h1 a2 h2 a3 h3 a4 h4 a5 h5 a6 h6 a7 h7 hc x0 x1 x2 x3 xo5 xo6)]
  unfold kernelRun0_B
  dsimp only
  try sl_unfold_words
  rw [View.canon_unit_zero hz]
  simp only [View.readAt_eq_ld, h1.read_unread, h2.read_unread, h3.read_unread, h4.read_unread, h6.read_unread, h7.read_unread,
    View.ld_unit_zero (S := S2000x10) hz, View.ld_unit_zero (S := S10x20) hz, View.ld_unit_zero (S := S1x20) hz,
    View.ld_unit_zero (S := S2000x20) hz]

end Pieces

/-! ## The tiles as rows of the whole arrays -/

section AtIdeal

variable (V : (c : Dev nD) → (b : Ref sig .tc) → Buf (Elt Ideal) ((c : Thread nD τ).loc b))

/-- The node matrix, the aggregated matrix, the weights and the bias row as the layer finds them. -/
abbrev arrH (c : Dev nD) : Spec.Mat 100000 10 := V c (Pipeline.arrRef spec0 0)
abbrev arrA (c : Dev nD) : Spec.Mat 100000 10 := V c (Pipeline.arrRef spec0 1)
abbrev arrW (c : Dev nD) : Spec.Mat 10 20 := V c (Pipeline.arrRef spec0 2)
abbrev arrB (c : Dev nD) : Spec.Mat 1 20 := V c (Pipeline.arrRef spec0 3)

/-- The affine map of the whole arrays. -/
abbrev Z (c : Dev nD) : Spec.Mat 100000 20 :=
  Spec.lin (arrH V c) (arrA V c) (arrW V c) (fun q => arrB V c (ix2 0 q))

/-- Every tile lies inside the 100000 rows. -/
theorem tileLe (t : Fin cfg0.N) : 2000 * t.val + 2000 ≤ 100000 := by
  have := t.isLt; have hN : cfg0.N = 50 := N_0; omega

/-- The block indices of the seven windows at every tile: the row-tiled ones move with the tile, the others stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The node matrix's tile is its rows `2000 t + r`. -/
theorem blk0_apply (c : Dev nD) (t : Fin cfg0.N) (r : Fin 2000) (k : Fin 10) :
    (iblk0 V c 0 t : Vec Ideal S2000x10 .f32) (ix2 r k) = arrH V c (ix2 (rowOf t.val (tileLe t) r) k) := by
  obtain ⟨e0, e1, -⟩ := idx_facts t
  unfold iblk0
  rw [View.read_apply]
  show V c (Pipeline.arrRef spec0 0) _ = V c (Pipeline.arrRef spec0 0) _
  congr 1
  funext a
  apply Fin.ext
  match a with
  | ⟨0, _⟩ => show win0_0.index t 0 * 2000 + 1 * r.val = 2000 * t.val + r.val; rw [e0]; omega
  | ⟨1, _⟩ => show win0_0.index t 1 * 10 + 1 * k.val = k.val; rw [e1]; omega

/-- The aggregated matrix's tile is its rows `2000 t + r`. -/
theorem blk1_apply (c : Dev nD) (t : Fin cfg0.N) (r : Fin 2000) (k : Fin 10) :
    (iblk0 V c 1 t : Vec Ideal S2000x10 .f32) (ix2 r k) = arrA V c (ix2 (rowOf t.val (tileLe t) r) k) := by
  obtain ⟨-, -, e0, e1, -⟩ := idx_facts t
  unfold iblk0
  rw [View.read_apply]
  show V c (Pipeline.arrRef spec0 1) _ = V c (Pipeline.arrRef spec0 1) _
  congr 1
  funext a
  apply Fin.ext
  match a with
  | ⟨0, _⟩ => show win0_1.index t 0 * 2000 + 1 * r.val = 2000 * t.val + r.val; rw [e0]; omega
  | ⟨1, _⟩ => show win0_1.index t 1 * 10 + 1 * k.val = k.val; rw [e1]; omega

/-- The weights' block is the whole matrix. -/
theorem blk2_apply (c : Dev nD) (t : Fin cfg0.N) (k : Fin 10) (q : Fin 20) :
    (iblk0 V c 2 t : Vec Ideal S10x20 .f32) (ix2 k q) = arrW V c (ix2 k q) := by
  obtain ⟨-, -, -, -, e0, e1, -⟩ := idx_facts t
  unfold iblk0
  rw [View.read_apply]
  show V c (Pipeline.arrRef spec0 2) _ = V c (Pipeline.arrRef spec0 2) _
  congr 1
  funext a
  apply Fin.ext
  match a with
  | ⟨0, _⟩ => show win0_2.index t 0 * 10 + 1 * k.val = k.val; rw [e0]; omega
  | ⟨1, _⟩ => show win0_2.index t 1 * 20 + 1 * q.val = q.val; rw [e1]; omega

/-- The bias row's block is the whole row. -/
theorem blk3_apply (c : Dev nD) (t : Fin cfg0.N) (q : Fin 20) :
    (iblk0 V c 3 t : Vec Ideal S1x20 .f32) (ix2 (0 : Fin 1) q) = arrB V c (ix2 0 q) := by
  obtain ⟨-, -, -, -, -, -, e0, e1, -⟩ := idx_facts t
  unfold iblk0
  rw [View.read_apply]
  show V c (Pipeline.arrRef spec0 3) _ = V c (Pipeline.arrRef spec0 3) _
  congr 1
  funext a
  apply Fin.ext
  match a with
  | ⟨0, _⟩ => show win0_3.index t 0 * 1 + 1 * 0 = 0; rw [e0]
  | ⟨1, _⟩ => show win0_3.index t 1 * 20 + 1 * q.val = q.val; rw [e1]; omega

/-- So the affine map's tile `t` is rows `2000 t + r` of the whole affine map. -/
theorem tile_eq (c : Dev nD) (t : Fin cfg0.N) (r : Fin 2000) (q : Fin 20) :
    k0_pay3 (F := Ideal) (iblk0 V c 0 t) (iblk0 V c 1 t) (iblk0 V c 2 t) (iblk0 V c 3 t) (ix2 r q)
      = Z V c (ix2 (rowOf t.val (tileLe t) r) q) :=
  pay3_tile (arrH V c) (arrA V c) (arrW V c) (fun q => arrB V c (ix2 0 q)) t.val (tileLe t)
    (iblk0 V c 0 t) (iblk0 V c 1 t) (iblk0 V c 2 t) (iblk0 V c 3 t)
    (fun r k => blk0_apply V c t r k) (fun r k => blk1_apply V c t r k) (fun k q => blk2_apply V c t k q)
    (fun q => blk3_apply V c t q) r q

/-! ## The three outputs after every tile -/

/-- After tile `n`: the first output holds the affine map's tile `n`; the second the column sums and the third the
    column sums of squares of the affine map over rows `0, …, 2000 (n + 1) - 1`. By induction on the tile. -/
theorem outsAt_inv (c : Dev nD) : ∀ (n : ℕ) (h : n < cfg0.N),
    (outsAt0 V c n h).1 = k0_pay3 (F := Ideal) (iblk0 V c 0 ⟨n, h⟩) (iblk0 V c 1 ⟨n, h⟩) (iblk0 V c 2 ⟨n, h⟩) (iblk0 V c 3 ⟨n, h⟩)
    ∧ (∀ q : Fin 20, (outsAt0 V c n h).2.1 (ix2 (0 : Fin 1) q)
        = ∑ i ∈ range (2000 * (n + 1)), Cert.Lib.extendZero (fun p : Fin 100000 => Z V c (ix2 p q)) i)
    ∧ (∀ q : Fin 20, (outsAt0 V c n h).2.2 (ix2 (0 : Fin 1) q)
        = ∑ i ∈ range (2000 * (n + 1)), Cert.Lib.extendZero (fun p : Fin 100000 => Z V c (ix2 p q) * Z V c (ix2 p q)) i)
  | 0, h => by
    rw [outsAt0_A V c ⟨0, h⟩ rfl]
    dsimp only
    rw [out_A_4, out_A_5, out_A_6]
    refine ⟨rfl, fun q => ?_, fun q => ?_⟩
    · exact pay4_step (Z V c) 0 (tileLe ⟨0, h⟩) _ _ _ _ _ (tile_eq V c ⟨0, h⟩) q
        ((pay1_apply q).trans (Cert.Lib.running_total_zero _ 2000))
    · exact pay5_step (Z V c) 0 (tileLe ⟨0, h⟩) _ _ _ _ _ (tile_eq V c ⟨0, h⟩) q
        ((pay2_apply q).trans (Cert.Lib.running_total_zero _ 2000))
  | n + 1, h => by
    have hN : cfg0.N = 50 := N_0
    have hB : ¬(⟨n + 1, h⟩ : Fin cfg0.N).val % 50 = 0 := by dsimp only; omega
    obtain ⟨-, ih5, ih6⟩ := outsAt_inv c n (Nat.lt_of_succ_lt h)
    rw [outsAt0_B V c ⟨n + 1, h⟩ hB]
    dsimp only
    rw [out_B_4, out_B_5, out_B_6]
    refine ⟨rfl, fun q => ?_, fun q => ?_⟩
    · exact pay4_step (Z V c) (n + 1) (tileLe ⟨n + 1, h⟩) _ _ _ _ _ (tile_eq V c ⟨n + 1, h⟩) q (ih5 q)
    · exact pay5_step (Z V c) (n + 1) (tileLe ⟨n + 1, h⟩) _ _ _ _ _ (tile_eq V c ⟨n + 1, h⟩) q (ih6 q)

end AtIdeal

/-! ## From the tiles to the arrays -/

section Arrays

variable (V : (c : Dev nD) → (b : Ref sig .tc) → Buf (Elt Ideal) ((c : Thread nD τ).loc b))

/-- What tile `t` writes back to the first output is block `t` of the whole affine map. -/
theorem flushed4_eq (c : Dev nD) (t : Fin cfg0.N) :
    (dat0 V c).flushed 4 t = ((cfg0.win 4).blk t).view.read (Elt Ideal) (Z V c) := by
  obtain ⟨-, -, -, -, -, -, -, -, e0, e1, -⟩ := idx_facts t
  show (cfg0.win 4).cut (grid0.coords t) ((dat0 V c).after 4 t) = _
  rw [after0_4, (outsAt_inv V c t.val t.isLt).1]
  funext (j : S2000x20.Idx)
  obtain ⟨r, q, rfl⟩ : ∃ (r : Fin 2000) (q : Fin 20), j = ix2 r q := ⟨j 0, j 1, eq_ix2 j⟩
  show k0_pay3 (F := Ideal) (iblk0 V c 0 t) (iblk0 V c 1 t) (iblk0 V c 2 t) (iblk0 V c 3 t) (ix2 r q)
    = Z V c (((cfg0.win 4).blk t).view.emb (ix2 r q))
  rw [tile_eq V c t r q]
  congr 1
  funext a
  apply Fin.ext
  match a with
  | ⟨0, _⟩ => show 2000 * t.val + r.val = win0_4.index t 0 * 2000 + 1 * r.val; rw [e0]; omega
  | ⟨1, _⟩ => show q.val = win0_4.index t 1 * 20 + 1 * q.val; rw [e1]; omega

/-- A row index is in tile `t`'s block of the first output iff each coordinate is in the block's range. -/
theorem mem_blk4 (t : Fin cfg0.N) (i : S100000x20.Idx) :
    i ∈ ((cfg0.win 4).blk t).view.set
      ↔ ∀ a : Fin 2, win0_4.index t a * S2000x20.size a ≤ (i a).val ∧ (i a).val < win0_4.index t a * S2000x20.size a + S2000x20.size a := by
  show i ∈ ((View.whole main_v15_0).slice (win0_4.rect t)).set ↔ _
  rw [View.set_slice_whole, Rect.mem_set_unit]
  exact Iff.rfl

/-- Row `p` is in the block of tile `p / 2000`: the tiles cover the first output. -/
theorem cover4 (i : S100000x20.Idx) :
    ∃ t : Fin cfg0.N, (cfg0.win 4).flush t = true ∧ i ∈ ((cfg0.win 4).blk t).view.set := by
  have hN : cfg0.N = 50 := N_0
  have hi0 : (i 0).val < 100000 := (i 0).isLt
  have hi1 : (i 1).val < 20 := (i 1).isLt
  obtain ⟨-, -, -, -, -, -, -, -, e0, e1, -⟩ := idx_facts ⟨(i 0).val / 2000, by omega⟩
  refine ⟨⟨(i 0).val / 2000, by omega⟩, flush0_4 _, ?_⟩
  rw [mem_blk4]
  intro a
  match a with
  | ⟨0, _⟩ =>
    show win0_4.index ⟨(i 0).val / 2000, _⟩ 0 * 2000 ≤ (i 0).val ∧ (i 0).val < win0_4.index ⟨(i 0).val / 2000, _⟩ 0 * 2000 + 2000
    rw [e0]; dsimp only; omega
  | ⟨1, _⟩ =>
    show win0_4.index ⟨(i 0).val / 2000, _⟩ 1 * 20 ≤ (i 1).val ∧ (i 1).val < win0_4.index ⟨(i 0).val / 2000, _⟩ 1 * 20 + 20
    rw [e1]; omega

/-- THE FIRST OUTPUT after the layer: the affine map of the whole arrays. -/
theorem arr4 (c : Dev nD) : (dat0 V c).arrAt 4 cfg0.N = Z V c :=
  (dat0 V c).arrAt_eq_of_cover 4 (Z V c) (fun t _ => flushed4_eq V c t) cover4

/-- The statistics rows are written back by the last tile only. -/
theorem last_of_flush5 (t : Fin cfg0.N) (hf : (cfg0.win 5).flush t = true) : t.val = 49 := by
  have hN : cfg0.N = 50 := N_0
  have := (flush0_5 t).mp hf; have := t.isLt; omega
theorem last_of_flush6 (t : Fin cfg0.N) (hf : (cfg0.win 6).flush t = true) : t.val = 49 := by
  have hN : cfg0.N = 50 := N_0
  have := (flush0_6 t).mp hf; have := t.isLt; omega

/-- What a tile writes back to output 5 is the whole row, whatever row function agrees with what the tile left. -/
theorem flushed5_of (c : Dev nD) (t : Fin cfg0.N) (G : S1x20.Idx → EReal)
    (hG : ∀ q : Fin 20, (outsAt0 V c t.val t.isLt).2.1 (ix2 (0 : Fin 1) q) = G (ix2 (0 : Fin 1) q)) :
    (dat0 V c).flushed 5 t = ((cfg0.win 5).blk t).view.read (Elt Ideal) G := by
  have e0 : win0_5.index t (0 : Fin 2) = 0 := (idx_facts t).2.2.2.2.2.2.2.2.2.2.1
  have e1 : win0_5.index t (1 : Fin 2) = 0 := (idx_facts t).2.2.2.2.2.2.2.2.2.2.2.1
  show (cfg0.win 5).cut (grid0.coords t) ((dat0 V c).after 5 t) = _
  rw [after0_5]
  funext (j : S1x20.Idx)
  obtain ⟨z, q, rfl⟩ : ∃ (z : Fin 1) (q : Fin 20), j = ix2 z q := ⟨j 0, j 1, eq_ix2 j⟩
  obtain rfl : z = 0 := Subsingleton.elim _ _
  show (outsAt0 V c t.val t.isLt).2.1 (ix2 (0 : Fin 1) q) = G (((cfg0.win 5).blk t).view.emb (ix2 (0 : Fin 1) q))
  rw [hG q]
  congr 1
  funext a
  apply Fin.ext
  match a with
  | ⟨0, _⟩ => show 0 = win0_5.index t 0 * 1 + 1 * 0; rw [e0]
  | ⟨1, _⟩ => show q.val = win0_5.index t 1 * 20 + 1 * q.val; rw [e1]; omega

/-- What the last tile writes back to output 5 is the row of column sums of the whole affine map. -/
theorem flushed5_eq (c : Dev nD) (t : Fin cfg0.N) (hf : (cfg0.win 5).flush t = true) :
    (dat0 V c).flushed 5 t
      = ((cfg0.win 5).blk t).view.read (Elt Ideal) (fun i : S1x20.Idx => Spec.colSum (Z V c) (i 1)) := by
  have h49 := last_of_flush5 t hf
  refine flushed5_of V c t _ fun q => ?_
  rw [(outsAt_inv V c t.val t.isLt).2.1 q, show 2000 * (t.val + 1) = 2000 * 50 by rw [h49]]
  show _ = Spec.colSum (Z V c) q
  unfold Spec.colSum
  exact Cert.Lib.running_total_last (fun p : Fin 100000 => Z V c (ix2 p q)) 2000 50 rfl

/-- What a tile writes back to output 6 is the whole row, whatever row function agrees with what the tile left. -/
theorem flushed6_of (c : Dev nD) (t : Fin cfg0.N) (G : S1x20.Idx → EReal)
    (hG : ∀ q : Fin 20, (outsAt0 V c t.val t.isLt).2.2 (ix2 (0 : Fin 1) q) = G (ix2 (0 : Fin 1) q)) :
    (dat0 V c).flushed 6 t = ((cfg0.win 6).blk t).view.read (Elt Ideal) G := by
  have e0 : win0_6.index t (0 : Fin 2) = 0 := (idx_facts t).2.2.2.2.2.2.2.2.2.2.2.2.1
  have e1 : win0_6.index t (1 : Fin 2) = 0 := (idx_facts t).2.2.2.2.2.2.2.2.2.2.2.2.2
  show (cfg0.win 6).cut (grid0.coords t) ((dat0 V c).after 6 t) = _
  rw [after0_6]
  funext (j : S1x20.Idx)
  obtain ⟨z, q, rfl⟩ : ∃ (z : Fin 1) (q : Fin 20), j = ix2 z q := ⟨j 0, j 1, eq_ix2 j⟩
  obtain rfl : z = 0 := Subsingleton.elim _ _
  show (outsAt0 V c t.val t.isLt).2.2 (ix2 (0 : Fin 1) q) = G (((cfg0.win 6).blk t).view.emb (ix2 (0 : Fin 1) q))
  rw [hG q]
  congr 1
  funext a
  apply Fin.ext
  match a with
  | ⟨0, _⟩ => show 0 = win0_6.index t 0 * 1 + 1 * 0; rw [e0]
  | ⟨1, _⟩ => show q.val = win0_6.index t 1 * 20 + 1 * q.val; rw [e1]; omega

/-- What the last tile writes back to output 6 is the row of column sums of squares of the whole affine map. -/
theorem flushed6_eq (c : Dev nD) (t : Fin cfg0.N) (hf : (cfg0.win 6).flush t = true) :
    (dat0 V c).flushed 6 t
      = ((cfg0.win 6).blk t).view.read (Elt Ideal) (fun i : S1x20.Idx => Spec.colSumSq (Z V c) (i 1)) := by
  have h49 := last_of_flush6 t hf
  refine flushed6_of V c t _ fun q => ?_
  rw [(outsAt_inv V c t.val t.isLt).2.2 q, show 2000 * (t.val + 1) = 2000 * 50 by rw [h49]]
  show _ = Spec.colSumSq (Z V c) q
  unfold Spec.colSumSq
  exact Cert.Lib.running_total_last (fun p : Fin 100000 => Z V c (ix2 p q) * Z V c (ix2 p q)) 2000 50 rfl

/-- The last tile, 49. -/
def tLast : Fin cfg0.N := ⟨49, by rw [show cfg0.N = 50 from N_0]; decide⟩

theorem mem_blk5 (t : Fin cfg0.N) (i : S1x20.Idx) :
    i ∈ ((cfg0.win 5).blk t).view.set
      ↔ ∀ a : Fin 2, win0_5.index t a * S1x20.size a ≤ (i a).val ∧ (i a).val < win0_5.index t a * S1x20.size a + S1x20.size a := by
  show i ∈ ((View.whole main_v15_1).slice (win0_5.rect t)).set ↔ _
  rw [View.set_slice_whole, Rect.mem_set_unit]
  exact Iff.rfl

theorem mem_blk6 (t : Fin cfg0.N) (i : S1x20.Idx) :
    i ∈ ((cfg0.win 6).blk t).view.set
      ↔ ∀ a : Fin 2, win0_6.index t a * S1x20.size a ≤ (i a).val ∧ (i a).val < win0_6.index t a * S1x20.size a + S1x20.size a := by
  show i ∈ ((View.whole main_v15_2).slice (win0_6.rect t)).set ↔ _
  rw [View.set_slice_whole, Rect.mem_set_unit]
  exact Iff.rfl

/-- The last tile's block is the whole statistics row. -/
theorem cover5 (i : S1x20.Idx) :
    ∃ t : Fin cfg0.N, (cfg0.win 5).flush t = true ∧ i ∈ ((cfg0.win 5).blk t).view.set := by
  have hi0 : (i 0).val < 1 := (i 0).isLt
  have hi1 : (i 1).val < 20 := (i 1).isLt
  obtain ⟨-, -, -, -, -, -, -, -, -, -, e0, e1, -⟩ := idx_facts tLast
  refine ⟨tLast, (flush0_5 tLast).mpr rfl, ?_⟩
  rw [mem_blk5]
  intro a
  match a with
  | ⟨0, _⟩ =>
    show win0_5.index tLast 0 * 1 ≤ (i 0).val ∧ (i 0).val < win0_5.index tLast 0 * 1 + 1
    rw [e0]; omega
  | ⟨1, _⟩ =>
    show win0_5.index tLast 1 * 20 ≤ (i 1).val ∧ (i 1).val < win0_5.index tLast 1 * 20 + 20
    rw [e1]; omega

theorem cover6 (i : S1x20.Idx) :
    ∃ t : Fin cfg0.N, (cfg0.win 6).flush t = true ∧ i ∈ ((cfg0.win 6).blk t).view.set := by
  have hi0 : (i 0).val < 1 := (i 0).isLt
  have hi1 : (i 1).val < 20 := (i 1).isLt
  obtain ⟨-, -, -, -, -, -, -, -, -, -, -, -, e0, e1⟩ := idx_facts tLast
  refine ⟨tLast, (flush0_6 tLast).mpr rfl, ?_⟩
  rw [mem_blk6]
  intro a
  match a with
  | ⟨0, _⟩ =>
    show win0_6.index tLast 0 * 1 ≤ (i 0).val ∧ (i 0).val < win0_6.index tLast 0 * 1 + 1
    rw [e0]; omega
  | ⟨1, _⟩ =>
    show win0_6.index tLast 1 * 20 ≤ (i 1).val ∧ (i 1).val < win0_6.index tLast 1 * 20 + 20
    rw [e1]; omega

/-- THE SECOND OUTPUT after the layer: the column sums of the affine map over all 100000 rows. -/
theorem arr5 (c : Dev nD) :
    (dat0 V c).arrAt 5 cfg0.N = fun i : S1x20.Idx => Spec.colSum (Z V c) (i 1) :=
  (dat0 V c).arrAt_eq_of_cover 5 (fun i : S1x20.Idx => Spec.colSum (Z V c) (i 1)) (flushed5_eq V c) cover5

/-- THE THIRD OUTPUT after the layer: the column sums of squares of the affine map over all 100000 rows. -/
theorem arr6 (c : Dev nD) :
    (dat0 V c).arrAt 6 cfg0.N = fun i : S1x20.Idx => Spec.colSumSq (Z V c) (i 1) :=
  (dat0 V c).arrAt_eq_of_cover 6 (fun i : S1x20.Idx => Spec.colSumSq (Z V c) (i 1)) (flushed6_eq V c) cover6

end Arrays

end Cert.LinStats0

end
-- ==== Proof.LinStats2Pay.lean ====
/-
  The linear layer with column statistics, second layer (20 input columns): what one tile of 2000 rows computes, read
  entry by entry on the extended reals.

  The tile's affine map at row `p`, column `q` is `Σ_c (h[p,c] + a[p,c]) · W[c,q] + b[q]` (a change of float format is
  the identity on extended reals). The two statistics outputs add to what they held the column sums, over the tile's
  rows, of the affine map's entries and of their squares. Reading the tile's inputs as rows `2000 t, …, 2000 t + 1999` of
  the whole matrices, the affine map's tile is the same rows of the whole affine map, and the statistics after tile `t`
  are the sums over rows `0, …, 2000 (t + 1) - 1`.
-/
import proofs.«113277_j59725815218466_1_alg».proof.Proof.Gen.KernelIdeal.Skeleton
import proofs.«113277_j59725815218466_1_alg».proof.Proof.Spec
import proofs.«113277_j59725815218466_1_alg».proof.Proof.LibPlainDot
import proofs.«113277_j59725815218466_1_alg».proof.Proof.LibTileSum
import Idealize.ShloMosaic.Lib.Pipeline.Value
import Idealize.ShloMosaic.PureOps.Ideal.Laws

noncomputable section

namespace Cert.LinStats2

open Idealize.ShloMosaic Idealize.ShloMosaic.ValueIdx
open Cert.KernelIdeal Cert.KernelIdeal.Gen
open Finset (range)

/-- The affine map's tile at `(p, q)`. -/
theorem pay3_apply (v3 v4 : Vec Ideal S2000x20 .f32) (v8 : Vec Ideal S20x20 .f32) (v11 : Vec Ideal S1x20 .f32)
    (p : Fin 2000) (q : Fin 20) :
    k2_pay3 (F := Ideal) v3 v4 v8 v11 (ix2 p q)
      = (∑ c : Fin 20, (v3 (ix2 p c) + v4 (ix2 p c)) * v8 (ix2 c q)) + v11 (ix2 0 q) := by
  unfold k2_pay3
  refine (Cert.Lib.lin_apply dot_S2000x20_S20x20_S2000x20_1_0_0_1_n_n rfl
    (truncf .bf16 (addf (shapeCast S2000x20 v3 shapeCasts_S2000x20_S2000x20) (shapeCast S2000x20 v4 shapeCasts_S2000x20_S2000x20)) bitsLt_bf16_f32)
    (truncf .bf16 v8 bitsLt_bf16_f32) (shapeCast S1x20 v11 shapeCasts_S1x20_S1x20) broadcasts_S1x20_S2000x20 p q).trans ?_
  simp only [shapeCast_self]
  rfl

/-- Inserting row `p` above column `q`. -/
theorem lift_row (p : Fin 2000) (q : Fin 20) :
    reduces_S2000x20_S20.lift (ix1 q) p = ix2 p q := by
  funext a
  apply Fin.ext
  match a with
  | ⟨0, _⟩ => rfl
  | ⟨1, _⟩ => rfl

/-- The sum down a tile's column. -/
theorem colsum_apply (src : FVec Ideal S2000x20 .f32) (q : Fin 20) :
    multiReduction (F := Ideal) .add [0] S20 src 0x00000000#32 reduces_S2000x20_S20 (.inl rfl) rfl (ix1 q)
      = ∑ p : Fin 2000, src (ix2 p q) := by
  refine (Ideal.multiReduction_add_single src 0x00000000#32 reduces_S2000x20_S20 (.inl rfl) rfl (ix1 q)).trans ?_
  exact Finset.sum_congr rfl fun p _ => congrArg src (lift_row p q)

/-- A vector of 20 laid as one row, at column `q`. -/
theorem row_apply (v : FVec Ideal S20 .f32) (q : Fin 20) :
    shapeCast S1x20 v shapeCasts_S20_S1x20 (ix2 (0 : Fin 1) q) = v (ix1 q) := by
  refine (shapeCast_addUnit_apply ![20] v shapeCasts_S20_S1x20 (ix2 (0 : Fin 1) q)).trans ?_
  refine congrArg v (funext fun a => ?_)
  match a with
  | ⟨0, _⟩ => rfl

/-- The running column sum after a tile: what was held plus the tile's column sum. -/
theorem pay4_apply (v3 v4 : Vec Ideal S2000x20 .f32) (v8 : Vec Ideal S20x20 .f32) (v11 v16 : Vec Ideal S1x20 .f32)
    (q : Fin 20) :
    k2_pay4 (F := Ideal) v3 v4 v8 v11 v16 (ix2 (0 : Fin 1) q)
      = v16 (ix2 0 q) + ∑ p : Fin 2000, k2_pay3 (F := Ideal) v3 v4 v8 v11 (ix2 p q) := by
  unfold k2_pay4
  show shapeCast S1x20 v16 shapeCasts_S1x20_S1x20 (ix2 (0 : Fin 1) q) + shapeCast S1x20 _ shapeCasts_S20_S1x20 (ix2 (0 : Fin 1) q) = _
  rw [shapeCast_self]
  refine congrArg (v16 (ix2 0 q) + ·) ?_
  exact (row_apply _ q).trans (colsum_apply _ q)

/-- The running column sum of squares after a tile. -/
theorem pay5_apply (v3 v4 : Vec Ideal S2000x20 .f32) (v8 : Vec Ideal S20x20 .f32) (v11 v22 : Vec Ideal S1x20 .f32)
    (q : Fin 20) :
    k2_pay5 (F := Ideal) v3 v4 v8 v11 v22 (ix2 (0 : Fin 1) q)
      = v22 (ix2 0 q) + ∑ p : Fin 2000,
          k2_pay3 (F := Ideal) v3 v4 v8 v11 (ix2 p q) * k2_pay3 (F := Ideal) v3 v4 v8 v11 (ix2 p q) := by
  unfold k2_pay5
  show shapeCast S1x20 v22 shapeCasts_S1x20_S1x20 (ix2 (0 : Fin 1) q) + shapeCast S1x20 _ shapeCasts_S20_S1x20 (ix2 (0 : Fin 1) q) = _
  rw [shapeCast_self]
  refine congrArg (v22 (ix2 0 q) + ·) ?_
  exact (row_apply _ q).trans (colsum_apply _ q)

/-- The zero row the first tile stores into the column sums. -/
theorem pay1_apply (q : Fin 20) : k2_pay1 (F := Ideal) (ix2 (0 : Fin 1) q) = 0 := by
  unfold k2_pay1
  show Ideal.ofBits .f32 0x00000000#32 = 0
  exact Ideal.ofBits_zero_f32

/-- The zero row the first tile stores into the column sums of squares. -/
theorem pay2_apply (q : Fin 20) : k2_pay2 (F := Ideal) (ix2 (0 : Fin 1) q) = 0 := by
  unfold k2_pay2
  show Ideal.ofBits .f32 0x00000000#32 = 0
  exact Ideal.ofBits_zero_f32

/-! ## The tile as rows of the whole matrices -/

/-- Row `2000 t + r` of a matrix of 100000 rows, for a tile `t` inside it. -/
abbrev rowOf (t : ℕ) (ht : 2000 * t + 2000 ≤ 100000) (r : Fin 2000) : Fin 100000 :=
  ⟨2000 * t + r.val, lt_of_lt_of_le (Nat.add_lt_add_left r.isLt _) ht⟩

/-- When the tile's inputs are rows `2000 t + r` of `H` and `A`, the whole `W` and the row `b`, the affine map's tile is
    the same rows of the whole affine map. -/
theorem pay3_tile (H A : Spec.Mat 100000 20) (W : Spec.Mat 20 20) (b : Fin 20 → EReal) (t : ℕ)
    (ht : 2000 * t + 2000 ≤ 100000)
    (x0 x1 : Vec Ideal S2000x20 .f32) (x2 : Vec Ideal S20x20 .f32) (x3 : Vec Ideal S1x20 .f32)
    (h0 : ∀ (r : Fin 2000) (c : Fin 20), x0 (ix2 r c) = H (ix2 (rowOf t ht r) c))
    (h1 : ∀ (r : Fin 2000) (c : Fin 20), x1 (ix2 r c) = A (ix2 (rowOf t ht r) c))
    (h2 : ∀ (c : Fin 20) (q : Fin 20), x2 (ix2 c q) = W (ix2 c q))
    (h3 : ∀ q : Fin 20, x3 (ix2 (0 : Fin 1) q) = b q) (r : Fin 2000) (q : Fin 20) :
    k2_pay3 (F := Ideal) x0 x1 x2 x3 (ix2 r q) = Spec.lin H A W b (ix2 (rowOf t ht r) q) := by
  rw [pay3_apply x0 x1 x2 x3 r q, Spec.lin_ix2]
  unfold Spec.linAt
  rw [h3 q]
  refine congrArg (· + b q) (Finset.sum_congr rfl fun c _ => ?_)
  rw [h0 r c, h1 r c, h2 c q]

/-- One tile's step of the running column sum of a matrix `Z`, whose tile `t` the affine map's tile is. -/
theorem pay4_step (Z : Spec.Mat 100000 20) (t : ℕ) (ht : 2000 * t + 2000 ≤ 100000)
    (x0 x1 : Vec Ideal S2000x20 .f32) (x2 : Vec Ideal S20x20 .f32) (x3 acc : Vec Ideal S1x20 .f32)
    (hz : ∀ (r : Fin 2000) (q : Fin 20), k2_pay3 (F := Ideal) x0 x1 x2 x3 (ix2 r q) = Z (ix2 (rowOf t ht r) q))
    (q : Fin 20)
    (hacc : acc (ix2 (0 : Fin 1) q) = ∑ i ∈ range (2000 * t), Cert.Lib.extendZero (fun p : Fin 100000 => Z (ix2 p q)) i) :
    k2_pay4 (F := Ideal) x0 x1 x2 x3 acc (ix2 (0 : Fin 1) q)
      = ∑ i ∈ range (2000 * (t + 1)), Cert.Lib.extendZero (fun p : Fin 100000 => Z (ix2 p q)) i := by
  rw [pay4_apply x0 x1 x2 x3 acc q]
  rw [← Cert.Lib.running_total_step (fun p : Fin 100000 => Z (ix2 p q)) 2000 t ht (acc (ix2 0 q)) hacc]
  exact congrArg (acc (ix2 0 q) + ·) (Finset.sum_congr rfl fun r _ => hz r q)

/-- One tile's step of the running column sum of squares. -/
theorem pay5_step (Z : Spec.Mat 100000 20) (t : ℕ) (ht : 2000 * t + 2000 ≤ 100000)
    (x0 x1 : Vec Ideal S2000x20 .f32) (x2 : Vec Ideal S20x20 .f32) (x3 acc : Vec Ideal S1x20 .f32)
    (hz : ∀ (r : Fin 2000) (q : Fin 20), k2_pay3 (F := Ideal) x0 x1 x2 x3 (ix2 r q) = Z (ix2 (rowOf t ht r) q))
    (q : Fin 20)
    (hacc : acc (ix2 (0 : Fin 1) q)
      = ∑ i ∈ range (2000 * t), Cert.Lib.extendZero (fun p : Fin 100000 => Z (ix2 p q) * Z (ix2 p q)) i) :
    k2_pay5 (F := Ideal) x0 x1 x2 x3 acc (ix2 (0 : Fin 1) q)
      = ∑ i ∈ range (2000 * (t + 1)), Cert.Lib.extendZero (fun p : Fin 100000 => Z (ix2 p q) * Z (ix2 p q)) i := by
  rw [pay5_apply x0 x1 x2 x3 acc q]
  rw [← Cert.Lib.running_total_step (fun p : Fin 100000 => Z (ix2 p q) * Z (ix2 p q)) 2000 t ht (acc (ix2 0 q)) hacc]
  exact congrArg (acc (ix2 0 q) + ·) (Finset.sum_congr rfl fun r _ => by rw [hz r q])

end Cert.LinStats2

end
-- ==== Proof.LinStats2Run.lean ====
/-
  The linear layer with column statistics, second layer, over its 50 tiles of 2000 rows: what the three output arrays
  hold after the last tile.

  In the first tile's case the statistics rows are set to zero before the tile's sums are added; in every later tile's
  case they are added to what the tile before left. So after tile `t` the statistics rows hold the column sums, and the
  column sums of squares, of the affine map over rows `0, …, 2000 (t + 1) - 1`, and after the last tile over all 100000
  rows. The affine map's own output is written tile by tile: tile `t` is rows `2000 t, …, 2000 t + 1999`, and the tiles
  cover the array. The statistics rows are written back once, after the last tile.
-/
import proofs.«113277_j59725815218466_1_alg».proof.Proof.Gen.KernelIdeal.Frame
import proofs.«113277_j59725815218466_1_alg».proof.Proof.LinStats2Pay
import Idealize.ShloMosaic.Lib.Pipeline.Value
import Idealize.ShloMosaic.Lib.Tactic

noncomputable section

namespace Cert.LinStats2

open Idealize.ShloMosaic Idealize.ShloMosaic.TcCoe Idealize.ShloMosaic.ValueIdx Idealize.SL.Sem
open Idealize.ShloMosaic.Pipeline (Dat)
open Cert.KernelIdeal Cert.KernelIdeal.Gen
open Finset (range)

theorem hz : (![0, 0] : Fin 2 → Nat) = fun _ => 0 := funext fun a => by fin_cases a <;> rfl

/-! ## What each case leaves in the three outputs, as the tile's payloads -/

section Pieces

variable {F : FTy → Type} [FloatOps F]

/-- First tile: the affine map's tile. -/
theorem out_A_4 (c : Dev nD) (i : grid2.Coords) (a1 : Memref sig .tc .vmem S2000x20 .f32) (h1 : a1.IsWhole) (a2 : Memref sig .tc .vmem S2000x20 .f32) (h2 : a2.IsWhole) (a3 : Memref sig .tc .vmem S20x20 .f32) (h3 : a3.IsWhole) (a4 : Memref sig .tc .vmem S1x20 .f32) (h4 : a4.IsWhole) (a5 : Memref sig .tc .vmem S2000x20 .f32) (h5 : a5.IsWhole) (a6 : Memref sig .tc .vmem S1x20 .f32) (h6 : a6.IsWhole) (a7 : Memref sig .tc .vmem S1x20 .f32) (h7 : a7.IsWhole) (hc : cond2_0 i)
    (x0 x1 : Vec F S2000x20 .f32) (x2 : Vec F S20x20 .f32) (x3 : Vec F S1x20 .f32) :
    out2_A_4 c i a1 h1 a2 h2 a3 h3 a4 h4 a5 h5 a6 h6 a7 h7 hc x0 x1 x2 x3 = k2_pay3 x0 x1 x2 x3 := by
  unfold out2_A_4
  rw [View.read_writes_eq_canon _ _ _ (cover2_A_4 c i a1 h1 a2 h2 a3 h3 a4 h4 a5 h5 a6 h6 a7 h7 hc x0 x1 x2 x3)]
  unfold kernelRun2_A
  dsimp only
  try sl_unfold_words
  rw [View.canon_unit_zero hz]
  simp only [View.readAt_eq_ld, h1.read_unread, h2.read_unread, h3.read_unread, h4.read_unread,
    View.ld_unit_zero (S := S2000x20) hz, View.ld_unit_zero (S := S20x20) hz, View.ld_unit_zero (S := S1x20) hz,
    View.ld_unit_zero (S := S2000x20) hz]

/-- First tile: the tile's column sums added to the zero row. -/
theorem out_A_5 (c : Dev nD) (i : grid2.Coords) (a1 : Memref sig .tc .vmem S2000x20 .f32) (h1 : a1.IsWhole) (a2 : Memref sig .tc .vmem S2000x20 .f32) (h2 : a2.IsWhole) (a3 : Memref sig .tc .vmem S20x20 .f32) (h3 : a3.IsWhole) (a4 : Memref sig .tc .vmem S1x20 .f32) (h4 : a4.IsWhole) (a5 : Memref sig .tc .vmem S2000x20 .f32) (h5 : a5.IsWhole) (a6 : Memref sig .tc .vmem S1x20 .f32) (h6 : a6.IsWhole) (a7 : Memref sig .tc .vmem S1x20 .f32) (h7 : a7.IsWhole) (hc : cond2_0 i)
    (x0 x1 : Vec F S2000x20 .f32) (x2 : Vec F S20x20 .f32) (x3 : Vec F S1x20 .f32) :
    out2_A_5 c i a1 h1 a2 h2 a3 h3 a4 h4 a5 h5 a6 h6 a7 h7 hc x0 x1 x2 x3 = k2_pay4 x0 x1 x2 x3 k2_pay1 := by
  unfold out2_A_5
  rw [View.read_writes_eq_canon _ _ _ (cover2_A_5 c i a1 h1 a2 h2 a3 h3 a4 h4 a5 h5 a6 h6 a7 h7 hc x0 x1 x2 x3)]
  unfold kernelRun2_A
  dsimp only
  try sl_unfold_words
  rw [View.canon_cons_unit_zero (S := S1x20) hz, View.readCov_unit_zero (S := S1x20) _ hz]
  simp only [View.readAt_eq_ld, h1.read_unread, h2.read_unread, h3.read_unread, h4.read_unread,
    View.ld_unit_zero (S := S2000x20) hz, View.ld_unit_zero (S := S20x20) hz, View.ld_unit_zero (S := S1x20) hz,
    View.ld_unit_zero (S := S2000x20) hz]

/-- First tile: the tile's column sums of squares added to the zero row. -/
theorem out_A_6 (c : Dev nD) (i : grid2.Coords) (a1 : Memref sig .tc .vmem S2000x20 .f32) (h1 : a1.IsWhole) (a2 : Memref sig .tc .vmem S2000x20 .f32) (h2 : a2.IsWhole) (a3 : Memref sig .tc .vmem S20x20 .f32) (h3 : a3.IsWhole) (a4 : Memref sig .tc .vmem S1x20 .f32) (h4 : a4.IsWhole) (a5 : Memref sig .tc .vmem S2000x20 .f32) (h5 : a5.IsWhole) (a6 : Memref sig .tc .vmem S1x20 .f32) (h6 : a6.IsWhole) (a7 : Memref sig .tc .vmem S1x20 .f32) (h7 : a7.IsWhole) (hc : cond2_0 i)
    (x0 x1 : Vec F S2000x20 .f32) (x2 : Vec F S20x20 .f32) (x3 : Vec F S1x20 .f32) :
    out2_A_6 c i a1 h1 a2 h2 a3 h3 a4 h4 a5 h5 a6 h6 a7 h7 hc x0 x1 x2 x3 = k2_pay5 x0 x1 x2 x3 k2_pay2 := by
  unfold out2_A_6
  rw [View.read_writes_eq_canon _ _ _ (cover2_A_6 c i a1 h1 a2 h2 a3 h3 a4 h4 a5 h5 a6 h6 a7 h7 hc x0 x1 x2 x3)]
  unfold kernelRun2_A
  dsimp only
  try sl_unfold_words
  rw [View.canon_cons_unit_zero (S := S1x20) hz, View.readCov_unit_zero (S := S1x20) _ hz]
  simp only [View.readAt_eq_ld, h1.read_unread, h2.read_unread, h3.read_unread, h4.read_unread,
    View.ld_unit_zero (S := S2000x20) hz, View.ld_unit_zero (S := S20x20) hz, View.ld_unit_zero (S := S1x20) hz,
    View.ld_unit_zero (S := S2000x20) hz]

/-- A later tile: the affine map's tile. -/
theorem out_B_4 (c : Dev nD) (i : grid2.Coords) (a1 : Memref sig .tc .vmem S2000x20 .f32) (h1 : a1.IsWhole) (a2 : Memref sig .tc .vmem S2000x20 .f32) (h2 : a2.IsWhole) (a3 : Memref sig .tc .vmem S20x20 .f32) (h3 : a3.IsWhole) (a4 : Memref sig .tc .vmem S1x20 .f32) (h4 : a4.IsWhole) (a5 : Memref sig .tc .vmem S2000x20 .f32) (h5 : a5.IsWhole) (a6 : Memref sig .tc .vmem S1x20 .f32) (h6 : a6.IsWhole) (a7 : Memref sig .tc .vmem S1x20 .f32) (h7 : a7.IsWhole) (hc : ¬cond2_0 i)
    (x0 x1 : Vec F S2000x20 .f32) (x2 : Vec F S20x20 .f32) (x3 : Vec F S1x20 .f32) (xo5 xo6 : Vec F S1x20 .f32) :
    out2_B_4 c i a1 h1 a2 h2 a3 h3 a4 h4 a5 h5 a6 h6 a7 h7 hc x0 x1 x2 x3 xo5 xo6 = k2_pay3 x0 x1 x2 x3 := by
  unfold out2_B_4
  rw [View.read_writes_eq_canon _ _ _ (cover2_B_4 c i a1 h1 a2 h2 a3 h3 a4 h4 a5 h5 a6 h6 a7 h7 hc x0 x1 x2 x3 xo5 xo6)]
  unfold kernelRun2_B
  dsimp only
  try sl_unfold_words
  rw [View.canon_unit_zero hz]
  simp only [View.readAt_eq_ld, h1.read_unread, h2.read_unread, h3.read_unread, h4.read_unread, h6.read_unread, h7.read_unread,
    View.ld_unit_zero (S := S2000x20) hz, View.ld_unit_zero (S := S20x20) hz, View.ld_unit_zero (S := S1x20) hz,
    View.ld_unit_zero (S := S2000x20) hz]

/-- A later tile: the tile's column sums added to what the row held. -/
theorem out_B_5 (c : Dev nD) (i : grid2.Coords) (a1 : Memref sig .tc .vmem S2000x20 .f32) (h1 : a1.IsWhole) (a2 : Memref sig .tc .vmem S2000x20 .f32) (h2 : a2.IsWhole) (a3 : Memref sig .tc .vmem S20x20 .f32) (h3 : a3.IsWhole) (a4 : Memref sig .tc .vmem S1x20 .f32) (h4 : a4.IsWhole) (a5 : Memref sig .tc .vmem S2000x20 .f32) (h5 : a5.IsWhole) (a6 : Memref sig .tc .vmem S1x20 .f32) (h6 : a6.IsWhole) (a7 : Memref sig .tc .vmem S1x20 .f32) (h7 : a7.IsWhole) (hc : ¬cond2_0 i)
    (x0 x1 : Vec F S2000x20 .f32) (x2 : Vec F S20x20 .f32) (x3 : Vec F S1x20 .f32) (xo5 xo6 : Vec F S1x20 .f32) :
    out2_B_5 c i a1 h1 a2 h2 a3 h3 a4 h4 a5 h5 a6 h6 a7 h7 hc x0 x1 x2 x3 xo5 xo6 = k2_pay4 x0 x1 x2 x3 xo5 := by
  unfold out2_B_5
  rw [View.read_writes_eq_canon _ _ _ (cover2_B_5 c i a1 h1 a2 h2 a3 h3 a4 h4 a5 h5 a6 h6 a7 h7 hc x0 x1 x2 x3 xo5 xo6)]
  unfold kernelRun2_B
  dsimp only
  try sl_unfold_words
  rw [View.canon_unit_zero hz]
  simp only [View.readAt_eq_ld, h1.read_unread, h2.read_unread, h3.read_unread, h4.read_unread, h6.read_unread, h7.read_unread,
    View.ld_unit_zero (S := S2000x20) hz, View.ld_unit_zero (S := S20x20) hz, View.ld_unit_zero (S := S1x20) hz,
    View.ld_unit_zero (S := S2000x20) hz]

/-- A later tile: the tile's column sums of squares added to what the row held. -/
theorem out_B_6 (c : Dev nD) (i : grid2.Coords) (a1 : Memref sig .tc .vmem S2000x20 .f32) (h1 : a1.IsWhole) (a2 : Memref sig .tc .vmem S2000x20 .f32) (h2 : a2.IsWhole) (a3 : Memref sig .tc .vmem S20x20 .f32) (h3 : a3.IsWhole) (a4 : Memref sig .tc .vmem S1x20 .f32) (h4 : a4.IsWhole) (a5 : Memref sig .tc .vmem S2000x20 .f32) (h5 : a5.IsWhole) (a6 : Memref sig .tc .vmem S1x20 .f32) (h6 : a6.IsWhole) (a7 : Memref sig .tc .vmem S1x20 .f32) (h7 : a7.IsWhole) (hc : ¬cond2_0 i)
    (x0 x1 : Vec F S2000x20 .f32) (x2 : Vec F S20x20 .f32) (x3 : Vec F S1x20 .f32) (xo5 xo6 : Vec F S1x20 .f32) :
    out2_B_6 c i a1 h1 a2 h2 a3 h3 a4 h4 a5 h5 a6 h6 a7 h7 hc x0 x1 x2 x3 xo5 xo6 = k2_pay5 x0 x1 x2 x3 xo6 := by
  unfold out2_B_6
  rw [View.read_writes_eq_canon _ _ _ (cover2_B_6 c i a1 h1 a2 h2 a3 h3 a4 h4 a5 h5 a6 h6 a7 h7 hc x0 x1 x2 x3 xo5 xo6)]
  unfold kernelRun2_B
  dsimp only
  try sl_unfold_words
  rw [View.canon_unit_zero hz]
  simp only [View.readAt_eq_ld, h1.read_unread, h2.read_unread, h3.read_unread, h4.read_unread, h6.read_unread, h7.read_unread,
    View.ld_unit_zero (S := S2000x20) hz, View.ld_unit_zero (S := S20x20) hz, View.ld_unit_zero (S := S1x20) hz,
    View.ld_unit_zero (S := S2000x20) hz]

end Pieces

/-! ## The tiles as rows of the whole arrays -/

section AtIdeal

variable (V : (c : Dev nD) → (b : Ref sig .tc) → Buf (Elt Ideal) ((c : Thread nD τ).loc b))

/-- The node matrix, the aggregated matrix, the weights and the bias row as the layer finds them. -/
abbrev arrH (c : Dev nD) : Spec.Mat 100000 20 := V c (Pipeline.arrRef spec2 0)
abbrev arrA (c : Dev nD) : Spec.Mat 100000 20 := V c (Pipeline.arrRef spec2 1)
abbrev arrW (c : Dev nD) : Spec.Mat 20 20 := V c (Pipeline.arrRef spec2 2)
abbrev arrB (c : Dev nD) : Spec.Mat 1 20 := V c (Pipeline.arrRef spec2 3)

/-- The affine map of the whole arrays. -/
abbrev Z (c : Dev nD) : Spec.Mat 100000 20 :=
  Spec.lin (arrH V c) (arrA V c) (arrW V c) (fun q => arrB V c (ix2 0 q))

/-- Every tile lies inside the 100000 rows. -/
theorem tileLe (t : Fin cfg2.N) : 2000 * t.val + 2000 ≤ 100000 := by
  have := t.isLt; have hN : cfg2.N = 50 := N_2; omega

/-- The block indices of the seven windows at every tile: the row-tiled ones move with the tile, the others stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-- The node matrix's tile is its rows `2000 t + r`. -/
theorem blk0_apply (c : Dev nD) (t : Fin cfg2.N) (r : Fin 2000) (k : Fin 20) :
    (iblk2 V c 0 t : Vec Ideal S2000x20 .f32) (ix2 r k) = arrH V c (ix2 (rowOf t.val (tileLe t) r) k) := by
  obtain ⟨e0, e1, -⟩ := idx_facts t
  unfold iblk2
  rw [View.read_apply]
  show V c (Pipeline.arrRef spec2 0) _ = V c (Pipeline.arrRef spec2 0) _
  congr 1
  funext a
  apply Fin.ext
  match a with
  | ⟨0, _⟩ => show win2_0.index t 0 * 2000 + 1 * r.val = 2000 * t.val + r.val; rw [e0]; omega
  | ⟨1, _⟩ => show win2_0.index t 1 * 20 + 1 * k.val = k.val; rw [e1]; omega

/-- The aggregated matrix's tile is its rows `2000 t + r`. -/
theorem blk1_apply (c : Dev nD) (t : Fin cfg2.N) (r : Fin 2000) (k : Fin 20) :
    (iblk2 V c 1 t : Vec Ideal S2000x20 .f32) (ix2 r k) = arrA V c (ix2 (rowOf t.val (tileLe t) r) k) := by
  obtain ⟨-, -, e0, e1, -⟩ := idx_facts t
  unfold iblk2
  rw [View.read_apply]
  show V c (Pipeline.arrRef spec2 1) _ = V c (Pipeline.arrRef spec2 1) _
  congr 1
  funext a
  apply Fin.ext
  match a with
  | ⟨0, _⟩ => show win2_1.index t 0 * 2000 + 1 * r.val = 2000 * t.val + r.val; rw [e0]; omega
  | ⟨1, _⟩ => show win2_1.index t 1 * 20 + 1 * k.val = k.val; rw [e1]; omega

/-- The weights' block is the whole matrix. -/
theorem blk2_apply (c : Dev nD) (t : Fin cfg2.N) (k : Fin 20) (q : Fin 20) :
    (iblk2 V c 2 t : Vec Ideal S20x20 .f32) (ix2 k q) = arrW V c (ix2 k q) := by
  obtain ⟨-, -, -, -, e0, e1, -⟩ := idx_facts t
  unfold iblk2
  rw [View.read_apply]
  show V c (Pipeline.arrRef spec2 2) _ = V c (Pipeline.arrRef spec2 2) _
  congr 1
  funext a
  apply Fin.ext
  match a with
  | ⟨0, _⟩ => show win2_2.index t 0 * 20 + 1 * k.val = k.val; rw [e0]; omega
  | ⟨1, _⟩ => show win2_2.index t 1 * 20 + 1 * q.val = q.val; rw [e1]; omega

/-- The bias row's block is the whole row. -/
theorem blk3_apply (c : Dev nD) (t : Fin cfg2.N) (q : Fin 20) :
    (iblk2 V c 3 t : Vec Ideal S1x20 .f32) (ix2 (0 : Fin 1) q) = arrB V c (ix2 0 q) := by
  obtain ⟨-, -, -, -, -, -, e0, e1, -⟩ := idx_facts t
  unfold iblk2
  rw [View.read_apply]
  show V c (Pipeline.arrRef spec2 3) _ = V c (Pipeline.arrRef spec2 3) _
  congr 1
  funext a
  apply Fin.ext
  match a with
  | ⟨0, _⟩ => show win2_3.index t 0 * 1 + 1 * 0 = 0; rw [e0]
  | ⟨1, _⟩ => show win2_3.index t 1 * 20 + 1 * q.val = q.val; rw [e1]; omega

/-- So the affine map's tile `t` is rows `2000 t + r` of the whole affine map. -/
theorem tile_eq (c : Dev nD) (t : Fin cfg2.N) (r : Fin 2000) (q : Fin 20) :
    k2_pay3 (F := Ideal) (iblk2 V c 0 t) (iblk2 V c 1 t) (iblk2 V c 2 t) (iblk2 V c 3 t) (ix2 r q)
      = Z V c (ix2 (rowOf t.val (tileLe t) r) q) :=
  pay3_tile (arrH V c) (arrA V c) (arrW V c) (fun q => arrB V c (ix2 0 q)) t.val (tileLe t)
    (iblk2 V c 0 t) (iblk2 V c 1 t) (iblk2 V c 2 t) (iblk2 V c 3 t)
    (fun r k => blk0_apply V c t r k) (fun r k => blk1_apply V c t r k) (fun k q => blk2_apply V c t k q)
    (fun q => blk3_apply V c t q) r q

/-! ## The three outputs after every tile -/

/-- After tile `n`: the first output holds the affine map's tile `n`; the second the column sums and the third the
    column sums of squares of the affine map over rows `0, …, 2000 (n + 1) - 1`. By induction on the tile. -/
theorem outsAt_inv (c : Dev nD) : ∀ (n : ℕ) (h : n < cfg2.N),
    (outsAt2 V c n h).1 = k2_pay3 (F := Ideal) (iblk2 V c 0 ⟨n, h⟩) (iblk2 V c 1 ⟨n, h⟩) (iblk2 V c 2 ⟨n, h⟩) (iblk2 V c 3 ⟨n, h⟩)
    ∧ (∀ q : Fin 20, (outsAt2 V c n h).2.1 (ix2 (0 : Fin 1) q)
        = ∑ i ∈ range (2000 * (n + 1)), Cert.Lib.extendZero (fun p : Fin 100000 => Z V c (ix2 p q)) i)
    ∧ (∀ q : Fin 20, (outsAt2 V c n h).2.2 (ix2 (0 : Fin 1) q)
        = ∑ i ∈ range (2000 * (n + 1)), Cert.Lib.extendZero (fun p : Fin 100000 => Z V c (ix2 p q) * Z V c (ix2 p q)) i)
  | 0, h => by
    rw [outsAt2_A V c ⟨0, h⟩ rfl]
    dsimp only
    rw [out_A_4, out_A_5, out_A_6]
    refine ⟨rfl, fun q => ?_, fun q => ?_⟩
    · exact pay4_step (Z V c) 0 (tileLe ⟨0, h⟩) _ _ _ _ _ (tile_eq V c ⟨0, h⟩) q
        ((pay1_apply q).trans (Cert.Lib.running_total_zero _ 2000))
    · exact pay5_step (Z V c) 0 (tileLe ⟨0, h⟩) _ _ _ _ _ (tile_eq V c ⟨0, h⟩) q
        ((pay2_apply q).trans (Cert.Lib.running_total_zero _ 2000))
  | n + 1, h => by
    have hN : cfg2.N = 50 := N_2
    have hB : ¬(⟨n + 1, h⟩ : Fin cfg2.N).val % 50 = 0 := by dsimp only; omega
    obtain ⟨-, ih5, ih6⟩ := outsAt_inv c n (Nat.lt_of_succ_lt h)
    rw [outsAt2_B V c ⟨n + 1, h⟩ hB]
    dsimp only
    rw [out_B_4, out_B_5, out_B_6]
    refine ⟨rfl, fun q => ?_, fun q => ?_⟩
    · exact pay4_step (Z V c) (n + 1) (tileLe ⟨n + 1, h⟩) _ _ _ _ _ (tile_eq V c ⟨n + 1, h⟩) q (ih5 q)
    · exact pay5_step (Z V c) (n + 1) (tileLe ⟨n + 1, h⟩) _ _ _ _ _ (tile_eq V c ⟨n + 1, h⟩) q (ih6 q)

end AtIdeal

/-! ## From the tiles to the arrays -/

section Arrays

variable (V : (c : Dev nD) → (b : Ref sig .tc) → Buf (Elt Ideal) ((c : Thread nD τ).loc b))

/-- What tile `t` writes back to the first output is block `t` of the whole affine map. -/
theorem flushed4_eq (c : Dev nD) (t : Fin cfg2.N) :
    (dat2 V c).flushed 4 t = ((cfg2.win 4).blk t).view.read (Elt Ideal) (Z V c) := by
  obtain ⟨-, -, -, -, -, -, -, -, e0, e1, -⟩ := idx_facts t
  show (cfg2.win 4).cut (grid2.coords t) ((dat2 V c).after 4 t) = _
  rw [after2_4, (outsAt_inv V c t.val t.isLt).1]
  funext (j : S2000x20.Idx)
  obtain ⟨r, q, rfl⟩ : ∃ (r : Fin 2000) (q : Fin 20), j = ix2 r q := ⟨j 0, j 1, eq_ix2 j⟩
  show k2_pay3 (F := Ideal) (iblk2 V c 0 t) (iblk2 V c 1 t) (iblk2 V c 2 t) (iblk2 V c 3 t) (ix2 r q)
    = Z V c (((cfg2.win 4).blk t).view.emb (ix2 r q))
  rw [tile_eq V c t r q]
  congr 1
  funext a
  apply Fin.ext
  match a with
  | ⟨0, _⟩ => show 2000 * t.val + r.val = win2_4.index t 0 * 2000 + 1 * r.val; rw [e0]; omega
  | ⟨1, _⟩ => show q.val = win2_4.index t 1 * 20 + 1 * q.val; rw [e1]; omega

/-- A row index is in tile `t`'s block of the first output iff each coordinate is in the block's range. -/
theorem mem_blk4 (t : Fin cfg2.N) (i : S100000x20.Idx) :
    i ∈ ((cfg2.win 4).blk t).view.set
      ↔ ∀ a : Fin 2, win2_4.index t a * S2000x20.size a ≤ (i a).val ∧ (i a).val < win2_4.index t a * S2000x20.size a + S2000x20.size a := by
  show i ∈ ((View.whole main_v36_0).slice (win2_4.rect t)).set ↔ _
  rw [View.set_slice_whole, Rect.mem_set_unit]
  exact Iff.rfl

/-- Row `p` is in the block of tile `p / 2000`: the tiles cover the first output. -/
theorem cover4 (i : S100000x20.Idx) :
    ∃ t : Fin cfg2.N, (cfg2.win 4).flush t = true ∧ i ∈ ((cfg2.win 4).blk t).view.set := by
  have hN : cfg2.N = 50 := N_2
  have hi0 : (i 0).val < 100000 := (i 0).isLt
  have hi1 : (i 1).val < 20 := (i 1).isLt
  obtain ⟨-, -, -, -, -, -, -, -, e0, e1, -⟩ := idx_facts ⟨(i 0).val / 2000, by omega⟩
  refine ⟨⟨(i 0).val / 2000, by omega⟩, flush2_4 _, ?_⟩
  rw [mem_blk4]
  intro a
  match a with
  | ⟨0, _⟩ =>
    show win2_4.index ⟨(i 0).val / 2000, _⟩ 0 * 2000 ≤ (i 0).val ∧ (i 0).val < win2_4.index ⟨(i 0).val / 2000, _⟩ 0 * 2000 + 2000
    rw [e0]; dsimp only; omega
  | ⟨1, _⟩ =>
    show win2_4.index ⟨(i 0).val / 2000, _⟩ 1 * 20 ≤ (i 1).val ∧ (i 1).val < win2_4.index ⟨(i 0).val / 2000, _⟩ 1 * 20 + 20
    rw [e1]; omega

/-- THE FIRST OUTPUT after the layer: the affine map of the whole arrays. -/
theorem arr4 (c : Dev nD) : (dat2 V c).arrAt 4 cfg2.N = Z V c :=
  (dat2 V c).arrAt_eq_of_cover 4 (Z V c) (fun t _ => flushed4_eq V c t) cover4

/-- The statistics rows are written back by the last tile only. -/
theorem last_of_flush5 (t : Fin cfg2.N) (hf : (cfg2.win 5).flush t = true) : t.val = 49 := by
  have hN : cfg2.N = 50 := N_2
  have := (flush2_5 t).mp hf; have := t.isLt; omega
theorem last_of_flush6 (t : Fin cfg2.N) (hf : (cfg2.win 6).flush t = true) : t.val = 49 := by
  have hN : cfg2.N = 50 := N_2
  have := (flush2_6 t).mp hf; have := t.isLt; omega

/-- What a tile writes back to output 5 is the whole row, whatever row function agrees with what the tile left. -/
theorem flushed5_of (c : Dev nD) (t : Fin cfg2.N) (G : S1x20.Idx → EReal)
    (hG : ∀ q : Fin 20, (outsAt2 V c t.val t.isLt).2.1 (ix2 (0 : Fin 1) q) = G (ix2 (0 : Fin 1) q)) :
    (dat2 V c).flushed 5 t = ((cfg2.win 5).blk t).view.read (Elt Ideal) G := by
  have e0 : win2_5.index t (0 : Fin 2) = 0 := (idx_facts t).2.2.2.2.2.2.2.2.2.2.1
  have e1 : win2_5.index t (1 : Fin 2) = 0 := (idx_facts t).2.2.2.2.2.2.2.2.2.2.2.1
  show (cfg2.win 5).cut (grid2.coords t) ((dat2 V c).after 5 t) = _
  rw [after2_5]
  funext (j : S1x20.Idx)
  obtain ⟨z, q, rfl⟩ : ∃ (z : Fin 1) (q : Fin 20), j = ix2 z q := ⟨j 0, j 1, eq_ix2 j⟩
  obtain rfl : z = 0 := Subsingleton.elim _ _
  show (outsAt2 V c t.val t.isLt).2.1 (ix2 (0 : Fin 1) q) = G (((cfg2.win 5).blk t).view.emb (ix2 (0 : Fin 1) q))
  rw [hG q]
  congr 1
  funext a
  apply Fin.ext
  match a with
  | ⟨0, _⟩ => show 0 = win2_5.index t 0 * 1 + 1 * 0; rw [e0]
  | ⟨1, _⟩ => show q.val = win2_5.index t 1 * 20 + 1 * q.val; rw [e1]; omega

/-- What the last tile writes back to output 5 is the row of column sums of the whole affine map. -/
theorem flushed5_eq (c : Dev nD) (t : Fin cfg2.N) (hf : (cfg2.win 5).flush t = true) :
    (dat2 V c).flushed 5 t
      = ((cfg2.win 5).blk t).view.read (Elt Ideal) (fun i : S1x20.Idx => Spec.colSum (Z V c) (i 1)) := by
  have h49 := last_of_flush5 t hf
  refine flushed5_of V c t _ fun q => ?_
  rw [(outsAt_inv V c t.val t.isLt).2.1 q, show 2000 * (t.val + 1) = 2000 * 50 by rw [h49]]
  show _ = Spec.colSum (Z V c) q
  unfold Spec.colSum
  exact Cert.Lib.running_total_last (fun p : Fin 100000 => Z V c (ix2 p q)) 2000 50 rfl

/-- What a tile writes back to output 6 is the whole row, whatever row function agrees with what the tile left. -/
theorem flushed6_of (c : Dev nD) (t : Fin cfg2.N) (G : S1x20.Idx → EReal)
    (hG : ∀ q : Fin 20, (outsAt2 V c t.val t.isLt).2.2 (ix2 (0 : Fin 1) q) = G (ix2 (0 : Fin 1) q)) :
    (dat2 V c).flushed 6 t = ((cfg2.win 6).blk t).view.read (Elt Ideal) G := by
  have e0 : win2_6.index t (0 : Fin 2) = 0 := (idx_facts t).2.2.2.2.2.2.2.2.2.2.2.2.1
  have e1 : win2_6.index t (1 : Fin 2) = 0 := (idx_facts t).2.2.2.2.2.2.2.2.2.2.2.2.2
  show (cfg2.win 6).cut (grid2.coords t) ((dat2 V c).after 6 t) = _
  rw [after2_6]
  funext (j : S1x20.Idx)
  obtain ⟨z, q, rfl⟩ : ∃ (z : Fin 1) (q : Fin 20), j = ix2 z q := ⟨j 0, j 1, eq_ix2 j⟩
  obtain rfl : z = 0 := Subsingleton.elim _ _
  show (outsAt2 V c t.val t.isLt).2.2 (ix2 (0 : Fin 1) q) = G (((cfg2.win 6).blk t).view.emb (ix2 (0 : Fin 1) q))
  rw [hG q]
  congr 1
  funext a
  apply Fin.ext
  match a with
  | ⟨0, _⟩ => show 0 = win2_6.index t 0 * 1 + 1 * 0; rw [e0]
  | ⟨1, _⟩ => show q.val = win2_6.index t 1 * 20 + 1 * q.val; rw [e1]; omega

/-- What the last tile writes back to output 6 is the row of column sums of squares of the whole affine map. -/
theorem flushed6_eq (c : Dev nD) (t : Fin cfg2.N) (hf : (cfg2.win 6).flush t = true) :
    (dat2 V c).flushed 6 t
      = ((cfg2.win 6).blk t).view.read (Elt Ideal) (fun i : S1x20.Idx => Spec.colSumSq (Z V c) (i 1)) := by
  have h49 := last_of_flush6 t hf
  refine flushed6_of V c t _ fun q => ?_
  rw [(outsAt_inv V c t.val t.isLt).2.2 q, show 2000 * (t.val + 1) = 2000 * 50 by rw [h49]]
  show _ = Spec.colSumSq (Z V c) q
  unfold Spec.colSumSq
  exact Cert.Lib.running_total_last (fun p : Fin 100000 => Z V c (ix2 p q) * Z V c (ix2 p q)) 2000 50 rfl

/-- The last tile, 49. -/
def tLast : Fin cfg2.N := ⟨49, by rw [show cfg2.N = 50 from N_2]; decide⟩

theorem mem_blk5 (t : Fin cfg2.N) (i : S1x20.Idx) :
    i ∈ ((cfg2.win 5).blk t).view.set
      ↔ ∀ a : Fin 2, win2_5.index t a * S1x20.size a ≤ (i a).val ∧ (i a).val < win2_5.index t a * S1x20.size a + S1x20.size a := by
  show i ∈ ((View.whole main_v36_1).slice (win2_5.rect t)).set ↔ _
  rw [View.set_slice_whole, Rect.mem_set_unit]
  exact Iff.rfl

theorem mem_blk6 (t : Fin cfg2.N) (i : S1x20.Idx) :
    i ∈ ((cfg2.win 6).blk t).view.set
      ↔ ∀ a : Fin 2, win2_6.index t a * S1x20.size a ≤ (i a).val ∧ (i a).val < win2_6.index t a * S1x20.size a + S1x20.size a := by
  show i ∈ ((View.whole main_v36_2).slice (win2_6.rect t)).set ↔ _
  rw [View.set_slice_whole, Rect.mem_set_unit]
  exact Iff.rfl

/-- The last tile's block is the whole statistics row. -/
theorem cover5 (i : S1x20.Idx) :
    ∃ t : Fin cfg2.N, (cfg2.win 5).flush t = true ∧ i ∈ ((cfg2.win 5).blk t).view.set := by
  have hi0 : (i 0).val < 1 := (i 0).isLt
  have hi1 : (i 1).val < 20 := (i 1).isLt
  obtain ⟨-, -, -, -, -, -, -, -, -, -, e0, e1, -⟩ := idx_facts tLast
  refine ⟨tLast, (flush2_5 tLast).mpr rfl, ?_⟩
  rw [mem_blk5]
  intro a
  match a with
  | ⟨0, _⟩ =>
    show win2_5.index tLast 0 * 1 ≤ (i 0).val ∧ (i 0).val < win2_5.index tLast 0 * 1 + 1
    rw [e0]; omega
  | ⟨1, _⟩ =>
    show win2_5.index tLast 1 * 20 ≤ (i 1).val ∧ (i 1).val < win2_5.index tLast 1 * 20 + 20
    rw [e1]; omega

theorem cover6 (i : S1x20.Idx) :
    ∃ t : Fin cfg2.N, (cfg2.win 6).flush t = true ∧ i ∈ ((cfg2.win 6).blk t).view.set := by
  have hi0 : (i 0).val < 1 := (i 0).isLt
  have hi1 : (i 1).val < 20 := (i 1).isLt
  obtain ⟨-, -, -, -, -, -, -, -, -, -, -, -, e0, e1⟩ := idx_facts tLast
  refine ⟨tLast, (flush2_6 tLast).mpr rfl, ?_⟩
  rw [mem_blk6]
  intro a
  match a with
  | ⟨0, _⟩ =>
    show win2_6.index tLast 0 * 1 ≤ (i 0).val ∧ (i 0).val < win2_6.index tLast 0 * 1 + 1
    rw [e0]; omega
  | ⟨1, _⟩ =>
    show win2_6.index tLast 1 * 20 ≤ (i 1).val ∧ (i 1).val < win2_6.index tLast 1 * 20 + 20
    rw [e1]; omega

/-- THE SECOND OUTPUT after the layer: the column sums of the affine map over all 100000 rows. -/
theorem arr5 (c : Dev nD) :
    (dat2 V c).arrAt 5 cfg2.N = fun i : S1x20.Idx => Spec.colSum (Z V c) (i 1) :=
  (dat2 V c).arrAt_eq_of_cover 5 (fun i : S1x20.Idx => Spec.colSum (Z V c) (i 1)) (flushed5_eq V c) cover5

/-- THE THIRD OUTPUT after the layer: the column sums of squares of the affine map over all 100000 rows. -/
theorem arr6 (c : Dev nD) :
    (dat2 V c).arrAt 6 cfg2.N = fun i : S1x20.Idx => Spec.colSumSq (Z V c) (i 1) :=
  (dat2 V c).arrAt_eq_of_cover 6 (fun i : S1x20.Idx => Spec.colSumSq (Z V c) (i 1)) (flushed6_eq V c) cover6

end Arrays

end Cert.LinStats2

end
-- ==== Proof.LinStats4Pay.lean ====
/-
  The linear layer with column statistics, third layer (20 input columns): what one tile of 2000 rows computes, read
  entry by entry on the extended reals.

  The tile's affine map at row `p`, column `q` is `Σ_c (h[p,c] + a[p,c]) · W[c,q] + b[q]` (a change of float format is
  the identity on extended reals). The two statistics outputs add to what they held the column sums, over the tile's
  rows, of the affine map's entries and of their squares. Reading the tile's inputs as rows `2000 t, …, 2000 t + 1999` of
  the whole matrices, the affine map's tile is the same rows of the whole affine map, and the statistics after tile `t`
  are the sums over rows `0, …, 2000 (t + 1) - 1`.
-/
import proofs.«113277_j59725815218466_1_alg».proof.Proof.Gen.KernelIdeal.Skeleton
import proofs.«113277_j59725815218466_1_alg».proof.Proof.Spec
import proofs.«113277_j59725815218466_1_alg».proof.Proof.LibPlainDot
import proofs.«113277_j59725815218466_1_alg».proof.Proof.LibTileSum
import Idealize.ShloMosaic.Lib.Pipeline.Value
import Idealize.ShloMosaic.PureOps.Ideal.Laws

noncomputable section

namespace Cert.LinStats4

open Idealize.ShloMosaic Idealize.ShloMosaic.ValueIdx
open Cert.KernelIdeal Cert.KernelIdeal.Gen
open Finset (range)

/-- The affine map's tile at `(p, q)`. -/
theorem pay3_apply (v3 v4 : Vec Ideal S2000x20 .f32) (v8 : Vec Ideal S20x20 .f32) (v11 : Vec Ideal S1x20 .f32)
    (p : Fin 2000) (q : Fin 20) :
    k4_pay3 (F := Ideal) v3 v4 v8 v11 (ix2 p q)
      = (∑ c : Fin 20, (v3 (ix2 p c) + v4 (ix2 p c)) * v8 (ix2 c q)) + v11 (ix2 0 q) := by
  unfold k4_pay3
  refine (Cert.Lib.lin_apply dot_S2000x20_S20x20_S2000x20_1_0_0_1_n_n rfl
    (truncf .bf16 (addf (shapeCast S2000x20 v3 shapeCasts_S2000x20_S2000x20) (shapeCast S2000x20 v4 shapeCasts_S2000x20_S2000x20)) bitsLt_bf16_f32)
    (truncf .bf16 v8 bitsLt_bf16_f32) (shapeCast S1x20 v11 shapeCasts_S1x20_S1x20) broadcasts_S1x20_S2000x20 p q).trans ?_
  simp only [shapeCast_self]
  rfl

/-- Inserting row `p` above column `q`. -/
theorem lift_row (p : Fin 2000) (q : Fin 20) :
    reduces_S2000x20_S20.lift (ix1 q) p = ix2 p q := by
  funext a
  apply Fin.ext
  match a with
  | ⟨0, _⟩ => rfl
  | ⟨1, _⟩ => rfl

/-- The sum down a tile's column. -/
theorem colsum_apply (src : FVec Ideal S2000x20 .f32) (q : Fin 20) :
    multiReduction (F := Ideal) .add [0] S20 src 0x00000000#32 reduces_S2000x20_S20 (.inl rfl) rfl (ix1 q)
      = ∑ p : Fin 2000, src (ix2 p q) := by
  refine (Ideal.multiReduction_add_single src 0x00000000#32 reduces_S2000x20_S20 (.inl rfl) rfl (ix1 q)).trans ?_
  exact Finset.sum_congr rfl fun p _ => congrArg src (lift_row p q)

/-- A vector of 20 laid as one row, at column `q`. -/
theorem row_apply (v : FVec Ideal S20 .f32) (q : Fin 20) :
    shapeCast S1x20 v shapeCasts_S20_S1x20 (ix2 (0 : Fin 1) q) = v (ix1 q) := by
  refine (shapeCast_addUnit_apply ![20] v shapeCasts_S20_S1x20 (ix2 (0 : Fin 1) q)).trans ?_
  refine congrArg v (funext fun a => ?_)
  match a with
  | ⟨0, _⟩ => rfl

/-- The running column sum after a tile: what was held plus the tile's column sum. -/
theorem pay4_apply (v3 v4 : Vec Ideal S2000x20 .f32) (v8 : Vec Ideal S20x20 .f32) (v11 v16 : Vec Ideal S1x20 .f32)
    (q : Fin 20) :
    k4_pay4 (F := Ideal) v3 v4 v8 v11 v16 (ix2 (0 : Fin 1) q)
      = v16 (ix2 0 q) + ∑ p : Fin 2000, k4_pay3 (F := Ideal) v3 v4 v8 v11 (ix2 p q) := by
  unfold k4_pay4
  show shapeCast S1x20 v16 shapeCasts_S1x20_S1x20 (ix2 (0 : Fin 1) q) + shapeCast S1x20 _ shapeCasts_S20_S1x20 (ix2 (0 : Fin 1) q) = _
  rw [shapeCast_self]
  refine congrArg (v16 (ix2 0 q) + ·) ?_
  exact (row_apply _ q).trans (colsum_apply _ q)

/-- The running column sum of squares after a tile. -/
theorem pay5_apply (v3 v4 : Vec Ideal S2000x20 .f32) (v8 : Vec Ideal S20x20 .f32) (v11 v22 : Vec Ideal S1x20 .f32)
    (q : Fin 20) :
    k4_pay5 (F := Ideal) v3 v4 v8 v11 v22 (ix2 (0 : Fin 1) q)
      = v22 (ix2 0 q) + ∑ p : Fin 2000,
          k4_pay3 (F := Ideal) v3 v4 v8 v11 (ix2 p q) * k4_pay3 (F := Ideal) v3 v4 v8 v11 (ix2 p q) := by
  unfold k4_pay5
  show shapeCast S1x20 v22 shapeCasts_S1x20_S1x20 (ix2 (0 : Fin 1) q) + shapeCast S1x20 _ shapeCasts_S20_S1x20 (ix2 (0 : Fin 1) q) = _
  rw [shapeCast_self]
  refine congrArg (v22 (ix2 0 q) + ·) ?_
  exact (row_apply _ q).trans (colsum_apply _ q)

/-- The zero row the first tile stores into the column sums. -/
theorem pay1_apply (q : Fin 20) : k4_pay1 (F := Ideal) (ix2 (0 : Fin 1) q) = 0 := by
  unfold k4_pay1
  show Ideal.ofBits .f32 0x00000000#32 = 0
  exact Ideal.ofBits_zero_f32

/-- The zero row the first tile stores into the column sums of squares. -/
theorem pay2_apply (q : Fin 20) : k4_pay2 (F := Ideal) (ix2 (0 : Fin 1) q) = 0 := by
  unfold k4_pay2
  show Ideal.ofBits .f32 0x00000000#32 = 0
  exact Ideal.ofBits_zero_f32

/-! ## The tile as rows of the whole matrices -/

/-- Row `2000 t + r` of a matrix of 100000 rows, for a tile `t` inside it. -/
abbrev rowOf (t : ℕ) (ht : 2000 * t + 2000 ≤ 100000) (r : Fin 2000) : Fin 100000 :=
  ⟨2000 * t + r.val, lt_of_lt_of_le (Nat.add_lt_add_left r.isLt _) ht⟩

/-- When the tile's inputs are rows `2000 t + r` of `H` and `A`, the whole `W` and the row `b`, the affine map's tile is
    the same rows of the whole affine map. -/
theorem pay3_tile (H A : Spec.Mat 100000 20) (W : Spec.Mat 20 20) (b : Fin 20 → EReal) (t : ℕ)
    (ht : 2000 * t + 2000 ≤ 100000)
    (x0 x1 : Vec Ideal S2000x20 .f32) (x2 : Vec Ideal S20x20 .f32) (x3 : Vec Ideal S1x20 .f32)
    (h0 : ∀ (r : Fin 2000) (c : Fin 20), x0 (ix2 r c) = H (ix2 (rowOf t ht r) c))
    (h1 : ∀ (r : Fin 2000) (c : Fin 20), x1 (ix2 r c) = A (ix2 (rowOf t ht r) c))
    (h2 : ∀ (c : Fin 20) (q : Fin 20), x2 (ix2 c q) = W (ix2 c q))
    (h3 : ∀ q : Fin 20, x3 (ix2 (0 : Fin 1) q) = b q) (r : Fin 2000) (q : Fin 20) :
    k4_pay3 (F := Ideal) x0 x1 x2 x3 (ix2 r q) = Spec.lin H A W b (ix2 (rowOf t ht r) q) := by
  rw [pay3_apply x0 x1 x2 x3 r q, Spec.lin_ix2]
  unfold Spec.linAt
  rw [h3 q]
  refine congrArg (· + b q) (Finset.sum_congr rfl fun c _ => ?_)
  rw [h0 r c, h1 r c, h2 c q]

/-- One tile's step of the running column sum of a matrix `Z`, whose tile `t` the affine map's tile is. -/
theorem pay4_step (Z : Spec.Mat 100000 20) (t : ℕ) (ht : 2000 * t + 2000 ≤ 100000)
    (x0 x1 : Vec Ideal S2000x20 .f32) (x2 : Vec Ideal S20x20 .f32) (x3 acc : Vec Ideal S1x20 .f32)
    (hz : ∀ (r : Fin 2000) (q : Fin 20), k4_pay3 (F := Ideal) x0 x1 x2 x3 (ix2 r q) = Z (ix2 (rowOf t ht r) q))
    (q : Fin 20)
    (hacc : acc (ix2 (0 : Fin 1) q) = ∑ i ∈ range (2000 * t), Cert.Lib.extendZero (fun p : Fin 100000 => Z (ix2 p q)) i) :
    k4_pay4 (F := Ideal) x0 x1 x2 x3 acc (ix2 (0 : Fin 1) q)
      = ∑ i ∈ range (2000 * (t + 1)), Cert.Lib.extendZero (fun p : Fin 100000 => Z (ix2 p q)) i := by
  rw [pay4_apply x0 x1 x2 x3 acc q]
  rw [← Cert.Lib.running_total_step (fun p : Fin 100000 => Z (ix2 p q)) 2000 t ht (acc (ix2 0 q)) hacc]
  exact congrArg (acc (ix2 0 q) + ·) (Finset.sum_congr rfl fun r _ => hz r q)

/-- One tile's step of the running column sum of squares. -/
theorem pay5_step (Z : Spec.Mat 100000 20) (t : ℕ) (ht : 2000 * t + 2000 ≤ 100000)
    (x0 x1 : Vec Ideal S2000x20 .f32) (x2 : Vec Ideal S20x20 .f32) (x3 acc : Vec Ideal S1x20 .f32)
    (hz : ∀ (r : Fin 2000) (q : Fin 20), k4_pay3 (F := Ideal) x0 x1 x2 x3 (ix2 r q) = Z (ix2 (rowOf t ht r) q))
    (q : Fin 20)
    (hacc : acc (ix2 (0 : Fin 1) q)
      = ∑ i ∈ range (2000 * t), Cert.Lib.extendZero (fun p : Fin 100000 => Z (ix2 p q) * Z (ix2 p q)) i) :
    k4_pay5 (F := Ideal) x0 x1 x2 x3 acc (ix2 (0 : Fin 1) q)
      = ∑ i ∈ range (2000 * (t + 1)), Cert.Lib.extendZero (fun p : Fin 100000 => Z (ix2 p q) * Z (ix2 p q)) i := by
  rw [pay5_apply x0 x1 x2 x3 acc q]
  rw [← Cert.Lib.running_total_step (fun p : Fin 100000 => Z (ix2 p q) * Z (ix2 p q)) 2000 t ht (acc (ix2 0 q)) hacc]
  exact congrArg (acc (ix2 0 q) + ·) (Finset.sum_congr rfl fun r _ => by rw [hz r q])

end Cert.LinStats4

end
-- ==== Proof.LinStats4Run.lean ====
/-
  The linear layer with column statistics, third layer, over its 50 tiles of 2000 rows: what the three output arrays
  hold after the last tile.

  In the first tile's case the statistics rows are set to zero before the tile's sums are added; in every later tile's
  case they are added to what the tile before left. So after tile `t` the statistics rows hold the column sums, and the
  column sums of squares, of the affine map over rows `0, …, 2000 (t + 1) - 1`, and after the last tile over all 100000
  rows. The affine map's own output is written tile by tile: tile `t` is rows `2000 t, …, 2000 t + 1999`, and the tiles
  cover the array. The statistics rows are written back once, after the last tile.
-/
import proofs.«113277_j59725815218466_1_alg».proof.Proof.Gen.KernelIdeal.Frame
import proofs.«113277_j59725815218466_1_alg».proof.Proof.LinStats4Pay
import Idealize.ShloMosaic.Lib.Pipeline.Value
import Idealize.ShloMosaic.Lib.Tactic

noncomputable section

namespace Cert.LinStats4

open Idealize.ShloMosaic Idealize.ShloMosaic.TcCoe Idealize.ShloMosaic.ValueIdx Idealize.SL.Sem
open Idealize.ShloMosaic.Pipeline (Dat)
open Cert.KernelIdeal Cert.KernelIdeal.Gen
open Finset (range)

theorem hz : (![0, 0] : Fin 2 → Nat) = fun _ => 0 := funext fun a => by fin_cases a <;> rfl

/-! ## What each case leaves in the three outputs, as the tile's payloads -/

section Pieces

variable {F : FTy → Type} [FloatOps F]

/-- First tile: the affine map's tile. -/
theorem out_A_4 (c : Dev nD) (i : grid4.Coords) (a1 : Memref sig .tc .vmem S2000x20 .f32) (h1 : a1.IsWhole) (a2 : Memref sig .tc .vmem S2000x20 .f32) (h2 : a2.IsWhole) (a3 : Memref sig .tc .vmem S20x20 .f32) (h3 : a3.IsWhole) (a4 : Memref sig .tc .vmem S1x20 .f32) (h4 : a4.IsWhole) (a5 : Memref sig .tc .vmem S2000x20 .f32) (h5 : a5.IsWhole) (a6 : Memref sig .tc .vmem S1x20 .f32) (h6 : a6.IsWhole) (a7 : Memref sig .tc .vmem S1x20 .f32) (h7 : a7.IsWhole) (hc : cond4_0 i)
    (x0 x1 : Vec F S2000x20 .f32) (x2 : Vec F S20x20 .f32) (x3 : Vec F S1x20 .f32) :
    out4_A_4 c i a1 h1 a2 h2 a3 h3 a4 h4 a5 h5 a6 h6 a7 h7 hc x0 x1 x2 x3 = k4_pay3 x0 x1 x2 x3 := by
  unfold out4_A_4
  rw [View.read_writes_eq_canon _ _ _ (cover4_A_4 c i a1 h1 a2 h2 a3 h3 a4 h4 a5 h5 a6 h6 a7 h7 hc x0 x1 x2 x3)]
  unfold kernelRun4_A
  dsimp only
  try sl_unfold_words
  rw [View.canon_unit_zero hz]
  simp only [View.readAt_eq_ld, h1.read_unread, h2.read_unread, h3.read_unread, h4.read_unread,
    View.ld_unit_zero (S := S2000x20) hz, View.ld_unit_zero (S := S20x20) hz, View.ld_unit_zero (S := S1x20) hz,
    View.ld_unit_zero (S := S2000x20) hz]

/-- First tile: the tile's column sums added to the zero row. -/
theorem out_A_5 (c : Dev nD) (i : grid4.Coords) (a1 : Memref sig .tc .vmem S2000x20 .f32) (h1 : a1.IsWhole) (a2 : Memref sig .tc .vmem S2000x20 .f32) (h2 : a2.IsWhole) (a3 : Memref sig .tc .vmem S20x20 .f32) (h3 : a3.IsWhole) (a4 : Memref sig .tc .vmem S1x20 .f32) (h4 : a4.IsWhole) (a5 : Memref sig .tc .vmem S2000x20 .f32) (h5 : a5.IsWhole) (a6 : Memref sig .tc .vmem S1x20 .f32) (h6 : a6.IsWhole) (a7 : Memref sig .tc .vmem S1x20 .f32) (h7 : a7.IsWhole) (hc : cond4_0 i)
    (x0 x1 : Vec F S2000x20 .f32) (x2 : Vec F S20x20 .f32) (x3 : Vec F S1x20 .f32) :
    out4_A_5 c i a1 h1 a2 h2 a3 h3 a4 h4 a5 h5 a6 h6 a7 h7 hc x0 x1 x2 x3 = k4_pay4 x0 x1 x2 x3 k4_pay1 := by
  unfold out4_A_5
  rw [View.read_writes_eq_canon _ _ _ (cover4_A_5 c i a1 h1 a2 h2 a3 h3 a4 h4 a5 h5 a6 h6 a7 h7 hc x0 x1 x2 x3)]
  unfold kernelRun4_A
  dsimp only
  try sl_unfold_words
  rw [View.canon_cons_unit_zero (S := S1x20) hz, View.readCov_unit_zero (S := S1x20) _ hz]
  simp only [View.readAt_eq_ld, h1.read_unread, h2.read_unread, h3.read_unread, h4.read_unread,
    View.ld_unit_zero (S := S2000x20) hz, View.ld_unit_zero (S := S20x20) hz, View.ld_unit_zero (S := S1x20) hz,
    View.ld_unit_zero (S := S2000x20) hz]

/-- First tile: the tile's column sums of squares added to the zero row. -/
theorem out_A_6 (c : Dev nD) (i : grid4.Coords) (a1 : Memref sig .tc .vmem S2000x20 .f32) (h1 : a1.IsWhole) (a2 : Memref sig .tc .vmem S2000x20 .f32) (h2 : a2.IsWhole) (a3 : Memref sig .tc .vmem S20x20 .f32) (h3 : a3.IsWhole) (a4 : Memref sig .tc .vmem S1x20 .f32) (h4 : a4.IsWhole) (a5 : Memref sig .tc .vmem S2000x20 .f32) (h5 : a5.IsWhole) (a6 : Memref sig .tc .vmem S1x20 .f32) (h6 : a6.IsWhole) (a7 : Memref sig .tc .vmem S1x20 .f32) (h7 : a7.IsWhole) (hc : cond4_0 i)
    (x0 x1 : Vec F S2000x20 .f32) (x2 : Vec F S20x20 .f32) (x3 : Vec F S1x20 .f32) :
    out4_A_6 c i a1 h1 a2 h2 a3 h3 a4 h4 a5 h5 a6 h6 a7 h7 hc x0 x1 x2 x3 = k4_pay5 x0 x1 x2 x3 k4_pay2 := by
  unfold out4_A_6
  rw [View.read_writes_eq_canon _ _ _ (cover4_A_6 c i a1 h1 a2 h2 a3 h3 a4 h4 a5 h5 a6 h6 a7 h7 hc x0 x1 x2 x3)]
  unfold kernelRun4_A
  dsimp only
  try sl_unfold_words
  rw [View.canon_cons_unit_zero (S := S1x20) hz, View.readCov_unit_zero (S := S1x20) _ hz]
  simp only [View.readAt_eq_ld, h1.read_unread, h2.read_unread, h3.read_unread, h4.read_unread,
    View.ld_unit_zero (S := S2000x20) hz, View.ld_unit_zero (S := S20x20) hz, View.ld_unit_zero (S := S1x20) hz,
    View.ld_unit_zero (S := S2000x20) hz]

/-- A later tile: the affine map's tile. -/
theorem out_B_4 (c : Dev nD) (i : grid4.Coords) (a1 : Memref sig .tc .vmem S2000x20 .f32) (h1 : a1.IsWhole) (a2 : Memref sig .tc .vmem S2000x20 .f32) (h2 : a2.IsWhole) (a3 : Memref sig .tc .vmem S20x20 .f32) (h3 : a3.IsWhole) (a4 : Memref sig .tc .vmem S1x20 .f32) (h4 : a4.IsWhole) (a5 : Memref sig .tc .vmem S2000x20 .f32) (h5 : a5.IsWhole) (a6 : Memref sig .tc .vmem S1x20 .f32) (h6 : a6.IsWhole) (a7 : Memref sig .tc .vmem S1x20 .f32) (h7 : a7.IsWhole) (hc : ¬cond4_0 i)
    (x0 x1 : Vec F S2000x20 .f32) (x2 : Vec F S20x20 .f32) (x3 : Vec F S1x20 .f32) (xo5 xo6 : Vec F S1x20 .f32) :
    out4_B_4 c i a1 h1 a2 h2 a3 h3 a4 h4 a5 h5 a6 h6 a7 h7 hc x0 x1 x2 x3 xo5 xo6 = k4_pay3 x0 x1 x2 x3 := by
  unfold out4_B_4
  rw [View.read_writes_eq_canon _ _ _ (cover4_B_4 c i a1 h1 a2 h2 a3 h3 a4 h4 a5 h5 a6 h6 a7 h7 hc x0 x1 x2 x3 xo5 xo6)]
  unfold kernelRun4_B
  dsimp only
  try sl_unfold_words
  rw [View.canon_unit_zero hz]
  simp only [View.readAt_eq_ld, h1.read_unread, h2.read_unread, h3.read_unread, h4.read_unread, h6.read_unread, h7.read_unread,
    View.ld_unit_zero (S := S2000x20) hz, View.ld_unit_zero (S := S20x20) hz, View.ld_unit_zero (S := S1x20) hz,
    View.ld_unit_zero (S := S2000x20) hz]

/-- A later tile: the tile's column sums added to what the row held. -/
theorem out_B_5 (c : Dev nD) (i : grid4.Coords) (a1 : Memref sig .tc .vmem S2000x20 .f32) (h1 : a1.IsWhole) (a2 : Memref sig .tc .vmem S2000x20 .f32) (h2 : a2.IsWhole) (a3 : Memref sig .tc .vmem S20x20 .f32) (h3 : a3.IsWhole) (a4 : Memref sig .tc .vmem S1x20 .f32) (h4 : a4.IsWhole) (a5 : Memref sig .tc .vmem S2000x20 .f32) (h5 : a5.IsWhole) (a6 : Memref sig .tc .vmem S1x20 .f32) (h6 : a6.IsWhole) (a7 : Memref sig .tc .vmem S1x20 .f32) (h7 : a7.IsWhole) (hc : ¬cond4_0 i)
    (x0 x1 : Vec F S2000x20 .f32) (x2 : Vec F S20x20 .f32) (x3 : Vec F S1x20 .f32) (xo5 xo6 : Vec F S1x20 .f32) :
    out4_B_5 c i a1 h1 a2 h2 a3 h3 a4 h4 a5 h5 a6 h6 a7 h7 hc x0 x1 x2 x3 xo5 xo6 = k4_pay4 x0 x1 x2 x3 xo5 := by
  unfold out4_B_5
  rw [View.read_writes_eq_canon _ _ _ (cover4_B_5 c i a1 h1 a2 h2 a3 h3 a4 h4 a5 h5 a6 h6 a7 h7 hc x0 x1 x2 x3 xo5 xo6)]
  unfold kernelRun4_B
  dsimp only
  try sl_unfold_words
  rw [View.canon_unit_zero hz]
  simp only [View.readAt_eq_ld, h1.read_unread, h2.read_unread, h3.read_unread, h4.read_unread, h6.read_unread, h7.read_unread,
    View.ld_unit_zero (S := S2000x20) hz, View.ld_unit_zero (S := S20x20) hz, View.ld_unit_zero (S := S1x20) hz,
    View.ld_unit_zero (S := S2000x20) hz]

/-- A later tile: the tile's column sums of squares added to what the row held. -/
theorem out_B_6 (c : Dev nD) (i : grid4.Coords) (a1 : Memref sig .tc .vmem S2000x20 .f32) (h1 : a1.IsWhole) (a2 : Memref sig .tc .vmem S2000x20 .f32) (h2 : a2.IsWhole) (a3 : Memref sig .tc .vmem S20x20 .f32) (h3 : a3.IsWhole) (a4 : Memref sig .tc .vmem S1x20 .f32) (h4 : a4.IsWhole) (a5 : Memref sig .tc .vmem S2000x20 .f32) (h5 : a5.IsWhole) (a6 : Memref sig .tc .vmem S1x20 .f32) (h6 : a6.IsWhole) (a7 : Memref sig .tc .vmem S1x20 .f32) (h7 : a7.IsWhole) (hc : ¬cond4_0 i)
    (x0 x1 : Vec F S2000x20 .f32) (x2 : Vec F S20x20 .f32) (x3 : Vec F S1x20 .f32) (xo5 xo6 : Vec F S1x20 .f32) :
    out4_B_6 c i a1 h1 a2 h2 a3 h3 a4 h4 a5 h5 a6 h6 a7 h7 hc x0 x1 x2 x3 xo5 xo6 = k4_pay5 x0 x1 x2 x3 xo6 := by
  unfold out4_B_6
  rw [View.read_writes_eq_canon _ _ _ (cover4_B_6 c i a1 h1 a2 h2 a3 h3 a4 h4 a5 h5 a6 h6 a7 h7 hc x0 x1 x2 x3 xo5 xo6)]
  unfold kernelRun4_B
  dsimp only
  try sl_unfold_words
  rw [View.canon_unit_zero hz]
  simp only [View.readAt_eq_ld, h1.read_unread, h2.read_unread, h3.read_unread, h4.read_unread, h6.read_unread, h7.read_unread,
    View.ld_unit_zero (S := S2000x20) hz, View.ld_unit_zero (S := S20x20) hz, View.ld_unit_zero (S := S1x20) hz,
    View.ld_unit_zero (S := S2000x20) hz]

end Pieces

/-! ## The tiles as rows of the whole arrays -/

section AtIdeal

variable (V : (c : Dev nD) → (b : Ref sig .tc) → Buf (Elt Ideal) ((c : Thread nD τ).loc b))

/-- The node matrix, the aggregated matrix, the weights and the bias row as the layer finds them. -/
abbrev arrH (c : Dev nD) : Spec.Mat 100000 20 := V c (Pipeline.arrRef spec4 0)
abbrev arrA (c : Dev nD) : Spec.Mat 100000 20 := V c (Pipeline.arrRef spec4 1)
abbrev arrW (c : Dev nD) : Spec.Mat 20 20 := V c (Pipeline.arrRef spec4 2)
abbrev arrB (c : Dev nD) : Spec.Mat 1 20 := V c (Pipeline.arrRef spec4 3)

/-- The affine map of the whole arrays. -/
abbrev Z (c : Dev nD) : Spec.Mat 100000 20 :=
  Spec.lin (arrH V c) (arrA V c) (arrW V c) (fun q => arrB V c (ix2 0 q))

/-- Every tile lies inside the 100000 rows. -/
theorem tileLe (t : Fin cfg4.N) : 2000 * t.val + 2000 ≤ 100000 := by
  have := t.isLt; have hN : cfg4.N = 50 := N_4; omega

/-- The block indices of the seven windows at every tile: the row-tiled ones move with the tile, the others stay. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0 :=
  (by decide +kernel : ∀ t : Fin grid4.N, _)

/-- The node matrix's tile is its rows `2000 t + r`. -/
theorem blk0_apply (c : Dev nD) (t : Fin cfg4.N) (r : Fin 2000) (k : Fin 20) :
    (iblk4 V c 0 t : Vec Ideal S2000x20 .f32) (ix2 r k) = arrH V c (ix2 (rowOf t.val (tileLe t) r) k) := by
  obtain ⟨e0, e1, -⟩ := idx_facts t
  unfold iblk4
  rw [View.read_apply]
  show V c (Pipeline.arrRef spec4 0) _ = V c (Pipeline.arrRef spec4 0) _
  congr 1
  funext a
  apply Fin.ext
  match a with
  | ⟨0, _⟩ => show win4_0.index t 0 * 2000 + 1 * r.val = 2000 * t.val + r.val; rw [e0]; omega
  | ⟨1, _⟩ => show win4_0.index t 1 * 20 + 1 * k.val = k.val; rw [e1]; omega

/-- The aggregated matrix's tile is its rows `2000 t + r`. -/
theorem blk1_apply (c : Dev nD) (t : Fin cfg4.N) (r : Fin 2000) (k : Fin 20) :
    (iblk4 V c 1 t : Vec Ideal S2000x20 .f32) (ix2 r k) = arrA V c (ix2 (rowOf t.val (tileLe t) r) k) := by
  obtain ⟨-, -, e0, e1, -⟩ := idx_facts t
  unfold iblk4
  rw [View.read_apply]
  show V c (Pipeline.arrRef spec4 1) _ = V c (Pipeline.arrRef spec4 1) _
  congr 1
  funext a
  apply Fin.ext
  match a with
  | ⟨0, _⟩ => show win4_1.index t 0 * 2000 + 1 * r.val = 2000 * t.val + r.val; rw [e0]; omega
  | ⟨1, _⟩ => show win4_1.index t 1 * 20 + 1 * k.val = k.val; rw [e1]; omega

/-- The weights' block is the whole matrix. -/
theorem blk2_apply (c : Dev nD) (t : Fin cfg4.N) (k : Fin 20) (q : Fin 20) :
    (iblk4 V c 2 t : Vec Ideal S20x20 .f32) (ix2 k q) = arrW V c (ix2 k q) := by
  obtain ⟨-, -, -, -, e0, e1, -⟩ := idx_facts t
  unfold iblk4
  rw [View.read_apply]
  show V c (Pipeline.arrRef spec4 2) _ = V c (Pipeline.arrRef spec4 2) _
  congr 1
  funext a
  apply Fin.ext
  match a with
  | ⟨0, _⟩ => show win4_2.index t 0 * 20 + 1 * k.val = k.val; rw [e0]; omega
  | ⟨1, _⟩ => show win4_2.index t 1 * 20 + 1 * q.val = q.val; rw [e1]; omega

/-- The bias row's block is the whole row. -/
theorem blk3_apply (c : Dev nD) (t : Fin cfg4.N) (q : Fin 20) :
    (iblk4 V c 3 t : Vec Ideal S1x20 .f32) (ix2 (0 : Fin 1) q) = arrB V c (ix2 0 q) := by
  obtain ⟨-, -, -, -, -, -, e0, e1, -⟩ := idx_facts t
  unfold iblk4
  rw [View.read_apply]
  show V c (Pipeline.arrRef spec4 3) _ = V c (Pipeline.arrRef spec4 3) _
  congr 1
  funext a
  apply Fin.ext
  match a with
  | ⟨0, _⟩ => show win4_3.index t 0 * 1 + 1 * 0 = 0; rw [e0]
  | ⟨1, _⟩ => show win4_3.index t 1 * 20 + 1 * q.val = q.val; rw [e1]; omega

/-- So the affine map's tile `t` is rows `2000 t + r` of the whole affine map. -/
theorem tile_eq (c : Dev nD) (t : Fin cfg4.N) (r : Fin 2000) (q : Fin 20) :
    k4_pay3 (F := Ideal) (iblk4 V c 0 t) (iblk4 V c 1 t) (iblk4 V c 2 t) (iblk4 V c 3 t) (ix2 r q)
      = Z V c (ix2 (rowOf t.val (tileLe t) r) q) :=
  pay3_tile (arrH V c) (arrA V c) (arrW V c) (fun q => arrB V c (ix2 0 q)) t.val (tileLe t)
    (iblk4 V c 0 t) (iblk4 V c 1 t) (iblk4 V c 2 t) (iblk4 V c 3 t)
    (fun r k => blk0_apply V c t r k) (fun r k => blk1_apply V c t r k) (fun k q => blk2_apply V c t k q)
    (fun q => blk3_apply V c t q) r q

/-! ## The three outputs after every tile -/

/-- After tile `n`: the first output holds the affine map's tile `n`; the second the column sums and the third the
    column sums of squares of the affine map over rows `0, …, 2000 (n + 1) - 1`. By induction on the tile. -/
theorem outsAt_inv (c : Dev nD) : ∀ (n : ℕ) (h : n < cfg4.N),
    (outsAt4 V c n h).1 = k4_pay3 (F := Ideal) (iblk4 V c 0 ⟨n, h⟩) (iblk4 V c 1 ⟨n, h⟩) (iblk4 V c 2 ⟨n, h⟩) (iblk4 V c 3 ⟨n, h⟩)
    ∧ (∀ q : Fin 20, (outsAt4 V c n h).2.1 (ix2 (0 : Fin 1) q)
        = ∑ i ∈ range (2000 * (n + 1)), Cert.Lib.extendZero (fun p : Fin 100000 => Z V c (ix2 p q)) i)
    ∧ (∀ q : Fin 20, (outsAt4 V c n h).2.2 (ix2 (0 : Fin 1) q)
        = ∑ i ∈ range (2000 * (n + 1)), Cert.Lib.extendZero (fun p : Fin 100000 => Z V c (ix2 p q) * Z V c (ix2 p q)) i)
  | 0, h => by
    rw [outsAt4_A V c ⟨0, h⟩ rfl]
    dsimp only
    rw [out_A_4, out_A_5, out_A_6]
    refine ⟨rfl, fun q => ?_, fun q => ?_⟩
    · exact pay4_step (Z V c) 0 (tileLe ⟨0, h⟩) _ _ _ _ _ (tile_eq V c ⟨0, h⟩) q
        ((pay1_apply q).trans (Cert.Lib.running_total_zero _ 2000))
    · exact pay5_step (Z V c) 0 (tileLe ⟨0, h⟩) _ _ _ _ _ (tile_eq V c ⟨0, h⟩) q
        ((pay2_apply q).trans (Cert.Lib.running_total_zero _ 2000))
  | n + 1, h => by
    have hN : cfg4.N = 50 := N_4
    have hB : ¬(⟨n + 1, h⟩ : Fin cfg4.N).val % 50 = 0 := by dsimp only; omega
    obtain ⟨-, ih5, ih6⟩ := outsAt_inv c n (Nat.lt_of_succ_lt h)
    rw [outsAt4_B V c ⟨n + 1, h⟩ hB]
    dsimp only
    rw [out_B_4, out_B_5, out_B_6]
    refine ⟨rfl, fun q => ?_, fun q => ?_⟩
    · exact pay4_step (Z V c) (n + 1) (tileLe ⟨n + 1, h⟩) _ _ _ _ _ (tile_eq V c ⟨n + 1, h⟩) q (ih5 q)
    · exact pay5_step (Z V c) (n + 1) (tileLe ⟨n + 1, h⟩) _ _ _ _ _ (tile_eq V c ⟨n + 1, h⟩) q (ih6 q)

end AtIdeal

/-! ## From the tiles to the arrays -/

section Arrays

variable (V : (c : Dev nD) → (b : Ref sig .tc) → Buf (Elt Ideal) ((c : Thread nD τ).loc b))

/-- What tile `t` writes back to the first output is block `t` of the whole affine map. -/
theorem flushed4_eq (c : Dev nD) (t : Fin cfg4.N) :
    (dat4 V c).flushed 4 t = ((cfg4.win 4).blk t).view.read (Elt Ideal) (Z V c) := by
  obtain ⟨-, -, -, -, -, -, -, -, e0, e1, -⟩ := idx_facts t
  show (cfg4.win 4).cut (grid4.coords t) ((dat4 V c).after 4 t) = _
  rw [after4_4, (outsAt_inv V c t.val t.isLt).1]
  funext (j : S2000x20.Idx)
  obtain ⟨r, q, rfl⟩ : ∃ (r : Fin 2000) (q : Fin 20), j = ix2 r q := ⟨j 0, j 1, eq_ix2 j⟩
  show k4_pay3 (F := Ideal) (iblk4 V c 0 t) (iblk4 V c 1 t) (iblk4 V c 2 t) (iblk4 V c 3 t) (ix2 r q)
    = Z V c (((cfg4.win 4).blk t).view.emb (ix2 r q))
  rw [tile_eq V c t r q]
  congr 1
  funext a
  apply Fin.ext
  match a with
  | ⟨0, _⟩ => show 2000 * t.val + r.val = win4_4.index t 0 * 2000 + 1 * r.val; rw [e0]; omega
  | ⟨1, _⟩ => show q.val = win4_4.index t 1 * 20 + 1 * q.val; rw [e1]; omega

/-- A row index is in tile `t`'s block of the first output iff each coordinate is in the block's range. -/
theorem mem_blk4 (t : Fin cfg4.N) (i : S100000x20.Idx) :
    i ∈ ((cfg4.win 4).blk t).view.set
      ↔ ∀ a : Fin 2, win4_4.index t a * S2000x20.size a ≤ (i a).val ∧ (i a).val < win4_4.index t a * S2000x20.size a + S2000x20.size a := by
  show i ∈ ((View.whole main_v57_0).slice (win4_4.rect t)).set ↔ _
  rw [View.set_slice_whole, Rect.mem_set_unit]
  exact Iff.rfl

/-- Row `p` is in the block of tile `p / 2000`: the tiles cover the first output. -/
theorem cover4 (i : S100000x20.Idx) :
    ∃ t : Fin cfg4.N, (cfg4.win 4).flush t = true ∧ i ∈ ((cfg4.win 4).blk t).view.set := by
  have hN : cfg4.N = 50 := N_4
  have hi0 : (i 0).val < 100000 := (i 0).isLt
  have hi1 : (i 1).val < 20 := (i 1).isLt
  obtain ⟨-, -, -, -, -, -, -, -, e0, e1, -⟩ := idx_facts ⟨(i 0).val / 2000, by omega⟩
  refine ⟨⟨(i 0).val / 2000, by omega⟩, flush4_4 _, ?_⟩
  rw [mem_blk4]
  intro a
  match a with
  | ⟨0, _⟩ =>
    show win4_4.index ⟨(i 0).val / 2000, _⟩ 0 * 2000 ≤ (i 0).val ∧ (i 0).val < win4_4.index ⟨(i 0).val / 2000, _⟩ 0 * 2000 + 2000
    rw [e0]; dsimp only; omega
  | ⟨1, _⟩ =>
    show win4_4.index ⟨(i 0).val / 2000, _⟩ 1 * 20 ≤ (i 1).val ∧ (i 1).val < win4_4.index ⟨(i 0).val / 2000, _⟩ 1 * 20 + 20
    rw [e1]; omega

/-- THE FIRST OUTPUT after the layer: the affine map of the whole arrays. -/
theorem arr4 (c : Dev nD) : (dat4 V c).arrAt 4 cfg4.N = Z V c :=
  (dat4 V c).arrAt_eq_of_cover 4 (Z V c) (fun t _ => flushed4_eq V c t) cover4

/-- The statistics rows are written back by the last tile only. -/
theorem last_of_flush5 (t : Fin cfg4.N) (hf : (cfg4.win 5).flush t = true) : t.val = 49 := by
  have hN : cfg4.N = 50 := N_4
  have := (flush4_5 t).mp hf; have := t.isLt; omega
theorem last_of_flush6 (t : Fin cfg4.N) (hf : (cfg4.win 6).flush t = true) : t.val = 49 := by
  have hN : cfg4.N = 50 := N_4
  have := (flush4_6 t).mp hf; have := t.isLt; omega

/-- What a tile writes back to output 5 is the whole row, whatever row function agrees with what the tile left. -/
theorem flushed5_of (c : Dev nD) (t : Fin cfg4.N) (G : S1x20.Idx → EReal)
    (hG : ∀ q : Fin 20, (outsAt4 V c t.val t.isLt).2.1 (ix2 (0 : Fin 1) q) = G (ix2 (0 : Fin 1) q)) :
    (dat4 V c).flushed 5 t = ((cfg4.win 5).blk t).view.read (Elt Ideal) G := by
  have e0 : win4_5.index t (0 : Fin 2) = 0 := (idx_facts t).2.2.2.2.2.2.2.2.2.2.1
  have e1 : win4_5.index t (1 : Fin 2) = 0 := (idx_facts t).2.2.2.2.2.2.2.2.2.2.2.1
  show (cfg4.win 5).cut (grid4.coords t) ((dat4 V c).after 5 t) = _
  rw [after4_5]
  funext (j : S1x20.Idx)
  obtain ⟨z, q, rfl⟩ : ∃ (z : Fin 1) (q : Fin 20), j = ix2 z q := ⟨j 0, j 1, eq_ix2 j⟩
  obtain rfl : z = 0 := Subsingleton.elim _ _
  show (outsAt4 V c t.val t.isLt).2.1 (ix2 (0 : Fin 1) q) = G (((cfg4.win 5).blk t).view.emb (ix2 (0 : Fin 1) q))
  rw [hG q]
  congr 1
  funext a
  apply Fin.ext
  match a with
  | ⟨0, _⟩ => show 0 = win4_5.index t 0 * 1 + 1 * 0; rw [e0]
  | ⟨1, _⟩ => show q.val = win4_5.index t 1 * 20 + 1 * q.val; rw [e1]; omega

/-- What the last tile writes back to output 5 is the row of column sums of the whole affine map. -/
theorem flushed5_eq (c : Dev nD) (t : Fin cfg4.N) (hf : (cfg4.win 5).flush t = true) :
    (dat4 V c).flushed 5 t
      = ((cfg4.win 5).blk t).view.read (Elt Ideal) (fun i : S1x20.Idx => Spec.colSum (Z V c) (i 1)) := by
  have h49 := last_of_flush5 t hf
  refine flushed5_of V c t _ fun q => ?_
  rw [(outsAt_inv V c t.val t.isLt).2.1 q, show 2000 * (t.val + 1) = 2000 * 50 by rw [h49]]
  show _ = Spec.colSum (Z V c) q
  unfold Spec.colSum
  exact Cert.Lib.running_total_last (fun p : Fin 100000 => Z V c (ix2 p q)) 2000 50 rfl

/-- What a tile writes back to output 6 is the whole row, whatever row function agrees with what the tile left. -/
theorem flushed6_of (c : Dev nD) (t : Fin cfg4.N) (G : S1x20.Idx → EReal)
    (hG : ∀ q : Fin 20, (outsAt4 V c t.val t.isLt).2.2 (ix2 (0 : Fin 1) q) = G (ix2 (0 : Fin 1) q)) :
    (dat4 V c).flushed 6 t = ((cfg4.win 6).blk t).view.read (Elt Ideal) G := by
  have e0 : win4_6.index t (0 : Fin 2) = 0 := (idx_facts t).2.2.2.2.2.2.2.2.2.2.2.2.1
  have e1 : win4_6.index t (1 : Fin 2) = 0 := (idx_facts t).2.2.2.2.2.2.2.2.2.2.2.2.2
  show (cfg4.win 6).cut (grid4.coords t) ((dat4 V c).after 6 t) = _
  rw [after4_6]
  funext (j : S1x20.Idx)
  obtain ⟨z, q, rfl⟩ : ∃ (z : Fin 1) (q : Fin 20), j = ix2 z q := ⟨j 0, j 1, eq_ix2 j⟩
  obtain rfl : z = 0 := Subsingleton.elim _ _
  show (outsAt4 V c t.val t.isLt).2.2 (ix2 (0 : Fin 1) q) = G (((cfg4.win 6).blk t).view.emb (ix2 (0 : Fin 1) q))
  rw [hG q]
  congr 1
  funext a
  apply Fin.ext
  match a with
  | ⟨0, _⟩ => show 0 = win4_6.index t 0 * 1 + 1 * 0; rw [e0]
  | ⟨1, _⟩ => show q.val = win4_6.index t 1 * 20 + 1 * q.val; rw [e1]; omega

/-- What the last tile writes back to output 6 is the row of column sums of squares of the whole affine map. -/
theorem flushed6_eq (c : Dev nD) (t : Fin cfg4.N) (hf : (cfg4.win 6).flush t = true) :
    (dat4 V c).flushed 6 t
      = ((cfg4.win 6).blk t).view.read (Elt Ideal) (fun i : S1x20.Idx => Spec.colSumSq (Z V c) (i 1)) := by
  have h49 := last_of_flush6 t hf
  refine flushed6_of V c t _ fun q => ?_
  rw [(outsAt_inv V c t.val t.isLt).2.2 q, show 2000 * (t.val + 1) = 2000 * 50 by rw [h49]]
  show _ = Spec.colSumSq (Z V c) q
  unfold Spec.colSumSq
  exact Cert.Lib.running_total_last (fun p : Fin 100000 => Z V c (ix2 p q) * Z V c (ix2 p q)) 2000 50 rfl

/-- The last tile, 49. -/
def tLast : Fin cfg4.N := ⟨49, by rw [show cfg4.N = 50 from N_4]; decide⟩

theorem mem_blk5 (t : Fin cfg4.N) (i : S1x20.Idx) :
    i ∈ ((cfg4.win 5).blk t).view.set
      ↔ ∀ a : Fin 2, win4_5.index t a * S1x20.size a ≤ (i a).val ∧ (i a).val < win4_5.index t a * S1x20.size a + S1x20.size a := by
  show i ∈ ((View.whole main_v57_1).slice (win4_5.rect t)).set ↔ _
  rw [View.set_slice_whole, Rect.mem_set_unit]
  exact Iff.rfl

theorem mem_blk6 (t : Fin cfg4.N) (i : S1x20.Idx) :
    i ∈ ((cfg4.win 6).blk t).view.set
      ↔ ∀ a : Fin 2, win4_6.index t a * S1x20.size a ≤ (i a).val ∧ (i a).val < win4_6.index t a * S1x20.size a + S1x20.size a := by
  show i ∈ ((View.whole main_v57_2).slice (win4_6.rect t)).set ↔ _
  rw [View.set_slice_whole, Rect.mem_set_unit]
  exact Iff.rfl

/-- The last tile's block is the whole statistics row. -/
theorem cover5 (i : S1x20.Idx) :
    ∃ t : Fin cfg4.N, (cfg4.win 5).flush t = true ∧ i ∈ ((cfg4.win 5).blk t).view.set := by
  have hi0 : (i 0).val < 1 := (i 0).isLt
  have hi1 : (i 1).val < 20 := (i 1).isLt
  obtain ⟨-, -, -, -, -, -, -, -, -, -, e0, e1, -⟩ := idx_facts tLast
  refine ⟨tLast, (flush4_5 tLast).mpr rfl, ?_⟩
  rw [mem_blk5]
  intro a
  match a with
  | ⟨0, _⟩ =>
    show win4_5.index tLast 0 * 1 ≤ (i 0).val ∧ (i 0).val < win4_5.index tLast 0 * 1 + 1
    rw [e0]; omega
  | ⟨1, _⟩ =>
    show win4_5.index tLast 1 * 20 ≤ (i 1).val ∧ (i 1).val < win4_5.index tLast 1 * 20 + 20
    rw [e1]; omega

theorem cover6 (i : S1x20.Idx) :
    ∃ t : Fin cfg4.N, (cfg4.win 6).flush t = true ∧ i ∈ ((cfg4.win 6).blk t).view.set := by
  have hi0 : (i 0).val < 1 := (i 0).isLt
  have hi1 : (i 1).val < 20 := (i 1).isLt
  obtain ⟨-, -, -, -, -, -, -, -, -, -, -, -, e0, e1⟩ := idx_facts tLast
  refine ⟨tLast, (flush4_6 tLast).mpr rfl, ?_⟩
  rw [mem_blk6]
  intro a
  match a with
  | ⟨0, _⟩ =>
    show win4_6.index tLast 0 * 1 ≤ (i 0).val ∧ (i 0).val < win4_6.index tLast 0 * 1 + 1
    rw [e0]; omega
  | ⟨1, _⟩ =>
    show win4_6.index tLast 1 * 20 ≤ (i 1).val ∧ (i 1).val < win4_6.index tLast 1 * 20 + 20
    rw [e1]; omega

/-- THE SECOND OUTPUT after the layer: the column sums of the affine map over all 100000 rows. -/
theorem arr5 (c : Dev nD) :
    (dat4 V c).arrAt 5 cfg4.N = fun i : S1x20.Idx => Spec.colSum (Z V c) (i 1) :=
  (dat4 V c).arrAt_eq_of_cover 5 (fun i : S1x20.Idx => Spec.colSum (Z V c) (i 1)) (flushed5_eq V c) cover5

/-- THE THIRD OUTPUT after the layer: the column sums of squares of the affine map over all 100000 rows. -/
theorem arr6 (c : Dev nD) :
    (dat4 V c).arrAt 6 cfg4.N = fun i : S1x20.Idx => Spec.colSumSq (Z V c) (i 1) :=
  (dat4 V c).arrAt_eq_of_cover 6 (fun i : S1x20.Idx => Spec.colSumSq (Z V c) (i 1)) (flushed6_eq V c) cover6

end Arrays

end Cert.LinStats4

end
-- ==== Proof.Norm1Pay.lean ====
/-
  The normalise-and-clamp step of one layer, read at one entry of a block of 2000 rows.

  The block's entry at row `p`, column `q` has the column's mean subtracted, is scaled by the inverse square root of the
  column's variance plus the small constant, scaled by the column's `g`, shifted by the column's `beta`, and clamped
  at zero. The four column quantities are rows of one line, laid along every row of the block.
-/
import proofs.«113277_j59725815218466_1_alg».proof.Proof.Gen.KernelIdeal.Skeleton
import proofs.«113277_j59725815218466_1_alg».proof.Proof.Spec
import Idealize.ShloMosaic.Lib.ValueLayout
import Idealize.ShloMosaic.Lib.Pipeline.Value
import Idealize.ShloMosaic.PureOps.Ideal.Laws

noncomputable section

namespace Cert.Norm1

open Cert.KernelIdeal Idealize.ShloMosaic Idealize.ShloMosaic.ValueIdx

/-- The stored block at `(p, q)`: `v0` is the block of the layer's affine output, `v7` the means, `v2` the variances,
    `v13` the scales and `v17` the shifts. -/
theorem pay_apply (v0 : Vec Ideal S2000x20 .f32) (v2 v7 v13 v17 : Vec Ideal S1x20 .f32) (p : Fin 2000) (q : Fin 20) :
    Gen.k1_pay1 v0 v2 v7 v13 v17 (ix2 p q)
      = max ((v0 (ix2 p q) - v7 (ix2 0 q)) * Ideal.rsqrt (v2 (ix2 0 q) + Spec.cEps) * v13 (ix2 0 q) + v17 (ix2 0 q)) 0 := by
  unfold Gen.k1_pay1 Spec.cEps
  simp only [shapeCast_self]
  rw [maximumf_apply, addf_apply, mulf_apply, mulf_apply, subf_apply,
    broadcastTo_1b_ab_apply, broadcastTo_1b_ab_apply, broadcastTo_1b_ab_apply, broadcastTo_1b_ab_apply, broadcast_apply]
  show max (_ * Ideal.rsqrt (v2 (ix2 0 q) + Ideal.ofBits .f32 0x3727C5AC#32) * _ + _) (Ideal.ofBits .f32 0x00000000#32) = _
  rw [Ideal.ofBits_zero_f32]

/-- The whole-array function at an index whose column is `q`. -/
theorem norm_at (z : Spec.Mat 100000 20) (mu var g beta : Fin 20 → EReal) (k : S100000x20.Idx) (q : Fin 20)
    (hq : (k 1).val = q.val) :
    Spec.norm z mu var g beta k = max ((z k - mu q) * Ideal.rsqrt (var q + Spec.cEps) * g q + beta q) 0 := by
  obtain ⟨a, b, rfl⟩ : ∃ (a : Fin 100000) (b : Fin 20), k = ix2 a b := ⟨k 0, k 1, eq_ix2 k⟩
  obtain rfl : b = q := Fin.ext hq
  rfl

end Cert.Norm1

end
-- ==== Proof.Norm1Run.lean ====
/-
  The normalise-and-clamp step of one layer, from blocks of 2000 rows to the whole array of 100000 rows.

  The output's block at grid point `t` is rows `2000 t … 2000 t + 1999`, and so is the block of the layer's affine
  output that the point reads; the means, variances, scales and shifts are one line each, read whole at every point.
  So each point writes its block of one whole-array function, the fifty blocks cover the array, and the array ends
  holding that function.
-/
import proofs.«113277_j59725815218466_1_alg».proof.Proof.Gen.KernelIdeal.Frame
import proofs.«113277_j59725815218466_1_alg».proof.Proof.Norm1Pay
import Idealize.ShloMosaic.Lib.Pipeline.Value

noncomputable section

namespace Cert.Norm1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The whole-array function: the normalised and clamped affine output, from the arrays as the step finds them. -/
abbrev G (c : Dev nD) : S100000x20.Idx → EReal :=
  Spec.norm (n := 100000) (d := 20) (V c main_v15_0) (fun q => V c main_v17 (ix2 0 q)) (fun q => V c main_v21 (ix2 0 q))
    (fun q => V c main_v22 (ix2 0 q)) (fun q => V c main_v23 (ix2 0 q))

/-- The block indices at every grid point: the two big windows' block is `(t, 0)`, the four lines' is `(0, 0)`. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The affine output's block at point `t`, at `x`, is the array at row `2000 t + x₀`, column `x₁`. -/
theorem blk0_apply (c : Dev nD) (t : Fin cfg1.N) (x : S2000x20.Idx) (k : S100000x20.Idx)
    (hk0 : (k 0).val = 2000 * t.val + (x 0).val) (hk1 : (k 1).val = (x 1).val) :
    (iblk1 V c 0 t : Vec Ideal S2000x20 .f32) x = (V c main_v15_0 : S100000x20.Idx → EReal) k := by
  obtain ⟨e0, e1, -⟩ := idx_facts t
  unfold iblk1
  rw [View.read_apply]
  show V c main_v15_0 _ = V c main_v15_0 _
  refine congrArg _ ?_
  funext a
  apply Fin.ext
  match a with
  | ⟨0, _⟩ => show win1_0.index t (0 : Fin 2) * 2000 + 1 * (x 0).val = (k 0).val; rw [e0, hk0]; omega
  | ⟨1, _⟩ => show win1_0.index t (1 : Fin 2) * 20 + 1 * (x 1).val = (k 1).val; rw [e1, hk1]; omega

/-- A one-line window's block at any point is its whole array. -/
theorem blk1_eq (c : Dev nD) (t : Fin cfg1.N) : (iblk1 V c 1 t : Vec Ideal S1x20 .f32) = (V c main_v17 : S1x20.Idx → EReal) := by
  obtain ⟨-, -, e0, e1, -⟩ := idx_facts t
  funext x
  unfold iblk1
  rw [View.read_apply]
  show V c main_v17 _ = V c main_v17 x
  refine congrArg _ ?_
  funext a
  apply Fin.ext
  match a with
  | ⟨0, _⟩ => show win1_1.index t (0 : Fin 2) * 1 + 1 * (x 0).val = (x 0).val; rw [e0]; omega
  | ⟨1, _⟩ => show win1_1.index t (1 : Fin 2) * 20 + 1 * (x 1).val = (x 1).val; rw [e1]; omega

theorem blk2_eq (c : Dev nD) (t : Fin cfg1.N) : (iblk1 V c 2 t : Vec Ideal S1x20 .f32) = (V c main_v21 : S1x20.Idx → EReal) := by
  obtain ⟨-, -, -, -, e0, e1, -⟩ := idx_facts t
  funext x
  unfold iblk1
  rw [View.read_apply]
  show V c main_v21 _ = V c main_v21 x
  refine congrArg _ ?_
  funext a
  apply Fin.ext
  match a with
  | ⟨0, _⟩ => show win1_2.index t (0 : Fin 2) * 1 + 1 * (x 0).val = (x 0).val; rw [e0]; omega
  | ⟨1, _⟩ => show win1_2.index t (1 : Fin 2) * 20 + 1 * (x 1).val = (x 1).val; rw [e1]; omega

theorem blk3_eq (c : Dev nD) (t : Fin cfg1.N) : (iblk1 V c 3 t : Vec Ideal S1x20 .f32) = (V c main_v22 : S1x20.Idx → EReal) := by
  obtain ⟨-, -, -, -, -, -, e0, e1, -⟩ := idx_facts t
  funext x
  unfold iblk1
  rw [View.read_apply]
  show V c main_v22 _ = V c main_v22 x
  refine congrArg _ ?_
  funext a
  apply Fin.ext
  match a with
  | ⟨0, _⟩ => show win1_3.index t (0 : Fin 2) * 1 + 1 * (x 0).val = (x 0).val; rw [e0]; omega
  | ⟨1, _⟩ => show win1_3.index t (1 : Fin 2) * 20 + 1 * (x 1).val = (x 1).val; rw [e1]; omega

theorem blk4_eq (c : Dev nD) (t : Fin cfg1.N) : (iblk1 V c 4 t : Vec Ideal S1x20 .f32) = (V c main_v23 : S1x20.Idx → EReal) := by
  obtain ⟨-, -, -, -, -, -, -, -, e0, e1, -⟩ := idx_facts t
  funext x
  unfold iblk1
  rw [View.read_apply]
  show V c main_v23 _ = V c main_v23 x
  refine congrArg _ ?_
  funext a
  apply Fin.ext
  match a with
  | ⟨0, _⟩ => show win1_4.index t (0 : Fin 2) * 1 + 1 * (x 0).val = (x 0).val; rw [e0]; omega
  | ⟨1, _⟩ => show win1_4.index t (1 : Fin 2) * 20 + 1 * (x 1).val = (x 1).val; rw [e1]; omega

/-- What point `t` writes back is block `t` of the whole-array function. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S2000x20) hz, View.ld_unit_zero (S := S1x20) hz]
  rw [blk1_eq, blk2_eq, blk3_eq, blk4_eq]
  obtain ⟨-, -, -, -, -, -, -, -, -, -, e0, e1⟩ := idx_facts t
  funext j
  obtain ⟨p, q, rfl⟩ : ∃ (p : Fin 2000) (q : Fin 20), j = ix2 p q := ⟨j 0, j 1, eq_ix2 j⟩
  show Gen.k1_pay1 (iblk1 V c 0 t) (V c main_v21) (V c main_v17) (V c main_v22) (V c main_v23) (ix2 p q)
    = G V c (((cfg1.win 5).blk t).view.emb (ix2 p q))
  have hk0 : ((((cfg1.win 5).blk t).view.emb (ix2 p q)) 0).val = 2000 * t.val + p.val := by
    show win1_5.index t (0 : Fin 2) * 2000 + 1 * p.val = _; rw [e0]; omega
  have hk1 : ((((cfg1.win 5).blk t).view.emb (ix2 p q)) 1).val = q.val := by
    show win1_5.index t (1 : Fin 2) * 20 + 1 * q.val = _; rw [e1]; omega
  refine (pay_apply (iblk1 V c 0 t) (V c main_v21) (V c main_v17) (V c main_v22) (V c main_v23) p q).trans ?_
  rw [blk0_apply V c t (ix2 p q) (((cfg1.win 5).blk t).view.emb (ix2 p q)) hk0 hk1]
  exact (norm_at (V c main_v15_0) (fun q => V c main_v17 (ix2 0 q)) (fun q => V c main_v21 (ix2 0 q))
    (fun q => V c main_v22 (ix2 0 q)) (fun q => V c main_v23 (ix2 0 q)) (((cfg1.win 5).blk t).view.emb (ix2 p q)) q hk1).symm

/-- An index of the array is in point `t`'s block iff each coordinate is in the block's range on its axis. -/
theorem mem_blk (t : Fin cfg1.N) (i : S100000x20.Idx) :
    i ∈ ((cfg1.win 5).blk t).view.set ↔ ∀ a : Fin 2, win1_5.index t a * S2000x20.size a ≤ (i a).val ∧ (i a).val < win1_5.index t a * S2000x20.size a + S2000x20.size a := by
  show i ∈ ((View.whole main_v24).slice (win1_5.rect t)).set ↔ _
  rw [View.set_slice_whole, Rect.mem_set_unit]
  exact Iff.rfl

/-- Every row is in the block of the point `row / 2000`. -/
theorem cover (i : S100000x20.Idx) :
    ∃ t : Fin cfg1.N, (cfg1.win 5).flush t = true ∧ i ∈ ((cfg1.win 5).blk t).view.set := by
  have hi0 : (i 0).val < 100000 := (i 0).isLt
  have hi1 : (i 1).val < 20 := (i 1).isLt
  have hN : cfg1.N = 50 := N_1
  obtain ⟨t, ht⟩ : ∃ t : Fin cfg1.N, t.val = (i 0).val / 2000 := ⟨⟨(i 0).val / 2000, by rw [hN]; omega⟩, rfl⟩
  obtain ⟨-, -, -, -, -, -, -, -, -, -, e0, e1⟩ := idx_facts t
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; rw [e0]; omega
  | ⟨1, _⟩ => show win1_5.index t (1 : Fin 2) * 20 ≤ (i 1).val ∧ (i 1).val < win1_5.index t (1 : Fin 2) * 20 + 20; rw [e1]; omega

/-- The output array after the step: the normalised and clamped affine output, as one function of the arrays the
    step finds. -/
theorem region1_value (c : Dev nD) :
    (dat1 V c).arrAt 5 cfg1.N
      = Spec.norm (n := 100000) (d := 20) (V c main_v15_0) (fun q => V c main_v17 (ix2 0 q)) (fun q => V c main_v21 (ix2 0 q))
          (fun q => V c main_v22 (ix2 0 q)) (fun q => V c main_v23 (ix2 0 q)) :=
  (dat1 V c).arrAt_eq_of_cover 5 (G V c) (fun t _ => flushed_eq V c t) cover

end Cert.Norm1

end
-- ==== Proof.Norm3Pay.lean ====
/-
  The normalise-and-clamp step of one layer, read at one entry of a block of 2000 rows.

  The block's entry at row `p`, column `q` has the column's mean subtracted, is scaled by the inverse square root of the
  column's variance plus the small constant, scaled by the column's `g`, shifted by the column's `beta`, and clamped
  at zero. The four column quantities are rows of one line, laid along every row of the block.
-/
import proofs.«113277_j59725815218466_1_alg».proof.Proof.Gen.KernelIdeal.Skeleton
import proofs.«113277_j59725815218466_1_alg».proof.Proof.Spec
import Idealize.ShloMosaic.Lib.ValueLayout
import Idealize.ShloMosaic.Lib.Pipeline.Value
import Idealize.ShloMosaic.PureOps.Ideal.Laws

noncomputable section

namespace Cert.Norm3

open Cert.KernelIdeal Idealize.ShloMosaic Idealize.ShloMosaic.ValueIdx

/-- The stored block at `(p, q)`: `v0` is the block of the layer's affine output, `v7` the means, `v2` the variances,
    `v13` the scales and `v17` the shifts. -/
theorem pay_apply (v0 : Vec Ideal S2000x20 .f32) (v2 v7 v13 v17 : Vec Ideal S1x20 .f32) (p : Fin 2000) (q : Fin 20) :
    Gen.k3_pay1 v0 v2 v7 v13 v17 (ix2 p q)
      = max ((v0 (ix2 p q) - v7 (ix2 0 q)) * Ideal.rsqrt (v2 (ix2 0 q) + Spec.cEps) * v13 (ix2 0 q) + v17 (ix2 0 q)) 0 := by
  unfold Gen.k3_pay1 Spec.cEps
  simp only [shapeCast_self]
  rw [maximumf_apply, addf_apply, mulf_apply, mulf_apply, subf_apply,
    broadcastTo_1b_ab_apply, broadcastTo_1b_ab_apply, broadcastTo_1b_ab_apply, broadcastTo_1b_ab_apply, broadcast_apply]
  show max (_ * Ideal.rsqrt (v2 (ix2 0 q) + Ideal.ofBits .f32 0x3727C5AC#32) * _ + _) (Ideal.ofBits .f32 0x00000000#32) = _
  rw [Ideal.ofBits_zero_f32]

/-- The whole-array function at an index whose column is `q`. -/
theorem norm_at (z : Spec.Mat 100000 20) (mu var g beta : Fin 20 → EReal) (k : S100000x20.Idx) (q : Fin 20)
    (hq : (k 1).val = q.val) :
    Spec.norm z mu var g beta k = max ((z k - mu q) * Ideal.rsqrt (var q + Spec.cEps) * g q + beta q) 0 := by
  obtain ⟨a, b, rfl⟩ : ∃ (a : Fin 100000) (b : Fin 20), k = ix2 a b := ⟨k 0, k 1, eq_ix2 k⟩
  obtain rfl : b = q := Fin.ext hq
  rfl

end Cert.Norm3

end
-- ==== Proof.Norm3Run.lean ====
/-
  The normalise-and-clamp step of one layer, from blocks of 2000 rows to the whole array of 100000 rows.

  The output's block at grid point `t` is rows `2000 t … 2000 t + 1999`, and so is the block of the layer's affine
  output that the point reads; the means, variances, scales and shifts are one line each, read whole at every point.
  So each point writes its block of one whole-array function, the fifty blocks cover the array, and the array ends
  holding that function.
-/
import proofs.«113277_j59725815218466_1_alg».proof.Proof.Gen.KernelIdeal.Frame
import proofs.«113277_j59725815218466_1_alg».proof.Proof.Norm3Pay
import Idealize.ShloMosaic.Lib.Pipeline.Value

noncomputable section

namespace Cert.Norm3

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The whole-array function: the normalised and clamped affine output, from the arrays as the step finds them. -/
abbrev G (c : Dev nD) : S100000x20.Idx → EReal :=
  Spec.norm (n := 100000) (d := 20) (V c main_v36_0) (fun q => V c main_v38 (ix2 0 q)) (fun q => V c main_v42 (ix2 0 q))
    (fun q => V c main_v43 (ix2 0 q)) (fun q => V c main_v44 (ix2 0 q))

/-- The block indices at every grid point: the two big windows' block is `(t, 0)`, the four lines' is `(0, 0)`. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The affine output's block at point `t`, at `x`, is the array at row `2000 t + x₀`, column `x₁`. -/
theorem blk0_apply (c : Dev nD) (t : Fin cfg3.N) (x : S2000x20.Idx) (k : S100000x20.Idx)
    (hk0 : (k 0).val = 2000 * t.val + (x 0).val) (hk1 : (k 1).val = (x 1).val) :
    (iblk3 V c 0 t : Vec Ideal S2000x20 .f32) x = (V c main_v36_0 : S100000x20.Idx → EReal) k := by
  obtain ⟨e0, e1, -⟩ := idx_facts t
  unfold iblk3
  rw [View.read_apply]
  show V c main_v36_0 _ = V c main_v36_0 _
  refine congrArg _ ?_
  funext a
  apply Fin.ext
  match a with
  | ⟨0, _⟩ => show win3_0.index t (0 : Fin 2) * 2000 + 1 * (x 0).val = (k 0).val; rw [e0, hk0]; omega
  | ⟨1, _⟩ => show win3_0.index t (1 : Fin 2) * 20 + 1 * (x 1).val = (k 1).val; rw [e1, hk1]; omega

/-- A one-line window's block at any point is its whole array. -/
theorem blk1_eq (c : Dev nD) (t : Fin cfg3.N) : (iblk3 V c 1 t : Vec Ideal S1x20 .f32) = (V c main_v38 : S1x20.Idx → EReal) := by
  obtain ⟨-, -, e0, e1, -⟩ := idx_facts t
  funext x
  unfold iblk3
  rw [View.read_apply]
  show V c main_v38 _ = V c main_v38 x
  refine congrArg _ ?_
  funext a
  apply Fin.ext
  match a with
  | ⟨0, _⟩ => show win3_1.index t (0 : Fin 2) * 1 + 1 * (x 0).val = (x 0).val; rw [e0]; omega
  | ⟨1, _⟩ => show win3_1.index t (1 : Fin 2) * 20 + 1 * (x 1).val = (x 1).val; rw [e1]; omega

theorem blk2_eq (c : Dev nD) (t : Fin cfg3.N) : (iblk3 V c 2 t : Vec Ideal S1x20 .f32) = (V c main_v42 : S1x20.Idx → EReal) := by
  obtain ⟨-, -, -, -, e0, e1, -⟩ := idx_facts t
  funext x
  unfold iblk3
  rw [View.read_apply]
  show V c main_v42 _ = V c main_v42 x
  refine congrArg _ ?_
  funext a
  apply Fin.ext
  match a with
  | ⟨0, _⟩ => show win3_2.index t (0 : Fin 2) * 1 + 1 * (x 0).val = (x 0).val; rw [e0]; omega
  | ⟨1, _⟩ => show win3_2.index t (1 : Fin 2) * 20 + 1 * (x 1).val = (x 1).val; rw [e1]; omega

theorem blk3_eq (c : Dev nD) (t : Fin cfg3.N) : (iblk3 V c 3 t : Vec Ideal S1x20 .f32) = (V c main_v43 : S1x20.Idx → EReal) := by
  obtain ⟨-, -, -, -, -, -, e0, e1, -⟩ := idx_facts t
  funext x
  unfold iblk3
  rw [View.read_apply]
  show V c main_v43 _ = V c main_v43 x
  refine congrArg _ ?_
  funext a
  apply Fin.ext
  match a with
  | ⟨0, _⟩ => show win3_3.index t (0 : Fin 2) * 1 + 1 * (x 0).val = (x 0).val; rw [e0]; omega
  | ⟨1, _⟩ => show win3_3.index t (1 : Fin 2) * 20 + 1 * (x 1).val = (x 1).val; rw [e1]; omega

theorem blk4_eq (c : Dev nD) (t : Fin cfg3.N) : (iblk3 V c 4 t : Vec Ideal S1x20 .f32) = (V c main_v44 : S1x20.Idx → EReal) := by
  obtain ⟨-, -, -, -, -, -, -, -, e0, e1, -⟩ := idx_facts t
  funext x
  unfold iblk3
  rw [View.read_apply]
  show V c main_v44 _ = V c main_v44 x
  refine congrArg _ ?_
  funext a
  apply Fin.ext
  match a with
  | ⟨0, _⟩ => show win3_4.index t (0 : Fin 2) * 1 + 1 * (x 0).val = (x 0).val; rw [e0]; omega
  | ⟨1, _⟩ => show win3_4.index t (1 : Fin 2) * 20 + 1 * (x 1).val = (x 1).val; rw [e1]; omega

/-- What point `t` writes back is block `t` of the whole-array function. -/
theorem flushed_eq (c : Dev nD) (t : Fin cfg3.N) :
    (dat3 V c).flushed 5 t = ((cfg3.win 5).blk t).view.read (Elt Ideal) (G V c) := by
  show (cfg3.win 5).cut (grid3.coords t) ((dat3 V c).after 5 t) = _
  rw [after3_5]
  unfold out3_5
  rw [View.canon_unit_zero hz]
  simp only [View.ld_unit_zero (S := S2000x20) hz, View.ld_unit_zero (S := S1x20) hz]
  rw [blk1_eq, blk2_eq, blk3_eq, blk4_eq]
  obtain ⟨-, -, -, -, -, -, -, -, -, -, e0, e1⟩ := idx_facts t
  funext j
  obtain ⟨p, q, rfl⟩ : ∃ (p : Fin 2000) (q : Fin 20), j = ix2 p q := ⟨j 0, j 1, eq_ix2 j⟩
  show Gen.k3_pay1 (iblk3 V c 0 t) (V c main_v42) (V c main_v38) (V c main_v43) (V c main_v44) (ix2 p q)
    = G V c (((cfg3.win 5).blk t).view.emb (ix2 p q))
  have hk0 : ((((cfg3.win 5).blk t).view.emb (ix2 p q)) 0).val = 2000 * t.val + p.val := by
    show win3_5.index t (0 : Fin 2) * 2000 + 1 * p.val = _; rw [e0]; omega
  have hk1 : ((((cfg3.win 5).blk t).view.emb (ix2 p q)) 1).val = q.val := by
    show win3_5.index t (1 : Fin 2) * 20 + 1 * q.val = _; rw [e1]; omega
  refine (pay_apply (iblk3 V c 0 t) (V c main_v42) (V c main_v38) (V c main_v43) (V c main_v44) p q).trans ?_
  rw [blk0_apply V c t (ix2 p q) (((cfg3.win 5).blk t).view.emb (ix2 p q)) hk0 hk1]
  exact (norm_at (V c main_v36_0) (fun q => V c main_v38 (ix2 0 q)) (fun q => V c main_v42 (ix2 0 q))
    (fun q => V c main_v43 (ix2 0 q)) (fun q => V c main_v44 (ix2 0 q)) (((cfg3.win 5).blk t).view.emb (ix2 p q)) q hk1).symm

/-- An index of the array is in point `t`'s block iff each coordinate is in the block's range on its axis. -/
theorem mem_blk (t : Fin cfg3.N) (i : S100000x20.Idx) :
    i ∈ ((cfg3.win 5).blk t).view.set ↔ ∀ a : Fin 2, win3_5.index t a * S2000x20.size a ≤ (i a).val ∧ (i a).val < win3_5.index t a * S2000x20.size a + S2000x20.size a := by
  show i ∈ ((View.whole main_v45).slice (win3_5.rect t)).set ↔ _
  rw [View.set_slice_whole, Rect.mem_set_unit]
  exact Iff.rfl

/-- Every row is in the block of the point `row / 2000`. -/
theorem cover (i : S100000x20.Idx) :
    ∃ t : Fin cfg3.N, (cfg3.win 5).flush t = true ∧ i ∈ ((cfg3.win 5).blk t).view.set := by
  have hi0 : (i 0).val < 100000 := (i 0).isLt
  have hi1 : (i 1).val < 20 := (i 1).isLt
  have hN : cfg3.N = 50 := N_3
  obtain ⟨t, ht⟩ : ∃ t : Fin cfg3.N, t.val = (i 0).val / 2000 := ⟨⟨(i 0).val / 2000, by rw [hN]; omega⟩, rfl⟩
  obtain ⟨-, -, -, -, -, -, -, -, -, -, e0, e1⟩ := idx_facts t
  refine ⟨t, flush3_5 t, ?_⟩
  rw [mem_blk]
  intro a
  match a with
  | ⟨0, _⟩ => show win3_5.index t (0 : Fin 2) * 2000 ≤ (i 0).val ∧ (i 0).val < win3_5.index t (0 : Fin 2) * 2000 + 2000; rw [e0]; omega
  | ⟨1, _⟩ => show win3_5.index t (1 : Fin 2) * 20 ≤ (i 1).val ∧ (i 1).val < win3_5.index t (1 : Fin 2) * 20 + 20; rw [e1]; omega

/-- The output array after the step: the normalised and clamped affine output, as one function of the arrays the
    step finds. -/
theorem region3_value (c : Dev nD) :
    (dat3 V c).arrAt 5 cfg3.N
      = Spec.norm (n := 100000) (d := 20) (V c main_v36_0) (fun q => V c main_v38 (ix2 0 q)) (fun q => V c main_v42 (ix2 0 q))
          (fun q => V c main_v43 (ix2 0 q)) (fun q => V c main_v44 (ix2 0 q)) :=
  (dat3 V c).arrAt_eq_of_cover 5 (G V c) (fun t _ => flushed_eq V c t) cover

end Cert.Norm3

end
-- ==== Proof.Norm5Pay.lean ====
/-
  The normalise-and-clamp step of one layer, read at one entry of a block of 2000 rows.

  The block's entry at row `p`, column `q` has the column's mean subtracted, is scaled by the inverse square root of the
  column's variance plus the small constant, scaled by the column's `g`, shifted by the column's `beta`, and clamped
  at zero. The four column quantities are rows of one line, laid along every row of the block.
-/
import proofs.«113277_j59725815218466_1_alg».proof.Proof.Gen.KernelIdeal.Skeleton
import proofs.«113277_j59725815218466_1_alg».proof.Proof.Spec
import Idealize.ShloMosaic.Lib.ValueLayout
import Idealize.ShloMosaic.Lib.Pipeline.Value
import Idealize.ShloMosaic.PureOps.Ideal.Laws

noncomputable section

namespace Cert.Norm5

open Cert.KernelIdeal Idealize.ShloMosaic Idealize.ShloMosaic.ValueIdx

/-- The stored block at `(p, q)`: `v0` is the block of the layer's affine output, `v7` the means, `v2` the variances,
    `v13` the scales and `v17` the shifts. -/
theorem pay_apply (v0 : Vec Ideal S2000x20 .f32) (v2 v7 v13 v17 : Vec Ideal S1x20 .f32) (p : Fin 2000) (q : Fin 20) :
    Gen.k5_pay1 v0 v2 v7 v13 v17 (ix2 p q)
      = max ((v0 (ix2 p q) - v7 (ix2 0 q)) * Ideal.rsqrt (v2 (ix2 0 q) + Spec.cEps) * v13 (ix2 0 q) + v17 (ix2 0 q)) 0 := by
  unfold Gen.k5_pay1 Spec.cEps
  simp only [shapeCast_self]
  rw [maximumf_apply, addf_apply, mulf_apply, mulf_apply, subf_apply,
    broadcastTo_1b_ab_apply, broadcastTo_1b_ab_apply, broadcastTo_1b_ab_apply, broadcastTo_1b_ab_apply, broadcast_apply]
  show max (_ * Ideal.rsqrt (v2 (ix2 0 q) + Ideal.ofBits .f32 0x3727C5AC#32) * _ + _) (Ideal.ofBits .f32 0x00000000#32) = _
  rw [Ideal.ofBits_zero_f32]

/-- The whole-array function at an index whose column is `q`. -/
theorem norm_at (z : Spec.Mat 100000 20) (mu var g beta : Fin 20 → EReal) (k : S100000x20.Idx) (q : Fin 20)
    (hq : (k 1).val = q.val) :
    Spec.norm z mu var g beta k = max ((z k - mu q) * Ideal.rsqrt (var q + Spec.cEps) * g q + beta q) 0 := by
  obtain ⟨a, b, rfl⟩ : ∃ (a : Fin 100000) (b : Fin 20), k = ix2 a b := ⟨k 0, k 1, eq_ix2 k⟩
  obtain rfl : b = q := Fin.ext hq
  rfl

end Cert.Norm5

end
-- ==== Proof.Norm5Run.lean ====
/-
  The normalise-and-clamp step of one layer, from blocks of 2000 rows to the whole array of 100000 rows.

  The output's block at grid point `t` is rows `2000 t … 2000 t + 1999`, and so is the block of the layer's affine
  output that the point reads; the means, variances, scales and shifts are one line each, read whole at every point.
  So each point writes its block of one whole-array function, the fifty blocks cover the array, and the array ends
  holding that function.
-/
import proofs.«113277_j59725815218466_1_alg».proof.Proof.Gen.KernelIdeal.Frame
import proofs.«113277_j59725815218466_1_alg».proof.Proof.Norm5Pay
import Idealize.ShloMosaic.Lib.Pipeline.Value

noncomputable section

namespace Cert.Norm5

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The whole-array function: the normalised and clamped affine output, from the arrays as the step finds them. -/
abbrev G (c : Dev nD) : S100000x20.Idx → EReal :=
  Spec.norm (n := 100000) (d := 20) (V c main_v57_0) (fun q => V c main_v59 (ix2 0 q)) (fun q => V c main_v63 (ix2 0 q))
    (fun q => V c main_v64 (ix2 0 q)) (fun q => V c main_v65 (ix2 0 q))

/-- The block indices at every grid point: the two big windows' block is `(t, 0)`, the four lines' is `(0, 0)`. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The affine output's block at point `t`, at `x`, is the array at row `2000 t + x₀`, column `x₁`. -/
theorem blk0_apply (c : Dev nD) (t : Fin cfg5.N) (x : S2000x20.Idx) (k : S100000x20.Idx)
    (hk0 : (k 0).val = 2000 * t.val + (x 0).val) (hk1 : (k 1).val = (x 1).val) :
    (iblk5 V c 0 t : Vec Ideal S2000x20 .f32) x = (V c main_v57_0 : S100000x20.Idx → EReal) k := by
  obtain ⟨e0, e1, -⟩ := idx_facts t
  unfold iblk5
  rw [View.read_apply]
  show V c main_v57_0 _ = V c main_v57_0 _
  refine congrArg _ ?_
  funext a
  apply Fin.ext
  match a with
  | ⟨0, _⟩ => show win5_0.index t (0 : Fin 2) * 2000 + 1 * (x 0).val = (k 0).val; rw [e0, hk0]; omega
  | ⟨1, _⟩ => show win5_0.index t (1 : Fin 2) * 20 + 1 * (x 1).val = (k 1).val; rw [e1, hk1]; omega

/-- A one-line window's block at any point is its whole array. -/
theorem blk1_eq (c : Dev nD) (t : Fin cfg5.N) : (iblk5 V c 1 t : Vec Ideal S1x20 .f32) = (V c main_v59 : S1x20.Idx → EReal) := by
  obtain ⟨-, -, e0, e1, -⟩ := idx_facts t
  funext x
  unfold iblk5
  rw [View.read_apply]
  show V c main_v59 _ = V c main_v59 x
  refine congrArg _ ?_
  funext a
  apply Fin.ext
  match a with
  | ⟨0, _⟩ => show win5_1.index t (0 : Fin 2) * 1 + 1 * (x 0).val = (x 0).val; rw [e0]; omega
  | ⟨1, _⟩ => show win5_1.index t (1 : Fin 2) * 20 + 1 * (x 1).val = (x 1).val; rw [e1]; omega

theorem blk2_eq (c : Dev nD) (t : Fin cfg5.N) : (iblk5 V c 2 t : Vec Ideal S1x20 .f32) = (V c main_v63 : S1x20.Idx → EReal) := by
  obtain ⟨-, -, -, -, e0, e1, -⟩ := idx_facts t
  funext x
  unfold iblk5
  rw [View.read_apply]
  show V c main_v63 _ = V c main_v63 x
  refine congrArg _ ?_
  funext a
  apply Fin.ext
  match a with
  | ⟨0, _⟩ => show win5_2.index t (0 : Fin 2) * 1 + 1 * (x 0).val = (x 0).val; rw [e0]; omega
  | ⟨1, _⟩ => show win5_2.index t (1 : Fin 2) * 20 + 1 * (x 1).val = (x 1).val; rw [e1]; omega

theorem blk3_eq (c : Dev nD) (t : Fin cfg5.N) : (iblk5 V c 3 t : Vec Ideal S1x20 .f32) = (V c main_v64 : S1x20.Idx → EReal) := by
  obtain ⟨-, -, -, -, -, -, e0, e1, -⟩ := idx_facts t
  funext x
  unfold iblk5
  rw [View.read_apply]
  show V c main_v64 _ = V c main_v64 x
  refine congrArg _ ?_
  funext a
  apply Fin.ext
  match a with
  | ⟨0, _⟩ => show win5_3.index t (0 : Fin 2) * 1 + 1 * (x 0).val = (x 0).val; rw [e0]; omega
  | ⟨1, _⟩ => show win5_3.index t (1 : Fin 2) * 20 + 1 * (x 1).val = (x 1).val; rw [e1]; omega

theorem blk4_eq (c : Dev nD) (t : Fin cfg5.N) : (iblk5 V c 4 t : Vec Ideal S1x20 .f32) = (V c main_v65 : S1x20.Idx → EReal) := by
  obtain ⟨-, -, -, -, -, -, -, -, e0, e1, -⟩ := idx_facts t
  funext x
  unfold iblk5
  rw [View.read_apply]
  show V c main_v65 _ = V c main_v65 x
  refine congrArg _ ?_
  funext a
  apply Fin.ext
  match a with
  | ⟨0, _⟩ => show win5_4.index t (0 : Fin 2) * 1 + 1 * (x 0).val = (x 0).val; rw [e0]; omega
  | ⟨1, _⟩ => show win5_4.index t (1 : Fin 2) * 20 + 1 * (x 1).val = (x 1).val; rw [e1]; omega

/-- What point `t` writes back is block `t` of the whole-array function. -/
theorem flushed_eq (c : Dev nD) (t : Fin cfg5.N) :
    (dat5 V c).flushed 5 t = ((cfg5.win 5).blk t).view.read (Elt Ideal) (G V c) := by
  show (cfg5.win 5).cut (grid5.coords t) ((dat5 V c).after 5 t) = _
  rw [after5_5]
  unfold out5_5
  rw [View.canon_unit_zero hz]
  simp only [View.ld_unit_zero (S := S2000x20) hz, View.ld_unit_zero (S := S1x20) hz]
  rw [blk1_eq, blk2_eq, blk3_eq, blk4_eq]
  obtain ⟨-, -, -, -, -, -, -, -, -, -, e0, e1⟩ := idx_facts t
  funext j
  obtain ⟨p, q, rfl⟩ : ∃ (p : Fin 2000) (q : Fin 20), j = ix2 p q := ⟨j 0, j 1, eq_ix2 j⟩
  show Gen.k5_pay1 (iblk5 V c 0 t) (V c main_v63) (V c main_v59) (V c main_v64) (V c main_v65) (ix2 p q)
    = G V c (((cfg5.win 5).blk t).view.emb (ix2 p q))
  have hk0 : ((((cfg5.win 5).blk t).view.emb (ix2 p q)) 0).val = 2000 * t.val + p.val := by
    show win5_5.index t (0 : Fin 2) * 2000 + 1 * p.val = _; rw [e0]; omega
  have hk1 : ((((cfg5.win 5).blk t).view.emb (ix2 p q)) 1).val = q.val := by
    show win5_5.index t (1 : Fin 2) * 20 + 1 * q.val = _; rw [e1]; omega
  refine (pay_apply (iblk5 V c 0 t) (V c main_v63) (V c main_v59) (V c main_v64) (V c main_v65) p q).trans ?_
  rw [blk0_apply V c t (ix2 p q) (((cfg5.win 5).blk t).view.emb (ix2 p q)) hk0 hk1]
  exact (norm_at (V c main_v57_0) (fun q => V c main_v59 (ix2 0 q)) (fun q => V c main_v63 (ix2 0 q))
    (fun q => V c main_v64 (ix2 0 q)) (fun q => V c main_v65 (ix2 0 q)) (((cfg5.win 5).blk t).view.emb (ix2 p q)) q hk1).symm

/-- An index of the array is in point `t`'s block iff each coordinate is in the block's range on its axis. -/
theorem mem_blk (t : Fin cfg5.N) (i : S100000x20.Idx) :
    i ∈ ((cfg5.win 5).blk t).view.set ↔ ∀ a : Fin 2, win5_5.index t a * S2000x20.size a ≤ (i a).val ∧ (i a).val < win5_5.index t a * S2000x20.size a + S2000x20.size a := by
  show i ∈ ((View.whole main_v66).slice (win5_5.rect t)).set ↔ _
  rw [View.set_slice_whole, Rect.mem_set_unit]
  exact Iff.rfl

/-- Every row is in the block of the point `row / 2000`. -/
theorem cover (i : S100000x20.Idx) :
    ∃ t : Fin cfg5.N, (cfg5.win 5).flush t = true ∧ i ∈ ((cfg5.win 5).blk t).view.set := by
  have hi0 : (i 0).val < 100000 := (i 0).isLt
  have hi1 : (i 1).val < 20 := (i 1).isLt
  have hN : cfg5.N = 50 := N_5
  obtain ⟨t, ht⟩ : ∃ t : Fin cfg5.N, t.val = (i 0).val / 2000 := ⟨⟨(i 0).val / 2000, by rw [hN]; omega⟩, rfl⟩
  obtain ⟨-, -, -, -, -, -, -, -, -, -, e0, e1⟩ := idx_facts t
  refine ⟨t, flush5_5 t, ?_⟩
  rw [mem_blk]
  intro a
  match a with
  | ⟨0, _⟩ => show win5_5.index t (0 : Fin 2) * 2000 ≤ (i 0).val ∧ (i 0).val < win5_5.index t (0 : Fin 2) * 2000 + 2000; rw [e0]; omega
  | ⟨1, _⟩ => show win5_5.index t (1 : Fin 2) * 20 ≤ (i 1).val ∧ (i 1).val < win5_5.index t (1 : Fin 2) * 20 + 20; rw [e1]; omega

/-- The output array after the step: the normalised and clamped affine output, as one function of the arrays the
    step finds. -/
theorem region5_value (c : Dev nD) :
    (dat5 V c).arrAt 5 cfg5.N
      = Spec.norm (n := 100000) (d := 20) (V c main_v57_0) (fun q => V c main_v59 (ix2 0 q)) (fun q => V c main_v63 (ix2 0 q))
          (fun q => V c main_v64 (ix2 0 q)) (fun q => V c main_v65 (ix2 0 q)) :=
  (dat5 V c).arrAt_eq_of_cover 5 (G V c) (fun t _ => flushed_eq V c t) cover

end Cert.Norm5

end
-- ==== Proof.Head6Pay.lean ====
/-
  The classifier, read at one entry: row `p` of the pooled features times column `q` of the weights, plus the bias of
  class `q`. The product is taken into a zero accumulator and the one-line bias is laid along every row.
-/
import proofs.«113277_j59725815218466_1_alg».proof.Proof.Gen.KernelIdeal.Skeleton
import proofs.«113277_j59725815218466_1_alg».proof.Proof.LibPlainDot
import Idealize.ShloMosaic.Lib.Pipeline.Value

noncomputable section

namespace Cert.Head6

open Cert.KernelIdeal Idealize.ShloMosaic Idealize.ShloMosaic.ValueIdx

/-- The stored block at `(p, q)`: `Σ_c v0[p, c] · v3[c, q] + v6[0, q]`. -/
theorem pay_apply (v0 : Vec Ideal S1000x20 .f32) (v3 : Vec Ideal S20x2 .f32) (v6 : Vec Ideal S1x2 .f32) (p : Fin 1000) (q : Fin 2) :
    Gen.k6_pay1 v0 v3 v6 (ix2 p q) = (∑ c : Fin 20, v0 (ix2 p c) * v3 (ix2 c q)) + v6 (ix2 0 q) := by
  unfold Gen.k6_pay1
  simp only [shapeCast_self]
  exact Cert.Lib.lin_apply dot_S1000x20_S20x2_S1000x2_1_0_0_1_n_n rfl _ _ v6 Gen.broadcasts_S1x2_S1000x2 p q

end Cert.Head6

end
-- ==== Proof.Head6.lean ====
/-
  The classifier over its one grid point: every window's block is its whole array, so the output array after the step
  is the affine map of the pooled features as the step finds them.
-/
import proofs.«113277_j59725815218466_1_alg».proof.Proof.Gen.KernelIdeal.Frame
import proofs.«113277_j59725815218466_1_alg».proof.Proof.Spec
import proofs.«113277_j59725815218466_1_alg».proof.Proof.Head6Pay
import Idealize.ShloMosaic.Lib.Pipeline.Value

noncomputable section

namespace Cert.Head6

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The whole-array function: the pooled features times the weights plus the bias, from the arrays as the step finds them. -/
abbrev G (c : Dev nD) : S1000x2.Idx → EReal :=
  Spec.head (m := 1000) (k := 20) (d := 2) (V c main_v69) (V c main_arg15) (fun q => V c main_v70 (ix2 0 q))

/-- Every window's block index at the one grid point is `(0, 0)`. -/
theorem idx_facts : ∀ t : Fin cfg6.N,
    win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0 :=
  (by decide +kernel : ∀ t : Fin grid6.N, _)

/-- The pooled features' block is the whole array. -/
theorem blk0_eq (c : Dev nD) (t : Fin cfg6.N) : (iblk6 V c 0 t : Vec Ideal S1000x20 .f32) = (V c main_v69 : S1000x20.Idx → EReal) := by
  obtain ⟨e0, e1, -⟩ := idx_facts t
  funext x
  unfold iblk6
  rw [View.read_apply]
  show V c main_v69 _ = V c main_v69 x
  refine congrArg _ ?_
  funext a
  apply Fin.ext
  match a with
  | ⟨0, _⟩ => show win6_0.index t (0 : Fin 2) * 1000 + 1 * (x 0).val = (x 0).val; rw [e0]; omega
  | ⟨1, _⟩ => show win6_0.index t (1 : Fin 2) * 20 + 1 * (x 1).val = (x 1).val; rw [e1]; omega

/-- The weights' block is the whole array. -/
theorem blk1_eq (c : Dev nD) (t : Fin cfg6.N) : (iblk6 V c 1 t : Vec Ideal S20x2 .f32) = (V c main_arg15 : S20x2.Idx → EReal) := by
  obtain ⟨-, -, e0, e1, -⟩ := idx_facts t
  funext x
  unfold iblk6
  rw [View.read_apply]
  show V c main_arg15 _ = V c main_arg15 x
  refine congrArg _ ?_
  funext a
  apply Fin.ext
  match a with
  | ⟨0, _⟩ => show win6_1.index t (0 : Fin 2) * 20 + 1 * (x 0).val = (x 0).val; rw [e0]; omega
  | ⟨1, _⟩ => show win6_1.index t (1 : Fin 2) * 2 + 1 * (x 1).val = (x 1).val; rw [e1]; omega

/-- The bias line's block is the whole array. -/
theorem blk2_eq (c : Dev nD) (t : Fin cfg6.N) : (iblk6 V c 2 t : Vec Ideal S1x2 .f32) = (V c main_v70 : S1x2.Idx → EReal) := by
  obtain ⟨-, -, -, -, e0, e1, -⟩ := idx_facts t
  funext x
  unfold iblk6
  rw [View.read_apply]
  show V c main_v70 _ = V c main_v70 x
  refine congrArg _ ?_
  funext a
  apply Fin.ext
  match a with
  | ⟨0, _⟩ => show win6_2.index t (0 : Fin 2) * 1 + 1 * (x 0).val = (x 0).val; rw [e0]; omega
  | ⟨1, _⟩ => show win6_2.index t (1 : Fin 2) * 2 + 1 * (x 1).val = (x 1).val; rw [e1]; omega

/-- What the one point writes back is the whole-array function read through its block. -/
theorem flushed_eq (c : Dev nD) (t : Fin cfg6.N) :
    (dat6 V c).flushed 3 t = ((cfg6.win 3).blk t).view.read (Elt Ideal) (G V c) := by
  show (cfg6.win 3).cut (grid6.coords t) ((dat6 V c).after 3 t) = _
  rw [after6_3]
  unfold out6_3
  rw [View.canon_unit_zero hz]
  simp only [View.ld_unit_zero (S := S1000x20) hz, View.ld_unit_zero (S := S20x2) hz, View.ld_unit_zero (S := S1x2) hz]
  rw [blk0_eq, blk1_eq, blk2_eq]
  obtain ⟨-, -, -, -, -, -, e0, e1⟩ := idx_facts t
  funext j
  obtain ⟨p, q, rfl⟩ : ∃ (p : Fin 1000) (q : Fin 2), j = ix2 p q := ⟨j 0, j 1, eq_ix2 j⟩
  show Gen.k6_pay1 (V c main_v69) (V c main_arg15) (V c main_v70) (ix2 p q)
    = G V c (((cfg6.win 3).blk t).view.emb (ix2 p q))
  have hk : (((cfg6.win 3).blk t).view.emb (ix2 p q) : S1000x2.Idx) = ix2 p q := by
    funext a
    apply Fin.ext
    match a with
    | ⟨0, _⟩ => show win6_3.index t (0 : Fin 2) * 1000 + 1 * p.val = p.val; rw [e0]; omega
    | ⟨1, _⟩ => show win6_3.index t (1 : Fin 2) * 2 + 1 * q.val = q.val; rw [e1]; omega
  refine (pay_apply (V c main_v69) (V c main_arg15) (V c main_v70) p q).trans ?_
  exact (congrArg (G V c) hk).symm

/-- An index of the array is in the point's block iff each coordinate is in the block's range on its axis. -/
theorem mem_blk (t : Fin cfg6.N) (i : S1000x2.Idx) :
    i ∈ ((cfg6.win 3).blk t).view.set ↔ ∀ a : Fin 2, win6_3.index t a * S1000x2.size a ≤ (i a).val ∧ (i a).val < win6_3.index t a * S1000x2.size a + S1000x2.size a := by
  show i ∈ ((View.whole main_v71).slice (win6_3.rect t)).set ↔ _
  rw [View.set_slice_whole, Rect.mem_set_unit]
  exact Iff.rfl

/-- The one block is the whole array. -/
theorem cover (i : S1000x2.Idx) :
    ∃ t : Fin cfg6.N, (cfg6.win 3).flush t = true ∧ i ∈ ((cfg6.win 3).blk t).view.set := by
  have hi0 : (i 0).val < 1000 := (i 0).isLt
  have hi1 : (i 1).val < 2 := (i 1).isLt
  obtain ⟨-, -, -, -, -, -, e0, e1⟩ := idx_facts t6_0
  refine ⟨t6_0, flush6_3 t6_0, ?_⟩
  rw [mem_blk]
  intro a
  match a with
  | ⟨0, _⟩ => show win6_3.index t6_0 (0 : Fin 2) * 1000 ≤ (i 0).val ∧ (i 0).val < win6_3.index t6_0 (0 : Fin 2) * 1000 + 1000; rw [e0]; omega
  | ⟨1, _⟩ => show win6_3.index t6_0 (1 : Fin 2) * 2 ≤ (i 1).val ∧ (i 1).val < win6_3.index t6_0 (1 : Fin 2) * 2 + 2; rw [e1]; omega

/-- The output array after the step: the classifier's affine map of the arrays the step finds. -/
theorem region6_value (c : Dev nD) :
    (dat6 V c).arrAt 3 cfg6.N
      = Spec.head (m := 1000) (k := 20) (d := 2) (V c main_v69) (V c main_arg15) (fun q => V c main_v70 (ix2 0 q)) :=
  (dat6 V c).arrAt_eq_of_cover 3 (G V c) (fun t _ => flushed_eq V c t) cover

end Cert.Head6

end
-- ==== Proof.GlueNet.lean ====
/-
  The kernel program's result as one function of the arguments. Each layer is two regions and the stretch between them:
  the linear region leaves the affine map's output and its column sums and sums of squares; the stretch divides the sums
  by the row count and forms the variance as the mean of squares minus the squared mean; the normalisation region
  centres, scales and clamps. Read together they are the layer with the variance by moments. The last stretch sums the
  rows per graph and the last region is the classifier.
-/
import proofs.«113277_j59725815218466_1_alg».proof.Proof.GlueHost
import proofs.«113277_j59725815218466_1_alg».proof.Proof.LinStats0Run
import proofs.«113277_j59725815218466_1_alg».proof.Proof.LinStats2Run
import proofs.«113277_j59725815218466_1_alg».proof.Proof.LinStats4Run
import proofs.«113277_j59725815218466_1_alg».proof.Proof.Norm1Run
import proofs.«113277_j59725815218466_1_alg».proof.Proof.Norm3Run
import proofs.«113277_j59725815218466_1_alg».proof.Proof.Norm5Run
import proofs.«113277_j59725815218466_1_alg».proof.Proof.Head6
import Idealize.ShloMosaic.Lib.ValueLayout

set_option maxRecDepth 16384
set_option maxHeartbeats 4000000

noncomputable section

namespace Cert.KernelIdeal.Glue

open Cert.KernelIdeal Cert.KernelIdeal.Gen
open Idealize.ShloMosaic Idealize.ShloMosaic.ValueIdx Idealize.ShloMosaic.TcCoe Idealize.SL.Sem

/-- A length-20 vector as a function of its coordinate. -/
abbrev vec20 (v : FVec Ideal S20 .f32) : Fin 20 → EReal := fun q => v (ix1 q)
/-- A length-2 vector as a function of its coordinate. -/
abbrev vec2 (v : FVec Ideal S2 .f32) : Fin 2 → EReal := fun q => v (ix1 q)

/-- The one row of a vector laid as a one-row matrix is the vector. -/
theorem row20_fn (v : FVec Ideal S20 .f32) : (fun q : Fin 20 => row20 v (ix2 (0 : Fin 1) q)) = vec20 v :=
  funext fun q => shapeCast_a_1a_apply v shapeCasts_S20_S1x20 0 q
theorem row2_fn (v : FVec Ideal S2 .f32) : (fun q : Fin 2 => row2 v (ix2 (0 : Fin 1) q)) = vec2 v :=
  funext fun q => shapeCast_a_1a_apply v shapeCasts_S2_S1x2 0 q

/-- The means' row, entry by entry: the column sum divided by the row count. -/
theorem meanRow_fn (f : Fin 20 → EReal) :
    (fun q : Fin 20 => meanRow (fun i : S1x20.Idx => f (i 1)) (ix2 (0 : Fin 1) q)) = fun q => Ideal.div (f q) Spec.cN := rfl
/-- The variances' row, entry by entry: the mean of squares minus the squared mean. -/
theorem varRow_fn (f g : Fin 20 → EReal) :
    (fun q : Fin 20 => varRow (fun i : S1x20.Idx => f (i 1)) (fun i : S1x20.Idx => g (i 1)) (ix2 (0 : Fin 1) q))
      = fun q => Ideal.div (g q) Spec.cN - Ideal.div (f q) Spec.cN * Ideal.div (f q) Spec.cN := rfl

/-- The affine output normalised by the rows the stretch computes from its column sums and sums of squares is the layer. -/
theorem layer_parts {k : ℕ} (A : Spec.Mat 100000 k → Spec.Mat 100000 k) (h : Spec.Mat 100000 k) (W : Spec.Mat k 20)
    (b g be : Fin 20 → EReal) (Z : Spec.Mat 100000 20) (hZ : Z = Spec.lin h (A h) W b) :
    Spec.norm Z (fun q : Fin 20 => meanRow (fun i : S1x20.Idx => Spec.colSum Z (i 1)) (ix2 (0 : Fin 1) q))
      (fun q : Fin 20 => varRow (fun i : S1x20.Idx => Spec.colSum Z (i 1)) (fun i : S1x20.Idx => Spec.colSumSq Z (i 1)) (ix2 (0 : Fin 1) q)) g be
      = Spec.layerMoments A h W b g be := by
  subst hZ
  rw [meanRow_fn (Spec.colSum _), varRow_fn (Spec.colSum _) (Spec.colSumSq _)]
  rfl

variable (m : (ℓ : Loc nD τ sig) → Buf (Elt Ideal) ℓ) (ρ : Dev nD → PrngReg) (c : Dev nD)

/-- Layer 1: the linear region's three outputs and the normalisation region's output, as the layer with the variance by moments. -/
theorem out1 : ((W4 m ρ c (Proc.devRef .tc main_v24)) : S100000x20.Idx → EReal)
    = Spec.layerMoments (agg10 (srcRow (m ((c : Thread nD τ).loc main_arg1))) (dstRow (m ((c : Thread nD τ).loc main_arg1)))) (m ((c : Thread nD τ).loc main_arg0)) (m ((c : Thread nD τ).loc main_arg3)) (vec20 (m ((c : Thread nD τ).loc main_arg4))) (vec20 (m ((c : Thread nD τ).loc main_arg5))) (vec20 (m ((c : Thread nD τ).loc main_arg6))) := by
  have hZ : Cert.LinStats0.Z (V1 m ρ) c = Spec.lin (m ((c : Thread nD τ).loc main_arg0)) (agg10 (srcRow (m ((c : Thread nD τ).loc main_arg1))) (dstRow (m ((c : Thread nD τ).loc main_arg1))) (m ((c : Thread nD τ).loc main_arg0))) (m ((c : Thread nD τ).loc main_arg3)) (vec20 (m ((c : Thread nD τ).loc main_arg4))) := by
    show Spec.lin (W1 m ρ c (Proc.devRef .tc main_arg0)) (W1 m ρ c (Proc.devRef .tc main_v13)) (W1 m ρ c (Proc.devRef .tc main_arg3)) (fun q => (W1 m ρ c (Proc.devRef .tc main_v14)) (ix2 0 q)) = _
    rw [W1_arg0, W1_v13, W1_arg3, W1_v14, row20_fn]
  have h0 : ((W2 m ρ c (Proc.devRef .tc main_v15_0)) : S100000x20.Idx → EReal) = Cert.LinStats0.Z (V1 m ρ) c :=
    (W2_arr m ρ c 4).trans (Cert.LinStats0.arr4 (V1 m ρ) c)
  have h1 : ((W2 m ρ c (Proc.devRef .tc main_v15_1)) : S1x20.Idx → EReal) = fun i => Spec.colSum (Cert.LinStats0.Z (V1 m ρ) c) (i 1) :=
    (W2_arr m ρ c 5).trans (Cert.LinStats0.arr5 (V1 m ρ) c)
  have h2 : ((W2 m ρ c (Proc.devRef .tc main_v15_2)) : S1x20.Idx → EReal) = fun i => Spec.colSumSq (Cert.LinStats0.Z (V1 m ρ) c) (i 1) :=
    (W2_arr m ρ c 6).trans (Cert.LinStats0.arr6 (V1 m ρ) c)
  refine ((W4_arr m ρ c 5).trans (Cert.Norm1.region1_value (V3 m ρ) c)).trans ?_
  show Spec.norm (W3 m ρ c (Proc.devRef .tc main_v15_0)) (fun q => (W3 m ρ c (Proc.devRef .tc main_v17)) (ix2 0 q)) (fun q => (W3 m ρ c (Proc.devRef .tc main_v21)) (ix2 0 q))
      (fun q => (W3 m ρ c (Proc.devRef .tc main_v22)) (ix2 0 q)) (fun q => (W3 m ρ c (Proc.devRef .tc main_v23)) (ix2 0 q)) = _
  rw [W3_v15_0_keep, W3_v17, W3_v21, W3_v22, W3_v23, h0, h1, h2, row20_fn, row20_fn]
  exact layer_parts (agg10 (srcRow (m ((c : Thread nD τ).loc main_arg1))) (dstRow (m ((c : Thread nD τ).loc main_arg1)))) (m ((c : Thread nD τ).loc main_arg0)) (m ((c : Thread nD τ).loc main_arg3)) (vec20 (m ((c : Thread nD τ).loc main_arg4))) (vec20 (m ((c : Thread nD τ).loc main_arg5))) (vec20 (m ((c : Thread nD τ).loc main_arg6))) _ hZ

/-- Layer 2: the linear region's three outputs and the normalisation region's output, as the layer with the variance by moments. -/
theorem out2 : ((W8 m ρ c (Proc.devRef .tc main_v45)) : S100000x20.Idx → EReal)
    = Spec.layerMoments (agg20 (srcRow (m ((c : Thread nD τ).loc main_arg1))) (dstRow (m ((c : Thread nD τ).loc main_arg1)))) (W4 m ρ c (Proc.devRef .tc main_v24)) (m ((c : Thread nD τ).loc main_arg7)) (vec20 (m ((c : Thread nD τ).loc main_arg8))) (vec20 (m ((c : Thread nD τ).loc main_arg9))) (vec20 (m ((c : Thread nD τ).loc main_arg10))) := by
  have hZ : Cert.LinStats2.Z (V5 m ρ) c = Spec.lin (W4 m ρ c (Proc.devRef .tc main_v24)) (agg20 (srcRow (m ((c : Thread nD τ).loc main_arg1))) (dstRow (m ((c : Thread nD τ).loc main_arg1))) (W4 m ρ c (Proc.devRef .tc main_v24))) (m ((c : Thread nD τ).loc main_arg7)) (vec20 (m ((c : Thread nD τ).loc main_arg8))) := by
    show Spec.lin (W5 m ρ c (Proc.devRef .tc main_v24)) (W5 m ρ c (Proc.devRef .tc main_v34)) (W5 m ρ c (Proc.devRef .tc main_arg7)) (fun q => (W5 m ρ c (Proc.devRef .tc main_v35)) (ix2 0 q)) = _
    rw [W5_v24_keep, W5_v34, W5_arg7, W5_v35, row20_fn]
  have h0 : ((W6 m ρ c (Proc.devRef .tc main_v36_0)) : S100000x20.Idx → EReal) = Cert.LinStats2.Z (V5 m ρ) c :=
    (W6_arr m ρ c 4).trans (Cert.LinStats2.arr4 (V5 m ρ) c)
  have h1 : ((W6 m ρ c (Proc.devRef .tc main_v36_1)) : S1x20.Idx → EReal) = fun i => Spec.colSum (Cert.LinStats2.Z (V5 m ρ) c) (i 1) :=
    (W6_arr m ρ c 5).trans (Cert.LinStats2.arr5 (V5 m ρ) c)
  have h2 : ((W6 m ρ c (Proc.devRef .tc main_v36_2)) : S1x20.Idx → EReal) = fun i => Spec.colSumSq (Cert.LinStats2.Z (V5 m ρ) c) (i 1) :=
    (W6_arr m ρ c 6).trans (Cert.LinStats2.arr6 (V5 m ρ) c)
  refine ((W8_arr m ρ c 5).trans (Cert.Norm3.region3_value (V7 m ρ) c)).trans ?_
  show Spec.norm (W7 m ρ c (Proc.devRef .tc main_v36_0)) (fun q => (W7 m ρ c (Proc.devRef .tc main_v38)) (ix2 0 q)) (fun q => (W7 m ρ c (Proc.devRef .tc main_v42)) (ix2 0 q))
      (fun q => (W7 m ρ c (Proc.devRef .tc main_v43)) (ix2 0 q)) (fun q => (W7 m ρ c (Proc.devRef .tc main_v44)) (ix2 0 q)) = _
  rw [W7_v36_0_keep, W7_v38, W7_v42, W7_v43, W7_v44, h0, h1, h2, row20_fn, row20_fn]
  exact layer_parts (agg20 (srcRow (m ((c : Thread nD τ).loc main_arg1))) (dstRow (m ((c : Thread nD τ).loc main_arg1)))) (W4 m ρ c (Proc.devRef .tc main_v24)) (m ((c : Thread nD τ).loc main_arg7)) (vec20 (m ((c : Thread nD τ).loc main_arg8))) (vec20 (m ((c : Thread nD τ).loc main_arg9))) (vec20 (m ((c : Thread nD τ).loc main_arg10))) _ hZ

/-- Layer 3: the linear region's three outputs and the normalisation region's output, as the layer with the variance by moments. -/
theorem out3 : ((W12 m ρ c (Proc.devRef .tc main_v66)) : S100000x20.Idx → EReal)
    = Spec.layerMoments (agg20 (srcRow (m ((c : Thread nD τ).loc main_arg1))) (dstRow (m ((c : Thread nD τ).loc main_arg1)))) (W8 m ρ c (Proc.devRef .tc main_v45)) (m ((c : Thread nD τ).loc main_arg11)) (vec20 (m ((c : Thread nD τ).loc main_arg12))) (vec20 (m ((c : Thread nD τ).loc main_arg13))) (vec20 (m ((c : Thread nD τ).loc main_arg14))) := by
  have hZ : Cert.LinStats4.Z (V9 m ρ) c = Spec.lin (W8 m ρ c (Proc.devRef .tc main_v45)) (agg20 (srcRow (m ((c : Thread nD τ).loc main_arg1))) (dstRow (m ((c : Thread nD τ).loc main_arg1))) (W8 m ρ c (Proc.devRef .tc main_v45))) (m ((c : Thread nD τ).loc main_arg11)) (vec20 (m ((c : Thread nD τ).loc main_arg12))) := by
    show Spec.lin (W9 m ρ c (Proc.devRef .tc main_v45)) (W9 m ρ c (Proc.devRef .tc main_v55)) (W9 m ρ c (Proc.devRef .tc main_arg11)) (fun q => (W9 m ρ c (Proc.devRef .tc main_v56)) (ix2 0 q)) = _
    rw [W9_v45_keep, W9_v55, W9_arg11, W9_v56, row20_fn]
  have h0 : ((W10 m ρ c (Proc.devRef .tc main_v57_0)) : S100000x20.Idx → EReal) = Cert.LinStats4.Z (V9 m ρ) c :=
    (W10_arr m ρ c 4).trans (Cert.LinStats4.arr4 (V9 m ρ) c)
  have h1 : ((W10 m ρ c (Proc.devRef .tc main_v57_1)) : S1x20.Idx → EReal) = fun i => Spec.colSum (Cert.LinStats4.Z (V9 m ρ) c) (i 1) :=
    (W10_arr m ρ c 5).trans (Cert.LinStats4.arr5 (V9 m ρ) c)
  have h2 : ((W10 m ρ c (Proc.devRef .tc main_v57_2)) : S1x20.Idx → EReal) = fun i => Spec.colSumSq (Cert.LinStats4.Z (V9 m ρ) c) (i 1) :=
    (W10_arr m ρ c 6).trans (Cert.LinStats4.arr6 (V9 m ρ) c)
  refine ((W12_arr m ρ c 5).trans (Cert.Norm5.region5_value (V11 m ρ) c)).trans ?_
  show Spec.norm (W11 m ρ c (Proc.devRef .tc main_v57_0)) (fun q => (W11 m ρ c (Proc.devRef .tc main_v59)) (ix2 0 q)) (fun q => (W11 m ρ c (Proc.devRef .tc main_v63)) (ix2 0 q))
      (fun q => (W11 m ρ c (Proc.devRef .tc main_v64)) (ix2 0 q)) (fun q => (W11 m ρ c (Proc.devRef .tc main_v65)) (ix2 0 q)) = _
  rw [W11_v57_0_keep, W11_v59, W11_v63, W11_v64, W11_v65, h0, h1, h2, row20_fn, row20_fn]
  exact layer_parts (agg20 (srcRow (m ((c : Thread nD τ).loc main_arg1))) (dstRow (m ((c : Thread nD τ).loc main_arg1)))) (W8 m ρ c (Proc.devRef .tc main_v45)) (m ((c : Thread nD τ).loc main_arg11)) (vec20 (m ((c : Thread nD τ).loc main_arg12))) (vec20 (m ((c : Thread nD τ).loc main_arg13))) (vec20 (m ((c : Thread nD τ).loc main_arg14))) _ hZ

/-- The kernel program's result: the classifier of the per-graph sums of the third layer's output, each layer with the
    variance by moments. -/
theorem kernel_value : ((W14 m ρ c (Proc.devRef .tc main_v71)) : S1000x2.Idx → EReal)
    = Spec.head (pool (m ((c : Thread nD τ).loc main_arg2))
        (Spec.layerMoments (agg20 (srcRow (m ((c : Thread nD τ).loc main_arg1))) (dstRow (m ((c : Thread nD τ).loc main_arg1))))
          (Spec.layerMoments (agg20 (srcRow (m ((c : Thread nD τ).loc main_arg1))) (dstRow (m ((c : Thread nD τ).loc main_arg1))))
            (Spec.layerMoments (agg10 (srcRow (m ((c : Thread nD τ).loc main_arg1))) (dstRow (m ((c : Thread nD τ).loc main_arg1)))) (m ((c : Thread nD τ).loc main_arg0)) (m ((c : Thread nD τ).loc main_arg3)) (vec20 (m ((c : Thread nD τ).loc main_arg4))) (vec20 (m ((c : Thread nD τ).loc main_arg5))) (vec20 (m ((c : Thread nD τ).loc main_arg6))))
            (m ((c : Thread nD τ).loc main_arg7)) (vec20 (m ((c : Thread nD τ).loc main_arg8))) (vec20 (m ((c : Thread nD τ).loc main_arg9))) (vec20 (m ((c : Thread nD τ).loc main_arg10))))
          (m ((c : Thread nD τ).loc main_arg11)) (vec20 (m ((c : Thread nD τ).loc main_arg12))) (vec20 (m ((c : Thread nD τ).loc main_arg13))) (vec20 (m ((c : Thread nD τ).loc main_arg14)))))
      (m ((c : Thread nD τ).loc main_arg15)) (vec2 (m ((c : Thread nD τ).loc main_arg16))) := by
  refine ((W14_arr m ρ c 3).trans (Cert.Head6.region6_value (V13 m ρ) c)).trans ?_
  show Spec.head (W13 m ρ c (Proc.devRef .tc main_v69)) (W13 m ρ c (Proc.devRef .tc main_arg15)) (fun q => (W13 m ρ c (Proc.devRef .tc main_v70)) (ix2 0 q)) = _
  rw [W13_v69, W13_arg15, W13_v70, row2_fn, out3, out2, out1]

end Cert.KernelIdeal.Glue

end
-- ==== Proof.RefValueBase.lean ====
/-
  The reference's aggregation and pooling terms, named.

  Each layer of the reference gathers the rows of its node matrix along the edges' source nodes and adds them into a zero
  matrix at the edges' target nodes; after the last layer the rows are added into a zero matrix at every node's graph
  number. These are the reference's own terms. They are kept as functions of the node matrix (and of the edge list, or of
  the graph numbers) and are never opened: the two programs apply the same operations, so only the matrices going in need
  to agree. The matrices they add into are zero everywhere.
-/
import proofs.«113277_j59725815218466_1_alg».proof.Proof.RefReadP
import proofs.«113277_j59725815218466_1_alg».proof.Proof.Spec

noncomputable section

namespace Cert.ReferenceIdeal.RefValue

open Cert.ReferenceIdeal Cert.ReferenceIdeal.Gen Cert.ReferenceIdeal.ReadP Idealize.ShloMosaic Idealize.ShloMosaic.ValueIdx

/-- A vector as a function of its one coordinate. -/
abbrev row {d : ℕ} (v : (⟨1, ![d]⟩ : Shape).Idx → EReal) : Fin d → EReal := fun q => v (ix1 q)

/-- The edge list: two rows of node numbers, sources and targets. -/
abbrev Edges : Type := (⟨S2x3200000, .i32⟩ : BufTy).Contents (Elt Ideal)

/-- Every node's graph number. -/
abbrev Graphs : Type := (⟨S100000, .i32⟩ : BufTy).Contents (Elt Ideal)

/-- The first layer's aggregation (ten columns): the rows of `h` gathered along the edges' sources, added into zeros at
    the edges' targets. -/
def A10 (x1 : Edges) (h : Spec.Mat 100000 10) : Spec.Mat 100000 10 :=
  Host.scatterAdd (F := Ideal) (φ := .f32) scatter_S100000x10_S3200000x1_S3200000x10_1_0_0_1 (val_main_v11 (F := Ideal))
    (val_main_v12 (F := Ideal) x1)
    (Host.gather gather_S100000x10_S3200000x1_S3200000x10_1_0_n_n_0_1_110 h (val_main_v9 (F := Ideal) x1))

/-- The later layers' aggregation (twenty columns), the same operations over the same edge list. -/
def A20 (x1 : Edges) (h : Spec.Mat 100000 20) : Spec.Mat 100000 20 :=
  Host.scatterAdd (F := Ideal) (φ := .f32) scatter_S100000x20_S3200000x1_S3200000x20_1_0_0_1 (val_main_v52 (F := Ideal))
    (val_main_v53 (F := Ideal) x1)
    (Host.gather gather_S100000x20_S3200000x1_S3200000x20_1_0_n_n_0_1_120 h (val_main_v50 (F := Ideal) x1))

/-- The pooling: the rows of `h` added into zeros at every node's graph number. -/
def P (x2 : Graphs) (h : Spec.Mat 100000 20) : Spec.Mat 1000 20 :=
  Host.scatterAdd (F := Ideal) (φ := .f32) scatter_S1000x20_S100000x1_S100000x20_1_0_0_1 (val_main_v127 (F := Ideal))
    (val_main_v128 (F := Ideal) x2) h

/-- The matrix the first aggregation adds into is zero everywhere. -/
theorem zeros10 (i : S100000x10.Idx) : val_main_v11 (F := Ideal) i = 0 := by
  rw [val_main_v11_apply, val_main_cst_apply]
  exact Ideal.ofBits_zero_f32

/-- The matrix the later aggregations add into is zero everywhere. -/
theorem zeros20 (i : S100000x20.Idx) : val_main_v52 (F := Ideal) i = 0 := by
  rw [val_main_v52_apply, val_main_cst_8_apply]
  exact Ideal.ofBits_zero_f32

/-- The matrix the pooling adds into is zero everywhere. -/
theorem zerosP (i : S1000x20.Idx) : val_main_v127 (F := Ideal) i = 0 := by
  rw [val_main_v127_apply, val_main_cst_22_apply]
  exact Ideal.ofBits_zero_f32

/-- The third layer prepares the edge list by the same operations as the second: the sources, … -/
theorem sources3 (x1 : Edges) : val_main_v91 (F := Ideal) x1 = val_main_v50 (F := Ideal) x1 := rfl
/-- … the targets, … -/
theorem targets3 (x1 : Edges) : val_main_v94 (F := Ideal) x1 = val_main_v53 (F := Ideal) x1 := rfl
/-- … and the zero matrix. -/
theorem zeros3 : val_main_v93 (F := Ideal) = val_main_v52 (F := Ideal) := rfl

end Cert.ReferenceIdeal.RefValue

end
-- ==== Proof.HostFinite.lean ====
/-
  Gathering and scatter-adding on the host keep real entries real, whatever the dimension numbers.

  A gather reads, at each result index, one entry of its operand: the result's entries are among the operand's.
  A scatter-add gives, at each index, the operand's entry plus the sum of those update entries that land on that
  index: a finite sum of reals added to a real. "Real" is spelled as being neither infinity.
-/
import Idealize.ShloMosaic.PureOps.Ideal

noncomputable section

namespace Cert.HostFinite

open Idealize.ShloMosaic

/-- An extended real that is neither infinity is a real number. -/
theorem real_of_finite {x : EReal} (h : x ≠ ⊤ ∧ x ≠ ⊥) : ∃ r : ℝ, x = (r : EReal) :=
  ⟨x.toReal, (EReal.coe_toReal h.1 h.2).symm⟩

/-- The sum of two reals is real. -/
theorem finite_add {x y : EReal} (hx : x ≠ ⊤ ∧ x ≠ ⊥) (hy : y ≠ ⊤ ∧ y ≠ ⊥) : x + y ≠ ⊤ ∧ x + y ≠ ⊥ := by
  obtain ⟨a, rfl⟩ := real_of_finite hx; obtain ⟨b, rfl⟩ := real_of_finite hy
  rw [← EReal.coe_add]; exact ⟨EReal.coe_ne_top _, EReal.coe_ne_bot _⟩

/-- A finite sum of reals is real. -/
theorem finite_sum {ι : Type} (s : Finset ι) (f : ι → EReal) (hf : ∀ i ∈ s, f i ≠ ⊤ ∧ f i ≠ ⊥) :
    (∑ i ∈ s, f i) ≠ ⊤ ∧ (∑ i ∈ s, f i) ≠ ⊥ := by
  classical
  revert hf
  refine Finset.induction_on s ?_ ?_
  · intro _; rw [Finset.sum_empty]; exact ⟨EReal.zero_ne_top, EReal.zero_ne_bot⟩
  · intro a t ha ih hf
    rw [Finset.sum_insert ha]
    exact finite_add (hf a (Finset.mem_insert_self a t)) (ih fun i hi => hf i (Finset.mem_insert_of_mem hi))

/-- Every entry of a gather is an entry of its operand; so a gather of a real array is real. -/
theorem gather_finite {s si t : Shape} {w : ℕ} (d : GatherDims s si t) (x : FVec Ideal s .f32)
    (idx : IVec si w) (hx : ∀ i, x i ≠ ⊤ ∧ x i ≠ ⊥) :
    ∀ j, Host.gather d x idx j ≠ ⊤ ∧ Host.gather d x idx j ≠ ⊥ :=
  fun j => hx (d.operandIdx j idx)

/-- A scatter-add's entry is the operand's entry plus the sum of the updates landing there; so a scatter-add of
    real updates into a real array is real. -/
theorem scatterAdd_finite {s si u : Shape} {w : ℕ} (d : ScatterDims s si u) (x : FVec Ideal s .f32)
    (idx : IVec si w) (upd : FVec Ideal u .f32)
    (hx : ∀ i, x i ≠ ⊤ ∧ x i ≠ ⊥) (hu : ∀ j, upd j ≠ ⊤ ∧ upd j ≠ ⊥) :
    ∀ i, Host.scatterAdd (F := Ideal) d x idx upd i ≠ ⊤ ∧
      Host.scatterAdd (F := Ideal) d x idx upd i ≠ ⊥ := by
  intro i
  show x i + ∑ j ∈ Finset.univ.filter (fun j => d.resultIdx? j idx = some i), upd j ≠ ⊤ ∧
    x i + ∑ j ∈ Finset.univ.filter (fun j => d.resultIdx? j idx = some i), upd j ≠ ⊥
  exact finite_add (hx i) (finite_sum _ _ fun j _ => hu j)

end Cert.HostFinite

end
-- ==== Proof.Bridge.lean ====
/-
  The host side of the two programs is the same host side.

  Both programs prepare the edge list in the same way (the sources, with a negative node number wrapped around by the
  row count, and the targets, each laid as a column), gather the node matrix's rows along the sources and add them into
  a zero matrix at the targets; and both add the last layer's rows into a zero matrix at every node's graph number. The
  terms differ only in which program's copy of a shape, a shape relation or a dimension record they name, and those
  copies have equal values. So the kernel program's neighbour sums and per-graph sum are the reference's, as functions
  of the node matrix.

  A neighbour sum of a matrix of reals is a matrix of reals: a gather's entries are entries of its operand, and a
  scatter-add's entry is the zero it starts from plus a finite sum of the gathered entries.
-/
import proofs.«113277_j59725815218466_1_alg».proof.Proof.GlueHost
import proofs.«113277_j59725815218466_1_alg».proof.Proof.RefValueBase
import proofs.«113277_j59725815218466_1_alg».proof.Proof.HostFinite
import proofs.«113277_j59725815218466_1_alg».proof.Proof.Spec
import Idealize.ShloMosaic.Lib.Pipeline.Value

noncomputable section

namespace Cert.Bridge

open Idealize.ShloMosaic

/-! ## The two programs' host terms are the same terms -/

/-- The gather's start indices: the same operations on the same edge list. -/
theorem srcCol_eq (x1 : IVec Cert.KernelIdeal.S2x3200000 32) :
    Cert.KernelIdeal.Glue.srcCol (Cert.KernelIdeal.Glue.srcRow x1) = Cert.ReferenceIdeal.ReadP.val_main_v9 (F := Ideal) x1 := rfl

/-- The later layers compute the same start indices again. -/
theorem srcCol_eq' (x1 : IVec Cert.KernelIdeal.S2x3200000 32) :
    Cert.KernelIdeal.Glue.srcCol (Cert.KernelIdeal.Glue.srcRow x1) = Cert.ReferenceIdeal.ReadP.val_main_v50 (F := Ideal) x1 := rfl

/-- The scatter's indices: the edges' targets as a column. -/
theorem dstCol_eq (x1 : IVec Cert.KernelIdeal.S2x3200000 32) :
    Cert.KernelIdeal.Glue.dstCol (Cert.KernelIdeal.Glue.dstRow x1) = Cert.ReferenceIdeal.ReadP.val_main_v12 (F := Ideal) x1 := rfl

theorem dstCol_eq' (x1 : IVec Cert.KernelIdeal.S2x3200000 32) :
    Cert.KernelIdeal.Glue.dstCol (Cert.KernelIdeal.Glue.dstRow x1) = Cert.ReferenceIdeal.ReadP.val_main_v53 (F := Ideal) x1 := rfl

/-- The first layer's neighbour sum is the reference's. -/
theorem agg10_eq (x1 : IVec Cert.KernelIdeal.S2x3200000 32) :
    (Cert.KernelIdeal.Glue.agg10 (Cert.KernelIdeal.Glue.srcRow x1) (Cert.KernelIdeal.Glue.dstRow x1) : Cert.Spec.Mat 100000 10 → Cert.Spec.Mat 100000 10)
      = Cert.ReferenceIdeal.RefValue.A10 x1 := by
  funext h
  unfold Cert.KernelIdeal.Glue.agg10 Cert.ReferenceIdeal.RefValue.A10
  rw [srcCol_eq, dstCol_eq]
  rfl

/-- The later layers' neighbour sum is the reference's. -/
theorem agg20_eq (x1 : IVec Cert.KernelIdeal.S2x3200000 32) :
    (Cert.KernelIdeal.Glue.agg20 (Cert.KernelIdeal.Glue.srcRow x1) (Cert.KernelIdeal.Glue.dstRow x1) : Cert.Spec.Mat 100000 20 → Cert.Spec.Mat 100000 20)
      = Cert.ReferenceIdeal.RefValue.A20 x1 := by
  funext h
  unfold Cert.KernelIdeal.Glue.agg20 Cert.ReferenceIdeal.RefValue.A20
  rw [srcCol_eq', dstCol_eq']
  rfl

/-- The per-graph sum is the reference's. -/
theorem pool_eq (x2 : IVec Cert.KernelIdeal.S100000 32) :
    (Cert.KernelIdeal.Glue.pool x2 : Cert.Spec.Mat 100000 20 → Cert.Spec.Mat 1000 20) = Cert.ReferenceIdeal.RefValue.P x2 := by
  funext h
  unfold Cert.KernelIdeal.Glue.pool Cert.ReferenceIdeal.RefValue.P
  rfl

/-! ## Real entries stay real through the neighbour sum -/

/-- The zero matrix a neighbour sum starts from has real entries. -/
theorem zero_fin {s : Shape} (hb : Cert.KernelIdeal.S_.BroadcastsInDim s (![] : Fin 0 → Fin s.rank)) (i : s.Idx) :
    broadcastInDim s ![] hb (constant (F := Ideal) Cert.KernelIdeal.S_ .f32 0x00000000#32) i ≠ ⊤
      ∧ broadcastInDim s ![] hb (constant (F := Ideal) Cert.KernelIdeal.S_ .f32 0x00000000#32) i ≠ ⊥ := by
  have e : broadcastInDim s ![] hb (constant (F := Ideal) Cert.KernelIdeal.S_ .f32 0x00000000#32) i = 0 := by
    refine (broadcastInDim_apply _ hb (constant (F := Ideal) Cert.KernelIdeal.S_ .f32 0x00000000#32) i (fun a => a.elim0)
      (fun a => a.elim0)).trans ?_
    exact Ideal.ofBits_zero_f32
  rw [e]
  exact ⟨EReal.zero_ne_top, EReal.zero_ne_bot⟩

/-- The first layer's neighbour sum of a matrix of reals is a matrix of reals. -/
theorem agg10_fin (s d : IVec Cert.KernelIdeal.S3200000 32) (h : Cert.Spec.Mat 100000 10) (hh : Cert.Spec.Fin2 h) :
    Cert.Spec.Fin2 (Cert.KernelIdeal.Glue.agg10 s d h) := by
  unfold Cert.KernelIdeal.Glue.agg10
  exact Cert.HostFinite.scatterAdd_finite _ _ _ _ (fun i => zero_fin _ i) (Cert.HostFinite.gather_finite _ h _ hh)

/-- The later layers' neighbour sum of a matrix of reals is a matrix of reals. -/
theorem agg20_fin (s d : IVec Cert.KernelIdeal.S3200000 32) (h : Cert.Spec.Mat 100000 20) (hh : Cert.Spec.Fin2 h) :
    Cert.Spec.Fin2 (Cert.KernelIdeal.Glue.agg20 s d h) := by
  unfold Cert.KernelIdeal.Glue.agg20
  exact Cert.HostFinite.scatterAdd_finite _ _ _ _ (fun i => zero_fin _ i) (Cert.HostFinite.gather_finite _ h _ hh)

end Cert.Bridge

end
-- ==== Proof.Algebra.lean ====
/-
  The pure mathematics of one layer, on the extended reals.

  The two float literals are read once as the reals they denote. A sum, product, difference or maximum of real
  entries is real; so is a real divided by the row count, and the inverse square root of a positive real. Over the
  reals the mean of the squares minus the square of the mean is the mean of the squared deviations from the mean,
  when the divisor is the number of rows; that common value is nonnegative, so adding the small positive constant
  gives a positive real, whose inverse square root is real. Hence the two forms of a layer agree entry by entry and
  every entry of the layer is real.
-/
import proofs.«113277_j59725815218466_1_alg».proof.Proof.Spec
import Mathlib

noncomputable section

namespace Cert.Spec

open Idealize.ShloMosaic Idealize.ShloMosaic.ValueIdx

/-! ### The two literals -/

/-- The row-count literal denotes the real number `100000`: sign `+`, exponent `16`, significand `12800000 / 2^23`. -/
theorem cN_eq : cN = ((100000 : ℝ) : EReal) := by
  simp [cN, Ideal.ofBits, Ideal.ieee, -EReal.coe_mul]; norm_num

/-- The small constant is a positive real: sign `+`, a normal exponent, so a positive significand times a power of two. -/
theorem cEps_pos : ∃ e : ℝ, 0 < e ∧ cEps = (e : EReal) := by
  refine ⟨((2 ^ 23 + 2606508 : ℕ) : ℝ) * (2 : ℝ) ^ ((110 : ℤ) - 127 - 23), by positivity, ?_⟩
  simp [cEps, Ideal.ofBits, Ideal.ieee, -EReal.coe_mul]

/-! ### Real entries -/

/-- An extended real that is neither infinity is a real number. -/
theorem exists_real {x : EReal} (h : x ≠ ⊤ ∧ x ≠ ⊥) : ∃ r : ℝ, x = (r : EReal) :=
  ⟨x.toReal, (EReal.coe_toReal h.1 h.2).symm⟩

/-- A real number is neither infinity. -/
theorem real_fin (r : ℝ) : (r : EReal) ≠ ⊤ ∧ (r : EReal) ≠ ⊥ := ⟨EReal.coe_ne_top r, EReal.coe_ne_bot r⟩

theorem zero_fin : (0 : EReal) ≠ ⊤ ∧ (0 : EReal) ≠ ⊥ := ⟨EReal.zero_ne_top, EReal.zero_ne_bot⟩

theorem add_fin {x y : EReal} (hx : x ≠ ⊤ ∧ x ≠ ⊥) (hy : y ≠ ⊤ ∧ y ≠ ⊥) : x + y ≠ ⊤ ∧ x + y ≠ ⊥ := by
  obtain ⟨a, rfl⟩ := exists_real hx; obtain ⟨b, rfl⟩ := exists_real hy
  rw [← EReal.coe_add]; exact real_fin _

theorem mul_fin {x y : EReal} (hx : x ≠ ⊤ ∧ x ≠ ⊥) (hy : y ≠ ⊤ ∧ y ≠ ⊥) : x * y ≠ ⊤ ∧ x * y ≠ ⊥ := by
  obtain ⟨a, rfl⟩ := exists_real hx; obtain ⟨b, rfl⟩ := exists_real hy
  rw [← EReal.coe_mul]; exact real_fin _

theorem sub_fin {x y : EReal} (hx : x ≠ ⊤ ∧ x ≠ ⊥) (hy : y ≠ ⊤ ∧ y ≠ ⊥) : x - y ≠ ⊤ ∧ x - y ≠ ⊥ := by
  obtain ⟨a, rfl⟩ := exists_real hx; obtain ⟨b, rfl⟩ := exists_real hy
  rw [← EReal.coe_sub]; exact real_fin _

/-- A maximum is one of its two arguments. -/
theorem max_fin {x y : EReal} (hx : x ≠ ⊤ ∧ x ≠ ⊥) (hy : y ≠ ⊤ ∧ y ≠ ⊥) : max x y ≠ ⊤ ∧ max x y ≠ ⊥ := by
  rcases max_choice x y with h | h <;> rw [h] <;> assumption

/-- A finite sum of reals is real. -/
theorem sum_fin {ι : Type*} (s : Finset ι) (f : ι → EReal) (hf : ∀ i ∈ s, f i ≠ ⊤ ∧ f i ≠ ⊥) :
    (∑ i ∈ s, f i) ≠ ⊤ ∧ (∑ i ∈ s, f i) ≠ ⊥ := by
  classical
  revert hf
  refine Finset.induction_on s ?_ ?_
  · intro _; rw [Finset.sum_empty]; exact zero_fin
  · intro a t ha ih hf
    rw [Finset.sum_insert ha]
    exact add_fin (hf a (Finset.mem_insert_self a t)) (ih fun i hi => hf i (Finset.mem_insert_of_mem hi))

/-- The inclusion of the reals commutes with finite sums. -/
theorem coe_sum {ι : Type*} (s : Finset ι) (f : ι → ℝ) :
    ((∑ i ∈ s, f i : ℝ) : EReal) = ∑ i ∈ s, (f i : EReal) := by
  classical
  refine Finset.induction_on s ?_ ?_
  · rw [Finset.sum_empty, Finset.sum_empty, EReal.coe_zero]
  · intro a t ha ih
    rw [Finset.sum_insert ha, Finset.sum_insert ha, EReal.coe_add, ih]

/-- A real divided by the row count is the real quotient. -/
theorem div_cN_coe (r : ℝ) : Ideal.div (r : EReal) cN = ((r / 100000 : ℝ) : EReal) := by
  rw [cN_eq, Ideal.div_coe (by norm_num : (100000 : ℝ) ≠ 0), ← EReal.coe_mul, mul_one_div]

theorem div_cN_fin {x : EReal} (hx : x ≠ ⊤ ∧ x ≠ ⊥) : Ideal.div x cN ≠ ⊤ ∧ Ideal.div x cN ≠ ⊥ := by
  obtain ⟨a, rfl⟩ := exists_real hx
  rw [div_cN_coe]; exact real_fin _

/-- The inverse square root of a positive real is the real `1 / √r`. -/
theorem rsqrt_fin {r : ℝ} (hr : 0 < r) : Ideal.rsqrt (r : EReal) ≠ ⊤ ∧ Ideal.rsqrt (r : EReal) ≠ ⊥ := by
  rw [Ideal.rsqrt_coe, if_neg (not_lt.mpr hr.le), if_neg hr.ne']; exact real_fin _

/-- A matrix of real entries is the image of a real matrix. -/
theorem Fin2.lift {a b : ℕ} {x : Mat a b} (hx : Fin2 x) :
    ∃ f : (⟨2, ![a, b]⟩ : Shape).Idx → ℝ, x = fun i => (f i : EReal) := by
  choose f hf using fun i => exists_real (hx i)
  exact ⟨f, funext hf⟩

/-! ### The affine map, the column mean -/

/-- The affine map of real matrices has real entries. -/
theorem lin_fin {n k d : ℕ} (h a : Mat n k) (W : Mat k d) (b : Fin d → EReal)
    (hh : Fin2 h) (ha : Fin2 a) (hW : Fin2 W) (hb : Fin1 b) : Fin2 (lin h a W b) := by
  intro i
  show linAt h a W b (i 0) (i 1) ≠ ⊤ ∧ linAt h a W b (i 0) (i 1) ≠ ⊥
  unfold linAt
  exact add_fin (sum_fin _ _ fun c _ => mul_fin (add_fin (hh _) (ha _)) (hW _)) (hb _)

/-- The column means of a real matrix are real. -/
theorem mean_fin {n d : ℕ} (z : Mat n d) (hz : Fin2 z) : Fin1 (mean z) := by
  intro q
  show Ideal.div (colSum z q) cN ≠ ⊤ ∧ Ideal.div (colSum z q) cN ≠ ⊥
  unfold colSum
  exact div_cN_fin (sum_fin _ _ fun p _ => hz _)

/-! ### The variance, two ways -/

/-- Over the reals, with `μ` the mean of `100000` numbers: the mean of the squares minus `μ²` is the mean of the
    squared deviations from `μ`. Expanding `(f p - μ)²` and summing, the cross term is `2 μ · Σ f = 2 · 100000 · μ²`
    and the constant term `100000 · μ²`. -/
theorem var_real (f : Fin 100000 → ℝ) (μ : ℝ) (hμ : μ = (∑ p, f p) / 100000) :
    (∑ p, f p * f p) / 100000 - μ * μ = (∑ p, (f p - μ) * (f p - μ)) / 100000 := by
  have hS : (∑ p, f p) = 100000 * μ := by rw [hμ]; ring
  have e : ∀ p, (f p - μ) * (f p - μ) = f p * f p - 2 * μ * f p + μ * μ := fun p => by ring
  rw [Finset.sum_congr rfl (fun p _ => e p), Finset.sum_add_distrib, Finset.sum_sub_distrib, ← Finset.mul_sum, hS,
    Finset.sum_const, Finset.card_univ, Fintype.card_fin, nsmul_eq_mul]
  push_cast
  ring

/-- The column mean of a real matrix, as a real. -/
theorem mean_coe {n d : ℕ} (zr : (⟨2, ![n, d]⟩ : Shape).Idx → ℝ) (q : Fin d) :
    mean (fun i => (zr i : EReal)) q = (((∑ p : Fin n, zr (ix2 p q)) / 100000 : ℝ) : EReal) := by
  show Ideal.div (∑ p : Fin n, (zr (ix2 p q) : EReal)) cN = _
  rw [← coe_sum, div_cN_coe]

/-- The variance by moments of a real matrix, as a real. -/
theorem varMoments_coe {n d : ℕ} (zr : (⟨2, ![n, d]⟩ : Shape).Idx → ℝ) (q : Fin d) :
    varMoments (fun i => (zr i : EReal)) q =
      (((∑ p : Fin n, zr (ix2 p q) * zr (ix2 p q)) / 100000
        - (∑ p : Fin n, zr (ix2 p q)) / 100000 * ((∑ p : Fin n, zr (ix2 p q)) / 100000) : ℝ) : EReal) := by
  show Ideal.div (∑ p : Fin n, (zr (ix2 p q) : EReal) * (zr (ix2 p q) : EReal)) cN
      - mean (fun i => (zr i : EReal)) q * mean (fun i => (zr i : EReal)) q = _
  rw [mean_coe]
  simp only [← EReal.coe_mul]
  rw [← coe_sum, div_cN_coe, ← EReal.coe_sub]

/-- The variance by deviations of a real matrix, as a real. -/
theorem varDeviations_coe {n d : ℕ} (zr : (⟨2, ![n, d]⟩ : Shape).Idx → ℝ) (q : Fin d) :
    varDeviations (fun i => (zr i : EReal)) q =
      (((∑ p : Fin n, (zr (ix2 p q) - (∑ p : Fin n, zr (ix2 p q)) / 100000)
          * (zr (ix2 p q) - (∑ p : Fin n, zr (ix2 p q)) / 100000)) / 100000 : ℝ) : EReal) := by
  show Ideal.div (∑ p : Fin n, ((zr (ix2 p q) : EReal) - mean (fun i => (zr i : EReal)) q)
      * ((zr (ix2 p q) : EReal) - mean (fun i => (zr i : EReal)) q)) cN = _
  rw [mean_coe]
  simp only [← EReal.coe_sub, ← EReal.coe_mul]
  rw [← coe_sum, div_cN_coe]

/-- For a matrix of `100000` real rows the two variances of a column are the same number. -/
theorem var_agree {d : ℕ} (z : Mat 100000 d) (hz : Fin2 z) (q : Fin d) : varMoments z q = varDeviations z q := by
  obtain ⟨zr, rfl⟩ := hz.lift
  rw [varMoments_coe, varDeviations_coe, var_real (fun p => zr (ix2 p q)) _ rfl]

/-- The variance by deviations of a real matrix is a nonnegative real: a sum of squares over a positive number. -/
theorem varDeviations_nonneg {n d : ℕ} (z : Mat n d) (hz : Fin2 z) (q : Fin d) :
    ∃ v : ℝ, 0 ≤ v ∧ varDeviations z q = (v : EReal) := by
  obtain ⟨zr, rfl⟩ := hz.lift
  exact ⟨_, div_nonneg (Finset.sum_nonneg fun p _ => mul_self_nonneg _) (by norm_num), varDeviations_coe zr q⟩

/-! ### Centring and scaling -/

/-- Centring and scaling a real matrix by real means, nonnegative real variances and real `g`, `beta` gives real
    entries: the variance plus the small constant is positive, so its inverse square root is real. -/
theorem norm_fin {n d : ℕ} (z : Mat n d) (mu var g beta : Fin d → EReal) (hz : Fin2 z) (hmu : Fin1 mu)
    (hvar : ∀ q, ∃ v : ℝ, 0 ≤ v ∧ var q = (v : EReal)) (hg : Fin1 g) (hbeta : Fin1 beta) :
    Fin2 (norm z mu var g beta) := by
  intro i
  show normAt z mu var g beta (i 0) (i 1) ≠ ⊤ ∧ normAt z mu var g beta (i 0) (i 1) ≠ ⊥
  unfold normAt
  obtain ⟨v, hv, hvq⟩ := hvar (i 1)
  obtain ⟨e, he, hce⟩ := cEps_pos
  rw [hvq, hce, ← EReal.coe_add]
  exact max_fin (add_fin (mul_fin (mul_fin (sub_fin (hz _) (hmu _)) (rsqrt_fin (by positivity))) (hg _)) (hbeta _))
    zero_fin

/-! ### One layer -/

/-- One layer on `100000` real rows: the form whose variance is by moments and the form whose variance is by
    deviations are the same matrix, and its entries are real. The aggregation `A` enters only through keeping
    real matrices real. -/
theorem layer_agree {k d : ℕ} (A : Mat 100000 k → Mat 100000 k) (hA : ∀ h, Fin2 h → Fin2 (A h))
    (h : Mat 100000 k) (W : Mat k d) (b g beta : Fin d → EReal)
    (hh : Fin2 h) (hW : Fin2 W) (hb : Fin1 b) (hg : Fin1 g) (hbeta : Fin1 beta) :
    layerMoments A h W b g beta = layerDeviations A h W b g beta ∧
      Fin2 (layerDeviations A h W b g beta) := by
  have hz : Fin2 (lin h (A h) W b) := lin_fin h (A h) W b hh (hA h hh) hW hb
  have hv : varMoments (lin h (A h) W b) = varDeviations (lin h (A h) W b) := funext fun q => var_agree _ hz q
  refine ⟨?_, ?_⟩
  · unfold layerMoments layerDeviations; rw [hv]
  · unfold layerDeviations
    exact norm_fin _ _ _ _ _ hz (mean_fin _ hz) (fun q => varDeviations_nonneg _ hz q) hg hbeta

/-- The same layer in its moments form has real entries too: it is the deviations form. -/
theorem layerMoments_fin {k d : ℕ} (A : Mat 100000 k → Mat 100000 k) (hA : ∀ h, Fin2 h → Fin2 (A h))
    (h : Mat 100000 k) (W : Mat k d) (b g beta : Fin d → EReal)
    (hh : Fin2 h) (hW : Fin2 W) (hb : Fin1 b) (hg : Fin1 g) (hbeta : Fin1 beta) :
    Fin2 (layerMoments A h W b g beta) := by
  have key := layer_agree A hA h W b g beta hh hW hb hg hbeta
  rw [key.1]; exact key.2

end Cert.Spec

end
-- ==== Proof.NetAgree.lean ====
/-
  The whole network, three layers deep, over abstract aggregation and pooling maps.

  Each layer's two forms agree on real inputs and give a real matrix, which is the next layer's input; so the
  three-layer composition in its moments form is the composition in its deviations form, and anything computed from
  it — the pooled rows, the classifier — is the same on both sides. Only the aggregation maps need to keep real
  matrices real; nothing is asked of the pooling map or of the classifier's weights.
-/
import proofs.«113277_j59725815218466_1_alg».proof.Proof.Algebra

noncomputable section

namespace Cert.Spec

open Idealize.ShloMosaic Idealize.ShloMosaic.ValueIdx

/-- Three layers, pooled and classified: the moments form equals the deviations form, layer by layer from the
    innermost outward, each step using that the previous layer's output is real. -/
theorem net_agree (A10 : Mat 100000 10 → Mat 100000 10) (A20 : Mat 100000 20 → Mat 100000 20)
    (P : Mat 100000 20 → Mat 1000 20)
    (hA10 : ∀ h, Fin2 h → Fin2 (A10 h)) (hA20 : ∀ h, Fin2 h → Fin2 (A20 h))
    (x0 : Mat 100000 10) (W1 : Mat 10 20) (b1 g1 be1 : Fin 20 → EReal) (W2 : Mat 20 20) (b2 g2 be2 : Fin 20 → EReal)
    (W3 : Mat 20 20) (b3 g3 be3 : Fin 20 → EReal)
    (fcW : Mat 20 2) (fcb : Fin 2 → EReal)
    (hx0 : Fin2 x0) (hW1 : Fin2 W1) (hb1 : Fin1 b1) (hg1 : Fin1 g1) (hbe1 : Fin1 be1)
    (hW2 : Fin2 W2) (hb2 : Fin1 b2) (hg2 : Fin1 g2) (hbe2 : Fin1 be2)
    (hW3 : Fin2 W3) (hb3 : Fin1 b3) (hg3 : Fin1 g3) (hbe3 : Fin1 be3) :
    head (P (layerMoments A20 (layerMoments A20 (layerMoments A10 x0 W1 b1 g1 be1) W2 b2 g2 be2) W3 b3 g3 be3)) fcW fcb
      = head (P (layerDeviations A20 (layerDeviations A20 (layerDeviations A10 x0 W1 b1 g1 be1) W2 b2 g2 be2)
          W3 b3 g3 be3)) fcW fcb := by
  have L1 := layer_agree A10 hA10 x0 W1 b1 g1 be1 hx0 hW1 hb1 hg1 hbe1
  have L2 := layer_agree A20 hA20 _ W2 b2 g2 be2 L1.2 hW2 hb2 hg2 hbe2
  have L3 := layer_agree A20 hA20 _ W3 b3 g3 be3 L2.2 hW3 hb3 hg3 hbe3
  rw [L1.1, L2.1, L3.1]

/-- A vector indexed by a rank-one shape, all of whose entries are real, is real when read through its coordinate. -/
theorem fin1_of_vec {b : ℕ} (v : (⟨1, ![b]⟩ : Shape).Idx → EReal) (hv : ∀ i, v i ≠ ⊤ ∧ v i ≠ ⊥) :
    Fin1 (fun q : Fin b => v (ix1 q)) :=
  fun q => hv (ix1 q)

end Cert.Spec

end
-- ==== Proof.RefHead.lean ====
/-
  The reference's last step is the classifier applied to the pooled rows.

  After its third layer the reference adds the rows into a zero matrix at every node's graph number (the pooling term,
  kept unopened), multiplies the pooled matrix by the classifier's weights, contracting the pooled matrix's columns
  against the weights' rows, and adds the classifier's bias, one number per class, repeated down the rows. At row `p`
  and class `q` that is the sum over the twenty columns `c` of `pooled[p, c] · W[c, q]`, plus `bias[q]`: the
  specification's classifier. The third layer's output enters only as the matrix that is pooled.
-/
import proofs.«113277_j59725815218466_1_alg».proof.Proof.RefValueBase

noncomputable section

namespace Cert.ReferenceIdeal.RefValue

open Cert.ReferenceIdeal Cert.ReferenceIdeal.Gen Cert.ReferenceIdeal.ReadP Idealize.ShloMosaic Idealize.ShloMosaic.ValueIdx

/-- The product reads the pooled matrix at row `p`, column `k`. -/
theorem head_lidx (p : Fin 1000) (q : Fin 2) (k : Fin 20) : lidx_main_v130 (ix2 p q) k = ix2 p k :=
  funext fun a => Fin.ext (by match a with | ⟨0, _⟩ => rfl | ⟨1, _⟩ => rfl)

/-- The product reads the weights at row `k`, class `q`. -/
theorem head_ridx (p : Fin 1000) (q : Fin 2) (k : Fin 20) : ridx_main_v130 (ix2 p q) k = ix2 k q :=
  funext fun a => Fin.ext (by match a with | ⟨0, _⟩ => rfl | ⟨1, _⟩ => rfl)

/-- The bias repeated down the rows is read at class `q`, whatever the row. -/
theorem head_bidx (p : Fin 1000) (q : Fin 2) : idx_main_v131 (idx_main_v132 (ix2 p q)) = ix1 q :=
  funext fun a => Fin.ext (by match a with | ⟨0, _⟩ => rfl)

/-- The product and the bias at one entry, over any pooled matrix: the specification's classifier at that entry. -/
theorem head_at (pool : Spec.Mat 1000 20) (W : Spec.Mat 20 2) (v : (⟨1, ![2]⟩ : Shape).Idx → EReal)
    (p : Fin 1000) (q : Fin 2) :
    (∑ k : Fin 20, pool (lidx_main_v130 (ix2 p q) k) * W (ridx_main_v130 (ix2 p q) k))
        + v (idx_main_v131 (idx_main_v132 (ix2 p q)))
      = Spec.headAt pool W (row v) p q := by
  unfold Spec.headAt
  rw [head_bidx]
  refine congrArg (fun s => s + v (ix1 q)) (Finset.sum_congr rfl fun k _ => ?_)
  rw [head_lidx, head_ridx]

/-- The reference's result is the classifier of the pooled third-layer output. -/
theorem head_eq (x0 : (⟨S100000x10, .f32⟩ : BufTy).Contents (Elt Ideal)) (x1 : (⟨S2x3200000, .i32⟩ : BufTy).Contents (Elt Ideal))
    (x2 : (⟨S100000, .i32⟩ : BufTy).Contents (Elt Ideal)) (x3 : (⟨S10x20, .f32⟩ : BufTy).Contents (Elt Ideal))
    (x4 x5 x6 : (⟨S20, .f32⟩ : BufTy).Contents (Elt Ideal)) (x7 : (⟨S20x20, .f32⟩ : BufTy).Contents (Elt Ideal))
    (x8 x9 x10 : (⟨S20, .f32⟩ : BufTy).Contents (Elt Ideal)) (x11 : (⟨S20x20, .f32⟩ : BufTy).Contents (Elt Ideal))
    (x12 x13 x14 : (⟨S20, .f32⟩ : BufTy).Contents (Elt Ideal)) (x15 : (⟨S20x2, .f32⟩ : BufTy).Contents (Elt Ideal))
    (x16 : (⟨S2, .f32⟩ : BufTy).Contents (Elt Ideal)) :
    val_main_v133 (F := Ideal) x0 x1 x2 x3 x4 x5 x6 x7 x8 x9 x10 x11 x12 x13 x14 x15 x16
      = Spec.head (m := 1000) (k := 20) (d := 2) (P x2 (val_main_v126 (F := Ideal) x0 x1 x3 x4 x5 x6 x7 x8 x9 x10 x11 x12 x13 x14)) x15 (row x16) := by
  have hP : val_main_v129 (F := Ideal) x0 x1 x2 x3 x4 x5 x6 x7 x8 x9 x10 x11 x12 x13 x14
      = P x2 (val_main_v126 (F := Ideal) x0 x1 x3 x4 x5 x6 x7 x8 x9 x10 x11 x12 x13 x14) := rfl
  funext i
  obtain ⟨p, q, rfl⟩ : ∃ (p : Fin 1000) (q : Fin 2), i = ix2 p q := ⟨i 0, i 1, eq_ix2 i⟩
  rw [val_main_v133_apply, val_main_v130_apply, val_main_v132_apply, val_main_v131_apply, hP, Ideal.addf_def,
    Spec.head_ix2]
  generalize P x2 (val_main_v126 (F := Ideal) x0 x1 x3 x4 x5 x6 x7 x8 x9 x10 x11 x12 x13 x14) = pool
  exact head_at pool x15 x16 p q

end Cert.ReferenceIdeal.RefValue

end
-- ==== Proof.RefValue1.lean ====
/-
  The reference's first layer read back to the specification.

  The layer adds to its node matrix the aggregation of it (the reference's own term `A10`, a function of the node matrix
  and of the edge list, never opened), multiplies by the 10 × 20 weight, adds the bias along every row, and then centres,
  scales and clamps every column. Stage by stage: the affine map at an entry is the sum over the contracted coordinate; the
  column mean is the zero initial value plus the sum over the rows, divided by the row count; the variance is the mean of
  the squared deviations (a square is printed as a product); the rest is pointwise, with one-row operands laid along every
  row and the clamp a maximum with a zero matrix.
-/
import proofs.«113277_j59725815218466_1_alg».proof.Proof.RefValueBase

noncomputable section

namespace Cert.ReferenceIdeal.RefValue

open Cert.ReferenceIdeal Cert.ReferenceIdeal.Gen Cert.ReferenceIdeal.ReadP Idealize.ShloMosaic Idealize.ShloMosaic.ValueIdx

variable (x0 : (⟨S100000x10, .f32⟩ : BufTy).Contents (Elt Ideal)) (x1 : Edges)
  (x3 : (⟨S10x20, .f32⟩ : BufTy).Contents (Elt Ideal)) (x4 x5 x6 : (⟨S20, .f32⟩ : BufTy).Contents (Elt Ideal))

/-- The reference's scatter of the gathered rows is the aggregation of the node matrix. -/
theorem agg1 : val_main_v13 (F := Ideal) x0 x1 = A10 x1 x0 := rfl

/-- The affine map of layer 1: at an entry, the sum over the contracted coordinate plus the bias. -/
theorem lin1 : val_main_v18 (F := Ideal) x0 x1 x3 x4
    = Spec.lin (n := 100000) (k := 10) (d := 20) (x0) (A10 x1 (x0)) x3 (row x4) := by
  funext i
  obtain ⟨p, q, rfl⟩ : ∃ (p : Fin 100000) (q : Fin 20), i = ix2 p q := ⟨i 0, i 1, eq_ix2 i⟩
  rw [Spec.lin_ix2, val_main_v18_apply, val_main_v15_apply, val_main_v17_apply, val_main_v16_apply]
  have eb : idx_main_v16 (idx_main_v17 (ix2 p q)) = ix1 q := funext fun a => by match a with | ⟨0, _⟩ => rfl
  have el : ∀ c : Fin 10, lidx_main_v15 (ix2 p q) c = ix2 p c := fun c => funext fun a => by match a with | ⟨0, _⟩ => rfl | ⟨1, _⟩ => rfl
  have er : ∀ c : Fin 10, ridx_main_v15 (ix2 p q) c = ix2 c q := fun c => funext fun a => by match a with | ⟨0, _⟩ => rfl | ⟨1, _⟩ => rfl
  unfold Spec.linAt
  simp only [eb, el, er, val_main_v14_apply, agg1, Ideal.addf_def]

/-- The column means of layer 1's affine map: the zero initial value plus the sum over the rows, divided by the row count. -/
theorem mean1 (q : Fin 20) : val_main_v21 (F := Ideal) x0 x1 x3 x4 (ix1 q)
    = Spec.mean (n := 100000) (d := 20) (val_main_v18 (F := Ideal) x0 x1 x3 x4) q := by
  rw [val_main_v21_apply, val_main_v19_apply, val_main_v20_apply, val_main_cst_2_apply, val_main_cst_1_apply]
  have e : ∀ k : Fin 100000, idx_main_v19 (ix1 q) k = ix2 k q := fun k => funext fun a => by match a with | ⟨0, _⟩ => rfl | ⟨1, _⟩ => rfl
  unfold Spec.mean Spec.colSum Spec.cN
  simp only [e, Ideal.hostDivf_def, Ideal.ofBits_def, Ideal.ofBits_zero_f32, zero_add]

/-- The mean laid along every row. -/
theorem mean1_rows (p : Fin 100000) (q : Fin 20) : val_main_v23 (F := Ideal) x0 x1 x3 x4 (ix2 p q)
    = Spec.mean (n := 100000) (d := 20) (val_main_v18 (F := Ideal) x0 x1 x3 x4) q := by
  rw [val_main_v23_apply, val_main_v22_apply]
  have e : idx_main_v22 (idx_main_v23 (ix2 p q)) = ix1 q := funext fun a => by match a with | ⟨0, _⟩ => rfl
  rw [e, mean1]

/-- The column variances of layer 1's affine map: the mean of the squared deviations (a square is a product). -/
theorem var1 (q : Fin 20) : val_main_v28 (F := Ideal) x0 x1 x3 x4 (ix1 q)
    = Spec.varDeviations (n := 100000) (d := 20) (val_main_v18 (F := Ideal) x0 x1 x3 x4) q := by
  rw [val_main_v28_apply, val_main_v26_apply, val_main_v27_apply, val_main_cst_4_apply, val_main_cst_3_apply]
  have e : ∀ k : Fin 100000, idx_main_v26 (ix1 q) k = ix2 k q := fun k => funext fun a => by match a with | ⟨0, _⟩ => rfl | ⟨1, _⟩ => rfl
  unfold Spec.varDeviations Spec.cN
  simp only [e, val_main_v25_apply, val_main_v24_apply, mean1_rows, Ideal.hostDivf_def, Ideal.ofBits_def, Ideal.ofBits_zero_f32,
    zero_add, Ideal.mulf_def, Ideal.subf_def]

/-- Layer 1's normalisation and clamp over its affine map. -/
theorem norm1 : val_main_v44 (F := Ideal) x0 x1 x3 x4 x5 x6
    = Spec.norm (n := 100000) (d := 20) (val_main_v18 (F := Ideal) x0 x1 x3 x4)
        (Spec.mean (n := 100000) (d := 20) (val_main_v18 (F := Ideal) x0 x1 x3 x4))
        (Spec.varDeviations (n := 100000) (d := 20) (val_main_v18 (F := Ideal) x0 x1 x3 x4)) (row x5) (row x6) := by
  funext i
  obtain ⟨p, q, rfl⟩ : ∃ (p : Fin 100000) (q : Fin 20), i = ix2 p q := ⟨i 0, i 1, eq_ix2 i⟩
  rw [Spec.norm_ix2, val_main_v44_apply, val_main_v43_apply, val_main_v40_apply, val_main_v37_apply, val_main_v31_apply,
    val_main_v30_apply, val_main_v29_apply, val_main_v36_apply, val_main_v35_apply, val_main_v34_apply, val_main_v33_apply,
    val_main_v32_apply, val_main_cst_5_apply, val_main_v39_apply, val_main_v38_apply, val_main_v42_apply, val_main_v41_apply,
    val_main_call0_v0_apply, val_main_call0_cst_apply]
  have e1 : idx_main_v29 (idx_main_v30 (ix2 p q)) = ix1 q := funext fun a => by match a with | ⟨0, _⟩ => rfl
  have e2 : idx_main_v35 (idx_main_v36 (ix2 p q)) = ix1 q := funext fun a => by match a with | ⟨0, _⟩ => rfl
  have e3 : idx_main_v38 (idx_main_v39 (ix2 p q)) = ix1 q := funext fun a => by match a with | ⟨0, _⟩ => rfl
  have e4 : idx_main_v41 (idx_main_v42 (ix2 p q)) = ix1 q := funext fun a => by match a with | ⟨0, _⟩ => rfl
  rw [e1, e2, e3, e4, mean1, var1]
  unfold Spec.normAt Spec.cEps
  simp only [Ideal.maximumf_def, Ideal.addf_def, Ideal.mulf_def, Ideal.subf_def, Ideal.hostUnary_rsqrt_def, Ideal.ofBits_def,
    Ideal.ofBits_zero_f32]

/-- Layer 1: the reference's clamped, normalised affine map is the specification's layer, the variance by deviations,
    over the aggregation `A10`. -/
theorem layer1 : val_main_v44 (F := Ideal) x0 x1 x3 x4 x5 x6
    = Spec.layerDeviations (n := 100000) (k := 10) (d := 20) (A10 x1) (x0) x3 (row x4) (row x5) (row x6) := by
  unfold Spec.layerDeviations
  rw [norm1, lin1]

end Cert.ReferenceIdeal.RefValue

end
-- ==== Proof.RefValue2.lean ====
/-
  The reference's second layer read back to the specification.

  The layer adds to its node matrix the aggregation of it (the reference's own term `A20`, a function of the node matrix
  and of the edge list, never opened), multiplies by the 20 × 20 weight, adds the bias along every row, and then centres,
  scales and clamps every column. Stage by stage: the affine map at an entry is the sum over the contracted coordinate; the
  column mean is the zero initial value plus the sum over the rows, divided by the row count; the variance is the mean of
  the squared deviations (a square is printed as a product); the rest is pointwise, with one-row operands laid along every
  row and the clamp a maximum with a zero matrix.
-/
import proofs.«113277_j59725815218466_1_alg».proof.Proof.RefValueBase

noncomputable section

namespace Cert.ReferenceIdeal.RefValue

open Cert.ReferenceIdeal Cert.ReferenceIdeal.Gen Cert.ReferenceIdeal.ReadP Idealize.ShloMosaic Idealize.ShloMosaic.ValueIdx

variable (x0 : (⟨S100000x10, .f32⟩ : BufTy).Contents (Elt Ideal)) (x1 : Edges)
  (x3 : (⟨S10x20, .f32⟩ : BufTy).Contents (Elt Ideal)) (x4 x5 x6 : (⟨S20, .f32⟩ : BufTy).Contents (Elt Ideal))
  (x7 : (⟨S20x20, .f32⟩ : BufTy).Contents (Elt Ideal)) (x8 x9 x10 : (⟨S20, .f32⟩ : BufTy).Contents (Elt Ideal))

/-- The reference's scatter of the gathered rows is the aggregation of the first layer's result. -/
theorem agg2 : val_main_v54 (F := Ideal) x0 x1 x3 x4 x5 x6 = A20 x1 (val_main_v44 (F := Ideal) x0 x1 x3 x4 x5 x6) := rfl

/-- The affine map of layer 2: at an entry, the sum over the contracted coordinate plus the bias. -/
theorem lin2 : val_main_v59 (F := Ideal) x0 x1 x3 x4 x5 x6 x7 x8
    = Spec.lin (n := 100000) (k := 20) (d := 20) (val_main_v44 (F := Ideal) x0 x1 x3 x4 x5 x6) (A20 x1 (val_main_v44 (F := Ideal) x0 x1 x3 x4 x5 x6)) x7 (row x8) := by
  funext i
  obtain ⟨p, q, rfl⟩ : ∃ (p : Fin 100000) (q : Fin 20), i = ix2 p q := ⟨i 0, i 1, eq_ix2 i⟩
  rw [Spec.lin_ix2, val_main_v59_apply, val_main_v56_apply, val_main_v58_apply, val_main_v57_apply]
  have eb : idx_main_v57 (idx_main_v58 (ix2 p q)) = ix1 q := funext fun a => by match a with | ⟨0, _⟩ => rfl
  have el : ∀ c : Fin 20, lidx_main_v56 (ix2 p q) c = ix2 p c := fun c => funext fun a => by match a with | ⟨0, _⟩ => rfl | ⟨1, _⟩ => rfl
  have er : ∀ c : Fin 20, ridx_main_v56 (ix2 p q) c = ix2 c q := fun c => funext fun a => by match a with | ⟨0, _⟩ => rfl | ⟨1, _⟩ => rfl
  unfold Spec.linAt
  simp only [eb, el, er, val_main_v55_apply, agg2, Ideal.addf_def]

/-- The column means of layer 2's affine map: the zero initial value plus the sum over the rows, divided by the row count. -/
theorem mean2 (q : Fin 20) : val_main_v62 (F := Ideal) x0 x1 x3 x4 x5 x6 x7 x8 (ix1 q)
    = Spec.mean (n := 100000) (d := 20) (val_main_v59 (F := Ideal) x0 x1 x3 x4 x5 x6 x7 x8) q := by
  rw [val_main_v62_apply, val_main_v60_apply, val_main_v61_apply, val_main_cst_10_apply, val_main_cst_9_apply]
  have e : ∀ k : Fin 100000, idx_main_v60 (ix1 q) k = ix2 k q := fun k => funext fun a => by match a with | ⟨0, _⟩ => rfl | ⟨1, _⟩ => rfl
  unfold Spec.mean Spec.colSum Spec.cN
  simp only [e, Ideal.hostDivf_def, Ideal.ofBits_def, Ideal.ofBits_zero_f32, zero_add]

/-- The mean laid along every row. -/
theorem mean2_rows (p : Fin 100000) (q : Fin 20) : val_main_v64 (F := Ideal) x0 x1 x3 x4 x5 x6 x7 x8 (ix2 p q)
    = Spec.mean (n := 100000) (d := 20) (val_main_v59 (F := Ideal) x0 x1 x3 x4 x5 x6 x7 x8) q := by
  rw [val_main_v64_apply, val_main_v63_apply]
  have e : idx_main_v63 (idx_main_v64 (ix2 p q)) = ix1 q := funext fun a => by match a with | ⟨0, _⟩ => rfl
  rw [e, mean2]

/-- The column variances of layer 2's affine map: the mean of the squared deviations (a square is a product). -/
theorem var2 (q : Fin 20) : val_main_v69 (F := Ideal) x0 x1 x3 x4 x5 x6 x7 x8 (ix1 q)
    = Spec.varDeviations (n := 100000) (d := 20) (val_main_v59 (F := Ideal) x0 x1 x3 x4 x5 x6 x7 x8) q := by
  rw [val_main_v69_apply, val_main_v67_apply, val_main_v68_apply, val_main_cst_12_apply, val_main_cst_11_apply]
  have e : ∀ k : Fin 100000, idx_main_v67 (ix1 q) k = ix2 k q := fun k => funext fun a => by match a with | ⟨0, _⟩ => rfl | ⟨1, _⟩ => rfl
  unfold Spec.varDeviations Spec.cN
  simp only [e, val_main_v66_apply, val_main_v65_apply, mean2_rows, Ideal.hostDivf_def, Ideal.ofBits_def, Ideal.ofBits_zero_f32,
    zero_add, Ideal.mulf_def, Ideal.subf_def]

/-- Layer 2's normalisation and clamp over its affine map. -/
theorem norm2 : val_main_v85 (F := Ideal) x0 x1 x3 x4 x5 x6 x7 x8 x9 x10
    = Spec.norm (n := 100000) (d := 20) (val_main_v59 (F := Ideal) x0 x1 x3 x4 x5 x6 x7 x8)
        (Spec.mean (n := 100000) (d := 20) (val_main_v59 (F := Ideal) x0 x1 x3 x4 x5 x6 x7 x8))
        (Spec.varDeviations (n := 100000) (d := 20) (val_main_v59 (F := Ideal) x0 x1 x3 x4 x5 x6 x7 x8)) (row x9) (row x10) := by
  funext i
  obtain ⟨p, q, rfl⟩ : ∃ (p : Fin 100000) (q : Fin 20), i = ix2 p q := ⟨i 0, i 1, eq_ix2 i⟩
  rw [Spec.norm_ix2, val_main_v85_apply, val_main_v84_apply, val_main_v81_apply, val_main_v78_apply, val_main_v72_apply,
    val_main_v71_apply, val_main_v70_apply, val_main_v77_apply, val_main_v76_apply, val_main_v75_apply, val_main_v74_apply,
    val_main_v73_apply, val_main_cst_13_apply, val_main_v80_apply, val_main_v79_apply, val_main_v83_apply, val_main_v82_apply,
    val_main_call1_v0_apply, val_main_call1_cst_apply]
  have e1 : idx_main_v70 (idx_main_v71 (ix2 p q)) = ix1 q := funext fun a => by match a with | ⟨0, _⟩ => rfl
  have e2 : idx_main_v76 (idx_main_v77 (ix2 p q)) = ix1 q := funext fun a => by match a with | ⟨0, _⟩ => rfl
  have e3 : idx_main_v79 (idx_main_v80 (ix2 p q)) = ix1 q := funext fun a => by match a with | ⟨0, _⟩ => rfl
  have e4 : idx_main_v82 (idx_main_v83 (ix2 p q)) = ix1 q := funext fun a => by match a with | ⟨0, _⟩ => rfl
  rw [e1, e2, e3, e4, mean2, var2]
  unfold Spec.normAt Spec.cEps
  simp only [Ideal.maximumf_def, Ideal.addf_def, Ideal.mulf_def, Ideal.subf_def, Ideal.hostUnary_rsqrt_def, Ideal.ofBits_def,
    Ideal.ofBits_zero_f32]

/-- Layer 2: the reference's clamped, normalised affine map is the specification's layer, the variance by deviations,
    over the aggregation `A20`. -/
theorem layer2 : val_main_v85 (F := Ideal) x0 x1 x3 x4 x5 x6 x7 x8 x9 x10
    = Spec.layerDeviations (n := 100000) (k := 20) (d := 20) (A20 x1) (val_main_v44 (F := Ideal) x0 x1 x3 x4 x5 x6) x7 (row x8) (row x9) (row x10) := by
  unfold Spec.layerDeviations
  rw [norm2, lin2]

end Cert.ReferenceIdeal.RefValue

end
-- ==== Proof.RefValue3.lean ====
/-
  The reference's third layer read back to the specification.

  The layer adds to its node matrix the aggregation of it (the reference's own term `A20`, a function of the node matrix
  and of the edge list, never opened), multiplies by the 20 × 20 weight, adds the bias along every row, and then centres,
  scales and clamps every column. Stage by stage: the affine map at an entry is the sum over the contracted coordinate; the
  column mean is the zero initial value plus the sum over the rows, divided by the row count; the variance is the mean of
  the squared deviations (a square is printed as a product); the rest is pointwise, with one-row operands laid along every
  row and the clamp a maximum with a zero matrix.
-/
import proofs.«113277_j59725815218466_1_alg».proof.Proof.RefValueBase

noncomputable section

namespace Cert.ReferenceIdeal.RefValue

open Cert.ReferenceIdeal Cert.ReferenceIdeal.Gen Cert.ReferenceIdeal.ReadP Idealize.ShloMosaic Idealize.ShloMosaic.ValueIdx

variable (x0 : (⟨S100000x10, .f32⟩ : BufTy).Contents (Elt Ideal)) (x1 : Edges)
  (x3 : (⟨S10x20, .f32⟩ : BufTy).Contents (Elt Ideal)) (x4 x5 x6 : (⟨S20, .f32⟩ : BufTy).Contents (Elt Ideal))
  (x7 : (⟨S20x20, .f32⟩ : BufTy).Contents (Elt Ideal)) (x8 x9 x10 : (⟨S20, .f32⟩ : BufTy).Contents (Elt Ideal))
  (x11 : (⟨S20x20, .f32⟩ : BufTy).Contents (Elt Ideal)) (x12 x13 x14 : (⟨S20, .f32⟩ : BufTy).Contents (Elt Ideal))

/-- The reference's scatter of the gathered rows is the aggregation of the second layer's result: the third layer prepares
    the edge list and the zero matrix by the same operations as the second. -/
theorem agg3 : val_main_v95 (F := Ideal) x0 x1 x3 x4 x5 x6 x7 x8 x9 x10 = A20 x1 (val_main_v85 (F := Ideal) x0 x1 x3 x4 x5 x6 x7 x8 x9 x10) := by
  unfold val_main_v95 val_main_v92 A20
  rw [sources3, targets3, zeros3]

/-- The affine map of layer 3: at an entry, the sum over the contracted coordinate plus the bias. -/
theorem lin3 : val_main_v100 (F := Ideal) x0 x1 x3 x4 x5 x6 x7 x8 x9 x10 x11 x12
    = Spec.lin (n := 100000) (k := 20) (d := 20) (val_main_v85 (F := Ideal) x0 x1 x3 x4 x5 x6 x7 x8 x9 x10) (A20 x1 (val_main_v85 (F := Ideal) x0 x1 x3 x4 x5 x6 x7 x8 x9 x10)) x11 (row x12) := by
  funext i
  obtain ⟨p, q, rfl⟩ : ∃ (p : Fin 100000) (q : Fin 20), i = ix2 p q := ⟨i 0, i 1, eq_ix2 i⟩
  rw [Spec.lin_ix2, val_main_v100_apply, val_main_v97_apply, val_main_v99_apply, val_main_v98_apply]
  have eb : idx_main_v98 (idx_main_v99 (ix2 p q)) = ix1 q := funext fun a => by match a with | ⟨0, _⟩ => rfl
  have el : ∀ c : Fin 20, lidx_main_v97 (ix2 p q) c = ix2 p c := fun c => funext fun a => by match a with | ⟨0, _⟩ => rfl | ⟨1, _⟩ => rfl
  have er : ∀ c : Fin 20, ridx_main_v97 (ix2 p q) c = ix2 c q := fun c => funext fun a => by match a with | ⟨0, _⟩ => rfl | ⟨1, _⟩ => rfl
  unfold Spec.linAt
  simp only [eb, el, er, val_main_v96_apply, agg3, Ideal.addf_def]

/-- The column means of layer 3's affine map: the zero initial value plus the sum over the rows, divided by the row count. -/
theorem mean3 (q : Fin 20) : val_main_v103 (F := Ideal) x0 x1 x3 x4 x5 x6 x7 x8 x9 x10 x11 x12 (ix1 q)
    = Spec.mean (n := 100000) (d := 20) (val_main_v100 (F := Ideal) x0 x1 x3 x4 x5 x6 x7 x8 x9 x10 x11 x12) q := by
  rw [val_main_v103_apply, val_main_v101_apply, val_main_v102_apply, val_main_cst_18_apply, val_main_cst_17_apply]
  have e : ∀ k : Fin 100000, idx_main_v101 (ix1 q) k = ix2 k q := fun k => funext fun a => by match a with | ⟨0, _⟩ => rfl | ⟨1, _⟩ => rfl
  unfold Spec.mean Spec.colSum Spec.cN
  simp only [e, Ideal.hostDivf_def, Ideal.ofBits_def, Ideal.ofBits_zero_f32, zero_add]

/-- The mean laid along every row. -/
theorem mean3_rows (p : Fin 100000) (q : Fin 20) : val_main_v105 (F := Ideal) x0 x1 x3 x4 x5 x6 x7 x8 x9 x10 x11 x12 (ix2 p q)
    = Spec.mean (n := 100000) (d := 20) (val_main_v100 (F := Ideal) x0 x1 x3 x4 x5 x6 x7 x8 x9 x10 x11 x12) q := by
  rw [val_main_v105_apply, val_main_v104_apply]
  have e : idx_main_v104 (idx_main_v105 (ix2 p q)) = ix1 q := funext fun a => by match a with | ⟨0, _⟩ => rfl
  rw [e, mean3]

/-- The column variances of layer 3's affine map: the mean of the squared deviations (a square is a product). -/
theorem var3 (q : Fin 20) : val_main_v110 (F := Ideal) x0 x1 x3 x4 x5 x6 x7 x8 x9 x10 x11 x12 (ix1 q)
    = Spec.varDeviations (n := 100000) (d := 20) (val_main_v100 (F := Ideal) x0 x1 x3 x4 x5 x6 x7 x8 x9 x10 x11 x12) q := by
  rw [val_main_v110_apply, val_main_v108_apply, val_main_v109_apply, val_main_cst_20_apply, val_main_cst_19_apply]
  have e : ∀ k : Fin 100000, idx_main_v108 (ix1 q) k = ix2 k q := fun k => funext fun a => by match a with | ⟨0, _⟩ => rfl | ⟨1, _⟩ => rfl
  unfold Spec.varDeviations Spec.cN
  simp only [e, val_main_v107_apply, val_main_v106_apply, mean3_rows, Ideal.hostDivf_def, Ideal.ofBits_def, Ideal.ofBits_zero_f32,
    zero_add, Ideal.mulf_def, Ideal.subf_def]

/-- Layer 3's normalisation and clamp over its affine map. -/
theorem norm3 : val_main_v126 (F := Ideal) x0 x1 x3 x4 x5 x6 x7 x8 x9 x10 x11 x12 x13 x14
    = Spec.norm (n := 100000) (d := 20) (val_main_v100 (F := Ideal) x0 x1 x3 x4 x5 x6 x7 x8 x9 x10 x11 x12)
        (Spec.mean (n := 100000) (d := 20) (val_main_v100 (F := Ideal) x0 x1 x3 x4 x5 x6 x7 x8 x9 x10 x11 x12))
        (Spec.varDeviations (n := 100000) (d := 20) (val_main_v100 (F := Ideal) x0 x1 x3 x4 x5 x6 x7 x8 x9 x10 x11 x12)) (row x13) (row x14) := by
  funext i
  obtain ⟨p, q, rfl⟩ : ∃ (p : Fin 100000) (q : Fin 20), i = ix2 p q := ⟨i 0, i 1, eq_ix2 i⟩
  rw [Spec.norm_ix2, val_main_v126_apply, val_main_v125_apply, val_main_v122_apply, val_main_v119_apply, val_main_v113_apply,
    val_main_v112_apply, val_main_v111_apply, val_main_v118_apply, val_main_v117_apply, val_main_v116_apply, val_main_v115_apply,
    val_main_v114_apply, val_main_cst_21_apply, val_main_v121_apply, val_main_v120_apply, val_main_v124_apply, val_main_v123_apply,
    val_main_call2_v0_apply, val_main_call2_cst_apply]
  have e1 : idx_main_v111 (idx_main_v112 (ix2 p q)) = ix1 q := funext fun a => by match a with | ⟨0, _⟩ => rfl
  have e2 : idx_main_v117 (idx_main_v118 (ix2 p q)) = ix1 q := funext fun a => by match a with | ⟨0, _⟩ => rfl
  have e3 : idx_main_v120 (idx_main_v121 (ix2 p q)) = ix1 q := funext fun a => by match a with | ⟨0, _⟩ => rfl
  have e4 : idx_main_v123 (idx_main_v124 (ix2 p q)) = ix1 q := funext fun a => by match a with | ⟨0, _⟩ => rfl
  rw [e1, e2, e3, e4, mean3, var3]
  unfold Spec.normAt Spec.cEps
  simp only [Ideal.maximumf_def, Ideal.addf_def, Ideal.mulf_def, Ideal.subf_def, Ideal.hostUnary_rsqrt_def, Ideal.ofBits_def,
    Ideal.ofBits_zero_f32]

/-- Layer 3: the reference's clamped, normalised affine map is the specification's layer, the variance by deviations,
    over the aggregation `A20`. -/
theorem layer3 : val_main_v126 (F := Ideal) x0 x1 x3 x4 x5 x6 x7 x8 x9 x10 x11 x12 x13 x14
    = Spec.layerDeviations (n := 100000) (k := 20) (d := 20) (A20 x1) (val_main_v85 (F := Ideal) x0 x1 x3 x4 x5 x6 x7 x8 x9 x10) x11 (row x12) (row x13) (row x14) := by
  unfold Spec.layerDeviations
  rw [norm3, lin3]

end Cert.ReferenceIdeal.RefValue

end
-- ==== Proof.RefValue.lean ====
/-
  The reference's three layers chained.

  Each layer's result is the specification's layer, the variance by deviations, of the previous layer's result; the first
  aggregates ten columns (`A10`), the second and third twenty (`A20`, the same operations over the same edge list). Chaining
  the three gives the third layer's result as one term of the arguments.
-/
import proofs.«113277_j59725815218466_1_alg».proof.Proof.RefValue1
import proofs.«113277_j59725815218466_1_alg».proof.Proof.RefValue2
import proofs.«113277_j59725815218466_1_alg».proof.Proof.RefValue3

noncomputable section

namespace Cert.ReferenceIdeal.RefValue

open Cert.ReferenceIdeal Cert.ReferenceIdeal.Gen Cert.ReferenceIdeal.ReadP Idealize.ShloMosaic Idealize.ShloMosaic.ValueIdx

variable (x0 : (⟨S100000x10, .f32⟩ : BufTy).Contents (Elt Ideal)) (x1 : Edges)
  (x3 : (⟨S10x20, .f32⟩ : BufTy).Contents (Elt Ideal)) (x4 x5 x6 : (⟨S20, .f32⟩ : BufTy).Contents (Elt Ideal))
  (x7 : (⟨S20x20, .f32⟩ : BufTy).Contents (Elt Ideal)) (x8 x9 x10 : (⟨S20, .f32⟩ : BufTy).Contents (Elt Ideal))
  (x11 : (⟨S20x20, .f32⟩ : BufTy).Contents (Elt Ideal)) (x12 x13 x14 : (⟨S20, .f32⟩ : BufTy).Contents (Elt Ideal))

/-- The first layer's result as the specification's term of the arguments. -/
abbrev L1 : Spec.Mat 100000 20 :=
  Spec.layerDeviations (n := 100000) (k := 10) (d := 20) (A10 x1) x0 x3 (row x4) (row x5) (row x6)
/-- The second layer's. -/
abbrev L2 : Spec.Mat 100000 20 :=
  Spec.layerDeviations (n := 100000) (k := 20) (d := 20) (A20 x1) (L1 x0 x1 x3 x4 x5 x6) x7 (row x8) (row x9) (row x10)
/-- The third layer's. -/
abbrev L3 : Spec.Mat 100000 20 :=
  Spec.layerDeviations (n := 100000) (k := 20) (d := 20) (A20 x1) (L2 x0 x1 x3 x4 x5 x6 x7 x8 x9 x10) x11 (row x12) (row x13) (row x14)

/-- The reference's third layer is the specification's three layers, every variance by deviations. -/
theorem layers : val_main_v126 (F := Ideal) x0 x1 x3 x4 x5 x6 x7 x8 x9 x10 x11 x12 x13 x14 = L3 x0 x1 x3 x4 x5 x6 x7 x8 x9 x10 x11 x12 x13 x14 := by
  rw [layer3, layer2, layer1]

end Cert.ReferenceIdeal.RefValue

end
-- ==== Proof.PreFinite.lean ====
/-
  What the precondition says: each of the fifteen float argument arrays passes the test "every entry's absolute value is
  below +infinity", and the fifteen tests are joined by "and". An extended real whose absolute value max(x, -x) is below
  +infinity is neither infinity, so every entry of every float argument is a real number.
-/
import proofs.«113277_j59725815218466_1_alg».proof.Pre_finite_inputs
import Idealize.ShloMosaic.Lib.ReduceAll
import Idealize.ShloMosaic.Lib.Affine
import Idealize.ShloMosaic.PureOps.Ideal.Laws
import Idealize.ShloMosaic.Lib.ValueIdx

noncomputable section

namespace Cert.PreFinite

open Idealize.ShloMosaic Cert.Pre_finite_inputs

/-- The rank-zero shape has one index. -/
instance : Subsingleton S_.Idx := ⟨fun a b => funext fun d => d.elim0⟩

/-- The float literal the tests compare against is +infinity. -/
theorem top_bits : Ideal.ofBits .f32 0x7F800000#32 = ⊤ := by simp [Ideal.ofBits, Ideal.ieee]

/-- `max(x, -x) < +infinity` leaves `x` a real number: `x = +infinity` fails the first half, `x = -infinity` the second. -/
theorem real_of_abs_lt_top (x : EReal) (h : Ideal.cmp .olt (max x (-x)) ⊤ = 1#1) : x ≠ ⊤ ∧ x ≠ ⊥ := by
  have h' : max x (-x) < ⊤ := by
    by_contra hn
    have e : Ideal.cmp .olt (max x (-x)) ⊤ = BitVec.ofBool (decide (max x (-x) < ⊤)) := rfl
    rw [e, decide_eq_false hn] at h
    exact absurd h (by decide)
  rw [max_lt_iff] at h'
  refine ⟨fun e => ?_, fun e => ?_⟩
  · rw [e] at h'; exact lt_irrefl _ h'.1
  · rw [e, EReal.neg_bot] at h'; exact lt_irrefl _ h'.2

/-- One array's test: if the "and" over all entries of `|x| < +infinity` is true, every entry of `x` is a real number. -/
theorem all_real {s : Shape} {axes : List (Fin s.rank)} (x : FVec Ideal s .f32)
    (hb : S_.BroadcastsInDim s (![] : Fin 0 → Fin s.rank)) (hr : s.ReducesTo axes S_) (hu : 0 < S_.numel) (init : IVec S_ 1) (j : S_.Idx)
    (h : Host.reduce IntOp.andi
          (cmpf .olt (Host.absf x) (broadcastInDim s ![] hb (constant (F := Ideal) S_ .f32 0x7F800000#32))) init hr hu j = 1#1)
    (i : s.Idx) : x i ≠ ⊤ ∧ x i ≠ ⊥ := by
  have e : Ideal.cmp .olt (max (x i) (-(x i))) (Ideal.ofBits .f32 0x7F800000#32) = 1#1 := Host.reduce_andi_all _ init hr hu j h i
  rw [top_bits] at e
  exact real_of_abs_lt_top _ e

variable [Facts]

/-- The precondition gives every float argument finite: the joined test is split into its fifteen conjuncts, last first. -/
theorem finite_of_pre (a0 : FVec Ideal S100000x10 .f32) (a1 : IVec S2x3200000 32) (a2 : IVec S100000 32) (a3 : FVec Ideal S10x20 .f32)
    (a4 a5 a6 : FVec Ideal S20 .f32) (a7 : FVec Ideal S20x20 .f32) (a8 a9 a10 : FVec Ideal S20 .f32) (a11 : FVec Ideal S20x20 .f32)
    (a12 a13 a14 : FVec Ideal S20 .f32) (a15 : FVec Ideal S20x2 .f32) (a16 : FVec Ideal S2 .f32)
    (h : fn (F := Ideal) a0 a1 a2 a3 a4 a5 a6 a7 a8 a9 a10 a11 a12 a13 a14 a15 a16 = fun _ => 1#1) :
    (∀ i, a0 i ≠ ⊤ ∧ a0 i ≠ ⊥)
    ∧ (∀ i, a3 i ≠ ⊤ ∧ a3 i ≠ ⊥)
    ∧ (∀ i, a4 i ≠ ⊤ ∧ a4 i ≠ ⊥)
    ∧ (∀ i, a5 i ≠ ⊤ ∧ a5 i ≠ ⊥)
    ∧ (∀ i, a6 i ≠ ⊤ ∧ a6 i ≠ ⊥)
    ∧ (∀ i, a7 i ≠ ⊤ ∧ a7 i ≠ ⊥)
    ∧ (∀ i, a8 i ≠ ⊤ ∧ a8 i ≠ ⊥)
    ∧ (∀ i, a9 i ≠ ⊤ ∧ a9 i ≠ ⊥)
    ∧ (∀ i, a10 i ≠ ⊤ ∧ a10 i ≠ ⊥)
    ∧ (∀ i, a11 i ≠ ⊤ ∧ a11 i ≠ ⊥)
    ∧ (∀ i, a12 i ≠ ⊤ ∧ a12 i ≠ ⊥)
    ∧ (∀ i, a13 i ≠ ⊤ ∧ a13 i ≠ ⊥)
    ∧ (∀ i, a14 i ≠ ⊤ ∧ a14 i ≠ ⊥)
    ∧ (∀ i, a15 i ≠ ⊤ ∧ a15 i ≠ ⊥)
    ∧ (∀ i, a16 i ≠ ⊤ ∧ a16 i ≠ ⊥) := by
  have h0 := congrFun h ValueIdx.ix0
  dsimp only [fn, fn_part1, fn_part2, fn_part3, fn_part4] at h0
  obtain ⟨h0, r_a16⟩ := IntOp.andi_eq_one.1 h0
  obtain ⟨h0, r_a15⟩ := IntOp.andi_eq_one.1 h0
  obtain ⟨h0, r_a14⟩ := IntOp.andi_eq_one.1 h0
  obtain ⟨h0, r_a13⟩ := IntOp.andi_eq_one.1 h0
  obtain ⟨h0, r_a12⟩ := IntOp.andi_eq_one.1 h0
  obtain ⟨h0, r_a11⟩ := IntOp.andi_eq_one.1 h0
  obtain ⟨h0, r_a10⟩ := IntOp.andi_eq_one.1 h0
  obtain ⟨h0, r_a9⟩ := IntOp.andi_eq_one.1 h0
  obtain ⟨h0, r_a8⟩ := IntOp.andi_eq_one.1 h0
  obtain ⟨h0, r_a7⟩ := IntOp.andi_eq_one.1 h0
  obtain ⟨h0, r_a6⟩ := IntOp.andi_eq_one.1 h0
  obtain ⟨h0, r_a5⟩ := IntOp.andi_eq_one.1 h0
  obtain ⟨h0, r_a4⟩ := IntOp.andi_eq_one.1 h0
  obtain ⟨r_a0, r_a3⟩ := IntOp.andi_eq_one.1 h0
  exact ⟨all_real a0 _ _ _ _ _ r_a0,
    all_real a3 _ _ _ _ _ r_a3,
    all_real a4 _ _ _ _ _ r_a4,
    all_real a5 _ _ _ _ _ r_a5,
    all_real a6 _ _ _ _ _ r_a6,
    all_real a7 _ _ _ _ _ r_a7,
    all_real a8 _ _ _ _ _ r_a8,
    all_real a9 _ _ _ _ _ r_a9,
    all_real a10 _ _ _ _ _ r_a10,
    all_real a11 _ _ _ _ _ r_a11,
    all_real a12 _ _ _ _ _ r_a12,
    all_real a13 _ _ _ _ _ r_a13,
    all_real a14 _ _ _ _ _ r_a14,
    all_real a15 _ _ _ _ _ r_a15,
    all_real a16 _ _ _ _ _ r_a16⟩

end Cert.PreFinite

end
-- ==== Proof.Final.lean ====
/-
  The two programs compute the same result.

  The kernel program's result is the classifier of the per-graph sums of three layers, each layer's column variance taken
  as the mean of the squares minus the square of the mean. The reference's result is the same composition with each
  variance taken as the mean of the squared deviations. The two programs' neighbour sums and per-graph sums are the same
  functions of the node matrix. Under the precondition every float argument is a matrix or vector of real numbers; a
  neighbour sum of reals is real; so layer by layer the two forms of the variance agree and every layer's output is real
  again, and the two results are equal.
-/
import proofs.«113277_j59725815218466_1_alg».proof.Defs
import proofs.«113277_j59725815218466_1_alg».proof.Proof.Gen.Pre_finite_inputs
import proofs.«113277_j59725815218466_1_alg».proof.Proof.GlueNet
import proofs.«113277_j59725815218466_1_alg».proof.Proof.Bridge
import proofs.«113277_j59725815218466_1_alg».proof.Proof.NetAgree
import proofs.«113277_j59725815218466_1_alg».proof.Proof.RefHead
import proofs.«113277_j59725815218466_1_alg».proof.Proof.RefValue
import proofs.«113277_j59725815218466_1_alg».proof.Proof.PreFinite

noncomputable section

namespace Cert.Final

open Cert.KernelIdeal Cert.KernelIdeal.Gen Cert.KernelIdeal.Glue
open Idealize.ShloMosaic Idealize.ShloMosaic.ValueIdx Idealize.ShloMosaic.TcCoe Idealize.SL.Sem

/-- Over real arguments, the classifier of the pooled three layers with the variances by moments, the neighbour sums and
    the per-graph sum being the kernel program's, is the reference's result. -/
theorem net_eq (x0 : FVec Ideal S100000x10 .f32) (x1 : IVec S2x3200000 32) (x2 : IVec S100000 32) (x3 : FVec Ideal S10x20 .f32)
    (x4 x5 x6 : FVec Ideal S20 .f32) (x7 : FVec Ideal S20x20 .f32) (x8 x9 x10 : FVec Ideal S20 .f32)
    (x11 : FVec Ideal S20x20 .f32) (x12 x13 x14 : FVec Ideal S20 .f32) (x15 : FVec Ideal S20x2 .f32) (x16 : FVec Ideal S2 .f32)
    (f0 : ∀ i, x0 i ≠ ⊤ ∧ x0 i ≠ ⊥)
    (f3 : ∀ i, x3 i ≠ ⊤ ∧ x3 i ≠ ⊥)
    (f4 : ∀ i, x4 i ≠ ⊤ ∧ x4 i ≠ ⊥)
    (f5 : ∀ i, x5 i ≠ ⊤ ∧ x5 i ≠ ⊥)
    (f6 : ∀ i, x6 i ≠ ⊤ ∧ x6 i ≠ ⊥)
    (f7 : ∀ i, x7 i ≠ ⊤ ∧ x7 i ≠ ⊥)
    (f8 : ∀ i, x8 i ≠ ⊤ ∧ x8 i ≠ ⊥)
    (f9 : ∀ i, x9 i ≠ ⊤ ∧ x9 i ≠ ⊥)
    (f10 : ∀ i, x10 i ≠ ⊤ ∧ x10 i ≠ ⊥)
    (f11 : ∀ i, x11 i ≠ ⊤ ∧ x11 i ≠ ⊥)
    (f12 : ∀ i, x12 i ≠ ⊤ ∧ x12 i ≠ ⊥)
    (f13 : ∀ i, x13 i ≠ ⊤ ∧ x13 i ≠ ⊥)
    (f14 : ∀ i, x14 i ≠ ⊤ ∧ x14 i ≠ ⊥) :
    Spec.head (pool x2
        (Spec.layerMoments (agg20 (srcRow x1) (dstRow x1))
          (Spec.layerMoments (agg20 (srcRow x1) (dstRow x1))
            (Spec.layerMoments (agg10 (srcRow x1) (dstRow x1)) x0 x3 (vec20 x4) (vec20 x5) (vec20 x6))
            x7 (vec20 x8) (vec20 x9) (vec20 x10))
          x11 (vec20 x12) (vec20 x13) (vec20 x14)))
      x15 (vec2 x16)
    = Cert.ReferenceIdeal.ReadP.val_main_v133 (F := Ideal) x0 x1 x2 x3 x4 x5 x6 x7 x8 x9 x10 x11 x12 x13 x14 x15 x16 := by
  have hA10 : ∀ h, Spec.Fin2 h → Spec.Fin2 (Cert.ReferenceIdeal.RefValue.A10 x1 h) := fun h hh => by
    have t := Cert.Bridge.agg10_fin (srcRow x1) (dstRow x1) h hh
    rwa [Cert.Bridge.agg10_eq] at t
  have hA20 : ∀ h, Spec.Fin2 h → Spec.Fin2 (Cert.ReferenceIdeal.RefValue.A20 x1 h) := fun h hh => by
    have t := Cert.Bridge.agg20_fin (srcRow x1) (dstRow x1) h hh
    rwa [Cert.Bridge.agg20_eq] at t
  rw [Cert.Bridge.agg10_eq, Cert.Bridge.agg20_eq, Cert.Bridge.pool_eq]
  refine (Spec.net_agree (Cert.ReferenceIdeal.RefValue.A10 x1) (Cert.ReferenceIdeal.RefValue.A20 x1)
    (Cert.ReferenceIdeal.RefValue.P x2) hA10 hA20 x0 x3 (vec20 x4) (vec20 x5) (vec20 x6) x7 (vec20 x8) (vec20 x9) (vec20 x10)
    x11 (vec20 x12) (vec20 x13) (vec20 x14) x15 (vec2 x16)
    f0 f3 (Spec.fin1_of_vec x4 f4) (Spec.fin1_of_vec x5 f5) (Spec.fin1_of_vec x6 f6)
    f7 (Spec.fin1_of_vec x8 f8) (Spec.fin1_of_vec x9 f9) (Spec.fin1_of_vec x10 f10)
    f11 (Spec.fin1_of_vec x12 f12) (Spec.fin1_of_vec x13 f13) (Spec.fin1_of_vec x14 f14)).trans ?_
  exact ((Cert.ReferenceIdeal.RefValue.head_eq x0 x1 x2 x3 x4 x5 x6 x7 x8 x9 x10 x11 x12 x13 x14 x15 x16).trans
    (congrArg (fun L => Spec.head (m := 1000) (k := 20) (d := 2) (Cert.ReferenceIdeal.RefValue.P x2 L) x15 (Cert.ReferenceIdeal.RefValue.row x16))
      (Cert.ReferenceIdeal.RefValue.layers x0 x1 x3 x4 x5 x6 x7 x8 x9 x10 x11 x12 x13 x14))).symm

/-- Under the precondition the kernel program's result array is the reference's result term of the same arguments. -/
theorem value_agree (m : (ℓ : Loc nD τ sig) → Buf (Elt Ideal) ℓ) (ρ : Dev nD → PrngReg) (c : Dev nD)
    (hpre : Cert.Pre_KernelIdeal m) :
    ((W14 m ρ c (Proc.devRef .tc main_v71)) : S1000x2.Idx → EReal)
      = Cert.ReferenceIdeal.ReadP.val_main_v133 (F := Ideal) (m ((c : Thread nD τ).loc main_arg0))
          (m ((c : Thread nD τ).loc main_arg1))
          (m ((c : Thread nD τ).loc main_arg2))
          (m ((c : Thread nD τ).loc main_arg3))
          (m ((c : Thread nD τ).loc main_arg4))
          (m ((c : Thread nD τ).loc main_arg5))
          (m ((c : Thread nD τ).loc main_arg6))
          (m ((c : Thread nD τ).loc main_arg7))
          (m ((c : Thread nD τ).loc main_arg8))
          (m ((c : Thread nD τ).loc main_arg9))
          (m ((c : Thread nD τ).loc main_arg10))
          (m ((c : Thread nD τ).loc main_arg11))
          (m ((c : Thread nD τ).loc main_arg12))
          (m ((c : Thread nD τ).loc main_arg13))
          (m ((c : Thread nD τ).loc main_arg14))
          (m ((c : Thread nD τ).loc main_arg15))
          (m ((c : Thread nD τ).loc main_arg16)) := by
  obtain ⟨f0, f3, f4, f5, f6, f7, f8, f9, f10, f11, f12, f13, f14, _, _⟩ :=
    Cert.PreFinite.finite_of_pre _ _ _ _ _ _ _ _ _ _ _ _ _ _ _ _ _ (hpre c)
  exact (kernel_value m ρ c).trans (net_eq _ _ _ _ _ _ _ _ _ _ _ _ _ _ _ _ _ f0 f3 f4 f5 f6 f7 f8 f9 f10 f11 f12 f13 f14)

end Cert.Final

end
-- ==== Proof.lean ====
/- The proof of `Cert.Claim` for a three-layer graph network: each layer adds to every node's features the sum of its
   in-neighbours' features (a gather followed by a scatter-add), applies an affine map, normalises every feature column
   by its mean and variance over the 100000 nodes, and clamps at zero; the node features are then summed per graph and
   mapped affinely to two classes.  The kernel computes each column's variance as the mean of squares minus the squared
   mean, the reference as the mean of squared deviations: over the reals these agree. -/
import proofs.«113277_j59725815218466_1_alg».proof.Defs
import proofs.«113277_j59725815218466_1_alg».proof.Proof.Gen.Kernel
import proofs.«113277_j59725815218466_1_alg».proof.Proof.Gen.Kernel.Skeleton
import proofs.«113277_j59725815218466_1_alg».proof.Proof.Gen.Kernel.Launch
import proofs.«113277_j59725815218466_1_alg».proof.Proof.Gen.Kernel.Points
import proofs.«113277_j59725815218466_1_alg».proof.Proof.Gen.Kernel.Frame
import proofs.«113277_j59725815218466_1_alg».proof.Proof.Gen.KernelIdeal
import proofs.«113277_j59725815218466_1_alg».proof.Proof.Gen.KernelIdeal.Skeleton
import proofs.«113277_j59725815218466_1_alg».proof.Proof.Gen.KernelIdeal.Launch
import proofs.«113277_j59725815218466_1_alg».proof.Proof.Gen.KernelIdeal.Points
import proofs.«113277_j59725815218466_1_alg».proof.Proof.Gen.KernelIdeal.Frame
import proofs.«113277_j59725815218466_1_alg».proof.Proof.Gen.ReferenceIdeal
import proofs.«113277_j59725815218466_1_alg».proof.Proof.Gen.Pre_finite_inputs
import proofs.«113277_j59725815218466_1_alg».proof.Proof.RefRunP
import proofs.«113277_j59725815218466_1_alg».proof.Proof.KernelRun
import proofs.«113277_j59725815218466_1_alg».proof.Proof.RefFold
import proofs.«113277_j59725815218466_1_alg».proof.Proof.Final
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing: the idealized program is the kernel's own text read over the extended reals. -/
theorem preserves : Cert.preserves_Kernel_KernelIdeal := trivial

/-- From memories that agree on the arguments both programs end with the same result array: the kernel's is the fold of
    its seven regions and host stretches read at the result buffer, the reference's the fold of its 165 operations; both
    are the classifier of the per-graph sums of three layers, and under the precondition (every float argument finite)
    the two spellings of a column's variance agree in every layer. -/
theorem algebraic : Cert.algebraic_KernelIdeal_ReferenceIdeal := by
  intro m ρ m' ρ' hpre hagree
  refine ⟨fun c => Cert.KernelIdeal.Gen.W14 m ρ c (Proc.devRef .tc Cert.KernelIdeal.main_v71),
    Cert.KernelIdeal.RunValue.run_named m ρ, ?_⟩
  refine (θ_run Cert.ReferenceIdeal.defs _ _).mono (fun _ h c => ⟨(h c).1.trans ?_, (h c).2⟩)
    (Cert.ReferenceIdeal.ValueP.run (F := Ideal) m' ρ')
  refine Eq.trans ?_ (Cert.Final.value_agree m ρ c hpre).symm
  refine (Cert.ReferenceIdeal.Fold.result_eq (StableHlo.launchContents m' c)).trans ?_
  obtain ⟨e0, e1, e2, e3, e4, e5, e6, e7, e8, e9, e10, e11, e12, e13, e14, e15, e16⟩ := hagree c
  rw [show (StableHlo.launchContents m' c (Proc.devRef .tc Cert.ReferenceIdeal.main_arg0)) = (m ((c.tc : Thread Cert.KernelIdeal.nD Cert.KernelIdeal.τ).loc Cert.KernelIdeal.main_arg0)) from e0,
    show (StableHlo.launchContents m' c (Proc.devRef .tc Cert.ReferenceIdeal.main_arg1)) = (m ((c.tc : Thread Cert.KernelIdeal.nD Cert.KernelIdeal.τ).loc Cert.KernelIdeal.main_arg1)) from e1,
    show (StableHlo.launchContents m' c (Proc.devRef .tc Cert.ReferenceIdeal.main_arg2)) = (m ((c.tc : Thread Cert.KernelIdeal.nD Cert.KernelIdeal.τ).loc Cert.KernelIdeal.main_arg2)) from e2,
    show (StableHlo.launchContents m' c (Proc.devRef .tc Cert.ReferenceIdeal.main_arg3)) = (m ((c.tc : Thread Cert.KernelIdeal.nD Cert.KernelIdeal.τ).loc Cert.KernelIdeal.main_arg3)) from e3,
    show (StableHlo.launchContents m' c (Proc.devRef .tc Cert.ReferenceIdeal.main_arg4)) = (m ((c.tc : Thread Cert.KernelIdeal.nD Cert.KernelIdeal.τ).loc Cert.KernelIdeal.main_arg4)) from e4,
    show (StableHlo.launchContents m' c (Proc.devRef .tc Cert.ReferenceIdeal.main_arg5)) = (m ((c.tc : Thread Cert.KernelIdeal.nD Cert.KernelIdeal.τ).loc Cert.KernelIdeal.main_arg5)) from e5,
    show (StableHlo.launchContents m' c (Proc.devRef .tc Cert.ReferenceIdeal.main_arg6)) = (m ((c.tc : Thread Cert.KernelIdeal.nD Cert.KernelIdeal.τ).loc Cert.KernelIdeal.main_arg6)) from e6,
    show (StableHlo.launchContents m' c (Proc.devRef .tc Cert.ReferenceIdeal.main_arg7)) = (m ((c.tc : Thread Cert.KernelIdeal.nD Cert.KernelIdeal.τ).loc Cert.KernelIdeal.main_arg7)) from e7,
    show (StableHlo.launchContents m' c (Proc.devRef .tc Cert.ReferenceIdeal.main_arg8)) = (m ((c.tc : Thread Cert.KernelIdeal.nD Cert.KernelIdeal.τ).loc Cert.KernelIdeal.main_arg8)) from e8,
    show (StableHlo.launchContents m' c (Proc.devRef .tc Cert.ReferenceIdeal.main_arg9)) = (m ((c.tc : Thread Cert.KernelIdeal.nD Cert.KernelIdeal.τ).loc Cert.KernelIdeal.main_arg9)) from e9,
    show (StableHlo.launchContents m' c (Proc.devRef .tc Cert.ReferenceIdeal.main_arg10)) = (m ((c.tc : Thread Cert.KernelIdeal.nD Cert.KernelIdeal.τ).loc Cert.KernelIdeal.main_arg10)) from e10,
    show (StableHlo.launchContents m' c (Proc.devRef .tc Cert.ReferenceIdeal.main_arg11)) = (m ((c.tc : Thread Cert.KernelIdeal.nD Cert.KernelIdeal.τ).loc Cert.KernelIdeal.main_arg11)) from e11,
    show (StableHlo.launchContents m' c (Proc.devRef .tc Cert.ReferenceIdeal.main_arg12)) = (m ((c.tc : Thread Cert.KernelIdeal.nD Cert.KernelIdeal.τ).loc Cert.KernelIdeal.main_arg12)) from e12,
    show (StableHlo.launchContents m' c (Proc.devRef .tc Cert.ReferenceIdeal.main_arg13)) = (m ((c.tc : Thread Cert.KernelIdeal.nD Cert.KernelIdeal.τ).loc Cert.KernelIdeal.main_arg13)) from e13,
    show (StableHlo.launchContents m' c (Proc.devRef .tc Cert.ReferenceIdeal.main_arg14)) = (m ((c.tc : Thread Cert.KernelIdeal.nD Cert.KernelIdeal.τ).loc Cert.KernelIdeal.main_arg14)) from e14,
    show (StableHlo.launchContents m' c (Proc.devRef .tc Cert.ReferenceIdeal.main_arg15)) = (m ((c.tc : Thread Cert.KernelIdeal.nD Cert.KernelIdeal.τ).loc Cert.KernelIdeal.main_arg15)) from e15,
    show (StableHlo.launchContents m' c (Proc.devRef .tc Cert.ReferenceIdeal.main_arg16)) = (m ((c.tc : Thread Cert.KernelIdeal.nD Cert.KernelIdeal.τ).loc Cert.KernelIdeal.main_arg16)) from e16]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
